-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x4096x1024 : Shape := ⟨4, ![4, 1, 4096, 1024]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S4x1x4096x1024 : S_.BroadcastsInDim S4x1x4096x1024 (![] : Fin 0 → Fin S4x1x4096x1024.rank)
  reducesTo_S4x1x4096x1024_S_d0_1_2_3 : S4x1x4096x1024.ReducesTo [0, 1, 2, 3] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x512 .f32) (main_arg8 : FVec F S1024 .f32) (main_arg9 : FVec F S1024 .f32) (main_arg10 : FVec F S1024 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S1024x512 .f32) (main_arg8 : FVec F S1024 .f32) (main_arg9 : FVec F S1024 .f32) (main_arg10 : FVec F S1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x1x4096x1024 .f32) (main_arg1 : FVec F S512x1024 .f32) (main_arg2 : FVec F S512 .f32) (main_arg3 : FVec F S512x1024 .f32) (main_arg4 : FVec F S512 .f32) (main_arg5 : FVec F S512x1024 .f32) (main_arg6 : FVec F S512 .f32) (main_arg7 : FVec F S1024x512 .f32) (main_arg8 : FVec F S1024 .f32) (main_arg9 : FVec F S1024 .f32) (main_arg10 : FVec F S1024 .f32) : IVec S_ 1 :=
  let main_v0 : FVec F S4x1x4096x1024 .f32 := Host.absf main_arg0
  let main_cst : FVec F S_ .f32 := constant S_ .f32 0x7F800000#32
  let main_v1 : FVec F S4x1x4096x1024 .f32 := broadcastInDim S4x1x4096x1024 ![] bcast_S_S4x1x4096x1024 main_cst
  let main_v2 : IVec S4x1x4096x1024 1 := cmpf .olt main_v0 main_v1
  let main_c : IVec S_ 1 := constantI S_ 1 1#1
  let main_v3 : IVec S_ 1 := (fun x v => Host.reduce IntOp.andi x v reducesTo_S4x1x4096x1024_S_d0_1_2_3 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S4x1x4096x1024 : Shape := ⟨4, ![4, 1, 4096, 1024]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S4x4096x1024 : Shape := ⟨3, ![4, 4096, 1024]⟩
abbrev S4x512x512 : Shape := ⟨3, ![4, 512, 512]⟩
abbrev S4x4096x512 : Shape := ⟨3, ![4, 4096, 512]⟩
abbrev S1x1024x1024 : Shape := ⟨3, ![1, 1024, 1024]⟩
abbrev S1x512x512 : Shape := ⟨3, ![1, 512, 512]⟩
abbrev S1x1024x512 : Shape := ⟨3, ![1, 1024, 512]⟩
abbrev S512x512 : Shape := ⟨2, ![512, 512]⟩
abbrev S1024x1024 : Shape := ⟨2, ![1024, 1024]⟩
abbrev S1x512 : Shape := ⟨2, ![1, 512]⟩
abbrev S4x1x1024 : Shape := ⟨3, ![4, 1, 1024]⟩
abbrev S1x1x1024 : Shape := ⟨3, ![1, 1, 1024]⟩
abbrev S1x1024 : Shape := ⟨2, ![1, 1024]⟩
abbrev S4x1024 : Shape := ⟨2, ![4, 1024]⟩
abbrev S_ : Shape := ⟨0, ![]⟩

abbrev nBuf : Space → Nat
  | .hbm => 42
  | .vmem => 37
  | .smem => 0
  | _ => 0

abbrev bufTy : (tb : Table) → Fin (tcTables nBuf tb) → BufTy
  | .hbm, ⟨0, _⟩ => ⟨S4x1x4096x1024, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x4096x1024, .f32⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .bf16⟩
  | .hbm, ⟨16, _⟩ => ⟨S1024x512, .f32⟩
  | .hbm, ⟨17, _⟩ => ⟨S1024x512, .bf16⟩
  | .hbm, ⟨18, _⟩ => ⟨S512x1024, .f32⟩
  | .hbm, ⟨19, _⟩ => ⟨S512x1024, .bf16⟩
  | .hbm, ⟨20, _⟩ => ⟨S4x512x512, .f32⟩
  | .hbm, ⟨21, _⟩ => ⟨S4x4096x512, .bf16⟩
  | .hbm, ⟨22, _⟩ => ⟨S4x512x512, .bf16⟩
  | .hbm, ⟨23, _⟩ => ⟨S4x4096x1024, .f32⟩
  | .hbm, ⟨24, _⟩ => ⟨S4x1x1024, .f32⟩
  | .hbm, ⟨25, _⟩ => ⟨S4x1x1024, .f32⟩
  | .hbm, ⟨26, _⟩ => ⟨S4x1024, .f32⟩
  | .hbm, ⟨27, _⟩ => ⟨S_, .f32⟩
  | .hbm, ⟨28, _⟩ => ⟨S1024, .f32⟩
  | .hbm, ⟨29, _⟩ => ⟨S4x1024, .f32⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S4x4096x1024, .f32⟩
  | .hbm, ⟨41, _⟩ => ⟨S4x1x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x512, .bf16⟩
  | .local _ .vmem, ⟨3, _⟩ => ⟨S512, .f32⟩
  | .local _ .vmem, ⟨4, _⟩ => ⟨S1024x512, .bf16⟩
  | .local _ .vmem, ⟨5, _⟩ => ⟨S512, .f32⟩
  | .local _ .vmem, ⟨6, _⟩ => ⟨S1024x512, .bf16⟩
  | .local _ .vmem, ⟨7, _⟩ => ⟨S512, .f32⟩
  | .local _ .vmem, ⟨8, _⟩ => ⟨S1x512x512, .f32⟩
  | .local _ .vmem, ⟨9, _⟩ => ⟨S1x512x512, .f32⟩
  | .local _ .vmem, ⟨10, _⟩ => ⟨S1x1024x512, .bf16⟩
  | .local _ .vmem, ⟨11, _⟩ => ⟨S1x1024x512, .bf16⟩
  | .local _ .vmem, ⟨12, _⟩ => ⟨S512x512, .f32⟩
  | .local _ .vmem, ⟨13, _⟩ => ⟨S1x1024x512, .bf16⟩
  | .local _ .vmem, ⟨14, _⟩ => ⟨S1x1024x512, .bf16⟩
  | .local _ .vmem, ⟨15, _⟩ => ⟨S1x512x512, .bf16⟩
  | .local _ .vmem, ⟨16, _⟩ => ⟨S1x512x512, .bf16⟩
  | .local _ .vmem, ⟨17, _⟩ => ⟨S512x1024, .bf16⟩
  | .local _ .vmem, ⟨18, _⟩ => ⟨S1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | .local _ .vmem, ⟨26, _⟩ => ⟨S1x1024, .f32⟩
  | .local _ .vmem, ⟨27, _⟩ => ⟨S1x1024x1024, .f32⟩
  | .local _ .vmem, ⟨28, _⟩ => ⟨S1x1024x1024, .f32⟩
  | .local _ .vmem, ⟨29, _⟩ => ⟨S1x1024x1024, .f32⟩
  | .local _ .vmem, ⟨30, _⟩ => ⟨S1x1024x1024, .f32⟩
  | .local _ .vmem, ⟨31, _⟩ => ⟨S1024, .f32⟩
  | .local _ .vmem, ⟨32, _⟩ => ⟨S1024, .f32⟩
  | .local _ .vmem, ⟨33, _⟩ => ⟨S1024, .f32⟩
  | .local _ .vmem, ⟨34, _⟩ => ⟨S1024, .f32⟩
  | .local _ .vmem, ⟨35, _⟩ => ⟨S1x1024x1024, .f32⟩
  | .local _ .vmem, ⟨36, _⟩ => ⟨S1x1024x1024, .f32⟩
  | _, _ => ⟨S4x1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc1_scratch1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg6_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_22 : BitVec 32 := 0#32
  let v41 : BitVec 1 := Scalar.cmpi .ne v40 c0_i32_22
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_23 : BitVec 32 := 0#32
  let v36 : BitVec 1 := Scalar.cmpi .ne v35 c0_i32_23
  v36

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S512x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1024x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  shapeCasts_S4x1x4096x1024_S4x4096x1024 : S4x1x4096x1024.ShapeCasts S4x4096x1024
  transposes_S512x1024_S1024x512_1_0 : S512x1024.Transposes [1, 0] S1024x512
  bitsLt_bf16_f32 : FTy.bits .bf16 < FTy.bits .f32
  transposes_S1024x512_S512x1024_1_0 : S1024x512.Transposes [1, 0] S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  reduces_S1024x1024_S1024 : S1024x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S4x1x1024_S4x1024 : S4x1x1024.ShapeCasts S4x1024
  reducesTo_S4x1024_S1024_d0 : S4x1024.ReducesTo [0] S1024
  h_S_ : 0 < S_.numel
  bcast_S_S1024 : S_.BroadcastsInDim S1024 (![] : Fin 0 → Fin S1024.rank)
  shapeCasts_S1024_S1024 : S1024.ShapeCasts S1024
  shapeCasts_S4x4096x1024_S4x1x4096x1024 : S4x4096x1024.ShapeCasts S4x1x4096x1024
  dot_S1024x1024_S1024x512_S1024x512_1_0_0_1_n_n_wf : DotDims.WF S1024x1024 S1024x512 S1024x512 [1] [0] [0] [1] [] []
  dot_S1024x512_S1024x512_S512x512_0_0_1_1_n_n_wf : DotDims.WF S1024x512 S1024x512 S512x512 [0] [0] [1] [1] [] []
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x512.size a ≤ S4x512x512.size a
  hwx0_7 : ∀ i : grid0.Coords, EltTy.bits .f32 = 32 ∨ (Rect.block (s := S4x512x512) S1x512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x512.size a ≤ S4x4096x512.size a
  hwx0_8 : ∀ i : grid0.Coords, EltTy.bits .bf16 = 32 ∨ (Rect.block (s := S4x4096x512) S1x1024x512.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S4x4096x512.size a
  hwx1_0 : ∀ i : grid1.Coords, EltTy.bits .bf16 = 32 ∨ (Rect.block (s := S4x4096x512) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S4x512x512.size a
  hwx1_1 : ∀ i : grid1.Coords, EltTy.bits .bf16 = 32 ∨ (Rect.block (s := S4x512x512) S1x512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S512x1024.size a
  hwx1_2 : ∀ i : grid1.Coords, EltTy.bits .bf16 = 32 ∨ (Rect.block (s := S512x1024) S512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x4096x1024.size a
  hwx1_4 : ∀ i : grid1.Coords, EltTy.bits .f32 = 32 ∨ (Rect.block (s := S4x4096x1024) S1x1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1024.size a ≤ S4x1x1024.size a
  hwx1_5 : ∀ i : grid1.Coords, EltTy.bits .f32 = 32 ∨ (Rect.block (s := S4x1x1024) S1x1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1024.size a ≤ S4x1x1024.size a
  hwx1_6 : ∀ i : grid1.Coords, EltTy.bits .f32 = 32 ∨ (Rect.block (s := S4x1x1024) S1x1x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x4096x1024.size a
  hwx2_0 : ∀ i : grid2.Coords, EltTy.bits .f32 = 32 ∨ (Rect.block (s := S4x4096x1024) S1x1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S4x4096x1024.size a
  hwx2_1 : ∀ i : grid2.Coords, EltTy.bits .f32 = 32 ∨ (Rect.block (s := S4x4096x1024) S1x1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S1024.size a
  hwx2_5 : ∀ i : grid2.Coords, EltTy.bits .f32 = 32 ∨ (Rect.block (s := S1024) S1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x1024.size a ≤ S4x4096x1024.size a
  hwx2_6 : ∀ i : grid2.Coords, EltTy.bits .f32 = 32 ∨ (Rect.block (s := S4x4096x1024) S1x1024x1024.size (cc2_transform_6 i) (hinb2_6 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun _ => false | ⟨_ + 9, h⟩ => absurd h (Nat.not_lt.2 (Nat.le_add_left _ _))

abbrev win1_0 : Pipeline.Window sig grid1 :=
  Pipeline.Window.ofSpec (Memref.whole main_v9_1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11_0) S1x1024x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S1x1x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11_2) S1x1x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v11_0) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x1024x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x1x4096x1024 : Shape := ⟨4, ![4, 1, 4096, 1024]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S4x1x4096x512 : Shape := ⟨4, ![4, 1, 4096, 512]⟩
abbrev S1x1x1x512 : Shape := ⟨4, ![1, 1, 1, 512]⟩
abbrev S4x1x4096x4096 : Shape := ⟨4, ![4, 1, 4096, 4096]⟩
abbrev S_ : Shape := ⟨0, ![]⟩
abbrev S1x1x1x1024 : Shape := ⟨4, ![1, 1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x1x4096x1024, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x1x4096x512, .f32⟩
  | .hbm, ⟨12, _⟩ => ⟨S1x1x1x512, .f32⟩
  | .hbm, ⟨13, _⟩ => ⟨S4x1x4096x512, .f32⟩
  | .hbm, ⟨14, _⟩ => ⟨S4x1x4096x512, .f32⟩
  | .hbm, ⟨15, _⟩ => ⟨S4x1x4096x512, .f32⟩
  | .hbm, ⟨16, _⟩ => ⟨S1x1x1x512, .f32⟩
  | .hbm, ⟨17, _⟩ => ⟨S4x1x4096x512, .f32⟩
  | .hbm, ⟨18, _⟩ => ⟨S4x1x4096x512, .f32⟩
  | .hbm, ⟨19, _⟩ => ⟨S4x1x4096x512, .f32⟩
  | .hbm, ⟨20, _⟩ => ⟨S1x1x1x512, .f32⟩
  | .hbm, ⟨21, _⟩ => ⟨S4x1x4096x512, .f32⟩
  | .hbm, ⟨22, _⟩ => ⟨S4x1x4096x512, .f32⟩
  | .hbm, ⟨23, _⟩ => ⟨S4x1x4096x4096, .f32⟩
  | .hbm, ⟨24, _⟩ => ⟨S_, .f32⟩
  | .hbm, ⟨25, _⟩ => ⟨S4x1x4096x4096, .f32⟩
  | .hbm, ⟨26, _⟩ => ⟨S4x1x4096x4096, .f32⟩
  | .hbm, ⟨27, _⟩ => ⟨S4x1x4096x512, .f32⟩
  | .hbm, ⟨28, _⟩ => ⟨S4x1x4096x1024, .f32⟩
  | .hbm, ⟨29, _⟩ => ⟨S1x1x1x1024, .f32⟩
  | .hbm, ⟨30, _⟩ => ⟨S4x1x4096x1024, .f32⟩
  | .hbm, ⟨31, _⟩ => ⟨S4x1x4096x1024, .f32⟩
  | .hbm, ⟨32, _⟩ => ⟨S_, .f32⟩
  | .hbm, ⟨33, _⟩ => ⟨S1024, .f32⟩
  | .hbm, ⟨34, _⟩ => ⟨S1x1x1x1024, .f32⟩
  | .hbm, ⟨35, _⟩ => ⟨S_, .f32⟩
  | .hbm, ⟨36, _⟩ => ⟨S1x1x1x1024, .f32⟩
  | .hbm, ⟨37, _⟩ => ⟨S1x1x1x1024, .f32⟩
  | .hbm, ⟨38, _⟩ => ⟨S_, .i32⟩
  | .hbm, ⟨39, _⟩ => ⟨S_, .f32⟩
  | .hbm, ⟨40, _⟩ => ⟨S1024, .f32⟩
  | .hbm, ⟨41, _⟩ => ⟨S1x1x1x1024, .f32⟩
  | .hbm, ⟨42, _⟩ => ⟨S_, .f32⟩
  | .hbm, ⟨43, _⟩ => ⟨S1x1x1x1024, .f32⟩
  | .hbm, ⟨44, _⟩ => ⟨S1x1x1x1024, .f32⟩
  | .hbm, ⟨45, _⟩ => ⟨S4x1x4096x1024, .f32⟩
  | .hbm, ⟨46, _⟩ => ⟨S4x1x4096x1024, .f32⟩
  | .hbm, ⟨47, _⟩ => ⟨S4x1x4096x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1024, .f32⟩
  | .hbm, ⟨53, _⟩ => ⟨S1x1x1x1024, .f32⟩
  | .hbm, ⟨54, _⟩ => ⟨S1x1x1x1024, .f32⟩
  | .hbm, ⟨55, _⟩ => ⟨S1x1x1x1024, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S1x1x1x1024, .f32⟩
  | .hbm, ⟨61, _⟩ => ⟨S1x1x1x1024, .f32⟩
  | .hbm, ⟨62, _⟩ => ⟨S4x1x4096x1024, .f32⟩
  | .hbm, ⟨63, _⟩ => ⟨S4x1x4096x1024, .f32⟩
  | .hbm, ⟨64, _⟩ => ⟨S_, .f32⟩
  | .hbm, ⟨65, _⟩ => ⟨S1x1x1x1024, .f32⟩
  | .hbm, ⟨66, _⟩ => ⟨S1x1x1x1024, .f32⟩
  | .hbm, ⟨67, _⟩ => ⟨S1x1x1x1024, .f32⟩
  | .hbm, ⟨68, _⟩ => ⟨S4x1x4096x1024, .f32⟩
  | .hbm, ⟨69, _⟩ => ⟨S4x1x4096x1024, .f32⟩
  | .hbm, ⟨70, _⟩ => ⟨S1x1x1x1024, .f32⟩
  | .hbm, ⟨71, _⟩ => ⟨S4x1x4096x1024, .f32⟩
  | .hbm, ⟨72, _⟩ => ⟨S4x1x4096x1024, .f32⟩
  | .hbm, ⟨73, _⟩ => ⟨S1x1x1x1024, .f32⟩
  | .hbm, ⟨74, _⟩ => ⟨S4x1x4096x1024, .f32⟩
  | .hbm, ⟨75, _⟩ => ⟨S4x1x4096x1024, .f32⟩
  | .hbm, ⟨76, _⟩ => ⟨S4x1x4096x1024, .f32⟩
  | _, _ => ⟨S4x1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_cst_3 : Ref sig .tc := ⟨.hbm, 56, rfl⟩
abbrev main_call0_v13 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_2 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x1x4096x512_0_1_2_3 : S1x1x1x512.BroadcastsInDim S4x1x4096x512 (![0, 1, 2, 3] : Fin 4 → Fin S4x1x4096x512.rank)
  bcast_S_S4x1x4096x4096 : S_.BroadcastsInDim S4x1x4096x4096 (![] : Fin 0 → Fin S4x1x4096x4096.rank)
  bcast_S1024_S1x1x1x1024_3 : S1024.BroadcastsInDim S1x1x1x1024 (![3] : Fin 1 → Fin S1x1x1x1024.rank)
  bcast_S1x1x1x1024_S4x1x4096x1024_0_1_2_3 : S1x1x1x1024.BroadcastsInDim S4x1x4096x1024 (![0, 1, 2, 3] : Fin 4 → Fin S4x1x4096x1024.rank)
  reducesTo_S4x1x4096x1024_S1024_d0_1_2 : S4x1x4096x1024.ReducesTo [0, 1, 2] S1024
  h_S_ : 0 < S_.numel
  bcast_S_S1x1x1x1024 : S_.BroadcastsInDim S1x1x1x1024 (![] : Fin 0 → Fin S1x1x1x1024.rank)
  dot_S4x1x4096x1024_S512x1024_S4x1x4096x512_3_1_012_0_n_n_wf : DotDims.WF S4x1x4096x1024 S512x1024 S4x1x4096x512 [3] [1] [0, 1, 2] [0] [] []
  dot_S4x1x4096x512_S4x1x4096x512_S4x1x4096x4096_3_3_2_2_01_01_wf : DotDims.WF S4x1x4096x512 S4x1x4096x512 S4x1x4096x4096 [3] [3] [2] [2] [0, 1] [0, 1]
  dot_S4x1x4096x4096_S4x1x4096x512_S4x1x4096x512_3_2_2_3_01_01_wf : DotDims.WF S4x1x4096x4096 S4x1x4096x512 S4x1x4096x512 [3] [2] [2] [3] [0, 1] [0, 1]
  dot_S4x1x4096x512_S1024x512_S4x1x4096x1024_3_1_012_0_n_n_wf : DotDims.WF S4x1x4096x512 S1024x512 S4x1x4096x1024 [3] [1] [0, 1, 2] [0] [] []

variable [Facts₀]

def dot_S4x1x4096x1024_S512x1024_S4x1x4096x512_3_1_012_0_n_n : DotDims S4x1x4096x1024 S512x1024 S4x1x4096x512 where
  lhsContracting := [3]
  rhsContracting := [1]
  lhsNonContracting := [0, 1, 2]
  rhsNonContracting := [0]
  lhsBatch := []
  rhsBatch := []
  wf := dot_S4x1x4096x1024_S512x1024_S4x1x4096x512_3_1_012_0_n_n_wf
def dot_S4x1x4096x512_S4x1x4096x512_S4x1x4096x4096_3_3_2_2_01_01 : DotDims S4x1x4096x512 S4x1x4096x512 S4x1x4096x4096 where
  lhsContracting := [3]
  rhsContracting := [3]
  lhsNonContracting := [2]
  rhsNonContracting := [2]
  lhsBatch := [0, 1]
  rhsBatch := [0, 1]
  wf := dot_S4x1x4096x512_S4x1x4096x512_S4x1x4096x4096_3_3_2_2_01_01_wf
def dot_S4x1x4096x4096_S4x1x4096x512_S4x1x4096x512_3_2_2_3_01_01 : DotDims S4x1x4096x4096 S4x1x4096x512 S4x1x4096x512 where
  lhsContracting := [3]
  rhsContracting := [2]
  lhsNonContracting := [2]
  rhsNonContracting := [3]
  lhsBatch := [0, 1]
  rhsBatch := [0, 1]
  wf := dot_S4x1x4096x4096_S4x1x4096x512_S4x1x4096x512_3_2_2_3_01_01_wf
def dot_S4x1x4096x512_S1024x512_S4x1x4096x1024_3_1_012_0_n_n : DotDims S4x1x4096x512 S1024x512 S4x1x4096x1024 where
  lhsContracting := [3]
  rhsContracting := [1]
  lhsNonContracting := [0, 1, 2]
  rhsNonContracting := [0]
  lhsBatch := []
  rhsBatch := []
  wf := dot_S4x1x4096x512_S1024x512_S4x1x4096x1024_3_1_012_0_n_n_wf

class Facts : Prop extends Facts₀ where

variable [Facts]
-- ==== Proof.K.R0Runs.lean ====
import proofs.«130369_j29137058136126_2_alg».proof.Proof.Gen.Kernel.Launch
import proofs.«130369_j29137058136126_2_alg».proof.Proof.Gen.Kernel.Skeleton
import proofs.«130369_j29137058136126_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

/-! # The first kernel (the Gram matrix of one batch, and the theta projection): what its three control cases share

The grid is 4 batches by 4 row tiles, walked batch-major, so a point `t` is tile `t mod 4` of batch `t / 4`.
The accumulator is cleared at tile 0, receives `phᵀ · gv` of the tile at every point, and at tile 3 is scaled by
`2⁻¹²` into the batch's block of the Gram output. The theta projection of the tile is stored at every point. -/

/-! ## The blocks the windows show -/

/-- The block window `w` shows at point `t`: read off the window's array as the kernel finds it. -/
def inBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's current buffer holds its block at every point, whether or not the point fetched it (when it did not,
    the block index stood still), for any proof data over these arrays that leaves the block in place. -/
theorem holds_in0_0 {c : Dev nD} (dat : Dat τ (Elt F) Unit ℕ (UR sig nD τ) ℕ cfg0 c) (hA : dat.A 0 = V c (Pipeline.arrRef spec0 0))
    (hafter : ∀ t, dat.after 0 t = inBlock0 V c 0 t) (t : Fin cfg0.N) (d) : dat.before 0 t d = inBlock0 V c 0 t :=
  (dat.before_in_eq_fetched 0 rfl (fun _ => rfl) (fun _ _ _ => rfl) (fun t => by rw [hafter]; unfold Dat.blockOf inBlock0; rw [hA]; try rfl) t d).trans
    (by unfold Dat.fetched Dat.blockOf inBlock0; rw [hA]; try rfl)

/-- Input 1's current buffer holds its block at every point, whether or not the point fetched it (when it did not,
    the block index stood still), for any proof data over these arrays that leaves the block in place. -/
theorem holds_in0_1 {c : Dev nD} (dat : Dat τ (Elt F) Unit ℕ (UR sig nD τ) ℕ cfg0 c) (hA : dat.A 1 = V c (Pipeline.arrRef spec0 1))
    (hafter : ∀ t, dat.after 1 t = inBlock0 V c 1 t) (t : Fin cfg0.N) (d) : dat.before 1 t d = inBlock0 V c 1 t :=
  (dat.before_in_eq_fetched 1 rfl (fun _ => rfl) (fun _ _ _ => rfl) (fun t => by rw [hafter]; unfold Dat.blockOf inBlock0; rw [hA]; try rfl) t d).trans
    (by unfold Dat.fetched Dat.blockOf inBlock0; rw [hA]; try rfl)

/-- Input 2's current buffer holds its block at every point, whether or not the point fetched it (when it did not,
    the block index stood still), for any proof data over these arrays that leaves the block in place. -/
theorem holds_in0_2 {c : Dev nD} (dat : Dat τ (Elt F) Unit ℕ (UR sig nD τ) ℕ cfg0 c) (hA : dat.A 2 = V c (Pipeline.arrRef spec0 2))
    (hafter : ∀ t, dat.after 2 t = inBlock0 V c 2 t) (t : Fin cfg0.N) (d) : dat.before 2 t d = inBlock0 V c 2 t :=
  (dat.before_in_eq_fetched 2 rfl (fun _ => rfl) (fun _ _ _ => rfl) (fun t => by rw [hafter]; unfold Dat.blockOf inBlock0; rw [hA]; try rfl) t d).trans
    (by unfold Dat.fetched Dat.blockOf inBlock0; rw [hA]; try rfl)

/-- Input 3's current buffer holds its block at every point, whether or not the point fetched it (when it did not,
    the block index stood still), for any proof data over these arrays that leaves the block in place. -/
theorem holds_in0_3 {c : Dev nD} (dat : Dat τ (Elt F) Unit ℕ (UR sig nD τ) ℕ cfg0 c) (hA : dat.A 3 = V c (Pipeline.arrRef spec0 3))
    (hafter : ∀ t, dat.after 3 t = inBlock0 V c 3 t) (t : Fin cfg0.N) (d) : dat.before 3 t d = inBlock0 V c 3 t :=
  (dat.before_in_eq_fetched 3 rfl (fun _ => rfl) (fun _ _ _ => rfl) (fun t => by rw [hafter]; unfold Dat.blockOf inBlock0; rw [hA]; try rfl) t d).trans
    (by unfold Dat.fetched Dat.blockOf inBlock0; rw [hA]; try rfl)

/-- Input 4's current buffer holds its block at every point, whether or not the point fetched it (when it did not,
    the block index stood still), for any proof data over these arrays that leaves the block in place. -/
theorem holds_in0_4 {c : Dev nD} (dat : Dat τ (Elt F) Unit ℕ (UR sig nD τ) ℕ cfg0 c) (hA : dat.A 4 = V c (Pipeline.arrRef spec0 4))
    (hafter : ∀ t, dat.after 4 t = inBlock0 V c 4 t) (t : Fin cfg0.N) (d) : dat.before 4 t d = inBlock0 V c 4 t :=
  (dat.before_in_eq_fetched 4 rfl (fun _ => rfl) (fun _ _ _ => rfl) (fun t => by rw [hafter]; unfold Dat.blockOf inBlock0; rw [hA]; try rfl) t d).trans
    (by unfold Dat.fetched Dat.blockOf inBlock0; rw [hA]; try rfl)

/-- Input 5's current buffer holds its block at every point, whether or not the point fetched it (when it did not,
    the block index stood still), for any proof data over these arrays that leaves the block in place. -/
theorem holds_in0_5 {c : Dev nD} (dat : Dat τ (Elt F) Unit ℕ (UR sig nD τ) ℕ cfg0 c) (hA : dat.A 5 = V c (Pipeline.arrRef spec0 5))
    (hafter : ∀ t, dat.after 5 t = inBlock0 V c 5 t) (t : Fin cfg0.N) (d) : dat.before 5 t d = inBlock0 V c 5 t :=
  (dat.before_in_eq_fetched 5 rfl (fun _ => rfl) (fun _ _ _ => rfl) (fun t => by rw [hafter]; unfold Dat.blockOf inBlock0; rw [hA]; try rfl) t d).trans
    (by unfold Dat.fetched Dat.blockOf inBlock0; rw [hA]; try rfl)

/-- Input 6's current buffer holds its block at every point, whether or not the point fetched it (when it did not,
    the block index stood still), for any proof data over these arrays that leaves the block in place. -/
theorem holds_in0_6 {c : Dev nD} (dat : Dat τ (Elt F) Unit ℕ (UR sig nD τ) ℕ cfg0 c) (hA : dat.A 6 = V c (Pipeline.arrRef spec0 6))
    (hafter : ∀ t, dat.after 6 t = inBlock0 V c 6 t) (t : Fin cfg0.N) (d) : dat.before 6 t d = inBlock0 V c 6 t :=
  (dat.before_in_eq_fetched 6 rfl (fun _ => rfl) (fun _ _ _ => rfl) (fun t => by rw [hafter]; unfold Dat.blockOf inBlock0; rw [hA]; try rfl) t d).trans
    (by unfold Dat.fetched Dat.blockOf inBlock0; rw [hA]; try rfl)

/-! ## The two conditions, over the grid -/

/-- "This is the first row tile of its batch": the test guarding the clearing of the accumulator, as the body spells it. -/
abbrev firstTile (i : grid0.Coords) : Prop := (Scalar.cmpi .ne (Scalar.extui (Scalar.cmpi .eq (BitVec.ofNat 32 (i 1).val) 0#32)) 0#32) = 1#1
/-- It holds exactly at the points ≡ 0 (mod 4). -/
theorem firstTile_iff : ∀ t : Fin cfg0.N, firstTile (grid0.coords t) ↔ t.val % 4 = 0 :=
  (by decide +kernel : ∀ t : Fin grid0.N, firstTile (grid0.coords t) ↔ t.val % 4 = 0)

/-- "This is the last row tile of its batch": the test guarding the read-out of the accumulator. -/
abbrev lastTile (i : grid0.Coords) : Prop := k0_cond2 i = 1#1
/-- It holds exactly at the points ≡ 3 (mod 4). -/
theorem lastTile_iff : ∀ t : Fin cfg0.N, lastTile (grid0.coords t) ↔ t.val % 4 = 3 :=
  (by decide +kernel : ∀ t : Fin grid0.N, lastTile (grid0.coords t) ↔ t.val % 4 = 3)

/-! ## Where a window is idle -/

/-- Window 0 is used at every point. -/
theorem busy0_0 : ∀ t : Fin cfg0.N, cfg0.idle 0 (grid0.coords t) = false := by decide +kernel
/-- Window 1 is used at every point. -/
theorem busy0_1 : ∀ t : Fin cfg0.N, cfg0.idle 1 (grid0.coords t) = false := by decide +kernel
/-- Window 2 is used at every point. -/
theorem busy0_2 : ∀ t : Fin cfg0.N, cfg0.idle 2 (grid0.coords t) = false := by decide +kernel
/-- Window 3 is used at every point. -/
theorem busy0_3 : ∀ t : Fin cfg0.N, cfg0.idle 3 (grid0.coords t) = false := by decide +kernel
/-- Window 4 is used at every point. -/
theorem busy0_4 : ∀ t : Fin cfg0.N, cfg0.idle 4 (grid0.coords t) = false := by decide +kernel
/-- Window 5 is used at every point. -/
theorem busy0_5 : ∀ t : Fin cfg0.N, cfg0.idle 5 (grid0.coords t) = false := by decide +kernel
/-- Window 6 is used at every point. -/
theorem busy0_6 : ∀ t : Fin cfg0.N, cfg0.idle 6 (grid0.coords t) = false := by decide +kernel
/-- Window 8 is used at every point. -/
theorem busy0_8 : ∀ t : Fin cfg0.N, cfg0.idle 8 (grid0.coords t) = false := by decide +kernel
/-- At a first tile the Gram output's window is idle: nothing is stored into it, -/
theorem idle0_7_first : ∀ t : Fin cfg0.N, firstTile (grid0.coords t) → ¬lastTile (grid0.coords t) → cfg0.idle 7 (grid0.coords t) = true := by decide +kernel
/-- and its block is not written back. -/
theorem keep0_7_first : ∀ t : Fin cfg0.N, firstTile (grid0.coords t) → ¬lastTile (grid0.coords t) → (cfg0.win 7).flush t = false := by decide +kernel
/-- The same at a middle tile. -/
theorem idle0_7_mid : ∀ t : Fin cfg0.N, ¬firstTile (grid0.coords t) → ¬lastTile (grid0.coords t) → cfg0.idle 7 (grid0.coords t) = true := by decide +kernel
theorem keep0_7_mid : ∀ t : Fin cfg0.N, ¬firstTile (grid0.coords t) → ¬lastTile (grid0.coords t) → (cfg0.win 7).flush t = false := by decide +kernel
/-- At a last tile the Gram output's window is stored into. -/
theorem busy0_7_last : ∀ t : Fin cfg0.N, ¬firstTile (grid0.coords t) → lastTile (grid0.coords t) → cfg0.idle 7 (grid0.coords t) = false := by decide +kernel

/-! ## The memrefs the body is called on -/

/-- One buffer of each output window, through whose view its contents are stated (any of its buffers would do). -/
abbrev gramV : View sig .tc .vmem S1x512x512 .f32 := (Memref.whole cc0_stg7_0 : Memref sig .tc .vmem S1x512x512 .f32).view
abbrev thetaV : View sig .tc .vmem S1x1024x512 .bf16 := (Memref.whole cc0_stg8_0 : Memref sig .tc .vmem S1x1024x512 .bf16).view
/-- Window 0's current buffer at point `t`, spelt as the body is called with it; it is a whole buffer. -/
abbrev cur0_0 (t : Fin cfg0.N) : Memref sig .tc .vmem S1x1024x1024 .f32 := win0_0.stage (cfg0.slots t 0)
abbrev cur0_0_whole (t : Fin cfg0.N) : (cur0_0 t).IsWhole := hstage0_0 ((cfg0.slots t 0).cast nbuf0_0)
/-- Window 1's current buffer at point `t`, spelt as the body is called with it; it is a whole buffer. -/
abbrev cur0_1 (t : Fin cfg0.N) : Memref sig .tc .vmem S1024x512 .bf16 := win0_1.stage (cfg0.slots t 1)
abbrev cur0_1_whole (t : Fin cfg0.N) : (cur0_1 t).IsWhole := hstage0_1 ((cfg0.slots t 1).cast nbuf0_1)
/-- Window 2's current buffer at point `t`, spelt as the body is called with it; it is a whole buffer. -/
abbrev cur0_2 (t : Fin cfg0.N) : Memref sig .tc .vmem S512 .f32 := win0_2.stage (cfg0.slots t 2)
abbrev cur0_2_whole (t : Fin cfg0.N) : (cur0_2 t).IsWhole := hstage0_2 ((cfg0.slots t 2).cast nbuf0_2)
/-- Window 3's current buffer at point `t`, spelt as the body is called with it; it is a whole buffer. -/
abbrev cur0_3 (t : Fin cfg0.N) : Memref sig .tc .vmem S1024x512 .bf16 := win0_3.stage (cfg0.slots t 3)
abbrev cur0_3_whole (t : Fin cfg0.N) : (cur0_3 t).IsWhole := hstage0_3 ((cfg0.slots t 3).cast nbuf0_3)
/-- Window 4's current buffer at point `t`, spelt as the body is called with it; it is a whole buffer. -/
abbrev cur0_4 (t : Fin cfg0.N) : Memref sig .tc .vmem S512 .f32 := win0_4.stage (cfg0.slots t 4)
abbrev cur0_4_whole (t : Fin cfg0.N) : (cur0_4 t).IsWhole := hstage0_4 ((cfg0.slots t 4).cast nbuf0_4)
/-- Window 5's current buffer at point `t`, spelt as the body is called with it; it is a whole buffer. -/
abbrev cur0_5 (t : Fin cfg0.N) : Memref sig .tc .vmem S1024x512 .bf16 := win0_5.stage (cfg0.slots t 5)
abbrev cur0_5_whole (t : Fin cfg0.N) : (cur0_5 t).IsWhole := hstage0_5 ((cfg0.slots t 5).cast nbuf0_5)
/-- Window 6's current buffer at point `t`, spelt as the body is called with it; it is a whole buffer. -/
abbrev cur0_6 (t : Fin cfg0.N) : Memref sig .tc .vmem S512 .f32 := win0_6.stage (cfg0.slots t 6)
abbrev cur0_6_whole (t : Fin cfg0.N) : (cur0_6 t).IsWhole := hstage0_6 ((cfg0.slots t 6).cast nbuf0_6)
/-- Window 7's current buffer at point `t`, spelt as the body is called with it; it is a whole buffer. -/
abbrev cur0_7 (t : Fin cfg0.N) : Memref sig .tc .vmem S1x512x512 .f32 := win0_7.stage (cfg0.slots t 7)
abbrev cur0_7_whole (t : Fin cfg0.N) : (cur0_7 t).IsWhole := hstage0_7 ((cfg0.slots t 7).cast nbuf0_7)
/-- Window 8's current buffer at point `t`, spelt as the body is called with it; it is a whole buffer. -/
abbrev cur0_8 (t : Fin cfg0.N) : Memref sig .tc .vmem S1x1024x512 .bf16 := win0_8.stage (cfg0.slots t 8)
abbrev cur0_8_whole (t : Fin cfg0.N) : (cur0_8 t).IsWhole := hstage0_8 ((cfg0.slots t 8).cast nbuf0_8)
/-- The accumulator: a whole buffer of the kernel's own, passed beside the windows; and its view. -/
abbrev accM : Memref sig .tc .vmem S512x512 .f32 := Memref.whole cc0_scratch0
abbrev accV : View sig .tc .vmem S512x512 .f32 := accM.view

/-- What the launch hands the kernel besides its windows, with the accumulator taken out of the other scoped buffers:
    the accumulator at some contents, every other scoped buffer unopened, the generator register at some state. -/
theorem entry0_split (c : Dev nD) :
    (Pipeline.ΦA spec0 c : sProp 𝕄)
      = iprop(iprop(iprop((∃ d, owns (c : Thread nD τ) accM fullShare d)) ∗ Pipeline.scopedRestBut spec0 c [cc0_scratch0]) ∗ (∃ r, prngReg c r)) := by
  unfold Pipeline.ΦA; rw [scopedRest0_split]; simp only [accM, owns_whole]; try rfl

end Cert.Kernel.Hand

end
-- ==== Proof.K.R0RunA.lean ====
import proofs.«130369_j29137058136126_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

set_option maxHeartbeats 1000000 in
/-- THE BODY AT A FIRST TILE (the clearing branch taken, the read-out branch not). On whole buffers — the seven inputs at
    their contents `x·`, the Gram output's buffer at contents `xi7` it does not touch, the theta output's buffer and the
    accumulator at anything — the body runs to a continuation holding the inputs as they were, the Gram buffer still at
    `xi7`, the theta buffer with the pieces `L8` written and the accumulator with the pieces `LS` written. The pieces
    are what the body's stores, followed one by one in order, write. -/
noncomputable def runFirst0 (c : Dev nD) (i : grid0.Coords) (arg2 : Memref sig .tc .vmem S1x1024x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S1024x512 .bf16) (harg5 : arg5.IsWhole) (arg6 : Memref sig .tc .vmem S512 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1024x512 .bf16) (harg10 : arg10.IsWhole) (arg11 : Memref sig .tc .vmem S512x512 .f32) (harg11 : arg11.IsWhole) (hc0 : firstTile i) (hc1 : ¬lastTile i)
    (x0 : Vec F S1x1024x1024 .f32) (x1 : Vec F S1024x512 .bf16) (x2 : Vec F S512 .f32) (x3 : Vec F S1024x512 .bf16) (x4 : Vec F S512 .f32) (x5 : Vec F S1024x512 .bf16) (x6 : Vec F S512 .f32) :
    Σ' (L7 : List (View.Piece (Elt F) S1x512x512 .f32)) (L8 : List (View.Piece (Elt F) S1x1024x512 .bf16)), { LS : List (View.Piece (Elt F) S512x512 .f32) //
      ∀ (xi7 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__m_th_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc0__m_th_kernel_eq_skeleton]; unfold cc0__m_th_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.Kernel.Hand

end
-- ==== Proof.K.R0RunB.lean ====
import proofs.«130369_j29137058136126_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

set_option maxHeartbeats 1000000 in
/-- THE BODY AT A MIDDLE TILE (neither branch taken). As at a first tile, but the accumulator is read before it is
    stored, so it comes in at the contents `xs` the tile before left. -/
noncomputable def runMid0 (c : Dev nD) (i : grid0.Coords) (arg2 : Memref sig .tc .vmem S1x1024x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S1024x512 .bf16) (harg5 : arg5.IsWhole) (arg6 : Memref sig .tc .vmem S512 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1024x512 .bf16) (harg10 : arg10.IsWhole) (arg11 : Memref sig .tc .vmem S512x512 .f32) (harg11 : arg11.IsWhole) (hc0 : ¬firstTile i) (hc1 : ¬lastTile i)
    (x0 : Vec F S1x1024x1024 .f32) (x1 : Vec F S1024x512 .bf16) (x2 : Vec F S512 .f32) (x3 : Vec F S1024x512 .bf16) (x4 : Vec F S512 .f32) (x5 : Vec F S1024x512 .bf16) (x6 : Vec F S512 .f32) (xs : Vec F S512x512 .f32) :
    Σ' (L7 : List (View.Piece (Elt F) S1x512x512 .f32)) (L8 : List (View.Piece (Elt F) S1x1024x512 .bf16)), { LS : List (View.Piece (Elt F) S512x512 .f32) //
      ∀ (xi7 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__m_th_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc0__m_th_kernel_eq_skeleton]; unfold cc0__m_th_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.Kernel.Hand

end
-- ==== Proof.K.R0RunC.lean ====
import proofs.«130369_j29137058136126_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

set_option maxHeartbeats 1000000 in
/-- THE BODY AT A LAST TILE (the clearing branch not taken, the read-out branch taken). The accumulator comes in at the
    contents `xs` the tile before left; the Gram output's buffer comes in at anything and leaves with the pieces `L7`
    written. -/
noncomputable def runLast0 (c : Dev nD) (i : grid0.Coords) (arg2 : Memref sig .tc .vmem S1x1024x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S1024x512 .bf16) (harg5 : arg5.IsWhole) (arg6 : Memref sig .tc .vmem S512 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1024x512 .bf16) (harg10 : arg10.IsWhole) (arg11 : Memref sig .tc .vmem S512x512 .f32) (harg11 : arg11.IsWhole) (hc0 : ¬firstTile i) (hc1 : lastTile i)
    (x0 : Vec F S1x1024x1024 .f32) (x1 : Vec F S1024x512 .bf16) (x2 : Vec F S512 .f32) (x3 : Vec F S1024x512 .bf16) (x4 : Vec F S512 .f32) (x5 : Vec F S1024x512 .bf16) (x6 : Vec F S512 .f32) (xs : Vec F S512x512 .f32) :
    Σ' (L7 : List (View.Piece (Elt F) S1x512x512 .f32)) (L8 : List (View.Piece (Elt F) S1x1024x512 .bf16)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__m_th_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__m_th_kernel_eq_skeleton]; unfold cc0__m_th_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

end Cert.Kernel.Hand

end
-- ==== Proof.K.R0.lean ====
import proofs.«130369_j29137058136126_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

/-! # The first kernel: what every point leaves, the proof data, and the body obligation

The three runs (first, middle, last tile) are taken at a grid point's own buffers and blocks; what the outputs and the
accumulator hold after each point is then a recursion on the point — the accumulator a middle or last tile starts from is
the one the point before left —, and the body obligation is a case split on `t mod 4`. -/

/-! ## The runs at a grid point -/

theorem first_not_last (t : Fin cfg0.N) (h0 : t.val % 4 = 0) : ¬lastTile (grid0.coords t) :=
  fun h => by have := (lastTile_iff t).mp h; omega
theorem not_first (t : Fin cfg0.N) (h0 : ¬t.val % 4 = 0) : ¬firstTile (grid0.coords t) :=
  fun h => h0 ((firstTile_iff t).mp h)
theorem not_last (t : Fin cfg0.N) (h1 : ¬t.val % 4 = 3) : ¬lastTile (grid0.coords t) :=
  fun h => h1 ((lastTile_iff t).mp h)

/-- The first-tile run on point `t`'s buffers, the inputs at their blocks. -/
def firstAt0 (c : Dev nD) (t : Fin cfg0.N) (h0 : t.val % 4 = 0) :=
  runFirst0 (F := F) c (grid0.coords t) (cur0_0 t) (cur0_0_whole t) (cur0_1 t) (cur0_1_whole t) (cur0_2 t) (cur0_2_whole t) (cur0_3 t) (cur0_3_whole t) (cur0_4 t) (cur0_4_whole t) (cur0_5 t) (cur0_5_whole t) (cur0_6 t) (cur0_6_whole t) (cur0_7 t) (cur0_7_whole t) (cur0_8 t) (cur0_8_whole t) accM (Memref.isWhole_whole _) ((firstTile_iff t).mpr h0) (first_not_last t h0) (inBlock0 V c 0 t) (inBlock0 V c 1 t) (inBlock0 V c 2 t) (inBlock0 V c 3 t) (inBlock0 V c 4 t) (inBlock0 V c 5 t) (inBlock0 V c 6 t)
/-- The middle-tile run on point `t`'s buffers, the accumulator starting at `xs`. -/
def midAt0 (c : Dev nD) (t : Fin cfg0.N) (h0 : ¬t.val % 4 = 0) (h1 : ¬t.val % 4 = 3) (xs : Vec F S512x512 .f32) :=
  runMid0 (F := F) c (grid0.coords t) (cur0_0 t) (cur0_0_whole t) (cur0_1 t) (cur0_1_whole t) (cur0_2 t) (cur0_2_whole t) (cur0_3 t) (cur0_3_whole t) (cur0_4 t) (cur0_4_whole t) (cur0_5 t) (cur0_5_whole t) (cur0_6 t) (cur0_6_whole t) (cur0_7 t) (cur0_7_whole t) (cur0_8 t) (cur0_8_whole t) accM (Memref.isWhole_whole _) (not_first t h0) (not_last t h1) (inBlock0 V c 0 t) (inBlock0 V c 1 t) (inBlock0 V c 2 t) (inBlock0 V c 3 t) (inBlock0 V c 4 t) (inBlock0 V c 5 t) (inBlock0 V c 6 t) xs
/-- The last-tile run on point `t`'s buffers, the accumulator starting at `xs`. -/
def lastAt0 (c : Dev nD) (t : Fin cfg0.N) (h0 : ¬t.val % 4 = 0) (h1 : t.val % 4 = 3) (xs : Vec F S512x512 .f32) :=
  runLast0 (F := F) c (grid0.coords t) (cur0_0 t) (cur0_0_whole t) (cur0_1 t) (cur0_1_whole t) (cur0_2 t) (cur0_2_whole t) (cur0_3 t) (cur0_3_whole t) (cur0_4 t) (cur0_4_whole t) (cur0_5 t) (cur0_5_whole t) (cur0_6 t) (cur0_6_whole t) (cur0_7 t) (cur0_7_whole t) (cur0_8 t) (cur0_8_whole t) accM (Memref.isWhole_whole _) (not_first t h0) ((lastTile_iff t).mpr h1) (inBlock0 V c 0 t) (inBlock0 V c 1 t) (inBlock0 V c 2 t) (inBlock0 V c 3 t) (inBlock0 V c 4 t) (inBlock0 V c 5 t) (inBlock0 V c 6 t) xs

/-! ## Pieces read back -/

/-- A list of pieces written over a buffer and read back through the Gram window's view (over contents nothing reads when
    the pieces cover the block). -/
def gramOf (L : List (View.Piece (Elt F) S1x512x512 .f32)) : Vec F S1x512x512 .f32 :=
  gramV.read (Elt F) (gramV.writes (Elt F) gramV.junk L)
/-- The same through the theta window's view. -/
def thetaOf (L : List (View.Piece (Elt F) S1x1024x512 .bf16)) : Vec F S1x1024x512 .bf16 :=
  thetaV.read (Elt F) (thetaV.writes (Elt F) thetaV.junk L)
/-- The same through the accumulator's view. -/
def accOf (L : List (View.Piece (Elt F) S512x512 .f32)) : Vec F S512x512 .f32 :=
  accV.read (Elt F) (accV.writes (Elt F) accV.junk L)

/-- What a point leaves: the Gram window's buffer, the theta window's buffer, the accumulator. -/
abbrev Left0 (F : FTy → Type) : Type := Vec F S1x512x512 .f32 × Vec F S1x1024x512 .bf16 × Vec F S512x512 .f32

/-- A first tile leaves: nothing of its own in the Gram buffer (the window is idle there: the first component is a
    value nothing reads), the tile's theta rows, and the accumulator at the tile's `phᵀ · gv` over zero. -/
def leftFirst0 (c : Dev nD) (t : Fin cfg0.N) (h0 : t.val % 4 = 0) : Left0 F :=
  (gramOf (firstAt0 V c t h0).1, thetaOf (firstAt0 V c t h0).2.1, accOf (firstAt0 V c t h0).2.2.1)
/-- A middle tile leaves: the same unread Gram component, the tile's theta rows, the accumulator `xs` plus the tile's `phᵀ · gv`. -/
def leftMid0 (c : Dev nD) (t : Fin cfg0.N) (h0 : ¬t.val % 4 = 0) (h1 : ¬t.val % 4 = 3) (xs : Vec F S512x512 .f32) : Left0 F :=
  (gramOf (midAt0 V c t h0 h1 xs).1, thetaOf (midAt0 V c t h0 h1 xs).2.1, accOf (midAt0 V c t h0 h1 xs).2.2.1)
/-- A last tile leaves: the Gram block (the finished accumulator times `2⁻¹²`), the tile's theta rows, the finished accumulator. -/
def leftLast0 (c : Dev nD) (t : Fin cfg0.N) (h0 : ¬t.val % 4 = 0) (h1 : t.val % 4 = 3) (xs : Vec F S512x512 .f32) : Left0 F :=
  (gramOf (lastAt0 V c t h0 h1 xs).1, thetaOf (lastAt0 V c t h0 h1 xs).2.1, accOf (lastAt0 V c t h0 h1 xs).2.2.1)

/-! ## The stores of each case cover what they should -/

/-- Each case's theta store is the whole block; each case's last accumulator store is the whole accumulator; the last
    tile's Gram store is the whole block. (One whole-shape rectangle tiles the shape: decided by evaluating the
    rectangles, never the payloads.) -/
theorem first_theta_cover (c : Dev nD) (t : Fin cfg0.N) (h0 : t.val % 4 = 0) (y : S1x1024x512.Idx) :
    ∃ pc ∈ (firstAt0 V c t h0).2.1, y ∈ pc.1.set :=
  View.cover_of_tiledL (firstAt0 V c t h0).2.1 S1x1024x512.size (by sl_kernel_rfl) y
theorem first_acc_cover (c : Dev nD) (t : Fin cfg0.N) (h0 : t.val % 4 = 0) (y : S512x512.Idx) :
    ∃ pc ∈ (firstAt0 V c t h0).2.2.1, y ∈ pc.1.set :=
  View.cover_of_tiledL (firstAt0 V c t h0).2.2.1 S512x512.size (by sl_kernel_rfl) y
theorem mid_theta_cover (c : Dev nD) (t : Fin cfg0.N) (h0 : ¬t.val % 4 = 0) (h1 : ¬t.val % 4 = 3) (xs : Vec F S512x512 .f32) (y : S1x1024x512.Idx) :
    ∃ pc ∈ (midAt0 V c t h0 h1 xs).2.1, y ∈ pc.1.set :=
  View.cover_of_tiledL (midAt0 V c t h0 h1 xs).2.1 S1x1024x512.size (by sl_kernel_rfl) y
theorem mid_acc_cover (c : Dev nD) (t : Fin cfg0.N) (h0 : ¬t.val % 4 = 0) (h1 : ¬t.val % 4 = 3) (xs : Vec F S512x512 .f32) (y : S512x512.Idx) :
    ∃ pc ∈ (midAt0 V c t h0 h1 xs).2.2.1, y ∈ pc.1.set :=
  View.cover_of_tiledL (midAt0 V c t h0 h1 xs).2.2.1 S512x512.size (by sl_kernel_rfl) y
theorem last_gram_cover (c : Dev nD) (t : Fin cfg0.N) (h0 : ¬t.val % 4 = 0) (h1 : t.val % 4 = 3) (xs : Vec F S512x512 .f32) (y : S1x512x512.Idx) :
    ∃ pc ∈ (lastAt0 V c t h0 h1 xs).1, y ∈ pc.1.set :=
  View.cover_of_tiledL (lastAt0 V c t h0 h1 xs).1 S1x512x512.size (by sl_kernel_rfl) y
theorem last_theta_cover (c : Dev nD) (t : Fin cfg0.N) (h0 : ¬t.val % 4 = 0) (h1 : t.val % 4 = 3) (xs : Vec F S512x512 .f32) (y : S1x1024x512.Idx) :
    ∃ pc ∈ (lastAt0 V c t h0 h1 xs).2.1, y ∈ pc.1.set :=
  View.cover_of_tiledL (lastAt0 V c t h0 h1 xs).2.1 S1x1024x512.size (by sl_kernel_rfl) y
theorem last_acc_cover (c : Dev nD) (t : Fin cfg0.N) (h0 : ¬t.val % 4 = 0) (h1 : t.val % 4 = 3) (xs : Vec F S512x512 .f32) (y : S512x512.Idx) :
    ∃ pc ∈ (lastAt0 V c t h0 h1 xs).2.2.1, y ∈ pc.1.set :=
  View.cover_of_tiledL (lastAt0 V c t h0 h1 xs).2.2.1 S512x512.size (by sl_kernel_rfl) y

/-! ## What every point leaves -/

/-- THE ACCUMULATION, point by point: point 0 is a first tile; a later point is a first tile (which starts afresh), or a
    last or middle tile continuing from the accumulator the point before left. -/
def leftAt0 (c : Dev nD) : (n : ℕ) → n < cfg0.N → Left0 F
  | 0, hn => leftFirst0 V c ⟨0, hn⟩ (Nat.zero_mod 4)
  | n + 1, hn =>
    if h0 : (n + 1) % 4 = 0 then leftFirst0 V c ⟨n + 1, hn⟩ h0
    else if h1 : (n + 1) % 4 = 3 then leftLast0 V c ⟨n + 1, hn⟩ h0 h1 (leftAt0 c n (Nat.lt_of_succ_lt hn)).2.2
    else leftMid0 V c ⟨n + 1, hn⟩ h0 h1 (leftAt0 c n (Nat.lt_of_succ_lt hn)).2.2

theorem leftAt0_first (c : Dev nD) (t : Fin cfg0.N) (h0 : t.val % 4 = 0) :
    leftAt0 V c t.val t.isLt = leftFirst0 V c t h0 := by
  obtain ⟨n, hn⟩ := t
  cases n with
  | zero => exact rfl
  | succ n => exact (dif_pos h0).trans rfl

theorem leftAt0_mid (c : Dev nD) (t : Fin cfg0.N) (h0 : ¬t.val % 4 = 0) (h1 : ¬t.val % 4 = 3) :
    leftAt0 V c t.val t.isLt = leftMid0 V c t h0 h1 (leftAt0 V c (t.val - 1) (Nat.lt_of_le_of_lt (Nat.sub_le _ _) t.isLt)).2.2 := by
  obtain ⟨n, hn⟩ := t
  cases n with
  | zero => exact absurd (Nat.zero_mod 4) h0
  | succ n => exact (dif_neg h0).trans ((dif_neg h1).trans rfl)

theorem leftAt0_last (c : Dev nD) (t : Fin cfg0.N) (h0 : ¬t.val % 4 = 0) (h1 : t.val % 4 = 3) :
    leftAt0 V c t.val t.isLt = leftLast0 V c t h0 h1 (leftAt0 V c (t.val - 1) (Nat.lt_of_le_of_lt (Nat.sub_le _ _) t.isLt)).2.2 := by
  obtain ⟨n, hn⟩ := t
  cases n with
  | zero => exact absurd (Nat.zero_mod 4) h0
  | succ n => exact (dif_neg h0).trans ((dif_pos h1).trans rfl)

/-! ## The invariant between points -/

/-- Before the first point: what the launch hands over. Before any later point: the accumulator owned whole at what the
    point before left in it, every other scoped buffer unopened, the generator register at some state. -/
def inv0 (c : Dev nD) : (n : ℕ) → n ≤ cfg0.N → sProp 𝕄
  | 0, _ => Pipeline.ΦA spec0 c
  | n + 1, hn => iprop(iprop(owns (c : Thread nD τ) accM fullShare (leftAt0 V c n hn).2.2 ∗ Pipeline.scopedRestBut spec0 c [cc0_scratch0]) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) accM fullShare (leftAt0 V c n hn).2.2 ∗ Pipeline.scopedRestBut spec0 c [cc0_scratch0]) ∗ (∃ r, prngReg c r)) := rfl

theorem inv0_pos (c : Dev nD) (n : ℕ) (h : n ≤ cfg0.N) (hz : n ≠ 0) :
    inv0 V c n h = iprop(iprop(owns (c : Thread nD τ) accM fullShare (leftAt0 V c (n - 1) (by omega)).2.2 ∗ Pipeline.scopedRestBut spec0 c [cc0_scratch0]) ∗ (∃ r, prngReg c r)) := by
  cases n with
  | zero => exact absurd rfl hz
  | succ n => rfl

/-! ## The proof data -/

/-- The first kernel's proof data on core `c`: the arrays as the kernel finds them; after the body at point `t` every
    input's buffer still at its block, the Gram and theta buffers at what `leftAt0` says; the invariant `inv0`; nothing
    owed; full shares. -/
def dat0 (c : Dev nD) : Dat τ (Elt F) Unit ℕ (UR sig nD τ) ℕ cfg0 c where
  A w := V c (Pipeline.arrRef spec0 w)
  after w t := match w with
    | ⟨0, _⟩ => inBlock0 V c 0 t
    | ⟨1, _⟩ => inBlock0 V c 1 t
    | ⟨2, _⟩ => inBlock0 V c 2 t
    | ⟨3, _⟩ => inBlock0 V c 3 t
    | ⟨4, _⟩ => inBlock0 V c 4 t
    | ⟨5, _⟩ => inBlock0 V c 5 t
    | ⟨6, _⟩ => inBlock0 V c 6 t
    | ⟨7, _⟩ => (leftAt0 V c t.val t.isLt).1
    | ⟨8, _⟩ => (leftAt0 V c t.val t.isLt).2.1
  Φ t := inv0 V c t.val (Nat.le_of_lt_succ t.isLt)
  q _ := fullShare
  owed _ := 0

/-- The proof data's arrays are the entry contents (the definition projected, nothing evaluated). -/
theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

/-- What the body leaves, window by window. -/
theorem after0_0 (c : Dev nD) (t : Fin cfg0.N) : (dat0 V c).after 0 t = inBlock0 V c 0 t := by dsimp only [dat0]
theorem after0_1 (c : Dev nD) (t : Fin cfg0.N) : (dat0 V c).after 1 t = inBlock0 V c 1 t := by dsimp only [dat0]
theorem after0_2 (c : Dev nD) (t : Fin cfg0.N) : (dat0 V c).after 2 t = inBlock0 V c 2 t := by dsimp only [dat0]
theorem after0_3 (c : Dev nD) (t : Fin cfg0.N) : (dat0 V c).after 3 t = inBlock0 V c 3 t := by dsimp only [dat0]
theorem after0_4 (c : Dev nD) (t : Fin cfg0.N) : (dat0 V c).after 4 t = inBlock0 V c 4 t := by dsimp only [dat0]
theorem after0_5 (c : Dev nD) (t : Fin cfg0.N) : (dat0 V c).after 5 t = inBlock0 V c 5 t := by dsimp only [dat0]
theorem after0_6 (c : Dev nD) (t : Fin cfg0.N) : (dat0 V c).after 6 t = inBlock0 V c 6 t := by dsimp only [dat0]
theorem after0_7 (c : Dev nD) (t : Fin cfg0.N) : (dat0 V c).after 7 t = (leftAt0 V c t.val t.isLt).1 := by dsimp only [dat0]
theorem after0_8 (c : Dev nD) (t : Fin cfg0.N) : (dat0 V c).after 8 t = (leftAt0 V c t.val t.isLt).2.1 := by dsimp only [dat0]

/-- Each input's current buffer holds its block at every point. -/
theorem before0_0 (c : Dev nD) (t : Fin cfg0.N) (d) : (dat0 V c).before 0 t d = inBlock0 V c 0 t :=
  holds_in0_0 V (dat0 V c) (A_eq0 V c 0) (after0_0 V c) t d
theorem before0_1 (c : Dev nD) (t : Fin cfg0.N) (d) : (dat0 V c).before 1 t d = inBlock0 V c 1 t :=
  holds_in0_1 V (dat0 V c) (A_eq0 V c 1) (after0_1 V c) t d
theorem before0_2 (c : Dev nD) (t : Fin cfg0.N) (d) : (dat0 V c).before 2 t d = inBlock0 V c 2 t :=
  holds_in0_2 V (dat0 V c) (A_eq0 V c 2) (after0_2 V c) t d
theorem before0_3 (c : Dev nD) (t : Fin cfg0.N) (d) : (dat0 V c).before 3 t d = inBlock0 V c 3 t :=
  holds_in0_3 V (dat0 V c) (A_eq0 V c 3) (after0_3 V c) t d
theorem before0_4 (c : Dev nD) (t : Fin cfg0.N) (d) : (dat0 V c).before 4 t d = inBlock0 V c 4 t :=
  holds_in0_4 V (dat0 V c) (A_eq0 V c 4) (after0_4 V c) t d
theorem before0_5 (c : Dev nD) (t : Fin cfg0.N) (d) : (dat0 V c).before 5 t d = inBlock0 V c 5 t :=
  holds_in0_5 V (dat0 V c) (A_eq0 V c 5) (after0_5 V c) t d
theorem before0_6 (c : Dev nD) (t : Fin cfg0.N) (d) : (dat0 V c).before 6 t d = inBlock0 V c 6 t :=
  holds_in0_6 V (dat0 V c) (A_eq0 V c 6) (after0_6 V c) t d

/-! ## The body obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (cur0_0 t) fullShare ((dat0 V c).before 0 t d))
    ∗ (∃ d, owns (c : Thread nD τ) (cur0_1 t) fullShare ((dat0 V c).before 1 t d))
    ∗ (∃ d, owns (c : Thread nD τ) (cur0_2 t) fullShare ((dat0 V c).before 2 t d))
    ∗ (∃ d, owns (c : Thread nD τ) (cur0_3 t) fullShare ((dat0 V c).before 3 t d))
    ∗ (∃ d, owns (c : Thread nD τ) (cur0_4 t) fullShare ((dat0 V c).before 4 t d))
    ∗ (∃ d, owns (c : Thread nD τ) (cur0_5 t) fullShare ((dat0 V c).before 5 t d))
    ∗ (∃ d, owns (c : Thread nD τ) (cur0_6 t) fullShare ((dat0 V c).before 6 t d))
    ∗ (∃ d, owns (c : Thread nD τ) (cur0_7 t) fullShare ((dat0 V c).before 7 t d))
    ∗ (∃ d, owns (c : Thread nD τ) (cur0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

/-- Pieces written over a whole buffer's contents, the pieces covering the shape: the buffer is owned at the pieces read
    back through any view of that shape (over anything). -/
theorem owns_of_pieces (c : Dev nD) {S : Shape} {e : EltTy} (M : Memref sig .tc .vmem S e) (v' : View sig .tc .vmem S e)
    (L : List (View.Piece (Elt F) S e)) (hcov : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩
  unfold owns; iexists _; isplitr
  swap; · iexact H
  ipureintro; exact View.read_writes_of_cover _ _ _ _ _ hcov

set_option maxHeartbeats 4800000 in
/-- The body at any point. The inputs' buffers hold their blocks; `t mod 4` says which tile of its batch the point is, so
    one of the three runs applies. The invariant hands the run the accumulator — at what the point before left, or, at the
    very first point, at anything — and takes it back at what this point leaves; the other scoped buffers, the generator
    register and the core's debts pass through untouched. At a first or middle tile the Gram window is idle and not
    written back: its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = inv0 V c (t.val + 1) t.isLt from rfl, inv0_succ]
  have hN : t.val < 16 := lt_of_lt_of_eq t.isLt (show cfg0.N = 16 from N_0)
  rw [show (dat0 V c).leavesExact 0 t = owns (c : Thread nD τ) (cur0_0 t) fullShare ((dat0 V c).after 0 t) from by
    unfold Dat.leavesExact; rw [busy0_0 t], after0_0]
  rw [show (dat0 V c).leavesExact 1 t = owns (c : Thread nD τ) (cur0_1 t) fullShare ((dat0 V c).after 1 t) from by
    unfold Dat.leavesExact; rw [busy0_1 t], after0_1]
  rw [show (dat0 V c).leavesExact 2 t = owns (c : Thread nD τ) (cur0_2 t) fullShare ((dat0 V c).after 2 t) from by
    unfold Dat.leavesExact; rw [busy0_2 t], after0_2]
  rw [show (dat0 V c).leavesExact 3 t = owns (c : Thread nD τ) (cur0_3 t) fullShare ((dat0 V c).after 3 t) from by
    unfold Dat.leavesExact; rw [busy0_3 t], after0_3]
  rw [show (dat0 V c).leavesExact 4 t = owns (c : Thread nD τ) (cur0_4 t) fullShare ((dat0 V c).after 4 t) from by
    unfold Dat.leavesExact; rw [busy0_4 t], after0_4]
  rw [show (dat0 V c).leavesExact 5 t = owns (c : Thread nD τ) (cur0_5 t) fullShare ((dat0 V c).after 5 t) from by
    unfold Dat.leavesExact; rw [busy0_5 t], after0_5]
  rw [show (dat0 V c).leavesExact 6 t = owns (c : Thread nD τ) (cur0_6 t) fullShare ((dat0 V c).after 6 t) from by
    unfold Dat.leavesExact; rw [busy0_6 t], after0_6]
  rw [show (dat0 V c).leavesExact 8 t = owns (c : Thread nD τ) (cur0_8 t) fullShare ((dat0 V c).after 8 t) from by
    unfold Dat.leavesExact; rw [busy0_8 t], after0_8]
  by_cases h0 : t.val % 4 = 0
  · rw [Dat.leavesExact_idle (dat0 V c) 7 t (idle0_7_first t ((firstTile_iff t).mpr h0) (first_not_last t h0)) (keep0_7_first t ((firstTile_iff t).mpr h0) (first_not_last t h0))]
    rw [leftAt0_first V c t h0]
    unfold leftFirst0 accOf thetaOf; (try dsimp only)
    by_cases hz : t.val = 0
    · rw [inv0_castSucc V c t, inv0_zero V c _ _ hz, entry0_split]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt0 V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hrest Hg]
      · isplitl [HS Hrest]
        · isplitl [HS]
          · iapply (owns_of_pieces c _ accV _ (first_acc_cover V c t h0)); iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iapply (owns_of_pieces c _ thetaV _ (first_theta_cover V c t h0)); iexact H8
    · rw [inv0_castSucc V c t, inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt0 V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexists _; iexact HS
      iintro ⟨H0, H1, H2, H3, H4, H5, H6, H7, H8, HS⟩
      isplitl [HS Hrest Hg]
      · isplitl [HS Hrest]
        · isplitl [HS]
          · iapply (owns_of_pieces c _ accV _ (first_acc_cover V c t h0)); iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iapply (owns_of_pieces c _ thetaV _ (first_theta_cover V c t h0)); iexact H8
  · have hz : t.val ≠ 0 := fun h => h0 (by rw [h])
    by_cases h1 : t.val % 4 = 3
    · rw [show (dat0 V c).leavesExact 7 t = owns (c : Thread nD τ) (cur0_7 t) fullShare ((dat0 V c).after 7 t) from by
        unfold Dat.leavesExact; rw [busy0_7_last t (not_first t h0) ((lastTile_iff t).mpr h1)], after0_7]
      rw [leftAt0_last V c t h0 h1]
      unfold leftLast0 accOf thetaOf gramOf; (try dsimp only)
      rw [inv0_castSucc V c t, inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((lastAt0 V c t h0 h1 _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HS Hrest Hg]
      · isplitl [HS Hrest]
        · isplitl [HS]
          · iapply (owns_of_pieces c _ accV _ (last_acc_cover V c t h0 h1 _)); iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (owns_of_pieces c _ gramV _ (last_gram_cover V c t h0 h1 _)); iexact H7
      iapply (owns_of_pieces c _ thetaV _ (last_theta_cover V c t h0 h1 _)); iexact H8
    · rw [Dat.leavesExact_idle (dat0 V c) 7 t (idle0_7_mid t (not_first t h0) (not_last t h1)) (keep0_7_mid t (not_first t h0) (not_last t h1))]
      rw [leftAt0_mid V c t h0 h1]
      unfold leftMid0 accOf thetaOf; (try dsimp only)
      rw [inv0_castSucc V c t, inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((midAt0 V c t h0 h1 _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hrest Hg]
      · isplitl [HS Hrest]
        · isplitl [HS]
          · iapply (owns_of_pieces c _ accV _ (mid_acc_cover V c t h0 h1 _)); iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iapply (owns_of_pieces c _ thetaV _ (mid_theta_cover V c t h0 h1 _)); iexact H8

/-- The library's body obligation for the first kernel, at every point. -/
theorem body_obligation0 (c : Dev nD) : BodyObligation (dat0 (F := F) V c) (defs₀ (F := F)) Variants.none () Set.univ := fun t => by
  rw [bigSep_W0, bigSep_W0]
  exact sound_body0 V c t

/-- What the launch hands the kernel is the invariant before the first point. -/
theorem phi_in0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After any point the invariant gives back what the launch handed over: what the accumulator holds is forgotten. -/
theorem phi_back0 (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, entry0_split]
  iintro ⟨⟨HS, Hrest⟩, Hg⟩
  isplitl [HS Hrest]
  · isplitl [HS]
    · iexists _; iexact HS
    iexact Hrest
  iexact Hg

/-- In particular after the last point. -/
theorem phi_out0 (c : Dev nD) : (dat0 V c).Φ (Fin.last cfg0.N) ⊢ Pipeline.ΦA spec0 c :=
  phi_back0 V c _ (by rw [Fin.val_last]; have : cfg0.N = 16 := N_0; omega)

end Cert.Kernel.Hand

end
-- ==== Proof.K.R1Runs.lean ====
import proofs.«130369_j29137058136126_2_alg».proof.Proof.Gen.Kernel.Launch
import proofs.«130369_j29137058136126_2_alg».proof.Proof.Gen.Kernel.Skeleton
import proofs.«130369_j29137058136126_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the second pallas call (th · M · W + b, with running column sums), at the entry contents `V`

What the three control cases of its body share: the blocks of its windows, the two branch conditions decided over
the 4 × 4 grid, where the two sum outputs are idle, and the memrefs the body is called with. -/

/-! ## The windows' blocks -/

/-- The block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether or not the point fetches it: an
    unfetched input has not moved its block index, and the body leaves an input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether or not the point fetches it: an
    unfetched input has not moved its block index, and the body leaves an input block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether or not the point fetches it: an
    unfetched input has not moved its block index, and the body leaves an input block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether or not the point fetches it: an
    unfetched input has not moved its block index, and the body leaves an input block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "This is the first sequence tile of its batch": the condition under which the body zeroes both accumulators,
    as the body computes it from the grid coordinates. -/
abbrev first1 (i : grid1.Coords) : Prop := (Scalar.cmpi .ne (Scalar.extui (Scalar.cmpi .eq (BitVec.ofNat 32 (i 1).val) 0#32)) 0#32) = 1#1
/-- It holds exactly at the points ≡ 0 (mod 4): checked at each of the 16 points. -/
theorem first1_iff : ∀ t : Fin cfg1.N, first1 (grid1.coords t) ↔ t.val % 4 = 0 :=
  (by decide +kernel : ∀ t : Fin grid1.N, first1 (grid1.coords t) ↔ t.val % 4 = 0)

/-- "This is the last sequence tile of its batch": the condition under which the body copies the accumulators out. -/
abbrev last1 (i : grid1.Coords) : Prop := k1_cond2 i = 1#1
/-- It holds exactly at the points ≡ 3 (mod 4). -/
theorem last1_iff : ∀ t : Fin cfg1.N, last1 (grid1.coords t) ↔ t.val % 4 = 3 :=
  (by decide +kernel : ∀ t : Fin grid1.N, last1 (grid1.coords t) ↔ t.val % 4 = 3)

/-! ## Where the windows are idle -/

/-- The four inputs and the product output (windows 0–4) are live at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Off the last tile the sum output (window 5) is idle and its block is not written back. -/
theorem idle1_5 : ∀ t : Fin cfg1.N, ¬last1 (grid1.coords t) → cfg1.idle 5 (grid1.coords t) = true := by decide +kernel
theorem noFlush1_5 : ∀ t : Fin cfg1.N, ¬last1 (grid1.coords t) → (cfg1.win 5).flush t = false := by decide +kernel
/-- On the last tile it is live. -/
theorem live1_5 : ∀ t : Fin cfg1.N, last1 (grid1.coords t) → cfg1.idle 5 (grid1.coords t) = false := by decide +kernel
/-- The same for the sum-of-squares output (window 6). -/
theorem idle1_6 : ∀ t : Fin cfg1.N, ¬last1 (grid1.coords t) → cfg1.idle 6 (grid1.coords t) = true := by decide +kernel
theorem noFlush1_6 : ∀ t : Fin cfg1.N, ¬last1 (grid1.coords t) → (cfg1.win 6).flush t = false := by decide +kernel
theorem live1_6 : ∀ t : Fin cfg1.N, last1 (grid1.coords t) → cfg1.idle 6 (grid1.coords t) = false := by decide +kernel

/-! ## The memrefs the body is called with -/

/-- Each window's current staging memref at point `t`, spelled as the pipeline passes it to the body, with its wholeness. -/
abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1024 .f32 := win1_6.stage (cfg1.slots t 6)
abbrev hs1_6 (t : Fin cfg1.N) : (ms1_6 t).IsWhole := hstage1_6 ((cfg1.slots t 6).cast nbuf1_6)

/-- One staging buffer of each output window, as a view through which its contents are stated (pieces read back
    over a whole buffer do not depend on which whole buffer). -/
abbrev VO1_4 : View sig .tc .vmem S1x1024x1024 .f32 := (Memref.whole cc1_stg4_0 : Memref sig .tc .vmem S1x1024x1024 .f32).view
abbrev VO1_5 : View sig .tc .vmem S1x1x1024 .f32 := (Memref.whole cc1_stg5_0 : Memref sig .tc .vmem S1x1x1024 .f32).view
abbrev VO1_6 : View sig .tc .vmem S1x1x1024 .f32 := (Memref.whole cc1_stg6_0 : Memref sig .tc .vmem S1x1x1024 .f32).view

/-- The two accumulators (running column sums of the product and of its square): whole scoped buffers of the call's own. -/
abbrev acc1_0 : Memref sig .tc .vmem S1x1024 .f32 := Memref.whole cc1_scratch0
abbrev acc1_1 : Memref sig .tc .vmem S1x1024 .f32 := Memref.whole cc1_scratch1
abbrev VS1_0 : View sig .tc .vmem S1x1024 .f32 := acc1_0.view
abbrev VS1_1 : View sig .tc .vmem S1x1024 .f32 := acc1_1.view

/-- The rest of the scoped buffers, none of which the body touches. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant the launch hands the region, with the two accumulators split off as memrefs owned at some contents. -/
theorem PhiA1_eq (c : Dev nD) :
    (Pipeline.ΦA spec1 c : sProp 𝕄)
      = iprop(iprop(iprop((∃ d, owns (c : Thread nD τ) acc1_0 fullShare d) ∗ (∃ d, owns (c : Thread nD τ) acc1_1 fullShare d)) ∗ rest1 c) ∗ (∃ r, prngReg c r)) := by
  unfold Pipeline.ΦA; rw [scopedRest1_split]; simp only [acc1_0, acc1_1, owns_whole]; try rfl

end Cert.Kernel.Hand

end
-- ==== Proof.K.R1RunA.lean ====
import proofs.«130369_j29137058136126_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, the first tile of a batch: both accumulators are zeroed, the tile's product is stored, its column
sums are added in; the two sum outputs are not touched. -/

set_option maxHeartbeats 1000000 in
/-- The pieces the body's stores leave in the product output and in the two accumulators on a first tile, with the
    proof that the body, called on whole memrefs — the four inputs at their blocks, the product output and both
    accumulators at anything, the two sum outputs at contents handed back untouched — runs to a continuation that
    holds the inputs as they were, the sum outputs as they were, and the other three with those pieces written.
    The symbolic execution of the body's memory operations finds the pieces. -/
noncomputable def run1_A (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) :
    Σ' (L4 : List (View.Piece (Elt F) S1x1024x1024 .f32)) (LS0 : List (View.Piece (Elt F) S1x1024 .f32)), { LS1 : List (View.Piece (Elt F) S1x1024 .f32) //
      ∀ (xi5 xi6 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.K.R1RunB.lean ====
import proofs.«130369_j29137058136126_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, a middle tile of a batch: the tile's product is stored and its column sums are added to what the
accumulators held; the two sum outputs are not touched. -/

set_option maxHeartbeats 1000000 in
/-- The pieces the body's stores leave in the product output and in the two accumulators on a middle tile, with the
    proof that the body, called on whole memrefs — the four inputs at their blocks, the product output at anything,
    the accumulators at what the tile before left (`xs0`, `xs1`), the two sum outputs at contents handed back
    untouched — runs to a continuation that holds the inputs and the sum outputs as they were and the other three
    with those pieces written. -/
noncomputable def run1_B (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) :
    Σ' (L4 : List (View.Piece (Elt F) S1x1024x1024 .f32)) (LS0 : List (View.Piece (Elt F) S1x1024 .f32)), { LS1 : List (View.Piece (Elt F) S1x1024 .f32) //
      ∀ (xi5 xi6 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.K.R1RunC.lean ====
import proofs.«130369_j29137058136126_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, the last tile of a batch: the tile's product is stored, its column sums are added to what the
accumulators held, and the accumulators are copied out into the two sum outputs. -/

set_option maxHeartbeats 1000000 in
/-- The pieces the body's stores leave in the three outputs and in the two accumulators on a last tile, with the
    proof that the body, called on whole memrefs — the four inputs at their blocks, the three outputs at anything,
    the accumulators at what the tile before left (`xs0`, `xs1`) — runs to a continuation that holds the inputs as
    they were and the other five with those pieces written. -/
noncomputable def run1_C (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) :
    Σ' (L4 : List (View.Piece (Elt F) S1x1024x1024 .f32)) (L5 : List (View.Piece (Elt F) S1x1x1024 .f32)) (L6 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R1.lean ====
import proofs.«130369_j29137058136126_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what each tile leaves, the accumulation over the grid, the proof data and the body obligation -/

/-! ## What each case leaves, as terms over the pieces its run found -/

/-- The pieces a first tile writes into the product output's staging buffer tile it, so every index lies in one of them. -/
theorem cover1_A_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) (y : S1x1024x1024.Idx) :
    ∃ pc ∈ (run1_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (run1_A c i arg2 harg2 arg3 harg3 arg4 harg4 arg5 harg5 arg6 harg6 arg7 harg7 arg8 harg8 arg9 harg9 arg10 harg10 hc0 hc1 x0 x1 x2 x3).1 S1x1024x1024.size (by sl_kernel_rfl) y

/-- What a first tile leaves in the product output's staging buffer: its pieces read back (over contents no index reads). -/
def out1_A_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) : Vec F S1x1024x1024 .f32 :=
  VO1_4.read (Elt F) (VO1_4.writes (Elt F) VO1_4.junk (run1_A c i arg2 harg2 arg3 harg3 arg4 harg4 arg5 harg5 arg6 harg6 arg7 harg7 arg8 harg8 arg9 harg9 arg10 harg10 hc0 hc1 x0 x1 x2 x3).1)

/-- The pieces a first tile writes into the accumulator of column sums tile it, so every index lies in one of them. -/
theorem scover1_A_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) (y : S1x1024.Idx) :
    ∃ pc ∈ (run1_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (run1_A c i arg2 harg2 arg3 harg3 arg4 harg4 arg5 harg5 arg6 harg6 arg7 harg7 arg8 harg8 arg9 harg9 arg10 harg10 hc0 hc1 x0 x1 x2 x3).2.1 S1x1024.size (by sl_kernel_rfl) y

/-- What a first tile leaves in the accumulator of column sums: its pieces read back (over contents no index reads). -/
def sout1_A_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) : Vec F S1x1024 .f32 :=
  VS1_0.read (Elt F) (VS1_0.writes (Elt F) VS1_0.junk (run1_A c i arg2 harg2 arg3 harg3 arg4 harg4 arg5 harg5 arg6 harg6 arg7 harg7 arg8 harg8 arg9 harg9 arg10 harg10 hc0 hc1 x0 x1 x2 x3).2.1)

/-- The pieces a first tile writes into the accumulator of column sums of squares tile it, so every index lies in one of them. -/
theorem scover1_A_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) (y : S1x1024.Idx) :
    ∃ pc ∈ (run1_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (run1_A c i arg2 harg2 arg3 harg3 arg4 harg4 arg5 harg5 arg6 harg6 arg7 harg7 arg8 harg8 arg9 harg9 arg10 harg10 hc0 hc1 x0 x1 x2 x3).2.2.1 S1x1024.size (by sl_kernel_rfl) y

/-- What a first tile leaves in the accumulator of column sums of squares: its pieces read back (over contents no index reads). -/
def sout1_A_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) : Vec F S1x1024 .f32 :=
  VS1_1.read (Elt F) (VS1_1.writes (Elt F) VS1_1.junk (run1_A c i arg2 harg2 arg3 harg3 arg4 harg4 arg5 harg5 arg6 harg6 arg7 harg7 arg8 harg8 arg9 harg9 arg10 harg10 hc0 hc1 x0 x1 x2 x3).2.2.1)

/-- The pieces a middle tile writes into the product output's staging buffer tile it, so every index lies in one of them. -/
theorem cover1_B_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) (y : S1x1024x1024.Idx) :
    ∃ pc ∈ (run1_B c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (run1_B c i arg2 harg2 arg3 harg3 arg4 harg4 arg5 harg5 arg6 harg6 arg7 harg7 arg8 harg8 arg9 harg9 arg10 harg10 hc0 hc1 x0 x1 x2 x3 xs0 xs1).1 S1x1024x1024.size (by sl_kernel_rfl) y

/-- What a middle tile leaves in the product output's staging buffer: its pieces read back (over contents no index reads). -/
def out1_B_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) : Vec F S1x1024x1024 .f32 :=
  VO1_4.read (Elt F) (VO1_4.writes (Elt F) VO1_4.junk (run1_B c i arg2 harg2 arg3 harg3 arg4 harg4 arg5 harg5 arg6 harg6 arg7 harg7 arg8 harg8 arg9 harg9 arg10 harg10 hc0 hc1 x0 x1 x2 x3 xs0 xs1).1)

/-- The pieces a middle tile writes into the accumulator of column sums tile it, so every index lies in one of them. -/
theorem scover1_B_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) (y : S1x1024.Idx) :
    ∃ pc ∈ (run1_B c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (run1_B c i arg2 harg2 arg3 harg3 arg4 harg4 arg5 harg5 arg6 harg6 arg7 harg7 arg8 harg8 arg9 harg9 arg10 harg10 hc0 hc1 x0 x1 x2 x3 xs0 xs1).2.1 S1x1024.size (by sl_kernel_rfl) y

/-- What a middle tile leaves in the accumulator of column sums: its pieces read back (over contents no index reads). -/
def sout1_B_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) : Vec F S1x1024 .f32 :=
  VS1_0.read (Elt F) (VS1_0.writes (Elt F) VS1_0.junk (run1_B c i arg2 harg2 arg3 harg3 arg4 harg4 arg5 harg5 arg6 harg6 arg7 harg7 arg8 harg8 arg9 harg9 arg10 harg10 hc0 hc1 x0 x1 x2 x3 xs0 xs1).2.1)

/-- The pieces a middle tile writes into the accumulator of column sums of squares tile it, so every index lies in one of them. -/
theorem scover1_B_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) (y : S1x1024.Idx) :
    ∃ pc ∈ (run1_B c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (run1_B c i arg2 harg2 arg3 harg3 arg4 harg4 arg5 harg5 arg6 harg6 arg7 harg7 arg8 harg8 arg9 harg9 arg10 harg10 hc0 hc1 x0 x1 x2 x3 xs0 xs1).2.2.1 S1x1024.size (by sl_kernel_rfl) y

/-- What a middle tile leaves in the accumulator of column sums of squares: its pieces read back (over contents no index reads). -/
def sout1_B_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) : Vec F S1x1024 .f32 :=
  VS1_1.read (Elt F) (VS1_1.writes (Elt F) VS1_1.junk (run1_B c i arg2 harg2 arg3 harg3 arg4 harg4 arg5 harg5 arg6 harg6 arg7 harg7 arg8 harg8 arg9 harg9 arg10 harg10 hc0 hc1 x0 x1 x2 x3 xs0 xs1).2.2.1)

/-- The pieces a last tile writes into the product output's staging buffer tile it, so every index lies in one of them. -/
theorem cover1_C_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1024x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).1 S1x1024x1024.size (by sl_kernel_rfl) y

/-- What a last tile leaves in the product output's staging buffer: its pieces read back (over contents no index reads). -/
def out1_C_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1024x1024 .f32 :=
  VO1_4.read (Elt F) (VO1_4.writes (Elt F) VO1_4.junk (run1_C c i arg2 harg2 arg3 harg3 arg4 harg4 arg5 harg5 arg6 harg6 arg7 harg7 arg8 harg8 arg9 harg9 arg10 harg10 hc0 hc1 x0 x1 x2 x3 xs0 xs1).1)

/-- The pieces a last tile writes into the sum output's staging buffer tile it, so every index lies in one of them. -/
theorem cover1_C_5 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).2.1 S1x1x1024.size (by sl_kernel_rfl) y

/-- What a last tile leaves in the sum output's staging buffer: its pieces read back (over contents no index reads). -/
def out1_C_5 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1x1024 .f32 :=
  VO1_5.read (Elt F) (VO1_5.writes (Elt F) VO1_5.junk (run1_C c i arg2 harg2 arg3 harg3 arg4 harg4 arg5 harg5 arg6 harg6 arg7 harg7 arg8 harg8 arg9 harg9 arg10 harg10 hc0 hc1 x0 x1 x2 x3 xs0 xs1).2.1)

/-- The pieces a last tile writes into the sum-of-squares output's staging buffer tile it, so every index lies in one of them. -/
theorem cover1_C_6 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).2.2.1 S1x1x1024.size (by sl_kernel_rfl) y

/-- What a last tile leaves in the sum-of-squares output's staging buffer: its pieces read back (over contents no index reads). -/
def out1_C_6 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1x1024 .f32 :=
  VO1_6.read (Elt F) (VO1_6.writes (Elt F) VO1_6.junk (run1_C c i arg2 harg2 arg3 harg3 arg4 harg4 arg5 harg5 arg6 harg6 arg7 harg7 arg8 harg8 arg9 harg9 arg10 harg10 hc0 hc1 x0 x1 x2 x3 xs0 xs1).2.2.1)

/-- The pieces a last tile writes into the accumulator of column sums tile it, so every index lies in one of them. -/
theorem scover1_C_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).2.2.2.1 S1x1024.size (by sl_kernel_rfl) y

/-- What a last tile leaves in the accumulator of column sums: its pieces read back (over contents no index reads). -/
def sout1_C_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1024 .f32 :=
  VS1_0.read (Elt F) (VS1_0.writes (Elt F) VS1_0.junk (run1_C c i arg2 harg2 arg3 harg3 arg4 harg4 arg5 harg5 arg6 harg6 arg7 harg7 arg8 harg8 arg9 harg9 arg10 harg10 hc0 hc1 x0 x1 x2 x3 xs0 xs1).2.2.2.1)

/-- The pieces a last tile writes into the accumulator of column sums of squares tile it, so every index lies in one of them. -/
theorem scover1_C_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).2.2.2.2.1 S1x1024.size (by sl_kernel_rfl) y

/-- What a last tile leaves in the accumulator of column sums of squares: its pieces read back (over contents no index reads). -/
def sout1_C_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1024 .f32 :=
  VS1_1.read (Elt F) (VS1_1.writes (Elt F) VS1_1.junk (run1_C c i arg2 harg2 arg3 harg3 arg4 harg4 arg5 harg5 arg6 harg6 arg7 harg7 arg8 harg8 arg9 harg9 arg10 harg10 hc0 hc1 x0 x1 x2 x3 xs0 xs1).2.2.2.2.1)

/-! ## What the body leaves at a point, case by case -/

/-- What the three outputs' current buffers and the two accumulators hold after the body at one point, in window
    order and then the accumulators: (product, sums, sums of squares, accumulator 0, accumulator 1). -/
abbrev Outs1 : Type := Vec F S1x1024x1024 .f32 × Vec F S1x1x1024 .f32 × Vec F S1x1x1024 .f32 × Vec F S1x1024 .f32 × Vec F S1x1024 .f32

/-- A value for a sum output's buffer at a tile that does not store into it: nothing reads it (off the last tile the
    window is idle, so the buffer is neither written back nor described by `after`). -/
def idleOut1 : Vec F S1x1x1024 .f32 := VO1_5.read (Elt F) VO1_5.junk

/-- Point `t`, a first tile: the case's terms at the point's memrefs and input blocks. -/
def leaves1_A (c : Dev nD) (t : Fin cfg1.N) (h0 : t.val % 4 = 0) (h1 : ¬t.val % 4 = 3) : Outs1 (F := F) :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) ((first1_iff t).mpr h0) (fun h => h1 ((last1_iff t).mp h)) (iblk1 V c 0 t) (iblk1 V c 1 t) (iblk1 V c 2 t) (iblk1 V c 3 t),
   idleOut1, idleOut1,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) ((first1_iff t).mpr h0) (fun h => h1 ((last1_iff t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) ((first1_iff t).mpr h0) (fun h => h1 ((last1_iff t).mp h)) (iblk1 V c 0 t) (iblk1 V c 1 t) (iblk1 V c 2 t) (iblk1 V c 3 t))

/-- Point `t`, a middle tile, over what the tile before left in the accumulators. -/
def leaves1_B (c : Dev nD) (t : Fin cfg1.N) (h0 : ¬t.val % 4 = 0) (h1 : ¬t.val % 4 = 3) (xs0 xs1 : Vec F S1x1024 .f32) : Outs1 (F := F) :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) (fun h => h1 ((last1_iff t).mp h)) (iblk1 V c 0 t) (iblk1 V c 1 t) (iblk1 V c 2 t) (iblk1 V c 3 t) xs0 xs1,
   idleOut1, idleOut1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) (fun h => h1 ((last1_iff t).mp h)) (iblk1 V c 0 t) (iblk1 V c 1 t) (iblk1 V c 2 t) (iblk1 V c 3 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) (fun h => h1 ((last1_iff t).mp h)) (iblk1 V c 0 t) (iblk1 V c 1 t) (iblk1 V c 2 t) (iblk1 V c 3 t) xs0 xs1)

/-- Point `t`, a last tile, over what the tile before left in the accumulators. -/
def leaves1_C (c : Dev nD) (t : Fin cfg1.N) (h0 : ¬t.val % 4 = 0) (h1 : t.val % 4 = 3) (xs0 xs1 : Vec F S1x1024 .f32) : Outs1 (F := F) :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1)

/-! ## The accumulation over the grid -/

/-- What the outputs' buffers and the accumulators hold after the body at position `n`: the case the closed forms
    select there, a middle or last tile over the accumulators as position `n - 1` left them. (No point is both a
    first and a last tile.) -/
def outsAt1 (c : Dev nD) : (n : ℕ) → n < cfg1.N → Outs1 (F := F)
  | 0, hn => leaves1_A V c ⟨0, hn⟩ (Nat.zero_mod _) (fun h => (by decide : ¬ (0 % 4 = 3)) h)
  | n + 1, hn =>
    if h0 : (n + 1) % 4 = 0 then
      if h1 : (n + 1) % 4 = 3 then False.elim (by omega)
      else leaves1_A V c ⟨n + 1, hn⟩ h0 h1
    else
      if h1 : (n + 1) % 4 = 3 then
        leaves1_C V c ⟨n + 1, hn⟩ h0 h1 (outsAt1 c n (Nat.lt_of_succ_lt hn)).2.2.2.1 (outsAt1 c n (Nat.lt_of_succ_lt hn)).2.2.2.2
      else
        leaves1_B V c ⟨n + 1, hn⟩ h0 h1 (outsAt1 c n (Nat.lt_of_succ_lt hn)).2.2.2.1 (outsAt1 c n (Nat.lt_of_succ_lt hn)).2.2.2.2

/-- The position before `t` is a position of the grid. -/
theorem prev1 (t : Fin cfg1.N) : t.val - 1 < cfg1.N := Nat.lt_of_le_of_lt (Nat.sub_le _ _) t.isLt

/-- At a first tile: that case, whatever came before. -/
theorem outsAt1_A (c : Dev nD) (t : Fin cfg1.N) (h0 : t.val % 4 = 0) (h1 : ¬t.val % 4 = 3) :
    outsAt1 V c t.val t.isLt = leaves1_A V c t h0 h1 := by
  obtain ⟨n, hn⟩ := t
  cases n with
  | zero => exact rfl
  | succ n => exact (dif_pos h0).trans ((dif_neg h1).trans rfl)

/-- At a middle tile: that case over the accumulators of the position before. -/
theorem outsAt1_B (c : Dev nD) (t : Fin cfg1.N) (h0 : ¬t.val % 4 = 0) (h1 : ¬t.val % 4 = 3) :
    outsAt1 V c t.val t.isLt = leaves1_B V c t h0 h1 (outsAt1 V c (t.val - 1) (prev1 t)).2.2.2.1 (outsAt1 V c (t.val - 1) (prev1 t)).2.2.2.2 := by
  obtain ⟨n, hn⟩ := t
  cases n with
  | zero => exact absurd (Nat.zero_mod _) h0
  | succ n => exact (dif_neg h0).trans ((dif_neg h1).trans rfl)

/-- At a last tile: that case over the accumulators of the position before. -/
theorem outsAt1_C (c : Dev nD) (t : Fin cfg1.N) (h0 : ¬t.val % 4 = 0) (h1 : t.val % 4 = 3) :
    outsAt1 V c t.val t.isLt = leaves1_C V c t h0 h1 (outsAt1 V c (t.val - 1) (prev1 t)).2.2.2.1 (outsAt1 V c (t.val - 1) (prev1 t)).2.2.2.2 := by
  obtain ⟨n, hn⟩ := t
  cases n with
  | zero => exact absurd (Nat.zero_mod _) h0
  | succ n => exact (dif_neg h0).trans ((dif_pos h1).trans rfl)

/-! ## The region's invariant -/

/-- The invariant before position `n`: before the first point what the launch hands over (both accumulators at
    anything); afterwards both accumulators owned whole at what the point before left, beside the untouched rest of the
    scoped buffers and the generator register at some state. -/
def PhiS1 (c : Dev nD) : (n : ℕ) → n ≤ cfg1.N → sProp 𝕄
  | 0, _ => Pipeline.ΦA spec1 c
  | n + 1, hn => iprop(iprop(iprop(owns (c : Thread nD τ) acc1_0 fullShare (outsAt1 V c n hn).2.2.2.1 ∗ owns (c : Thread nD τ) acc1_1 fullShare (outsAt1 V c n hn).2.2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n`: the accumulators at that point's contents. -/
theorem PhiS1_succ (c : Dev nD) (n : ℕ) (hn : n < cfg1.N) :
    PhiS1 V c (n + 1) hn = iprop(iprop(iprop(owns (c : Thread nD τ) acc1_0 fullShare (outsAt1 V c n hn).2.2.2.1 ∗ owns (c : Thread nD τ) acc1_1 fullShare (outsAt1 V c n hn).2.2.2.2) ∗ rest1 c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) acc1_0 fullShare (outsAt1 V c (n - 1) (by omega)).2.2.2.1 ∗ owns (c : Thread nD τ) acc1_1 fullShare (outsAt1 V c (n - 1) (by omega)).2.2.2.2) ∗ rest1 c) ∗ (∃ r, prngReg c r)) := by
  cases n with
  | zero => exact absurd rfl hz
  | succ n => rfl

/-- At every position the invariant yields both accumulators at SOME contents (their named contents forgotten), the
    rest and the register: all a first tile needs, and what the launch takes back. -/
theorem PhiS1_open (c : Dev nD) (n : ℕ) (h : n ≤ cfg1.N) :
    PhiS1 V c n h ⊢ iprop(iprop(iprop((∃ d, owns (c : Thread nD τ) acc1_0 fullShare d) ∗ (∃ d, owns (c : Thread nD τ) acc1_1 fullShare d)) ∗ rest1 c) ∗ (∃ r, prngReg c r)) := by
  cases n with
  | zero => rw [PhiS1_zero V c 0 h rfl, PhiA1_eq]
  | succ n =>
    rw [PhiS1_succ]
    iintro ⟨⟨⟨HS0, HS1⟩, Hrest⟩, Hg⟩
    isplitl [HS0 HS1 Hrest]
    · isplitl [HS0 HS1]
      · isplitl [HS0]; · iexists _; iexact HS0
        iexists _; iexact HS1
      iexact Hrest
    iexact Hg

/-! ## The proof data of the region -/

/-- The proof data of region 1 on core `c`: the arrays as the region finds them; after the body at point `t` each
    input's buffer at its block and each output's at its component of the accumulation; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`: the invariant, what the core owes, and each window's current buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at a first tile. The invariant is opened to the accumulators at some contents (enough: the tile zeroes
    them before reading them), the inputs hold their blocks, the sum outputs pass through untouched; the case's run
    applies, and each buffer it wrote is read back through the cover of its pieces. -/
theorem sound_body1_A (c : Dev nD) (t : Fin cfg1.N) (h0 : t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t (fun h => h1 ((last1_iff t).mp h))) (noFlush1_5 t (fun h => h1 ((last1_iff t).mp h)))]
  rw [Dat.leavesExact_idle (dat1 V c) 6 t (idle1_6 t (fun h => h1 ((last1_iff t).mp h))) (noFlush1_6 t (fun h => h1 ((last1_iff t).mp h)))]
  rw [outsAt1_A V c t h0 h1]
  unfold leaves1_A out1_A_4 sout1_A_0 sout1_A_1; (try dsimp only)
  rw [PhiS1_castSucc V c t]
  iintro ⟨HP, Ho, ⟨%d0, H0⟩, ⟨%d1, H1⟩, ⟨%d2, H2⟩, ⟨%d3, H3⟩, ⟨%d4, H4⟩, ⟨%d5, H5⟩, ⟨%d6, H6⟩⟩
  ihave HQ := (PhiS1_open V c _ _) $$ HP
  icases HQ with ⟨⟨⟨HS0, HS1⟩, Hrest⟩, Hg⟩
  iapply ((run1_A c (grid1.coords t) _ _ _ _ _ _ _ _ _ _ _ _ _ _ _ _ _ _ ((first1_iff t).mpr h0) (fun h => h1 ((last1_iff t).mp h)) (iblk1 V c 0 t) (iblk1 V c 1 t) (iblk1 V c 2 t) (iblk1 V c 3 t)).2.2.2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, ⟨%e4, H4⟩, H5, H6, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _)
        · unfold owns; iexists _; isplitr
          swap; · iexact HS1
          ipureintro; exact View.read_writes_of_cover _ _ _ _ _ (scover1_A_1 c _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _ _ _ _ _ _ _)
  isplitl [H5]; · iexists _; iexact H5
  iexists _; iexact H6

set_option maxHeartbeats 4800000 in
/-- The body at a middle tile. The invariant holds the accumulators at what the tile before left, which is what the
    case's run is stated over; the sum outputs pass through untouched. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t (fun h => h1 ((last1_iff t).mp h))) (noFlush1_5 t (fun h => h1 ((last1_iff t).mp h)))]
  rw [Dat.leavesExact_idle (dat1 V c) 6 t (idle1_6 t (fun h => h1 ((last1_iff t).mp h))) (noFlush1_6 t (fun h => h1 ((last1_iff t).mp h)))]
  rw [outsAt1_B V c t h0 h1]
  unfold leaves1_B out1_B_4 sout1_B_0 sout1_B_1; (try dsimp only)
  rw [PhiS1_castSucc V c t, PhiS1_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1_B c (grid1.coords t) _ _ _ _ _ _ _ _ _ _ _ _ _ _ _ _ _ _ (fun h => h0 ((first1_iff t).mp h)) (fun h => h1 ((last1_iff t).mp h)) (iblk1 V c 0 t) (iblk1 V c 1 t) (iblk1 V c 2 t) (iblk1 V c 3 t) _ _).2.2.2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, ⟨%e4, H4⟩, H5, H6, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _)
        · unfold owns; iexists _; isplitr
          swap; · iexact HS1
          ipureintro; exact View.read_writes_of_cover _ _ _ _ _ (scover1_B_1 c _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_B_4 c _ _ _ _ _ _ _ _ _ _ _ _ _ _ _ _ _ _ _ _ _ _ _ _ _ _ _)
  isplitl [H5]; · iexists _; iexact H5
  iexists _; iexact H6

set_option maxHeartbeats 4800000 in
/-- The body at a last tile. As at a middle tile, and both sum outputs are live: handed over at anything, taken back
    with the accumulators' copies read back through the covers of their pieces. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t ((last1_iff t).mpr h1)], after1_5]
  rw [show (dat1 V c).leavesExact 6 t = owns (c : Thread nD τ) (ms1_6 t) fullShare ((dat1 V c).after 6 t) from by
    unfold Dat.leavesExact; rw [live1_6 t ((last1_iff t).mpr h1)], after1_6]
  rw [outsAt1_C V c t h0 h1]
  unfold leaves1_C out1_C_4 out1_C_5 out1_C_6 sout1_C_0 sout1_C_1; (try dsimp only)
  rw [PhiS1_castSucc V c t, PhiS1_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1_C c (grid1.coords t) _ _ _ _ _ _ _ _ _ _ _ _ _ _ _ _ _ _ (fun h => h0 ((first1_iff t).mp h)) ((last1_iff t).mpr h1) (iblk1 V c 0 t) (iblk1 V c 1 t) (iblk1 V c 2 t) (iblk1 V c 3 t) _ _).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_C_4 c _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover1_C_5 c _ _ _ _ _ _ _ _ _ _ _ _ _ _ _ _ _ _ _ _ _ _ _ _ _ _ _)
  unfold owns; iexists _; isplitr
  swap; · iexact H6
  ipureintro; exact View.read_writes_of_cover _ _ _ _ _ (cover1_C_6 c _ _ _ _ _ _ _ _ _ _ _ _ _ _ _ _ _ _ _ _ _ _ _ _ _ _ _)

/-- The body at any point: the closed forms of the two conditions say which tile of its batch the point is. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · exact sound_body1_A V c t h0 (by omega)
  · by_cases h1 : t.val % 4 = 3
    · exact sound_body1_C V c t h0 h1
    · exact sound_body1_B V c t h0 h1

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem phi_in1 (c : Dev nD) : Pipeline.ΦA spec1 c ⊢ (dat1 V c).Φ 0 := by
  rw [show (dat1 V c).Φ 0 = PhiS1 V c 0 (Nat.zero_le _) from rfl, PhiS1_zero V c 0 _ rfl]

/-- At every position the invariant gives back what the launch handed over: the accumulators' named contents are forgotten. -/
theorem phi_any1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  exact PhiS1_open V c _ _

/-- In particular after the last point. -/
theorem phi_out1 (c : Dev nD) : (dat1 V c).Φ (Fin.last cfg1.N) ⊢ Pipeline.ΦA spec1 c := phi_any1 V c _

end Cert.Kernel.Hand

end
-- ==== Proof.K.R2.lean ====
import proofs.«130369_j29137058136126_2_alg».proof.Proof.Gen.Kernel.Launch
import proofs.«130369_j29137058136126_2_alg».proof.Proof.Gen.Kernel.Skeleton
import proofs.«130369_j29137058136126_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the normalisation pass `y = (wy - mean) * rsqrt(var + eps) * gamma + beta + x`, block by block

Seven windows over a 4 x 4 grid (batch, row tile): the two [1,1024,1024] blocks of `wy` and `x` (windows 0, 1), the four
per-channel vectors mean, var, gamma, beta (windows 2 to 5, each whole), and the [1,1024,1024] block of the result
(window 6), overwritten whole at every point. Nothing is carried from one point to the next. Everything below is stated at
a parameter `V`, the contents of the core's buffers when the region is entered. -/

/-! ## The windows' blocks -/

/-- Window `w`'s block at grid point `t`, read off the array the region finds on entry (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point the staging buffer the body is handed holds the window's block there, whether
    or not the point fetched it (where it did not, the block index has not moved since the last fetch). Stated for any
    proof data whose array 0 is the entry contents and whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point the staging buffer the body is handed holds the window's block there, whether
    or not the point fetched it (where it did not, the block index has not moved since the last fetch). Stated for any
    proof data whose array 1 is the entry contents and whose body leaves that block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point the staging buffer the body is handed holds the window's block there, whether
    or not the point fetched it (where it did not, the block index has not moved since the last fetch). Stated for any
    proof data whose array 2 is the entry contents and whose body leaves that block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point the staging buffer the body is handed holds the window's block there, whether
    or not the point fetched it (where it did not, the block index has not moved since the last fetch). Stated for any
    proof data whose array 3 is the entry contents and whose body leaves that block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every grid point the staging buffer the body is handed holds the window's block there, whether
    or not the point fetched it (where it did not, the block index has not moved since the last fetch). Stated for any
    proof data whose array 4 is the entry contents and whose body leaves that block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: at every grid point the staging buffer the body is handed holds the window's block there, whether
    or not the point fetched it (where it did not, the block index has not moved since the last fetch). Stated for any
    proof data whose array 5 is the entry contents and whose body leaves that block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches -/

/-- The whole [1,1024,1024] block: every block load and the one store go through it. -/
abbrev rBlk2 : Rect S1x1024x1024 := Rect.unit (s := S1x1024x1024) ![0, 0, 0] S1x1024x1024.size inb_S1x1024x1024_S1x1024x1024_0_0_0
/-- The whole 1024-vector: every per-channel load goes through it. -/
abbrev rVec2 : Rect S1024 := Rect.unit (s := S1024) ![0] S1024.size inb_S1024_S1024_0

/-! ## What the body leaves in the output window's buffer -/

/-- Window 6's buffer after the body, as a function of the six input blocks `x0 … x5` (in WINDOW order: wy, x, mean, var,
    gamma, beta): the one store, whose payload is computed from the six loads. The body reads var before mean, so the
    payload's third argument is window 3's block and its fourth window 2's. -/
def out2_6 (x0 x1 : Vec F S1x1024x1024 .f32) (x2 x3 x4 x5 : Vec F S1024 .f32) : Vec F S1x1024x1024 .f32 :=
  View.canon [⟨rBlk2, k2_pay1 (View.ld x0 rBlk2) (View.ld x1 rBlk2) (View.ld x3 rVec2) (View.ld x2 rVec2) (View.ld x4 rVec2) (View.ld x5 rVec2)⟩]

/-- The one store's rectangle is the whole buffer, so it covers every index. -/
theorem cover2_6 (p0 : Vec F S1x1024x1024 .f32) (y : S1x1024x1024.Idx) :
    ∃ pc ∈ ([⟨rBlk2, p0⟩] : List (View.Piece (Elt F) S1x1024x1024 .f32)), y ∈ pc.1.set :=
  View.cover_of_tiled [⟨rBlk2, p0⟩] S1x1024x1024.size (by rfl) y

/-! ## The body's triple -/

set_option maxHeartbeats 1000000 in
/-- The body on whole staging buffers, the six inputs' at contents `x0 … x5` and the output's at anything: it runs to a
    continuation holding the inputs' as they were and the output's at `out2_6` of them. (The body also loads the output
    buffer before the store; the loaded value is used nowhere.) -/
theorem sound_kernel2 (c : Dev nD) (E : Set ℕ) (i : grid2.Coords) (arg2 : Memref sig .tc .vmem S1x1024x1024 .f32) (harg2 : arg2.IsWhole) (arg3 : Memref sig .tc .vmem S1x1024x1024 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1x1024x1024 .f32) (harg8 : arg8.IsWhole)
    (x0 x1 : Vec F S1x1024x1024 .f32) (x2 x3 x4 x5 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2__bn_kernel i arg2 harg2 arg3 harg3 arg4 harg4 arg5 harg5 arg6 harg6 arg7 harg7 arg8 harg8) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The region's proof data -/

/-- The proof data of region 2 on core `c`: the arrays as the region finds them (`V`); after the body at point `t` each
    input's buffer still at its block and the output's at `out2_6` of the six input blocks; the invariant holds the rest
    of the core's state untouched; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks (`before2_W`), so `sound_kernel2` applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Assembly.lean ====
/-
  The run of the kernel's @main, at any float instance: four host stretches and three pallas calls in order.
  Each pallas call enters with every unscoped buffer at a named valuation, runs its pipeline over the proof data
  of its own module (what every window's staging buffer holds after the body at each grid point, and what the
  kernel's carried scratch accumulators hold between points), and leaves its windows' arrays at the fold of the
  write-backs; the host stretches between them are folds of their operations. The result is `run_all`: every
  weakly fair execution terminates without a fault and every unscoped buffer ends at the last valuation `W7`,
  from which the frame (each argument array unchanged) is read off: no host stretch writes an argument, and a
  pallas call either reads it through an input window or does not touch it.
-/
import proofs.«130369_j29137058136126_2_alg».proof.Proof.Gen.Kernel.Launch
import proofs.«130369_j29137058136126_2_alg».proof.Proof.Gen.Kernel.Skeleton
import proofs.«130369_j29137058136126_2_alg».proof.Proof.Gen.Kernel.Points
import proofs.«130369_j29137058136126_2_alg».proof.Proof.Gen.Kernel.Regions
import proofs.«130369_j29137058136126_2_alg».proof.Proof.K.R0
import proofs.«130369_j29137058136126_2_alg».proof.Proof.K.R1
import proofs.«130369_j29137058136126_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The third pallas call carries no scratch: its invariant is the class invariant at every point. -/
theorem phi_in2 (V : (c : Dev nD) → (b : Ref sig .tc) → Buf (Elt F) ((c : Thread nD τ).loc b)) (c : Dev nD) :
    Pipeline.ΦA spec2 c ⊢ (dat2 V c).Φ 0 := by
  rw [show (dat2 V c).Φ 0 = Pipeline.ΦA spec2 c from rfl]
theorem phi_out2 (V : (c : Dev nD) → (b : Ref sig .tc) → Buf (Elt F) ((c : Thread nD τ).loc b)) (c : Dev nD) :
    (dat2 V c).Φ (Fin.last cfg2.N) ⊢ Pipeline.ΦA spec2 c := by
  rw [show (dat2 V c).Φ (Fin.last cfg2.N) = Pipeline.ΦA spec2 c from rfl]

/-! # The run of @main: four host stretches and three pallas calls, from the launch to the return

## What every unscoped buffer holds at each boundary -/

section Run
variable (m : (ℓ : Loc nD τ sig) → Buf (Elt F) ℓ) (ρ : Dev nD → PrngReg)

/-- Core `c`'s buffers at launch. -/
abbrev W0 : Dev nD → Valuation τ sig (Elt F) := fun c b => m (c, b)
/-- After the first host stretch (the reshape of `v` and the four transposed, converted weight matrices). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_keep (c : Dev nD) (r : Ref sig .tc) (h : r ∉ (hostOps0_W : List (Ref sig .tc))) : W1 m c r = W0 m c r :=
  StableHlo.after_of_writes_sub hostOps0 _ hostOps0_writes h

/-- After pallas call 0: its windows' arrays at what the pipeline's write-backs leave (`Dat.arrAt … N`: an input as
    entered, an output with each point's block written back), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- After the host stretch that follows. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
theorem W3_keep (c : Dev nD) (r : Ref sig .tc) (h : r ∉ (hostOps1_W : List (Ref sig .tc))) : W3 m c r = W2 m c r :=
  StableHlo.after_of_writes_sub hostOps1 _ hostOps1_writes h

/-- After pallas call 1: its windows' arrays at what the pipeline's write-backs leave (`Dat.arrAt … N`: an input as
    entered, an output with each point's block written back), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- An input window's array leaves the region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
/-- After the host stretch that follows. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
theorem W5_keep (c : Dev nD) (r : Ref sig .tc) (h : r ∉ (hostOps2_W : List (Ref sig .tc))) : W5 m c r = W4 m c r :=
  StableHlo.after_of_writes_sub hostOps2 _ hostOps2_writes h

/-- After pallas call 2: its windows' arrays at what the pipeline's write-backs leave (`Dat.arrAt … N`: an input as
    entered, an output with each point's block written back), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- An input window's array leaves the region as it entered. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
/-- After the host stretch that follows. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
theorem W7_keep (c : Dev nD) (r : Ref sig .tc) (h : r ∉ (hostOps3_W : List (Ref sig .tc))) : W7 m c r = W6 m c r :=
  StableHlo.after_of_writes_sub hostOps3 _ hostOps3_writes h

/-! ## The proof data of the three pipelines and the thread state -/

/-- Every pipeline's proof data, each at the contents its region is entered with — a literal `match`, so that the
    pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over all unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W7 m c) ∗ ∃ r, prngReg c r)

/-! ## The pallas calls as segments -/

/-- Of three resources keep the last and the first, in that order. -/
theorem sep_last_first {P Q S : sProp 𝕄} : iprop(P ∗ Q ∗ S) ⊢ iprop(S ∗ P) := by
  iintro ⟨HP, -, HS⟩
  isplitl [HS]; · iexact HS
  iexact HP
/-- Swap two resources, with nothing between them. -/
theorem sep_swap_emp {P Q : sProp 𝕄} : iprop(P ∗ Q) ⊢ iprop(Q ∗ BI.emp ∗ P) := by
  iintro ⟨HP, HQ⟩
  isplitl [HQ]; · iexact HQ
  isplitr; · iempintro
  iexact HP

-- a library lemma stated over `pin pcs a p` unifies with the pinned configuration only when unification may unfold
-- plain definitions in a metavariable's type
set_option backward.isDefEq.respectTransparency.types false in
/-- Pallas call 0 as a segment of @main: entered with every unscoped buffer at `W1`, left with them at `W2`.
    Its windows' arrays are split out of the unscoped buffers on entry and put back, at what the write-backs left, on
    exit; the generator register and the scoped rest pass through the region invariant; nothing is owed and the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := phi_in0 (V1 m) c
    unfold Pipeline.ΦA at h
    exact sep_last_first.trans h
  hout c := by
    rw [Pipeline.ownSems0_none]
    have h := phi_out0 (V1 m) c
    unfold Pipeline.ΦA at h
    exact h.trans sep_swap_emp
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Pallas call 1 as a segment of @main: entered with every unscoped buffer at `W3`, left with them at `W4`.
    Its windows' arrays are split out of the unscoped buffers on entry and put back, at what the write-backs left, on
    exit; the generator register and the scoped rest pass through the region invariant; nothing is owed and the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := phi_in1 (V3 m) c
    unfold Pipeline.ΦA at h
    exact sep_last_first.trans h
  hout c := by
    rw [Pipeline.ownSems0_none]
    have h := phi_out1 (V3 m) c
    unfold Pipeline.ΦA at h
    exact h.trans sep_swap_emp
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Pallas call 2 as a segment of @main: entered with every unscoped buffer at `W5`, left with them at `W6`.
    Its windows' arrays are split out of the unscoped buffers on entry and put back, at what the write-backs left, on
    exit; the generator register and the scoped rest pass through the region invariant; nothing is owed and the kernel
    has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := phi_in2 (V5 m) c
    unfold Pipeline.ΦA at h
    exact sep_last_first.trans h
  hout c := by
    rw [Pipeline.ownSems0_none]
    have h := phi_out2 (V5 m) c
    unfold Pipeline.ΦA at h
    exact h.trans sep_swap_emp
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main IS the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates without a fault, and
    in every final state every unscoped buffer holds what the fold `W7` says: the launch contents pushed through the
    four host stretches and the three pipelines' write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Run

/-! ## The argument arrays end as launched -/

section Frame
variable (m : (ℓ : Loc nD τ sig) → Buf (Elt F) ℓ) (ρ : Dev nD → PrngReg)

/-- A buffer no host stretch writes and that each pallas call either reads through an input window or does not touch
    holds at the end what it held at launch. -/
theorem W7_kept (c : Dev nD) (r : Ref sig .tc)
    (h3 : r ∉ (hostOps3_W : List (Ref sig .tc))) (h2 : r ∉ (hostOps2_W : List (Ref sig .tc)))
    (h1 : r ∉ (hostOps1_W : List (Ref sig .tc))) (h0 : r ∉ (hostOps0_W : List (Ref sig .tc)))
    (k2 : W6 m c r = W5 m c r) (k1 : W4 m c r = W3 m c r) (k0 : W2 m c r = W1 m c r) :
    W7 m c r = m ((c : Thread nD τ).loc r) :=
  (W7_keep m c r h3).trans <| k2.trans <| (W5_keep m c r h2).trans <| k1.trans <| (W3_keep m c r h1).trans <| k0.trans <| (W1_keep m c r h0).trans rfl

theorem W7_main_arg0 (c : Dev nD) : W7 m c main_arg0 = m ((c : Thread nD τ).loc main_arg0) :=
  W7_kept m c main_arg0 (by decide) (by decide) (by decide) (by decide) (W6_of_ne m c main_arg0 (by decide)) (W4_of_ne m c main_arg0 (by decide)) (W2_of_ne m c main_arg0 (by decide))
theorem W7_main_arg1 (c : Dev nD) : W7 m c main_arg1 = m ((c : Thread nD τ).loc main_arg1) :=
  W7_kept m c main_arg1 (by decide) (by decide) (by decide) (by decide) (W6_of_ne m c main_arg1 (by decide)) (W4_of_ne m c main_arg1 (by decide)) (W2_of_ne m c main_arg1 (by decide))
theorem W7_main_arg2 (c : Dev nD) : W7 m c main_arg2 = m ((c : Thread nD τ).loc main_arg2) :=
  W7_kept m c main_arg2 (by decide) (by decide) (by decide) (by decide) (W6_of_ne m c main_arg2 (by decide)) (W4_of_ne m c main_arg2 (by decide)) (W2_in m c 2 rfl)
theorem W7_main_arg3 (c : Dev nD) : W7 m c main_arg3 = m ((c : Thread nD τ).loc main_arg3) :=
  W7_kept m c main_arg3 (by decide) (by decide) (by decide) (by decide) (W6_of_ne m c main_arg3 (by decide)) (W4_of_ne m c main_arg3 (by decide)) (W2_of_ne m c main_arg3 (by decide))
theorem W7_main_arg4 (c : Dev nD) : W7 m c main_arg4 = m ((c : Thread nD τ).loc main_arg4) :=
  W7_kept m c main_arg4 (by decide) (by decide) (by decide) (by decide) (W6_of_ne m c main_arg4 (by decide)) (W4_of_ne m c main_arg4 (by decide)) (W2_in m c 6 rfl)
theorem W7_main_arg5 (c : Dev nD) : W7 m c main_arg5 = m ((c : Thread nD τ).loc main_arg5) :=
  W7_kept m c main_arg5 (by decide) (by decide) (by decide) (by decide) (W6_of_ne m c main_arg5 (by decide)) (W4_of_ne m c main_arg5 (by decide)) (W2_of_ne m c main_arg5 (by decide))
theorem W7_main_arg6 (c : Dev nD) : W7 m c main_arg6 = m ((c : Thread nD τ).loc main_arg6) :=
  W7_kept m c main_arg6 (by decide) (by decide) (by decide) (by decide) (W6_of_ne m c main_arg6 (by decide)) (W4_of_ne m c main_arg6 (by decide)) (W2_in m c 4 rfl)
theorem W7_main_arg7 (c : Dev nD) : W7 m c main_arg7 = m ((c : Thread nD τ).loc main_arg7) :=
  W7_kept m c main_arg7 (by decide) (by decide) (by decide) (by decide) (W6_of_ne m c main_arg7 (by decide)) (W4_of_ne m c main_arg7 (by decide)) (W2_of_ne m c main_arg7 (by decide))
theorem W7_main_arg8 (c : Dev nD) : W7 m c main_arg8 = m ((c : Thread nD τ).loc main_arg8) :=
  W7_kept m c main_arg8 (by decide) (by decide) (by decide) (by decide) (W6_of_ne m c main_arg8 (by decide)) (W4_in m c 3 rfl) (W2_of_ne m c main_arg8 (by decide))
theorem W7_main_arg9 (c : Dev nD) : W7 m c main_arg9 = m ((c : Thread nD τ).loc main_arg9) :=
  W7_kept m c main_arg9 (by decide) (by decide) (by decide) (by decide) (W6_in m c 4 rfl) (W4_of_ne m c main_arg9 (by decide)) (W2_of_ne m c main_arg9 (by decide))
theorem W7_main_arg10 (c : Dev nD) : W7 m c main_arg10 = m ((c : Thread nD τ).loc main_arg10) :=
  W7_kept m c main_arg10 (by decide) (by decide) (by decide) (by decide) (W6_in m c 5 rfl) (W4_of_ne m c main_arg10 (by decide)) (W2_of_ne m c main_arg10 (by decide))

/-- THE FRAME at any `F`: @main runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c)⟩) (run_all m ρ)

end Frame

end Cert.Kernel.Hand

end
-- ==== Proof.KI.R0Runs.lean ====
import proofs.«130369_j29137058136126_2_alg».proof.Proof.Gen.KernelIdeal.Launch
import proofs.«130369_j29137058136126_2_alg».proof.Proof.Gen.KernelIdeal.Skeleton
import proofs.«130369_j29137058136126_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

/-! # The first kernel (the Gram matrix of one batch, and the theta projection): what its three control cases share

The grid is 4 batches by 4 row tiles, walked batch-major, so a point `t` is tile `t mod 4` of batch `t / 4`.
The accumulator is cleared at tile 0, receives `phᵀ · gv` of the tile at every point, and at tile 3 is scaled by
`2⁻¹²` into the batch's block of the Gram output. The theta projection of the tile is stored at every point. -/

/-! ## The blocks the windows show -/

/-- The block window `w` shows at point `t`: read off the window's array as the kernel finds it. -/
def inBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's current buffer holds its block at every point, whether or not the point fetched it (when it did not,
    the block index stood still), for any proof data over these arrays that leaves the block in place. -/
theorem holds_in0_0 {c : Dev nD} (dat : Dat τ (Elt F) Unit ℕ (UR sig nD τ) ℕ cfg0 c) (hA : dat.A 0 = V c (Pipeline.arrRef spec0 0))
    (hafter : ∀ t, dat.after 0 t = inBlock0 V c 0 t) (t : Fin cfg0.N) (d) : dat.before 0 t d = inBlock0 V c 0 t :=
  (dat.before_in_eq_fetched 0 rfl (fun _ => rfl) (fun _ _ _ => rfl) (fun t => by rw [hafter]; unfold Dat.blockOf inBlock0; rw [hA]; try rfl) t d).trans
    (by unfold Dat.fetched Dat.blockOf inBlock0; rw [hA]; try rfl)

/-- Input 1's current buffer holds its block at every point, whether or not the point fetched it (when it did not,
    the block index stood still), for any proof data over these arrays that leaves the block in place. -/
theorem holds_in0_1 {c : Dev nD} (dat : Dat τ (Elt F) Unit ℕ (UR sig nD τ) ℕ cfg0 c) (hA : dat.A 1 = V c (Pipeline.arrRef spec0 1))
    (hafter : ∀ t, dat.after 1 t = inBlock0 V c 1 t) (t : Fin cfg0.N) (d) : dat.before 1 t d = inBlock0 V c 1 t :=
  (dat.before_in_eq_fetched 1 rfl (fun _ => rfl) (fun _ _ _ => rfl) (fun t => by rw [hafter]; unfold Dat.blockOf inBlock0; rw [hA]; try rfl) t d).trans
    (by unfold Dat.fetched Dat.blockOf inBlock0; rw [hA]; try rfl)

/-- Input 2's current buffer holds its block at every point, whether or not the point fetched it (when it did not,
    the block index stood still), for any proof data over these arrays that leaves the block in place. -/
theorem holds_in0_2 {c : Dev nD} (dat : Dat τ (Elt F) Unit ℕ (UR sig nD τ) ℕ cfg0 c) (hA : dat.A 2 = V c (Pipeline.arrRef spec0 2))
    (hafter : ∀ t, dat.after 2 t = inBlock0 V c 2 t) (t : Fin cfg0.N) (d) : dat.before 2 t d = inBlock0 V c 2 t :=
  (dat.before_in_eq_fetched 2 rfl (fun _ => rfl) (fun _ _ _ => rfl) (fun t => by rw [hafter]; unfold Dat.blockOf inBlock0; rw [hA]; try rfl) t d).trans
    (by unfold Dat.fetched Dat.blockOf inBlock0; rw [hA]; try rfl)

/-- Input 3's current buffer holds its block at every point, whether or not the point fetched it (when it did not,
    the block index stood still), for any proof data over these arrays that leaves the block in place. -/
theorem holds_in0_3 {c : Dev nD} (dat : Dat τ (Elt F) Unit ℕ (UR sig nD τ) ℕ cfg0 c) (hA : dat.A 3 = V c (Pipeline.arrRef spec0 3))
    (hafter : ∀ t, dat.after 3 t = inBlock0 V c 3 t) (t : Fin cfg0.N) (d) : dat.before 3 t d = inBlock0 V c 3 t :=
  (dat.before_in_eq_fetched 3 rfl (fun _ => rfl) (fun _ _ _ => rfl) (fun t => by rw [hafter]; unfold Dat.blockOf inBlock0; rw [hA]; try rfl) t d).trans
    (by unfold Dat.fetched Dat.blockOf inBlock0; rw [hA]; try rfl)

/-- Input 4's current buffer holds its block at every point, whether or not the point fetched it (when it did not,
    the block index stood still), for any proof data over these arrays that leaves the block in place. -/
theorem holds_in0_4 {c : Dev nD} (dat : Dat τ (Elt F) Unit ℕ (UR sig nD τ) ℕ cfg0 c) (hA : dat.A 4 = V c (Pipeline.arrRef spec0 4))
    (hafter : ∀ t, dat.after 4 t = inBlock0 V c 4 t) (t : Fin cfg0.N) (d) : dat.before 4 t d = inBlock0 V c 4 t :=
  (dat.before_in_eq_fetched 4 rfl (fun _ => rfl) (fun _ _ _ => rfl) (fun t => by rw [hafter]; unfold Dat.blockOf inBlock0; rw [hA]; try rfl) t d).trans
    (by unfold Dat.fetched Dat.blockOf inBlock0; rw [hA]; try rfl)

/-- Input 5's current buffer holds its block at every point, whether or not the point fetched it (when it did not,
    the block index stood still), for any proof data over these arrays that leaves the block in place. -/
theorem holds_in0_5 {c : Dev nD} (dat : Dat τ (Elt F) Unit ℕ (UR sig nD τ) ℕ cfg0 c) (hA : dat.A 5 = V c (Pipeline.arrRef spec0 5))
    (hafter : ∀ t, dat.after 5 t = inBlock0 V c 5 t) (t : Fin cfg0.N) (d) : dat.before 5 t d = inBlock0 V c 5 t :=
  (dat.before_in_eq_fetched 5 rfl (fun _ => rfl) (fun _ _ _ => rfl) (fun t => by rw [hafter]; unfold Dat.blockOf inBlock0; rw [hA]; try rfl) t d).trans
    (by unfold Dat.fetched Dat.blockOf inBlock0; rw [hA]; try rfl)

/-- Input 6's current buffer holds its block at every point, whether or not the point fetched it (when it did not,
    the block index stood still), for any proof data over these arrays that leaves the block in place. -/
theorem holds_in0_6 {c : Dev nD} (dat : Dat τ (Elt F) Unit ℕ (UR sig nD τ) ℕ cfg0 c) (hA : dat.A 6 = V c (Pipeline.arrRef spec0 6))
    (hafter : ∀ t, dat.after 6 t = inBlock0 V c 6 t) (t : Fin cfg0.N) (d) : dat.before 6 t d = inBlock0 V c 6 t :=
  (dat.before_in_eq_fetched 6 rfl (fun _ => rfl) (fun _ _ _ => rfl) (fun t => by rw [hafter]; unfold Dat.blockOf inBlock0; rw [hA]; try rfl) t d).trans
    (by unfold Dat.fetched Dat.blockOf inBlock0; rw [hA]; try rfl)

/-! ## The two conditions, over the grid -/

/-- "This is the first row tile of its batch": the test guarding the clearing of the accumulator, as the body spells it. -/
abbrev firstTile (i : grid0.Coords) : Prop := (Scalar.cmpi .ne (Scalar.extui (Scalar.cmpi .eq (BitVec.ofNat 32 (i 1).val) 0#32)) 0#32) = 1#1
/-- It holds exactly at the points ≡ 0 (mod 4). -/
theorem firstTile_iff : ∀ t : Fin cfg0.N, firstTile (grid0.coords t) ↔ t.val % 4 = 0 :=
  (by decide +kernel : ∀ t : Fin grid0.N, firstTile (grid0.coords t) ↔ t.val % 4 = 0)

/-- "This is the last row tile of its batch": the test guarding the read-out of the accumulator. -/
abbrev lastTile (i : grid0.Coords) : Prop := k0_cond2 i = 1#1
/-- It holds exactly at the points ≡ 3 (mod 4). -/
theorem lastTile_iff : ∀ t : Fin cfg0.N, lastTile (grid0.coords t) ↔ t.val % 4 = 3 :=
  (by decide +kernel : ∀ t : Fin grid0.N, lastTile (grid0.coords t) ↔ t.val % 4 = 3)

/-! ## Where a window is idle -/

/-- Window 0 is used at every point. -/
theorem busy0_0 : ∀ t : Fin cfg0.N, cfg0.idle 0 (grid0.coords t) = false := by decide +kernel
/-- Window 1 is used at every point. -/
theorem busy0_1 : ∀ t : Fin cfg0.N, cfg0.idle 1 (grid0.coords t) = false := by decide +kernel
/-- Window 2 is used at every point. -/
theorem busy0_2 : ∀ t : Fin cfg0.N, cfg0.idle 2 (grid0.coords t) = false := by decide +kernel
/-- Window 3 is used at every point. -/
theorem busy0_3 : ∀ t : Fin cfg0.N, cfg0.idle 3 (grid0.coords t) = false := by decide +kernel
/-- Window 4 is used at every point. -/
theorem busy0_4 : ∀ t : Fin cfg0.N, cfg0.idle 4 (grid0.coords t) = false := by decide +kernel
/-- Window 5 is used at every point. -/
theorem busy0_5 : ∀ t : Fin cfg0.N, cfg0.idle 5 (grid0.coords t) = false := by decide +kernel
/-- Window 6 is used at every point. -/
theorem busy0_6 : ∀ t : Fin cfg0.N, cfg0.idle 6 (grid0.coords t) = false := by decide +kernel
/-- Window 8 is used at every point. -/
theorem busy0_8 : ∀ t : Fin cfg0.N, cfg0.idle 8 (grid0.coords t) = false := by decide +kernel
/-- At a first tile the Gram output's window is idle: nothing is stored into it, -/
theorem idle0_7_first : ∀ t : Fin cfg0.N, firstTile (grid0.coords t) → ¬lastTile (grid0.coords t) → cfg0.idle 7 (grid0.coords t) = true := by decide +kernel
/-- and its block is not written back. -/
theorem keep0_7_first : ∀ t : Fin cfg0.N, firstTile (grid0.coords t) → ¬lastTile (grid0.coords t) → (cfg0.win 7).flush t = false := by decide +kernel
/-- The same at a middle tile. -/
theorem idle0_7_mid : ∀ t : Fin cfg0.N, ¬firstTile (grid0.coords t) → ¬lastTile (grid0.coords t) → cfg0.idle 7 (grid0.coords t) = true := by decide +kernel
theorem keep0_7_mid : ∀ t : Fin cfg0.N, ¬firstTile (grid0.coords t) → ¬lastTile (grid0.coords t) → (cfg0.win 7).flush t = false := by decide +kernel
/-- At a last tile the Gram output's window is stored into. -/
theorem busy0_7_last : ∀ t : Fin cfg0.N, ¬firstTile (grid0.coords t) → lastTile (grid0.coords t) → cfg0.idle 7 (grid0.coords t) = false := by decide +kernel

/-! ## The memrefs the body is called on -/

/-- One buffer of each output window, through whose view its contents are stated (any of its buffers would do). -/
abbrev gramV : View sig .tc .vmem S1x512x512 .f32 := (Memref.whole cc0_stg7_0 : Memref sig .tc .vmem S1x512x512 .f32).view
abbrev thetaV : View sig .tc .vmem S1x1024x512 .bf16 := (Memref.whole cc0_stg8_0 : Memref sig .tc .vmem S1x1024x512 .bf16).view
/-- Window 0's current buffer at point `t`, spelt as the body is called with it; it is a whole buffer. -/
abbrev cur0_0 (t : Fin cfg0.N) : Memref sig .tc .vmem S1x1024x1024 .f32 := win0_0.stage (cfg0.slots t 0)
abbrev cur0_0_whole (t : Fin cfg0.N) : (cur0_0 t).IsWhole := hstage0_0 ((cfg0.slots t 0).cast nbuf0_0)
/-- Window 1's current buffer at point `t`, spelt as the body is called with it; it is a whole buffer. -/
abbrev cur0_1 (t : Fin cfg0.N) : Memref sig .tc .vmem S1024x512 .bf16 := win0_1.stage (cfg0.slots t 1)
abbrev cur0_1_whole (t : Fin cfg0.N) : (cur0_1 t).IsWhole := hstage0_1 ((cfg0.slots t 1).cast nbuf0_1)
/-- Window 2's current buffer at point `t`, spelt as the body is called with it; it is a whole buffer. -/
abbrev cur0_2 (t : Fin cfg0.N) : Memref sig .tc .vmem S512 .f32 := win0_2.stage (cfg0.slots t 2)
abbrev cur0_2_whole (t : Fin cfg0.N) : (cur0_2 t).IsWhole := hstage0_2 ((cfg0.slots t 2).cast nbuf0_2)
/-- Window 3's current buffer at point `t`, spelt as the body is called with it; it is a whole buffer. -/
abbrev cur0_3 (t : Fin cfg0.N) : Memref sig .tc .vmem S1024x512 .bf16 := win0_3.stage (cfg0.slots t 3)
abbrev cur0_3_whole (t : Fin cfg0.N) : (cur0_3 t).IsWhole := hstage0_3 ((cfg0.slots t 3).cast nbuf0_3)
/-- Window 4's current buffer at point `t`, spelt as the body is called with it; it is a whole buffer. -/
abbrev cur0_4 (t : Fin cfg0.N) : Memref sig .tc .vmem S512 .f32 := win0_4.stage (cfg0.slots t 4)
abbrev cur0_4_whole (t : Fin cfg0.N) : (cur0_4 t).IsWhole := hstage0_4 ((cfg0.slots t 4).cast nbuf0_4)
/-- Window 5's current buffer at point `t`, spelt as the body is called with it; it is a whole buffer. -/
abbrev cur0_5 (t : Fin cfg0.N) : Memref sig .tc .vmem S1024x512 .bf16 := win0_5.stage (cfg0.slots t 5)
abbrev cur0_5_whole (t : Fin cfg0.N) : (cur0_5 t).IsWhole := hstage0_5 ((cfg0.slots t 5).cast nbuf0_5)
/-- Window 6's current buffer at point `t`, spelt as the body is called with it; it is a whole buffer. -/
abbrev cur0_6 (t : Fin cfg0.N) : Memref sig .tc .vmem S512 .f32 := win0_6.stage (cfg0.slots t 6)
abbrev cur0_6_whole (t : Fin cfg0.N) : (cur0_6 t).IsWhole := hstage0_6 ((cfg0.slots t 6).cast nbuf0_6)
/-- Window 7's current buffer at point `t`, spelt as the body is called with it; it is a whole buffer. -/
abbrev cur0_7 (t : Fin cfg0.N) : Memref sig .tc .vmem S1x512x512 .f32 := win0_7.stage (cfg0.slots t 7)
abbrev cur0_7_whole (t : Fin cfg0.N) : (cur0_7 t).IsWhole := hstage0_7 ((cfg0.slots t 7).cast nbuf0_7)
/-- Window 8's current buffer at point `t`, spelt as the body is called with it; it is a whole buffer. -/
abbrev cur0_8 (t : Fin cfg0.N) : Memref sig .tc .vmem S1x1024x512 .bf16 := win0_8.stage (cfg0.slots t 8)
abbrev cur0_8_whole (t : Fin cfg0.N) : (cur0_8 t).IsWhole := hstage0_8 ((cfg0.slots t 8).cast nbuf0_8)
/-- The accumulator: a whole buffer of the kernel's own, passed beside the windows; and its view. -/
abbrev accM : Memref sig .tc .vmem S512x512 .f32 := Memref.whole cc0_scratch0
abbrev accV : View sig .tc .vmem S512x512 .f32 := accM.view

/-- What the launch hands the kernel besides its windows, with the accumulator taken out of the other scoped buffers:
    the accumulator at some contents, every other scoped buffer unopened, the generator register at some state. -/
theorem entry0_split (c : Dev nD) :
    (Pipeline.ΦA spec0 c : sProp 𝕄)
      = iprop(iprop(iprop((∃ d, owns (c : Thread nD τ) accM fullShare d)) ∗ Pipeline.scopedRestBut spec0 c [cc0_scratch0]) ∗ (∃ r, prngReg c r)) := by
  unfold Pipeline.ΦA; rw [scopedRest0_split]; simp only [accM, owns_whole]; try rfl

end Cert.KernelIdeal.Hand

end
-- ==== Proof.KI.R0RunA.lean ====
import proofs.«130369_j29137058136126_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

set_option maxHeartbeats 1000000 in
/-- THE BODY AT A FIRST TILE (the clearing branch taken, the read-out branch not). On whole buffers — the seven inputs at
    their contents `x·`, the Gram output's buffer at contents `xi7` it does not touch, the theta output's buffer and the
    accumulator at anything — the body runs to a continuation holding the inputs as they were, the Gram buffer still at
    `xi7`, the theta buffer with the pieces `L8` written and the accumulator with the pieces `LS` written. The pieces
    are what the body's stores, followed one by one in order, write. -/
noncomputable def runFirst0 (c : Dev nD) (i : grid0.Coords) (arg2 : Memref sig .tc .vmem S1x1024x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S1024x512 .bf16) (harg5 : arg5.IsWhole) (arg6 : Memref sig .tc .vmem S512 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1024x512 .bf16) (harg10 : arg10.IsWhole) (arg11 : Memref sig .tc .vmem S512x512 .f32) (harg11 : arg11.IsWhole) (hc0 : firstTile i) (hc1 : ¬lastTile i)
    (x0 : Vec F S1x1024x1024 .f32) (x1 : Vec F S1024x512 .bf16) (x2 : Vec F S512 .f32) (x3 : Vec F S1024x512 .bf16) (x4 : Vec F S512 .f32) (x5 : Vec F S1024x512 .bf16) (x6 : Vec F S512 .f32) :
    Σ' (L7 : List (View.Piece (Elt F) S1x512x512 .f32)) (L8 : List (View.Piece (Elt F) S1x1024x512 .bf16)), { LS : List (View.Piece (Elt F) S512x512 .f32) //
      ∀ (xi7 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__m_th_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc0__m_th_kernel_eq_skeleton]; unfold cc0__m_th_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.KernelIdeal.Hand

end
-- ==== Proof.KI.R0RunB.lean ====
import proofs.«130369_j29137058136126_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

set_option maxHeartbeats 1000000 in
/-- THE BODY AT A MIDDLE TILE (neither branch taken). As at a first tile, but the accumulator is read before it is
    stored, so it comes in at the contents `xs` the tile before left. -/
noncomputable def runMid0 (c : Dev nD) (i : grid0.Coords) (arg2 : Memref sig .tc .vmem S1x1024x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S1024x512 .bf16) (harg5 : arg5.IsWhole) (arg6 : Memref sig .tc .vmem S512 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1024x512 .bf16) (harg10 : arg10.IsWhole) (arg11 : Memref sig .tc .vmem S512x512 .f32) (harg11 : arg11.IsWhole) (hc0 : ¬firstTile i) (hc1 : ¬lastTile i)
    (x0 : Vec F S1x1024x1024 .f32) (x1 : Vec F S1024x512 .bf16) (x2 : Vec F S512 .f32) (x3 : Vec F S1024x512 .bf16) (x4 : Vec F S512 .f32) (x5 : Vec F S1024x512 .bf16) (x6 : Vec F S512 .f32) (xs : Vec F S512x512 .f32) :
    Σ' (L7 : List (View.Piece (Elt F) S1x512x512 .f32)) (L8 : List (View.Piece (Elt F) S1x1024x512 .bf16)), { LS : List (View.Piece (Elt F) S512x512 .f32) //
      ∀ (xi7 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__m_th_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc0__m_th_kernel_eq_skeleton]; unfold cc0__m_th_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.KernelIdeal.Hand

end
-- ==== Proof.KI.R0RunC.lean ====
import proofs.«130369_j29137058136126_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

set_option maxHeartbeats 1000000 in
/-- THE BODY AT A LAST TILE (the clearing branch not taken, the read-out branch taken). The accumulator comes in at the
    contents `xs` the tile before left; the Gram output's buffer comes in at anything and leaves with the pieces `L7`
    written. -/
noncomputable def runLast0 (c : Dev nD) (i : grid0.Coords) (arg2 : Memref sig .tc .vmem S1x1024x1024 .f32) (harg2 : arg2.IsWhole) (arg3 : Memref sig .tc .vmem S1024x512 .bf16) (harg3 : arg3.IsWhole) (arg4 : Memref sig .tc .vmem S512 .f32) (harg4 : arg4.IsWhole) (arg5 : Memref sig .tc .vmem S1024x512 .bf16) (harg5 : arg5.IsWhole) (arg6 : Memref sig .tc .vmem S512 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1024x512 .bf16) (harg10 : arg10.IsWhole) (arg11 : Memref sig .tc .vmem S512x512 .f32) (harg11 : arg11.IsWhole) (hc0 : ¬firstTile i) (hc1 : lastTile i)
    (x0 : Vec F S1x1024x1024 .f32) (x1 : Vec F S1024x512 .bf16) (x2 : Vec F S512 .f32) (x3 : Vec F S1024x512 .bf16) (x4 : Vec F S512 .f32) (x5 : Vec F S1024x512 .bf16) (x6 : Vec F S512 .f32) (xs : Vec F S512x512 .f32) :
    Σ' (L7 : List (View.Piece (Elt F) S1x512x512 .f32)) (L8 : List (View.Piece (Elt F) S1x1024x512 .bf16)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__m_th_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__m_th_kernel_eq_skeleton]; unfold cc0__m_th_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

end Cert.KernelIdeal.Hand

end
-- ==== Proof.KI.R0.lean ====
import proofs.«130369_j29137058136126_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

/-! # The first kernel: what every point leaves, the proof data, and the body obligation

The three runs (first, middle, last tile) are taken at a grid point's own buffers and blocks; what the outputs and the
accumulator hold after each point is then a recursion on the point — the accumulator a middle or last tile starts from is
the one the point before left —, and the body obligation is a case split on `t mod 4`. -/

/-! ## The runs at a grid point -/

theorem first_not_last (t : Fin cfg0.N) (h0 : t.val % 4 = 0) : ¬lastTile (grid0.coords t) :=
  fun h => by have := (lastTile_iff t).mp h; omega
theorem not_first (t : Fin cfg0.N) (h0 : ¬t.val % 4 = 0) : ¬firstTile (grid0.coords t) :=
  fun h => h0 ((firstTile_iff t).mp h)
theorem not_last (t : Fin cfg0.N) (h1 : ¬t.val % 4 = 3) : ¬lastTile (grid0.coords t) :=
  fun h => h1 ((lastTile_iff t).mp h)

/-- The first-tile run on point `t`'s buffers, the inputs at their blocks. -/
def firstAt0 (c : Dev nD) (t : Fin cfg0.N) (h0 : t.val % 4 = 0) :=
  runFirst0 (F := F) c (grid0.coords t) (cur0_0 t) (cur0_0_whole t) (cur0_1 t) (cur0_1_whole t) (cur0_2 t) (cur0_2_whole t) (cur0_3 t) (cur0_3_whole t) (cur0_4 t) (cur0_4_whole t) (cur0_5 t) (cur0_5_whole t) (cur0_6 t) (cur0_6_whole t) (cur0_7 t) (cur0_7_whole t) (cur0_8 t) (cur0_8_whole t) accM (Memref.isWhole_whole _) ((firstTile_iff t).mpr h0) (first_not_last t h0) (inBlock0 V c 0 t) (inBlock0 V c 1 t) (inBlock0 V c 2 t) (inBlock0 V c 3 t) (inBlock0 V c 4 t) (inBlock0 V c 5 t) (inBlock0 V c 6 t)
/-- The middle-tile run on point `t`'s buffers, the accumulator starting at `xs`. -/
def midAt0 (c : Dev nD) (t : Fin cfg0.N) (h0 : ¬t.val % 4 = 0) (h1 : ¬t.val % 4 = 3) (xs : Vec F S512x512 .f32) :=
  runMid0 (F := F) c (grid0.coords t) (cur0_0 t) (cur0_0_whole t) (cur0_1 t) (cur0_1_whole t) (cur0_2 t) (cur0_2_whole t) (cur0_3 t) (cur0_3_whole t) (cur0_4 t) (cur0_4_whole t) (cur0_5 t) (cur0_5_whole t) (cur0_6 t) (cur0_6_whole t) (cur0_7 t) (cur0_7_whole t) (cur0_8 t) (cur0_8_whole t) accM (Memref.isWhole_whole _) (not_first t h0) (not_last t h1) (inBlock0 V c 0 t) (inBlock0 V c 1 t) (inBlock0 V c 2 t) (inBlock0 V c 3 t) (inBlock0 V c 4 t) (inBlock0 V c 5 t) (inBlock0 V c 6 t) xs
/-- The last-tile run on point `t`'s buffers, the accumulator starting at `xs`. -/
def lastAt0 (c : Dev nD) (t : Fin cfg0.N) (h0 : ¬t.val % 4 = 0) (h1 : t.val % 4 = 3) (xs : Vec F S512x512 .f32) :=
  runLast0 (F := F) c (grid0.coords t) (cur0_0 t) (cur0_0_whole t) (cur0_1 t) (cur0_1_whole t) (cur0_2 t) (cur0_2_whole t) (cur0_3 t) (cur0_3_whole t) (cur0_4 t) (cur0_4_whole t) (cur0_5 t) (cur0_5_whole t) (cur0_6 t) (cur0_6_whole t) (cur0_7 t) (cur0_7_whole t) (cur0_8 t) (cur0_8_whole t) accM (Memref.isWhole_whole _) (not_first t h0) ((lastTile_iff t).mpr h1) (inBlock0 V c 0 t) (inBlock0 V c 1 t) (inBlock0 V c 2 t) (inBlock0 V c 3 t) (inBlock0 V c 4 t) (inBlock0 V c 5 t) (inBlock0 V c 6 t) xs

/-! ## Pieces read back -/

/-- A list of pieces written over a buffer and read back through the Gram window's view (over contents nothing reads when
    the pieces cover the block). -/
def gramOf (L : List (View.Piece (Elt F) S1x512x512 .f32)) : Vec F S1x512x512 .f32 :=
  gramV.read (Elt F) (gramV.writes (Elt F) gramV.junk L)
/-- The same through the theta window's view. -/
def thetaOf (L : List (View.Piece (Elt F) S1x1024x512 .bf16)) : Vec F S1x1024x512 .bf16 :=
  thetaV.read (Elt F) (thetaV.writes (Elt F) thetaV.junk L)
/-- The same through the accumulator's view. -/
def accOf (L : List (View.Piece (Elt F) S512x512 .f32)) : Vec F S512x512 .f32 :=
  accV.read (Elt F) (accV.writes (Elt F) accV.junk L)

/-- What a point leaves: the Gram window's buffer, the theta window's buffer, the accumulator. -/
abbrev Left0 (F : FTy → Type) : Type := Vec F S1x512x512 .f32 × Vec F S1x1024x512 .bf16 × Vec F S512x512 .f32

/-- A first tile leaves: nothing of its own in the Gram buffer (the window is idle there: the first component is a
    value nothing reads), the tile's theta rows, and the accumulator at the tile's `phᵀ · gv` over zero. -/
def leftFirst0 (c : Dev nD) (t : Fin cfg0.N) (h0 : t.val % 4 = 0) : Left0 F :=
  (gramOf (firstAt0 V c t h0).1, thetaOf (firstAt0 V c t h0).2.1, accOf (firstAt0 V c t h0).2.2.1)
/-- A middle tile leaves: the same unread Gram component, the tile's theta rows, the accumulator `xs` plus the tile's `phᵀ · gv`. -/
def leftMid0 (c : Dev nD) (t : Fin cfg0.N) (h0 : ¬t.val % 4 = 0) (h1 : ¬t.val % 4 = 3) (xs : Vec F S512x512 .f32) : Left0 F :=
  (gramOf (midAt0 V c t h0 h1 xs).1, thetaOf (midAt0 V c t h0 h1 xs).2.1, accOf (midAt0 V c t h0 h1 xs).2.2.1)
/-- A last tile leaves: the Gram block (the finished accumulator times `2⁻¹²`), the tile's theta rows, the finished accumulator. -/
def leftLast0 (c : Dev nD) (t : Fin cfg0.N) (h0 : ¬t.val % 4 = 0) (h1 : t.val % 4 = 3) (xs : Vec F S512x512 .f32) : Left0 F :=
  (gramOf (lastAt0 V c t h0 h1 xs).1, thetaOf (lastAt0 V c t h0 h1 xs).2.1, accOf (lastAt0 V c t h0 h1 xs).2.2.1)

/-! ## The stores of each case cover what they should -/

/-- Each case's theta store is the whole block; each case's last accumulator store is the whole accumulator; the last
    tile's Gram store is the whole block. (One whole-shape rectangle tiles the shape: decided by evaluating the
    rectangles, never the payloads.) -/
theorem first_theta_cover (c : Dev nD) (t : Fin cfg0.N) (h0 : t.val % 4 = 0) (y : S1x1024x512.Idx) :
    ∃ pc ∈ (firstAt0 V c t h0).2.1, y ∈ pc.1.set :=
  View.cover_of_tiledL (firstAt0 V c t h0).2.1 S1x1024x512.size (by sl_kernel_rfl) y
theorem first_acc_cover (c : Dev nD) (t : Fin cfg0.N) (h0 : t.val % 4 = 0) (y : S512x512.Idx) :
    ∃ pc ∈ (firstAt0 V c t h0).2.2.1, y ∈ pc.1.set :=
  View.cover_of_tiledL (firstAt0 V c t h0).2.2.1 S512x512.size (by sl_kernel_rfl) y
theorem mid_theta_cover (c : Dev nD) (t : Fin cfg0.N) (h0 : ¬t.val % 4 = 0) (h1 : ¬t.val % 4 = 3) (xs : Vec F S512x512 .f32) (y : S1x1024x512.Idx) :
    ∃ pc ∈ (midAt0 V c t h0 h1 xs).2.1, y ∈ pc.1.set :=
  View.cover_of_tiledL (midAt0 V c t h0 h1 xs).2.1 S1x1024x512.size (by sl_kernel_rfl) y
theorem mid_acc_cover (c : Dev nD) (t : Fin cfg0.N) (h0 : ¬t.val % 4 = 0) (h1 : ¬t.val % 4 = 3) (xs : Vec F S512x512 .f32) (y : S512x512.Idx) :
    ∃ pc ∈ (midAt0 V c t h0 h1 xs).2.2.1, y ∈ pc.1.set :=
  View.cover_of_tiledL (midAt0 V c t h0 h1 xs).2.2.1 S512x512.size (by sl_kernel_rfl) y
theorem last_gram_cover (c : Dev nD) (t : Fin cfg0.N) (h0 : ¬t.val % 4 = 0) (h1 : t.val % 4 = 3) (xs : Vec F S512x512 .f32) (y : S1x512x512.Idx) :
    ∃ pc ∈ (lastAt0 V c t h0 h1 xs).1, y ∈ pc.1.set :=
  View.cover_of_tiledL (lastAt0 V c t h0 h1 xs).1 S1x512x512.size (by sl_kernel_rfl) y
theorem last_theta_cover (c : Dev nD) (t : Fin cfg0.N) (h0 : ¬t.val % 4 = 0) (h1 : t.val % 4 = 3) (xs : Vec F S512x512 .f32) (y : S1x1024x512.Idx) :
    ∃ pc ∈ (lastAt0 V c t h0 h1 xs).2.1, y ∈ pc.1.set :=
  View.cover_of_tiledL (lastAt0 V c t h0 h1 xs).2.1 S1x1024x512.size (by sl_kernel_rfl) y
theorem last_acc_cover (c : Dev nD) (t : Fin cfg0.N) (h0 : ¬t.val % 4 = 0) (h1 : t.val % 4 = 3) (xs : Vec F S512x512 .f32) (y : S512x512.Idx) :
    ∃ pc ∈ (lastAt0 V c t h0 h1 xs).2.2.1, y ∈ pc.1.set :=
  View.cover_of_tiledL (lastAt0 V c t h0 h1 xs).2.2.1 S512x512.size (by sl_kernel_rfl) y

/-! ## What every point leaves -/

/-- THE ACCUMULATION, point by point: point 0 is a first tile; a later point is a first tile (which starts afresh), or a
    last or middle tile continuing from the accumulator the point before left. -/
def leftAt0 (c : Dev nD) : (n : ℕ) → n < cfg0.N → Left0 F
  | 0, hn => leftFirst0 V c ⟨0, hn⟩ (Nat.zero_mod 4)
  | n + 1, hn =>
    if h0 : (n + 1) % 4 = 0 then leftFirst0 V c ⟨n + 1, hn⟩ h0
    else if h1 : (n + 1) % 4 = 3 then leftLast0 V c ⟨n + 1, hn⟩ h0 h1 (leftAt0 c n (Nat.lt_of_succ_lt hn)).2.2
    else leftMid0 V c ⟨n + 1, hn⟩ h0 h1 (leftAt0 c n (Nat.lt_of_succ_lt hn)).2.2

theorem leftAt0_first (c : Dev nD) (t : Fin cfg0.N) (h0 : t.val % 4 = 0) :
    leftAt0 V c t.val t.isLt = leftFirst0 V c t h0 := by
  obtain ⟨n, hn⟩ := t
  cases n with
  | zero => exact rfl
  | succ n => exact (dif_pos h0).trans rfl

theorem leftAt0_mid (c : Dev nD) (t : Fin cfg0.N) (h0 : ¬t.val % 4 = 0) (h1 : ¬t.val % 4 = 3) :
    leftAt0 V c t.val t.isLt = leftMid0 V c t h0 h1 (leftAt0 V c (t.val - 1) (Nat.lt_of_le_of_lt (Nat.sub_le _ _) t.isLt)).2.2 := by
  obtain ⟨n, hn⟩ := t
  cases n with
  | zero => exact absurd (Nat.zero_mod 4) h0
  | succ n => exact (dif_neg h0).trans ((dif_neg h1).trans rfl)

theorem leftAt0_last (c : Dev nD) (t : Fin cfg0.N) (h0 : ¬t.val % 4 = 0) (h1 : t.val % 4 = 3) :
    leftAt0 V c t.val t.isLt = leftLast0 V c t h0 h1 (leftAt0 V c (t.val - 1) (Nat.lt_of_le_of_lt (Nat.sub_le _ _) t.isLt)).2.2 := by
  obtain ⟨n, hn⟩ := t
  cases n with
  | zero => exact absurd (Nat.zero_mod 4) h0
  | succ n => exact (dif_neg h0).trans ((dif_pos h1).trans rfl)

/-! ## The invariant between points -/

/-- Before the first point: what the launch hands over. Before any later point: the accumulator owned whole at what the
    point before left in it, every other scoped buffer unopened, the generator register at some state. -/
def inv0 (c : Dev nD) : (n : ℕ) → n ≤ cfg0.N → sProp 𝕄
  | 0, _ => Pipeline.ΦA spec0 c
  | n + 1, hn => iprop(iprop(owns (c : Thread nD τ) accM fullShare (leftAt0 V c n hn).2.2 ∗ Pipeline.scopedRestBut spec0 c [cc0_scratch0]) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) accM fullShare (leftAt0 V c n hn).2.2 ∗ Pipeline.scopedRestBut spec0 c [cc0_scratch0]) ∗ (∃ r, prngReg c r)) := rfl

theorem inv0_pos (c : Dev nD) (n : ℕ) (h : n ≤ cfg0.N) (hz : n ≠ 0) :
    inv0 V c n h = iprop(iprop(owns (c : Thread nD τ) accM fullShare (leftAt0 V c (n - 1) (by omega)).2.2 ∗ Pipeline.scopedRestBut spec0 c [cc0_scratch0]) ∗ (∃ r, prngReg c r)) := by
  cases n with
  | zero => exact absurd rfl hz
  | succ n => rfl

/-! ## The proof data -/

/-- The first kernel's proof data on core `c`: the arrays as the kernel finds them; after the body at point `t` every
    input's buffer still at its block, the Gram and theta buffers at what `leftAt0` says; the invariant `inv0`; nothing
    owed; full shares. -/
def dat0 (c : Dev nD) : Dat τ (Elt F) Unit ℕ (UR sig nD τ) ℕ cfg0 c where
  A w := V c (Pipeline.arrRef spec0 w)
  after w t := match w with
    | ⟨0, _⟩ => inBlock0 V c 0 t
    | ⟨1, _⟩ => inBlock0 V c 1 t
    | ⟨2, _⟩ => inBlock0 V c 2 t
    | ⟨3, _⟩ => inBlock0 V c 3 t
    | ⟨4, _⟩ => inBlock0 V c 4 t
    | ⟨5, _⟩ => inBlock0 V c 5 t
    | ⟨6, _⟩ => inBlock0 V c 6 t
    | ⟨7, _⟩ => (leftAt0 V c t.val t.isLt).1
    | ⟨8, _⟩ => (leftAt0 V c t.val t.isLt).2.1
  Φ t := inv0 V c t.val (Nat.le_of_lt_succ t.isLt)
  q _ := fullShare
  owed _ := 0

/-- The proof data's arrays are the entry contents (the definition projected, nothing evaluated). -/
theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

/-- What the body leaves, window by window. -/
theorem after0_0 (c : Dev nD) (t : Fin cfg0.N) : (dat0 V c).after 0 t = inBlock0 V c 0 t := by dsimp only [dat0]
theorem after0_1 (c : Dev nD) (t : Fin cfg0.N) : (dat0 V c).after 1 t = inBlock0 V c 1 t := by dsimp only [dat0]
theorem after0_2 (c : Dev nD) (t : Fin cfg0.N) : (dat0 V c).after 2 t = inBlock0 V c 2 t := by dsimp only [dat0]
theorem after0_3 (c : Dev nD) (t : Fin cfg0.N) : (dat0 V c).after 3 t = inBlock0 V c 3 t := by dsimp only [dat0]
theorem after0_4 (c : Dev nD) (t : Fin cfg0.N) : (dat0 V c).after 4 t = inBlock0 V c 4 t := by dsimp only [dat0]
theorem after0_5 (c : Dev nD) (t : Fin cfg0.N) : (dat0 V c).after 5 t = inBlock0 V c 5 t := by dsimp only [dat0]
theorem after0_6 (c : Dev nD) (t : Fin cfg0.N) : (dat0 V c).after 6 t = inBlock0 V c 6 t := by dsimp only [dat0]
theorem after0_7 (c : Dev nD) (t : Fin cfg0.N) : (dat0 V c).after 7 t = (leftAt0 V c t.val t.isLt).1 := by dsimp only [dat0]
theorem after0_8 (c : Dev nD) (t : Fin cfg0.N) : (dat0 V c).after 8 t = (leftAt0 V c t.val t.isLt).2.1 := by dsimp only [dat0]

/-- Each input's current buffer holds its block at every point. -/
theorem before0_0 (c : Dev nD) (t : Fin cfg0.N) (d) : (dat0 V c).before 0 t d = inBlock0 V c 0 t :=
  holds_in0_0 V (dat0 V c) (A_eq0 V c 0) (after0_0 V c) t d
theorem before0_1 (c : Dev nD) (t : Fin cfg0.N) (d) : (dat0 V c).before 1 t d = inBlock0 V c 1 t :=
  holds_in0_1 V (dat0 V c) (A_eq0 V c 1) (after0_1 V c) t d
theorem before0_2 (c : Dev nD) (t : Fin cfg0.N) (d) : (dat0 V c).before 2 t d = inBlock0 V c 2 t :=
  holds_in0_2 V (dat0 V c) (A_eq0 V c 2) (after0_2 V c) t d
theorem before0_3 (c : Dev nD) (t : Fin cfg0.N) (d) : (dat0 V c).before 3 t d = inBlock0 V c 3 t :=
  holds_in0_3 V (dat0 V c) (A_eq0 V c 3) (after0_3 V c) t d
theorem before0_4 (c : Dev nD) (t : Fin cfg0.N) (d) : (dat0 V c).before 4 t d = inBlock0 V c 4 t :=
  holds_in0_4 V (dat0 V c) (A_eq0 V c 4) (after0_4 V c) t d
theorem before0_5 (c : Dev nD) (t : Fin cfg0.N) (d) : (dat0 V c).before 5 t d = inBlock0 V c 5 t :=
  holds_in0_5 V (dat0 V c) (A_eq0 V c 5) (after0_5 V c) t d
theorem before0_6 (c : Dev nD) (t : Fin cfg0.N) (d) : (dat0 V c).before 6 t d = inBlock0 V c 6 t :=
  holds_in0_6 V (dat0 V c) (A_eq0 V c 6) (after0_6 V c) t d

/-! ## The body obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (cur0_0 t) fullShare ((dat0 V c).before 0 t d))
    ∗ (∃ d, owns (c : Thread nD τ) (cur0_1 t) fullShare ((dat0 V c).before 1 t d))
    ∗ (∃ d, owns (c : Thread nD τ) (cur0_2 t) fullShare ((dat0 V c).before 2 t d))
    ∗ (∃ d, owns (c : Thread nD τ) (cur0_3 t) fullShare ((dat0 V c).before 3 t d))
    ∗ (∃ d, owns (c : Thread nD τ) (cur0_4 t) fullShare ((dat0 V c).before 4 t d))
    ∗ (∃ d, owns (c : Thread nD τ) (cur0_5 t) fullShare ((dat0 V c).before 5 t d))
    ∗ (∃ d, owns (c : Thread nD τ) (cur0_6 t) fullShare ((dat0 V c).before 6 t d))
    ∗ (∃ d, owns (c : Thread nD τ) (cur0_7 t) fullShare ((dat0 V c).before 7 t d))
    ∗ (∃ d, owns (c : Thread nD τ) (cur0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

/-- Pieces written over a whole buffer's contents, the pieces covering the shape: the buffer is owned at the pieces read
    back through any view of that shape (over anything). -/
theorem owns_of_pieces (c : Dev nD) {S : Shape} {e : EltTy} (M : Memref sig .tc .vmem S e) (v' : View sig .tc .vmem S e)
    (L : List (View.Piece (Elt F) S e)) (hcov : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩
  unfold owns; iexists _; isplitr
  swap; · iexact H
  ipureintro; exact View.read_writes_of_cover _ _ _ _ _ hcov

set_option maxHeartbeats 4800000 in
/-- The body at any point. The inputs' buffers hold their blocks; `t mod 4` says which tile of its batch the point is, so
    one of the three runs applies. The invariant hands the run the accumulator — at what the point before left, or, at the
    very first point, at anything — and takes it back at what this point leaves; the other scoped buffers, the generator
    register and the core's debts pass through untouched. At a first or middle tile the Gram window is idle and not
    written back: its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = inv0 V c (t.val + 1) t.isLt from rfl, inv0_succ]
  have hN : t.val < 16 := lt_of_lt_of_eq t.isLt (show cfg0.N = 16 from N_0)
  rw [show (dat0 V c).leavesExact 0 t = owns (c : Thread nD τ) (cur0_0 t) fullShare ((dat0 V c).after 0 t) from by
    unfold Dat.leavesExact; rw [busy0_0 t], after0_0]
  rw [show (dat0 V c).leavesExact 1 t = owns (c : Thread nD τ) (cur0_1 t) fullShare ((dat0 V c).after 1 t) from by
    unfold Dat.leavesExact; rw [busy0_1 t], after0_1]
  rw [show (dat0 V c).leavesExact 2 t = owns (c : Thread nD τ) (cur0_2 t) fullShare ((dat0 V c).after 2 t) from by
    unfold Dat.leavesExact; rw [busy0_2 t], after0_2]
  rw [show (dat0 V c).leavesExact 3 t = owns (c : Thread nD τ) (cur0_3 t) fullShare ((dat0 V c).after 3 t) from by
    unfold Dat.leavesExact; rw [busy0_3 t], after0_3]
  rw [show (dat0 V c).leavesExact 4 t = owns (c : Thread nD τ) (cur0_4 t) fullShare ((dat0 V c).after 4 t) from by
    unfold Dat.leavesExact; rw [busy0_4 t], after0_4]
  rw [show (dat0 V c).leavesExact 5 t = owns (c : Thread nD τ) (cur0_5 t) fullShare ((dat0 V c).after 5 t) from by
    unfold Dat.leavesExact; rw [busy0_5 t], after0_5]
  rw [show (dat0 V c).leavesExact 6 t = owns (c : Thread nD τ) (cur0_6 t) fullShare ((dat0 V c).after 6 t) from by
    unfold Dat.leavesExact; rw [busy0_6 t], after0_6]
  rw [show (dat0 V c).leavesExact 8 t = owns (c : Thread nD τ) (cur0_8 t) fullShare ((dat0 V c).after 8 t) from by
    unfold Dat.leavesExact; rw [busy0_8 t], after0_8]
  by_cases h0 : t.val % 4 = 0
  · rw [Dat.leavesExact_idle (dat0 V c) 7 t (idle0_7_first t ((firstTile_iff t).mpr h0) (first_not_last t h0)) (keep0_7_first t ((firstTile_iff t).mpr h0) (first_not_last t h0))]
    rw [leftAt0_first V c t h0]
    unfold leftFirst0 accOf thetaOf; (try dsimp only)
    by_cases hz : t.val = 0
    · rw [inv0_castSucc V c t, inv0_zero V c _ _ hz, entry0_split]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt0 V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hrest Hg]
      · isplitl [HS Hrest]
        · isplitl [HS]
          · iapply (owns_of_pieces c _ accV _ (first_acc_cover V c t h0)); iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iapply (owns_of_pieces c _ thetaV _ (first_theta_cover V c t h0)); iexact H8
    · rw [inv0_castSucc V c t, inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt0 V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexists _; iexact HS
      iintro ⟨H0, H1, H2, H3, H4, H5, H6, H7, H8, HS⟩
      isplitl [HS Hrest Hg]
      · isplitl [HS Hrest]
        · isplitl [HS]
          · iapply (owns_of_pieces c _ accV _ (first_acc_cover V c t h0)); iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iapply (owns_of_pieces c _ thetaV _ (first_theta_cover V c t h0)); iexact H8
  · have hz : t.val ≠ 0 := fun h => h0 (by rw [h])
    by_cases h1 : t.val % 4 = 3
    · rw [show (dat0 V c).leavesExact 7 t = owns (c : Thread nD τ) (cur0_7 t) fullShare ((dat0 V c).after 7 t) from by
        unfold Dat.leavesExact; rw [busy0_7_last t (not_first t h0) ((lastTile_iff t).mpr h1)], after0_7]
      rw [leftAt0_last V c t h0 h1]
      unfold leftLast0 accOf thetaOf gramOf; (try dsimp only)
      rw [inv0_castSucc V c t, inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((lastAt0 V c t h0 h1 _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HS Hrest Hg]
      · isplitl [HS Hrest]
        · isplitl [HS]
          · iapply (owns_of_pieces c _ accV _ (last_acc_cover V c t h0 h1 _)); iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (owns_of_pieces c _ gramV _ (last_gram_cover V c t h0 h1 _)); iexact H7
      iapply (owns_of_pieces c _ thetaV _ (last_theta_cover V c t h0 h1 _)); iexact H8
    · rw [Dat.leavesExact_idle (dat0 V c) 7 t (idle0_7_mid t (not_first t h0) (not_last t h1)) (keep0_7_mid t (not_first t h0) (not_last t h1))]
      rw [leftAt0_mid V c t h0 h1]
      unfold leftMid0 accOf thetaOf; (try dsimp only)
      rw [inv0_castSucc V c t, inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((midAt0 V c t h0 h1 _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hrest Hg]
      · isplitl [HS Hrest]
        · isplitl [HS]
          · iapply (owns_of_pieces c _ accV _ (mid_acc_cover V c t h0 h1 _)); iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iapply (owns_of_pieces c _ thetaV _ (mid_theta_cover V c t h0 h1 _)); iexact H8

/-- The library's body obligation for the first kernel, at every point. -/
theorem body_obligation0 (c : Dev nD) : BodyObligation (dat0 (F := F) V c) (defs₀ (F := F)) Variants.none () Set.univ := fun t => by
  rw [bigSep_W0, bigSep_W0]
  exact sound_body0 V c t

/-- What the launch hands the kernel is the invariant before the first point. -/
theorem phi_in0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After any point the invariant gives back what the launch handed over: what the accumulator holds is forgotten. -/
theorem phi_back0 (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, entry0_split]
  iintro ⟨⟨HS, Hrest⟩, Hg⟩
  isplitl [HS Hrest]
  · isplitl [HS]
    · iexists _; iexact HS
    iexact Hrest
  iexact Hg

/-- In particular after the last point. -/
theorem phi_out0 (c : Dev nD) : (dat0 V c).Φ (Fin.last cfg0.N) ⊢ Pipeline.ΦA spec0 c :=
  phi_back0 V c _ (by rw [Fin.val_last]; have : cfg0.N = 16 := N_0; omega)

end Cert.KernelIdeal.Hand

end
-- ==== Proof.KI.R1Runs.lean ====
import proofs.«130369_j29137058136126_2_alg».proof.Proof.Gen.KernelIdeal.Launch
import proofs.«130369_j29137058136126_2_alg».proof.Proof.Gen.KernelIdeal.Skeleton
import proofs.«130369_j29137058136126_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the second pallas call (th · M · W + b, with running column sums), at the entry contents `V`

What the three control cases of its body share: the blocks of its windows, the two branch conditions decided over
the 4 × 4 grid, where the two sum outputs are idle, and the memrefs the body is called with. -/

/-! ## The windows' blocks -/

/-- The block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether or not the point fetches it: an
    unfetched input has not moved its block index, and the body leaves an input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether or not the point fetches it: an
    unfetched input has not moved its block index, and the body leaves an input block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether or not the point fetches it: an
    unfetched input has not moved its block index, and the body leaves an input block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether or not the point fetches it: an
    unfetched input has not moved its block index, and the body leaves an input block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "This is the first sequence tile of its batch": the condition under which the body zeroes both accumulators,
    as the body computes it from the grid coordinates. -/
abbrev first1 (i : grid1.Coords) : Prop := (Scalar.cmpi .ne (Scalar.extui (Scalar.cmpi .eq (BitVec.ofNat 32 (i 1).val) 0#32)) 0#32) = 1#1
/-- It holds exactly at the points ≡ 0 (mod 4): checked at each of the 16 points. -/
theorem first1_iff : ∀ t : Fin cfg1.N, first1 (grid1.coords t) ↔ t.val % 4 = 0 :=
  (by decide +kernel : ∀ t : Fin grid1.N, first1 (grid1.coords t) ↔ t.val % 4 = 0)

/-- "This is the last sequence tile of its batch": the condition under which the body copies the accumulators out. -/
abbrev last1 (i : grid1.Coords) : Prop := k1_cond2 i = 1#1
/-- It holds exactly at the points ≡ 3 (mod 4). -/
theorem last1_iff : ∀ t : Fin cfg1.N, last1 (grid1.coords t) ↔ t.val % 4 = 3 :=
  (by decide +kernel : ∀ t : Fin grid1.N, last1 (grid1.coords t) ↔ t.val % 4 = 3)

/-! ## Where the windows are idle -/

/-- The four inputs and the product output (windows 0–4) are live at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Off the last tile the sum output (window 5) is idle and its block is not written back. -/
theorem idle1_5 : ∀ t : Fin cfg1.N, ¬last1 (grid1.coords t) → cfg1.idle 5 (grid1.coords t) = true := by decide +kernel
theorem noFlush1_5 : ∀ t : Fin cfg1.N, ¬last1 (grid1.coords t) → (cfg1.win 5).flush t = false := by decide +kernel
/-- On the last tile it is live. -/
theorem live1_5 : ∀ t : Fin cfg1.N, last1 (grid1.coords t) → cfg1.idle 5 (grid1.coords t) = false := by decide +kernel
/-- The same for the sum-of-squares output (window 6). -/
theorem idle1_6 : ∀ t : Fin cfg1.N, ¬last1 (grid1.coords t) → cfg1.idle 6 (grid1.coords t) = true := by decide +kernel
theorem noFlush1_6 : ∀ t : Fin cfg1.N, ¬last1 (grid1.coords t) → (cfg1.win 6).flush t = false := by decide +kernel
theorem live1_6 : ∀ t : Fin cfg1.N, last1 (grid1.coords t) → cfg1.idle 6 (grid1.coords t) = false := by decide +kernel

/-! ## The memrefs the body is called with -/

/-- Each window's current staging memref at point `t`, spelled as the pipeline passes it to the body, with its wholeness. -/
abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1024 .f32 := win1_6.stage (cfg1.slots t 6)
abbrev hs1_6 (t : Fin cfg1.N) : (ms1_6 t).IsWhole := hstage1_6 ((cfg1.slots t 6).cast nbuf1_6)

/-- One staging buffer of each output window, as a view through which its contents are stated (pieces read back
    over a whole buffer do not depend on which whole buffer). -/
abbrev VO1_4 : View sig .tc .vmem S1x1024x1024 .f32 := (Memref.whole cc1_stg4_0 : Memref sig .tc .vmem S1x1024x1024 .f32).view
abbrev VO1_5 : View sig .tc .vmem S1x1x1024 .f32 := (Memref.whole cc1_stg5_0 : Memref sig .tc .vmem S1x1x1024 .f32).view
abbrev VO1_6 : View sig .tc .vmem S1x1x1024 .f32 := (Memref.whole cc1_stg6_0 : Memref sig .tc .vmem S1x1x1024 .f32).view

/-- The two accumulators (running column sums of the product and of its square): whole scoped buffers of the call's own. -/
abbrev acc1_0 : Memref sig .tc .vmem S1x1024 .f32 := Memref.whole cc1_scratch0
abbrev acc1_1 : Memref sig .tc .vmem S1x1024 .f32 := Memref.whole cc1_scratch1
abbrev VS1_0 : View sig .tc .vmem S1x1024 .f32 := acc1_0.view
abbrev VS1_1 : View sig .tc .vmem S1x1024 .f32 := acc1_1.view

/-- The rest of the scoped buffers, none of which the body touches. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant the launch hands the region, with the two accumulators split off as memrefs owned at some contents. -/
theorem PhiA1_eq (c : Dev nD) :
    (Pipeline.ΦA spec1 c : sProp 𝕄)
      = iprop(iprop(iprop((∃ d, owns (c : Thread nD τ) acc1_0 fullShare d) ∗ (∃ d, owns (c : Thread nD τ) acc1_1 fullShare d)) ∗ rest1 c) ∗ (∃ r, prngReg c r)) := by
  unfold Pipeline.ΦA; rw [scopedRest1_split]; simp only [acc1_0, acc1_1, owns_whole]; try rfl

end Cert.KernelIdeal.Hand

end
-- ==== Proof.KI.R1RunA.lean ====
import proofs.«130369_j29137058136126_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, the first tile of a batch: both accumulators are zeroed, the tile's product is stored, its column
sums are added in; the two sum outputs are not touched. -/

set_option maxHeartbeats 1000000 in
/-- The pieces the body's stores leave in the product output and in the two accumulators on a first tile, with the
    proof that the body, called on whole memrefs — the four inputs at their blocks, the product output and both
    accumulators at anything, the two sum outputs at contents handed back untouched — runs to a continuation that
    holds the inputs as they were, the sum outputs as they were, and the other three with those pieces written.
    The symbolic execution of the body's memory operations finds the pieces. -/
noncomputable def run1_A (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) :
    Σ' (L4 : List (View.Piece (Elt F) S1x1024x1024 .f32)) (LS0 : List (View.Piece (Elt F) S1x1024 .f32)), { LS1 : List (View.Piece (Elt F) S1x1024 .f32) //
      ∀ (xi5 xi6 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KI.R1RunB.lean ====
import proofs.«130369_j29137058136126_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, a middle tile of a batch: the tile's product is stored and its column sums are added to what the
accumulators held; the two sum outputs are not touched. -/

set_option maxHeartbeats 1000000 in
/-- The pieces the body's stores leave in the product output and in the two accumulators on a middle tile, with the
    proof that the body, called on whole memrefs — the four inputs at their blocks, the product output at anything,
    the accumulators at what the tile before left (`xs0`, `xs1`), the two sum outputs at contents handed back
    untouched — runs to a continuation that holds the inputs and the sum outputs as they were and the other three
    with those pieces written. -/
noncomputable def run1_B (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) :
    Σ' (L4 : List (View.Piece (Elt F) S1x1024x1024 .f32)) (LS0 : List (View.Piece (Elt F) S1x1024 .f32)), { LS1 : List (View.Piece (Elt F) S1x1024 .f32) //
      ∀ (xi5 xi6 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KI.R1RunC.lean ====
import proofs.«130369_j29137058136126_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, the last tile of a batch: the tile's product is stored, its column sums are added to what the
accumulators held, and the accumulators are copied out into the two sum outputs. -/

set_option maxHeartbeats 1000000 in
/-- The pieces the body's stores leave in the three outputs and in the two accumulators on a last tile, with the
    proof that the body, called on whole memrefs — the four inputs at their blocks, the three outputs at anything,
    the accumulators at what the tile before left (`xs0`, `xs1`) — runs to a continuation that holds the inputs as
    they were and the other five with those pieces written. -/
noncomputable def run1_C (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) :
    Σ' (L4 : List (View.Piece (Elt F) S1x1024x1024 .f32)) (L5 : List (View.Piece (Elt F) S1x1x1024 .f32)) (L6 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__wy_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1__wy_kernel_eq_skeleton]; unfold cc1__wy_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R1.lean ====
import proofs.«130369_j29137058136126_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what each tile leaves, the accumulation over the grid, the proof data and the body obligation -/

/-! ## What each case leaves, as terms over the pieces its run found -/

/-- The pieces a first tile writes into the product output's staging buffer tile it, so every index lies in one of them. -/
theorem cover1_A_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) (y : S1x1024x1024.Idx) :
    ∃ pc ∈ (run1_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (run1_A c i arg2 harg2 arg3 harg3 arg4 harg4 arg5 harg5 arg6 harg6 arg7 harg7 arg8 harg8 arg9 harg9 arg10 harg10 hc0 hc1 x0 x1 x2 x3).1 S1x1024x1024.size (by sl_kernel_rfl) y

/-- What a first tile leaves in the product output's staging buffer: its pieces read back (over contents no index reads). -/
def out1_A_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) : Vec F S1x1024x1024 .f32 :=
  VO1_4.read (Elt F) (VO1_4.writes (Elt F) VO1_4.junk (run1_A c i arg2 harg2 arg3 harg3 arg4 harg4 arg5 harg5 arg6 harg6 arg7 harg7 arg8 harg8 arg9 harg9 arg10 harg10 hc0 hc1 x0 x1 x2 x3).1)

/-- The pieces a first tile writes into the accumulator of column sums tile it, so every index lies in one of them. -/
theorem scover1_A_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) (y : S1x1024.Idx) :
    ∃ pc ∈ (run1_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (run1_A c i arg2 harg2 arg3 harg3 arg4 harg4 arg5 harg5 arg6 harg6 arg7 harg7 arg8 harg8 arg9 harg9 arg10 harg10 hc0 hc1 x0 x1 x2 x3).2.1 S1x1024.size (by sl_kernel_rfl) y

/-- What a first tile leaves in the accumulator of column sums: its pieces read back (over contents no index reads). -/
def sout1_A_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) : Vec F S1x1024 .f32 :=
  VS1_0.read (Elt F) (VS1_0.writes (Elt F) VS1_0.junk (run1_A c i arg2 harg2 arg3 harg3 arg4 harg4 arg5 harg5 arg6 harg6 arg7 harg7 arg8 harg8 arg9 harg9 arg10 harg10 hc0 hc1 x0 x1 x2 x3).2.1)

/-- The pieces a first tile writes into the accumulator of column sums of squares tile it, so every index lies in one of them. -/
theorem scover1_A_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) (y : S1x1024.Idx) :
    ∃ pc ∈ (run1_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (run1_A c i arg2 harg2 arg3 harg3 arg4 harg4 arg5 harg5 arg6 harg6 arg7 harg7 arg8 harg8 arg9 harg9 arg10 harg10 hc0 hc1 x0 x1 x2 x3).2.2.1 S1x1024.size (by sl_kernel_rfl) y

/-- What a first tile leaves in the accumulator of column sums of squares: its pieces read back (over contents no index reads). -/
def sout1_A_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) : Vec F S1x1024 .f32 :=
  VS1_1.read (Elt F) (VS1_1.writes (Elt F) VS1_1.junk (run1_A c i arg2 harg2 arg3 harg3 arg4 harg4 arg5 harg5 arg6 harg6 arg7 harg7 arg8 harg8 arg9 harg9 arg10 harg10 hc0 hc1 x0 x1 x2 x3).2.2.1)

/-- The pieces a middle tile writes into the product output's staging buffer tile it, so every index lies in one of them. -/
theorem cover1_B_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) (y : S1x1024x1024.Idx) :
    ∃ pc ∈ (run1_B c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (run1_B c i arg2 harg2 arg3 harg3 arg4 harg4 arg5 harg5 arg6 harg6 arg7 harg7 arg8 harg8 arg9 harg9 arg10 harg10 hc0 hc1 x0 x1 x2 x3 xs0 xs1).1 S1x1024x1024.size (by sl_kernel_rfl) y

/-- What a middle tile leaves in the product output's staging buffer: its pieces read back (over contents no index reads). -/
def out1_B_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) : Vec F S1x1024x1024 .f32 :=
  VO1_4.read (Elt F) (VO1_4.writes (Elt F) VO1_4.junk (run1_B c i arg2 harg2 arg3 harg3 arg4 harg4 arg5 harg5 arg6 harg6 arg7 harg7 arg8 harg8 arg9 harg9 arg10 harg10 hc0 hc1 x0 x1 x2 x3 xs0 xs1).1)

/-- The pieces a middle tile writes into the accumulator of column sums tile it, so every index lies in one of them. -/
theorem scover1_B_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) (y : S1x1024.Idx) :
    ∃ pc ∈ (run1_B c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (run1_B c i arg2 harg2 arg3 harg3 arg4 harg4 arg5 harg5 arg6 harg6 arg7 harg7 arg8 harg8 arg9 harg9 arg10 harg10 hc0 hc1 x0 x1 x2 x3 xs0 xs1).2.1 S1x1024.size (by sl_kernel_rfl) y

/-- What a middle tile leaves in the accumulator of column sums: its pieces read back (over contents no index reads). -/
def sout1_B_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) : Vec F S1x1024 .f32 :=
  VS1_0.read (Elt F) (VS1_0.writes (Elt F) VS1_0.junk (run1_B c i arg2 harg2 arg3 harg3 arg4 harg4 arg5 harg5 arg6 harg6 arg7 harg7 arg8 harg8 arg9 harg9 arg10 harg10 hc0 hc1 x0 x1 x2 x3 xs0 xs1).2.1)

/-- The pieces a middle tile writes into the accumulator of column sums of squares tile it, so every index lies in one of them. -/
theorem scover1_B_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) (y : S1x1024.Idx) :
    ∃ pc ∈ (run1_B c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (run1_B c i arg2 harg2 arg3 harg3 arg4 harg4 arg5 harg5 arg6 harg6 arg7 harg7 arg8 harg8 arg9 harg9 arg10 harg10 hc0 hc1 x0 x1 x2 x3 xs0 xs1).2.2.1 S1x1024.size (by sl_kernel_rfl) y

/-- What a middle tile leaves in the accumulator of column sums of squares: its pieces read back (over contents no index reads). -/
def sout1_B_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) : Vec F S1x1024 .f32 :=
  VS1_1.read (Elt F) (VS1_1.writes (Elt F) VS1_1.junk (run1_B c i arg2 harg2 arg3 harg3 arg4 harg4 arg5 harg5 arg6 harg6 arg7 harg7 arg8 harg8 arg9 harg9 arg10 harg10 hc0 hc1 x0 x1 x2 x3 xs0 xs1).2.2.1)

/-- The pieces a last tile writes into the product output's staging buffer tile it, so every index lies in one of them. -/
theorem cover1_C_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1024x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).1 S1x1024x1024.size (by sl_kernel_rfl) y

/-- What a last tile leaves in the product output's staging buffer: its pieces read back (over contents no index reads). -/
def out1_C_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1024x1024 .f32 :=
  VO1_4.read (Elt F) (VO1_4.writes (Elt F) VO1_4.junk (run1_C c i arg2 harg2 arg3 harg3 arg4 harg4 arg5 harg5 arg6 harg6 arg7 harg7 arg8 harg8 arg9 harg9 arg10 harg10 hc0 hc1 x0 x1 x2 x3 xs0 xs1).1)

/-- The pieces a last tile writes into the sum output's staging buffer tile it, so every index lies in one of them. -/
theorem cover1_C_5 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).2.1 S1x1x1024.size (by sl_kernel_rfl) y

/-- What a last tile leaves in the sum output's staging buffer: its pieces read back (over contents no index reads). -/
def out1_C_5 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1x1024 .f32 :=
  VO1_5.read (Elt F) (VO1_5.writes (Elt F) VO1_5.junk (run1_C c i arg2 harg2 arg3 harg3 arg4 harg4 arg5 harg5 arg6 harg6 arg7 harg7 arg8 harg8 arg9 harg9 arg10 harg10 hc0 hc1 x0 x1 x2 x3 xs0 xs1).2.1)

/-- The pieces a last tile writes into the sum-of-squares output's staging buffer tile it, so every index lies in one of them. -/
theorem cover1_C_6 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).2.2.1 S1x1x1024.size (by sl_kernel_rfl) y

/-- What a last tile leaves in the sum-of-squares output's staging buffer: its pieces read back (over contents no index reads). -/
def out1_C_6 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1x1024 .f32 :=
  VO1_6.read (Elt F) (VO1_6.writes (Elt F) VO1_6.junk (run1_C c i arg2 harg2 arg3 harg3 arg4 harg4 arg5 harg5 arg6 harg6 arg7 harg7 arg8 harg8 arg9 harg9 arg10 harg10 hc0 hc1 x0 x1 x2 x3 xs0 xs1).2.2.1)

/-- The pieces a last tile writes into the accumulator of column sums tile it, so every index lies in one of them. -/
theorem scover1_C_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).2.2.2.1 S1x1024.size (by sl_kernel_rfl) y

/-- What a last tile leaves in the accumulator of column sums: its pieces read back (over contents no index reads). -/
def sout1_C_0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1024 .f32 :=
  VS1_0.read (Elt F) (VS1_0.writes (Elt F) VS1_0.junk (run1_C c i arg2 harg2 arg3 harg3 arg4 harg4 arg5 harg5 arg6 harg6 arg7 harg7 arg8 harg8 arg9 harg9 arg10 harg10 hc0 hc1 x0 x1 x2 x3 xs0 xs1).2.2.2.1)

/-- The pieces a last tile writes into the accumulator of column sums of squares tile it, so every index lies in one of them. -/
theorem scover1_C_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) (y : S1x1024.Idx) :
    ∃ pc ∈ (run1_C c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (run1_C c i arg2 harg2 arg3 harg3 arg4 harg4 arg5 harg5 arg6 harg6 arg7 harg7 arg8 harg8 arg9 harg9 arg10 harg10 hc0 hc1 x0 x1 x2 x3 xs0 xs1).2.2.2.2.1 S1x1024.size (by sl_kernel_rfl) y

/-- What a last tile leaves in the accumulator of column sums of squares: its pieces read back (over contents no index reads). -/
def sout1_C_1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) : Vec F S1x1024 .f32 :=
  VS1_1.read (Elt F) (VS1_1.writes (Elt F) VS1_1.junk (run1_C c i arg2 harg2 arg3 harg3 arg4 harg4 arg5 harg5 arg6 harg6 arg7 harg7 arg8 harg8 arg9 harg9 arg10 harg10 hc0 hc1 x0 x1 x2 x3 xs0 xs1).2.2.2.2.1)

/-! ## What the body leaves at a point, case by case -/

/-- What the three outputs' current buffers and the two accumulators hold after the body at one point, in window
    order and then the accumulators: (product, sums, sums of squares, accumulator 0, accumulator 1). -/
abbrev Outs1 : Type := Vec F S1x1024x1024 .f32 × Vec F S1x1x1024 .f32 × Vec F S1x1x1024 .f32 × Vec F S1x1024 .f32 × Vec F S1x1024 .f32

/-- A value for a sum output's buffer at a tile that does not store into it: nothing reads it (off the last tile the
    window is idle, so the buffer is neither written back nor described by `after`). -/
def idleOut1 : Vec F S1x1x1024 .f32 := VO1_5.read (Elt F) VO1_5.junk

/-- Point `t`, a first tile: the case's terms at the point's memrefs and input blocks. -/
def leaves1_A (c : Dev nD) (t : Fin cfg1.N) (h0 : t.val % 4 = 0) (h1 : ¬t.val % 4 = 3) : Outs1 (F := F) :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) ((first1_iff t).mpr h0) (fun h => h1 ((last1_iff t).mp h)) (iblk1 V c 0 t) (iblk1 V c 1 t) (iblk1 V c 2 t) (iblk1 V c 3 t),
   idleOut1, idleOut1,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) ((first1_iff t).mpr h0) (fun h => h1 ((last1_iff t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) ((first1_iff t).mpr h0) (fun h => h1 ((last1_iff t).mp h)) (iblk1 V c 0 t) (iblk1 V c 1 t) (iblk1 V c 2 t) (iblk1 V c 3 t))

/-- Point `t`, a middle tile, over what the tile before left in the accumulators. -/
def leaves1_B (c : Dev nD) (t : Fin cfg1.N) (h0 : ¬t.val % 4 = 0) (h1 : ¬t.val % 4 = 3) (xs0 xs1 : Vec F S1x1024 .f32) : Outs1 (F := F) :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) (fun h => h1 ((last1_iff t).mp h)) (iblk1 V c 0 t) (iblk1 V c 1 t) (iblk1 V c 2 t) (iblk1 V c 3 t) xs0 xs1,
   idleOut1, idleOut1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) (fun h => h1 ((last1_iff t).mp h)) (iblk1 V c 0 t) (iblk1 V c 1 t) (iblk1 V c 2 t) (iblk1 V c 3 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) (fun h => h1 ((last1_iff t).mp h)) (iblk1 V c 0 t) (iblk1 V c 1 t) (iblk1 V c 2 t) (iblk1 V c 3 t) xs0 xs1)

/-- Point `t`, a last tile, over what the tile before left in the accumulators. -/
def leaves1_C (c : Dev nD) (t : Fin cfg1.N) (h0 : ¬t.val % 4 = 0) (h1 : t.val % 4 = 3) (xs0 xs1 : Vec F S1x1024 .f32) : Outs1 (F := F) :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) (fun h => h0 ((first1_iff t).mp h)) ((last1_iff t).mpr h1) (iblk1 V c 0 t) (iblk1 V c 1 t) (iblk1 V c 2 t) (iblk1 V c 3 t) xs0 xs1)

/-! ## The accumulation over the grid -/

/-- What the outputs' buffers and the accumulators hold after the body at position `n`: the case the closed forms
    select there, a middle or last tile over the accumulators as position `n - 1` left them. (No point is both a
    first and a last tile.) -/
def outsAt1 (c : Dev nD) : (n : ℕ) → n < cfg1.N → Outs1 (F := F)
  | 0, hn => leaves1_A V c ⟨0, hn⟩ (Nat.zero_mod _) (fun h => (by decide : ¬ (0 % 4 = 3)) h)
  | n + 1, hn =>
    if h0 : (n + 1) % 4 = 0 then
      if h1 : (n + 1) % 4 = 3 then False.elim (by omega)
      else leaves1_A V c ⟨n + 1, hn⟩ h0 h1
    else
      if h1 : (n + 1) % 4 = 3 then
        leaves1_C V c ⟨n + 1, hn⟩ h0 h1 (outsAt1 c n (Nat.lt_of_succ_lt hn)).2.2.2.1 (outsAt1 c n (Nat.lt_of_succ_lt hn)).2.2.2.2
      else
        leaves1_B V c ⟨n + 1, hn⟩ h0 h1 (outsAt1 c n (Nat.lt_of_succ_lt hn)).2.2.2.1 (outsAt1 c n (Nat.lt_of_succ_lt hn)).2.2.2.2

/-- The position before `t` is a position of the grid. -/
theorem prev1 (t : Fin cfg1.N) : t.val - 1 < cfg1.N := Nat.lt_of_le_of_lt (Nat.sub_le _ _) t.isLt

/-- At a first tile: that case, whatever came before. -/
theorem outsAt1_A (c : Dev nD) (t : Fin cfg1.N) (h0 : t.val % 4 = 0) (h1 : ¬t.val % 4 = 3) :
    outsAt1 V c t.val t.isLt = leaves1_A V c t h0 h1 := by
  obtain ⟨n, hn⟩ := t
  cases n with
  | zero => exact rfl
  | succ n => exact (dif_pos h0).trans ((dif_neg h1).trans rfl)

/-- At a middle tile: that case over the accumulators of the position before. -/
theorem outsAt1_B (c : Dev nD) (t : Fin cfg1.N) (h0 : ¬t.val % 4 = 0) (h1 : ¬t.val % 4 = 3) :
    outsAt1 V c t.val t.isLt = leaves1_B V c t h0 h1 (outsAt1 V c (t.val - 1) (prev1 t)).2.2.2.1 (outsAt1 V c (t.val - 1) (prev1 t)).2.2.2.2 := by
  obtain ⟨n, hn⟩ := t
  cases n with
  | zero => exact absurd (Nat.zero_mod _) h0
  | succ n => exact (dif_neg h0).trans ((dif_neg h1).trans rfl)

/-- At a last tile: that case over the accumulators of the position before. -/
theorem outsAt1_C (c : Dev nD) (t : Fin cfg1.N) (h0 : ¬t.val % 4 = 0) (h1 : t.val % 4 = 3) :
    outsAt1 V c t.val t.isLt = leaves1_C V c t h0 h1 (outsAt1 V c (t.val - 1) (prev1 t)).2.2.2.1 (outsAt1 V c (t.val - 1) (prev1 t)).2.2.2.2 := by
  obtain ⟨n, hn⟩ := t
  cases n with
  | zero => exact absurd (Nat.zero_mod _) h0
  | succ n => exact (dif_neg h0).trans ((dif_pos h1).trans rfl)

/-! ## The region's invariant -/

/-- The invariant before position `n`: before the first point what the launch hands over (both accumulators at
    anything); afterwards both accumulators owned whole at what the point before left, beside the untouched rest of the
    scoped buffers and the generator register at some state. -/
def PhiS1 (c : Dev nD) : (n : ℕ) → n ≤ cfg1.N → sProp 𝕄
  | 0, _ => Pipeline.ΦA spec1 c
  | n + 1, hn => iprop(iprop(iprop(owns (c : Thread nD τ) acc1_0 fullShare (outsAt1 V c n hn).2.2.2.1 ∗ owns (c : Thread nD τ) acc1_1 fullShare (outsAt1 V c n hn).2.2.2.2) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n`: the accumulators at that point's contents. -/
theorem PhiS1_succ (c : Dev nD) (n : ℕ) (hn : n < cfg1.N) :
    PhiS1 V c (n + 1) hn = iprop(iprop(iprop(owns (c : Thread nD τ) acc1_0 fullShare (outsAt1 V c n hn).2.2.2.1 ∗ owns (c : Thread nD τ) acc1_1 fullShare (outsAt1 V c n hn).2.2.2.2) ∗ rest1 c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) acc1_0 fullShare (outsAt1 V c (n - 1) (by omega)).2.2.2.1 ∗ owns (c : Thread nD τ) acc1_1 fullShare (outsAt1 V c (n - 1) (by omega)).2.2.2.2) ∗ rest1 c) ∗ (∃ r, prngReg c r)) := by
  cases n with
  | zero => exact absurd rfl hz
  | succ n => rfl

/-- At every position the invariant yields both accumulators at SOME contents (their named contents forgotten), the
    rest and the register: all a first tile needs, and what the launch takes back. -/
theorem PhiS1_open (c : Dev nD) (n : ℕ) (h : n ≤ cfg1.N) :
    PhiS1 V c n h ⊢ iprop(iprop(iprop((∃ d, owns (c : Thread nD τ) acc1_0 fullShare d) ∗ (∃ d, owns (c : Thread nD τ) acc1_1 fullShare d)) ∗ rest1 c) ∗ (∃ r, prngReg c r)) := by
  cases n with
  | zero => rw [PhiS1_zero V c 0 h rfl, PhiA1_eq]
  | succ n =>
    rw [PhiS1_succ]
    iintro ⟨⟨⟨HS0, HS1⟩, Hrest⟩, Hg⟩
    isplitl [HS0 HS1 Hrest]
    · isplitl [HS0 HS1]
      · isplitl [HS0]; · iexists _; iexact HS0
        iexists _; iexact HS1
      iexact Hrest
    iexact Hg

/-! ## The proof data of the region -/

/-- The proof data of region 1 on core `c`: the arrays as the region finds them; after the body at point `t` each
    input's buffer at its block and each output's at its component of the accumulation; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`: the invariant, what the core owes, and each window's current buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at a first tile. The invariant is opened to the accumulators at some contents (enough: the tile zeroes
    them before reading them), the inputs hold their blocks, the sum outputs pass through untouched; the case's run
    applies, and each buffer it wrote is read back through the cover of its pieces. -/
theorem sound_body1_A (c : Dev nD) (t : Fin cfg1.N) (h0 : t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t (fun h => h1 ((last1_iff t).mp h))) (noFlush1_5 t (fun h => h1 ((last1_iff t).mp h)))]
  rw [Dat.leavesExact_idle (dat1 V c) 6 t (idle1_6 t (fun h => h1 ((last1_iff t).mp h))) (noFlush1_6 t (fun h => h1 ((last1_iff t).mp h)))]
  rw [outsAt1_A V c t h0 h1]
  unfold leaves1_A out1_A_4 sout1_A_0 sout1_A_1; (try dsimp only)
  rw [PhiS1_castSucc V c t]
  iintro ⟨HP, Ho, ⟨%d0, H0⟩, ⟨%d1, H1⟩, ⟨%d2, H2⟩, ⟨%d3, H3⟩, ⟨%d4, H4⟩, ⟨%d5, H5⟩, ⟨%d6, H6⟩⟩
  ihave HQ := (PhiS1_open V c _ _) $$ HP
  icases HQ with ⟨⟨⟨HS0, HS1⟩, Hrest⟩, Hg⟩
  iapply ((run1_A c (grid1.coords t) _ _ _ _ _ _ _ _ _ _ _ _ _ _ _ _ _ _ ((first1_iff t).mpr h0) (fun h => h1 ((last1_iff t).mp h)) (iblk1 V c 0 t) (iblk1 V c 1 t) (iblk1 V c 2 t) (iblk1 V c 3 t)).2.2.2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, ⟨%e4, H4⟩, H5, H6, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _)
        · unfold owns; iexists _; isplitr
          swap; · iexact HS1
          ipureintro; exact View.read_writes_of_cover _ _ _ _ _ (scover1_A_1 c _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _ _ _ _ _ _ _)
  isplitl [H5]; · iexists _; iexact H5
  iexists _; iexact H6

set_option maxHeartbeats 4800000 in
/-- The body at a middle tile. The invariant holds the accumulators at what the tile before left, which is what the
    case's run is stated over; the sum outputs pass through untouched. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [Dat.leavesExact_idle (dat1 V c) 5 t (idle1_5 t (fun h => h1 ((last1_iff t).mp h))) (noFlush1_5 t (fun h => h1 ((last1_iff t).mp h)))]
  rw [Dat.leavesExact_idle (dat1 V c) 6 t (idle1_6 t (fun h => h1 ((last1_iff t).mp h))) (noFlush1_6 t (fun h => h1 ((last1_iff t).mp h)))]
  rw [outsAt1_B V c t h0 h1]
  unfold leaves1_B out1_B_4 sout1_B_0 sout1_B_1; (try dsimp only)
  rw [PhiS1_castSucc V c t, PhiS1_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1_B c (grid1.coords t) _ _ _ _ _ _ _ _ _ _ _ _ _ _ _ _ _ _ (fun h => h0 ((first1_iff t).mp h)) (fun h => h1 ((last1_iff t).mp h)) (iblk1 V c 0 t) (iblk1 V c 1 t) (iblk1 V c 2 t) (iblk1 V c 3 t) _ _).2.2.2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, ⟨%e4, H4⟩, H5, H6, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _)
        · unfold owns; iexists _; isplitr
          swap; · iexact HS1
          ipureintro; exact View.read_writes_of_cover _ _ _ _ _ (scover1_B_1 c _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_B_4 c _ _ _ _ _ _ _ _ _ _ _ _ _ _ _ _ _ _ _ _ _ _ _ _ _ _ _)
  isplitl [H5]; · iexists _; iexact H5
  iexists _; iexact H6

set_option maxHeartbeats 4800000 in
/-- The body at a last tile. As at a middle tile, and both sum outputs are live: handed over at anything, taken back
    with the accumulators' copies read back through the covers of their pieces. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  have hz : t.val ≠ 0 := by omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t ((last1_iff t).mpr h1)], after1_5]
  rw [show (dat1 V c).leavesExact 6 t = owns (c : Thread nD τ) (ms1_6 t) fullShare ((dat1 V c).after 6 t) from by
    unfold Dat.leavesExact; rw [live1_6 t ((last1_iff t).mpr h1)], after1_6]
  rw [outsAt1_C V c t h0 h1]
  unfold leaves1_C out1_C_4 out1_C_5 out1_C_6 sout1_C_0 sout1_C_1; (try dsimp only)
  rw [PhiS1_castSucc V c t, PhiS1_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run1_C c (grid1.coords t) _ _ _ _ _ _ _ _ _ _ _ _ _ _ _ _ _ _ (fun h => h0 ((first1_iff t).mp h)) ((last1_iff t).mpr h1) (iblk1 V c 0 t) (iblk1 V c 1 t) (iblk1 V c 2 t) (iblk1 V c 3 t) _ _).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_C_4 c _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover1_C_5 c _ _ _ _ _ _ _ _ _ _ _ _ _ _ _ _ _ _ _ _ _ _ _ _ _ _ _)
  unfold owns; iexists _; isplitr
  swap; · iexact H6
  ipureintro; exact View.read_writes_of_cover _ _ _ _ _ (cover1_C_6 c _ _ _ _ _ _ _ _ _ _ _ _ _ _ _ _ _ _ _ _ _ _ _ _ _ _ _)

/-- The body at any point: the closed forms of the two conditions say which tile of its batch the point is. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · exact sound_body1_A V c t h0 (by omega)
  · by_cases h1 : t.val % 4 = 3
    · exact sound_body1_C V c t h0 h1
    · exact sound_body1_B V c t h0 h1

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem phi_in1 (c : Dev nD) : Pipeline.ΦA spec1 c ⊢ (dat1 V c).Φ 0 := by
  rw [show (dat1 V c).Φ 0 = PhiS1 V c 0 (Nat.zero_le _) from rfl, PhiS1_zero V c 0 _ rfl]

/-- At every position the invariant gives back what the launch handed over: the accumulators' named contents are forgotten. -/
theorem phi_any1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  exact PhiS1_open V c _ _

/-- In particular after the last point. -/
theorem phi_out1 (c : Dev nD) : (dat1 V c).Φ (Fin.last cfg1.N) ⊢ Pipeline.ΦA spec1 c := phi_any1 V c _

end Cert.KernelIdeal.Hand

end
-- ==== Proof.KI.R2.lean ====
import proofs.«130369_j29137058136126_2_alg».proof.Proof.Gen.KernelIdeal.Launch
import proofs.«130369_j29137058136126_2_alg».proof.Proof.Gen.KernelIdeal.Skeleton
import proofs.«130369_j29137058136126_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the normalisation pass `y = (wy - mean) * rsqrt(var + eps) * gamma + beta + x`, block by block

Seven windows over a 4 x 4 grid (batch, row tile): the two [1,1024,1024] blocks of `wy` and `x` (windows 0, 1), the four
per-channel vectors mean, var, gamma, beta (windows 2 to 5, each whole), and the [1,1024,1024] block of the result
(window 6), overwritten whole at every point. Nothing is carried from one point to the next. Everything below is stated at
a parameter `V`, the contents of the core's buffers when the region is entered. -/

/-! ## The windows' blocks -/

/-- Window `w`'s block at grid point `t`, read off the array the region finds on entry (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point the staging buffer the body is handed holds the window's block there, whether
    or not the point fetched it (where it did not, the block index has not moved since the last fetch). Stated for any
    proof data whose array 0 is the entry contents and whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point the staging buffer the body is handed holds the window's block there, whether
    or not the point fetched it (where it did not, the block index has not moved since the last fetch). Stated for any
    proof data whose array 1 is the entry contents and whose body leaves that block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point the staging buffer the body is handed holds the window's block there, whether
    or not the point fetched it (where it did not, the block index has not moved since the last fetch). Stated for any
    proof data whose array 2 is the entry contents and whose body leaves that block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point the staging buffer the body is handed holds the window's block there, whether
    or not the point fetched it (where it did not, the block index has not moved since the last fetch). Stated for any
    proof data whose array 3 is the entry contents and whose body leaves that block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every grid point the staging buffer the body is handed holds the window's block there, whether
    or not the point fetched it (where it did not, the block index has not moved since the last fetch). Stated for any
    proof data whose array 4 is the entry contents and whose body leaves that block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: at every grid point the staging buffer the body is handed holds the window's block there, whether
    or not the point fetched it (where it did not, the block index has not moved since the last fetch). Stated for any
    proof data whose array 5 is the entry contents and whose body leaves that block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches -/

/-- The whole [1,1024,1024] block: every block load and the one store go through it. -/
abbrev rBlk2 : Rect S1x1024x1024 := Rect.unit (s := S1x1024x1024) ![0, 0, 0] S1x1024x1024.size inb_S1x1024x1024_S1x1024x1024_0_0_0
/-- The whole 1024-vector: every per-channel load goes through it. -/
abbrev rVec2 : Rect S1024 := Rect.unit (s := S1024) ![0] S1024.size inb_S1024_S1024_0

/-! ## What the body leaves in the output window's buffer -/

/-- Window 6's buffer after the body, as a function of the six input blocks `x0 … x5` (in WINDOW order: wy, x, mean, var,
    gamma, beta): the one store, whose payload is computed from the six loads. The body reads var before mean, so the
    payload's third argument is window 3's block and its fourth window 2's. -/
def out2_6 (x0 x1 : Vec F S1x1024x1024 .f32) (x2 x3 x4 x5 : Vec F S1024 .f32) : Vec F S1x1024x1024 .f32 :=
  View.canon [⟨rBlk2, k2_pay1 (View.ld x0 rBlk2) (View.ld x1 rBlk2) (View.ld x3 rVec2) (View.ld x2 rVec2) (View.ld x4 rVec2) (View.ld x5 rVec2)⟩]

/-- The one store's rectangle is the whole buffer, so it covers every index. -/
theorem cover2_6 (p0 : Vec F S1x1024x1024 .f32) (y : S1x1024x1024.Idx) :
    ∃ pc ∈ ([⟨rBlk2, p0⟩] : List (View.Piece (Elt F) S1x1024x1024 .f32)), y ∈ pc.1.set :=
  View.cover_of_tiled [⟨rBlk2, p0⟩] S1x1024x1024.size (by rfl) y

/-! ## The body's triple -/

set_option maxHeartbeats 1000000 in
/-- The body on whole staging buffers, the six inputs' at contents `x0 … x5` and the output's at anything: it runs to a
    continuation holding the inputs' as they were and the output's at `out2_6` of them. (The body also loads the output
    buffer before the store; the loaded value is used nowhere.) -/
theorem sound_kernel2 (c : Dev nD) (E : Set ℕ) (i : grid2.Coords) (arg2 : Memref sig .tc .vmem S1x1024x1024 .f32) (harg2 : arg2.IsWhole) (arg3 : Memref sig .tc .vmem S1x1024x1024 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1x1024x1024 .f32) (harg8 : arg8.IsWhole)
    (x0 x1 : Vec F S1x1024x1024 .f32) (x2 x3 x4 x5 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2__bn_kernel i arg2 harg2 arg3 harg3 arg4 harg4 arg5 harg5 arg6 harg6 arg7 harg7 arg8 harg8) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The region's proof data -/

/-- The proof data of region 2 on core `c`: the arrays as the region finds them (`V`); after the body at point `t` each
    input's buffer still at its block and the output's at `out2_6` of the six input blocks; the invariant holds the rest
    of the core's state untouched; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks (`before2_W`), so `sound_kernel2` applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Assembly.lean ====
/-
  The run of the kernel's @main, at any float instance: four host stretches and three pallas calls in order.
  Each pallas call enters with every unscoped buffer at a named valuation, runs its pipeline over the proof data
  of its own module (what every window's staging buffer holds after the body at each grid point, and what the
  kernel's carried scratch accumulators hold between points), and leaves its windows' arrays at the fold of the
  write-backs; the host stretches between them are folds of their operations. The result is `run_all`: every
  weakly fair execution terminates without a fault and every unscoped buffer ends at the last valuation `W7`,
  from which the frame (each argument array unchanged) is read off: no host stretch writes an argument, and a
  pallas call either reads it through an input window or does not touch it.
-/
import proofs.«130369_j29137058136126_2_alg».proof.Proof.Gen.KernelIdeal.Launch
import proofs.«130369_j29137058136126_2_alg».proof.Proof.Gen.KernelIdeal.Skeleton
import proofs.«130369_j29137058136126_2_alg».proof.Proof.Gen.KernelIdeal.Points
import proofs.«130369_j29137058136126_2_alg».proof.Proof.Gen.KernelIdeal.Regions
import proofs.«130369_j29137058136126_2_alg».proof.Proof.KI.R0
import proofs.«130369_j29137058136126_2_alg».proof.Proof.KI.R1
import proofs.«130369_j29137058136126_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The third pallas call carries no scratch: its invariant is the class invariant at every point. -/
theorem phi_in2 (V : (c : Dev nD) → (b : Ref sig .tc) → Buf (Elt F) ((c : Thread nD τ).loc b)) (c : Dev nD) :
    Pipeline.ΦA spec2 c ⊢ (dat2 V c).Φ 0 := by
  rw [show (dat2 V c).Φ 0 = Pipeline.ΦA spec2 c from rfl]
theorem phi_out2 (V : (c : Dev nD) → (b : Ref sig .tc) → Buf (Elt F) ((c : Thread nD τ).loc b)) (c : Dev nD) :
    (dat2 V c).Φ (Fin.last cfg2.N) ⊢ Pipeline.ΦA spec2 c := by
  rw [show (dat2 V c).Φ (Fin.last cfg2.N) = Pipeline.ΦA spec2 c from rfl]

/-! # The run of @main: four host stretches and three pallas calls, from the launch to the return

## What every unscoped buffer holds at each boundary -/

section Run
variable (m : (ℓ : Loc nD τ sig) → Buf (Elt F) ℓ) (ρ : Dev nD → PrngReg)

/-- Core `c`'s buffers at launch. -/
abbrev W0 : Dev nD → Valuation τ sig (Elt F) := fun c b => m (c, b)
/-- After the first host stretch (the reshape of `v` and the four transposed, converted weight matrices). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_keep (c : Dev nD) (r : Ref sig .tc) (h : r ∉ (hostOps0_W : List (Ref sig .tc))) : W1 m c r = W0 m c r :=
  StableHlo.after_of_writes_sub hostOps0 _ hostOps0_writes h

/-- After pallas call 0: its windows' arrays at what the pipeline's write-backs leave (`Dat.arrAt … N`: an input as
    entered, an output with each point's block written back), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- After the host stretch that follows. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
theorem W3_keep (c : Dev nD) (r : Ref sig .tc) (h : r ∉ (hostOps1_W : List (Ref sig .tc))) : W3 m c r = W2 m c r :=
  StableHlo.after_of_writes_sub hostOps1 _ hostOps1_writes h

/-- After pallas call 1: its windows' arrays at what the pipeline's write-backs leave (`Dat.arrAt … N`: an input as
    entered, an output with each point's block written back), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- An input window's array leaves the region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
/-- After the host stretch that follows. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
theorem W5_keep (c : Dev nD) (r : Ref sig .tc) (h : r ∉ (hostOps2_W : List (Ref sig .tc))) : W5 m c r = W4 m c r :=
  StableHlo.after_of_writes_sub hostOps2 _ hostOps2_writes h

/-- After pallas call 2: its windows' arrays at what the pipeline's write-backs leave (`Dat.arrAt … N`: an input as
    entered, an output with each point's block written back), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- An input window's array leaves the region as it entered. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
/-- After the host stretch that follows. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
theorem W7_keep (c : Dev nD) (r : Ref sig .tc) (h : r ∉ (hostOps3_W : List (Ref sig .tc))) : W7 m c r = W6 m c r :=
  StableHlo.after_of_writes_sub hostOps3 _ hostOps3_writes h

/-! ## The proof data of the three pipelines and the thread state -/

/-- Every pipeline's proof data, each at the contents its region is entered with — a literal `match`, so that the
    pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over all unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W7 m c) ∗ ∃ r, prngReg c r)

/-! ## The pallas calls as segments -/

/-- Of three resources keep the last and the first, in that order. -/
theorem sep_last_first {P Q S : sProp 𝕄} : iprop(P ∗ Q ∗ S) ⊢ iprop(S ∗ P) := by
  iintro ⟨HP, -, HS⟩
  isplitl [HS]; · iexact HS
  iexact HP
/-- Swap two resources, with nothing between them. -/
theorem sep_swap_emp {P Q : sProp 𝕄} : iprop(P ∗ Q) ⊢ iprop(Q ∗ BI.emp ∗ P) := by
  iintro ⟨HP, HQ⟩
  isplitl [HQ]; · iexact HQ
  isplitr; · iempintro
  iexact HP

-- a library lemma stated over `pin pcs a p` unifies with the pinned configuration only when unification may unfold
-- plain definitions in a metavariable's type
set_option backward.isDefEq.respectTransparency.types false in
/-- Pallas call 0 as a segment of @main: entered with every unscoped buffer at `W1`, left with them at `W2`.
    Its windows' arrays are split out of the unscoped buffers on entry and put back, at what the write-backs left, on
    exit; the generator register and the scoped rest pass through the region invariant; nothing is owed and the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := phi_in0 (V1 m) c
    unfold Pipeline.ΦA at h
    exact sep_last_first.trans h
  hout c := by
    rw [Pipeline.ownSems0_none]
    have h := phi_out0 (V1 m) c
    unfold Pipeline.ΦA at h
    exact h.trans sep_swap_emp
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Pallas call 1 as a segment of @main: entered with every unscoped buffer at `W3`, left with them at `W4`.
    Its windows' arrays are split out of the unscoped buffers on entry and put back, at what the write-backs left, on
    exit; the generator register and the scoped rest pass through the region invariant; nothing is owed and the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := phi_in1 (V3 m) c
    unfold Pipeline.ΦA at h
    exact sep_last_first.trans h
  hout c := by
    rw [Pipeline.ownSems0_none]
    have h := phi_out1 (V3 m) c
    unfold Pipeline.ΦA at h
    exact h.trans sep_swap_emp
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Pallas call 2 as a segment of @main: entered with every unscoped buffer at `W5`, left with them at `W6`.
    Its windows' arrays are split out of the unscoped buffers on entry and put back, at what the write-backs left, on
    exit; the generator register and the scoped rest pass through the region invariant; nothing is owed and the kernel
    has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := phi_in2 (V5 m) c
    unfold Pipeline.ΦA at h
    exact sep_last_first.trans h
  hout c := by
    rw [Pipeline.ownSems0_none]
    have h := phi_out2 (V5 m) c
    unfold Pipeline.ΦA at h
    exact h.trans sep_swap_emp
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main IS the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates without a fault, and
    in every final state every unscoped buffer holds what the fold `W7` says: the launch contents pushed through the
    four host stretches and the three pipelines' write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Run

/-! ## The argument arrays end as launched -/

section Frame
variable (m : (ℓ : Loc nD τ sig) → Buf (Elt F) ℓ) (ρ : Dev nD → PrngReg)

/-- A buffer no host stretch writes and that each pallas call either reads through an input window or does not touch
    holds at the end what it held at launch. -/
theorem W7_kept (c : Dev nD) (r : Ref sig .tc)
    (h3 : r ∉ (hostOps3_W : List (Ref sig .tc))) (h2 : r ∉ (hostOps2_W : List (Ref sig .tc)))
    (h1 : r ∉ (hostOps1_W : List (Ref sig .tc))) (h0 : r ∉ (hostOps0_W : List (Ref sig .tc)))
    (k2 : W6 m c r = W5 m c r) (k1 : W4 m c r = W3 m c r) (k0 : W2 m c r = W1 m c r) :
    W7 m c r = m ((c : Thread nD τ).loc r) :=
  (W7_keep m c r h3).trans <| k2.trans <| (W5_keep m c r h2).trans <| k1.trans <| (W3_keep m c r h1).trans <| k0.trans <| (W1_keep m c r h0).trans rfl

theorem W7_main_arg0 (c : Dev nD) : W7 m c main_arg0 = m ((c : Thread nD τ).loc main_arg0) :=
  W7_kept m c main_arg0 (by decide) (by decide) (by decide) (by decide) (W6_of_ne m c main_arg0 (by decide)) (W4_of_ne m c main_arg0 (by decide)) (W2_of_ne m c main_arg0 (by decide))
theorem W7_main_arg1 (c : Dev nD) : W7 m c main_arg1 = m ((c : Thread nD τ).loc main_arg1) :=
  W7_kept m c main_arg1 (by decide) (by decide) (by decide) (by decide) (W6_of_ne m c main_arg1 (by decide)) (W4_of_ne m c main_arg1 (by decide)) (W2_of_ne m c main_arg1 (by decide))
theorem W7_main_arg2 (c : Dev nD) : W7 m c main_arg2 = m ((c : Thread nD τ).loc main_arg2) :=
  W7_kept m c main_arg2 (by decide) (by decide) (by decide) (by decide) (W6_of_ne m c main_arg2 (by decide)) (W4_of_ne m c main_arg2 (by decide)) (W2_in m c 2 rfl)
theorem W7_main_arg3 (c : Dev nD) : W7 m c main_arg3 = m ((c : Thread nD τ).loc main_arg3) :=
  W7_kept m c main_arg3 (by decide) (by decide) (by decide) (by decide) (W6_of_ne m c main_arg3 (by decide)) (W4_of_ne m c main_arg3 (by decide)) (W2_of_ne m c main_arg3 (by decide))
theorem W7_main_arg4 (c : Dev nD) : W7 m c main_arg4 = m ((c : Thread nD τ).loc main_arg4) :=
  W7_kept m c main_arg4 (by decide) (by decide) (by decide) (by decide) (W6_of_ne m c main_arg4 (by decide)) (W4_of_ne m c main_arg4 (by decide)) (W2_in m c 6 rfl)
theorem W7_main_arg5 (c : Dev nD) : W7 m c main_arg5 = m ((c : Thread nD τ).loc main_arg5) :=
  W7_kept m c main_arg5 (by decide) (by decide) (by decide) (by decide) (W6_of_ne m c main_arg5 (by decide)) (W4_of_ne m c main_arg5 (by decide)) (W2_of_ne m c main_arg5 (by decide))
theorem W7_main_arg6 (c : Dev nD) : W7 m c main_arg6 = m ((c : Thread nD τ).loc main_arg6) :=
  W7_kept m c main_arg6 (by decide) (by decide) (by decide) (by decide) (W6_of_ne m c main_arg6 (by decide)) (W4_of_ne m c main_arg6 (by decide)) (W2_in m c 4 rfl)
theorem W7_main_arg7 (c : Dev nD) : W7 m c main_arg7 = m ((c : Thread nD τ).loc main_arg7) :=
  W7_kept m c main_arg7 (by decide) (by decide) (by decide) (by decide) (W6_of_ne m c main_arg7 (by decide)) (W4_of_ne m c main_arg7 (by decide)) (W2_of_ne m c main_arg7 (by decide))
theorem W7_main_arg8 (c : Dev nD) : W7 m c main_arg8 = m ((c : Thread nD τ).loc main_arg8) :=
  W7_kept m c main_arg8 (by decide) (by decide) (by decide) (by decide) (W6_of_ne m c main_arg8 (by decide)) (W4_in m c 3 rfl) (W2_of_ne m c main_arg8 (by decide))
theorem W7_main_arg9 (c : Dev nD) : W7 m c main_arg9 = m ((c : Thread nD τ).loc main_arg9) :=
  W7_kept m c main_arg9 (by decide) (by decide) (by decide) (by decide) (W6_in m c 4 rfl) (W4_of_ne m c main_arg9 (by decide)) (W2_of_ne m c main_arg9 (by decide))
theorem W7_main_arg10 (c : Dev nD) : W7 m c main_arg10 = m ((c : Thread nD τ).loc main_arg10) :=
  W7_kept m c main_arg10 (by decide) (by decide) (by decide) (by decide) (W6_in m c 5 rfl) (W4_of_ne m c main_arg10 (by decide)) (W2_of_ne m c main_arg10 (by decide))

/-- THE FRAME at any `F`: @main runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c)⟩) (run_all m ρ)

end Frame

end Cert.KernelIdeal.Hand

end
-- ==== Proof.Spec.lean ====
/-
  What the kernel's arrays hold after each pallas call and host stretch, as functions of the arrays going in, on the
  extended reals and by explicit coordinates (batch b : Fin 4, row n : Fin 4096, channel indices j, i : Fin 512,
  c : Fin 1024; a row inside tile t is n = t * 1024 + r). Sums are Finset sums over Fin types; float literals stay
  as the words the programs print.
-/
import Idealize.ShloMosaic.PureOps.Ideal
import Idealize.ShloMosaic.Lib.ValueIdx

noncomputable section

open scoped BigOperators

namespace Cert.NonLocal

open Idealize.ShloMosaic Idealize.ShloMosaic.ValueIdx

/-- Row `r` of tile `t`: tiles are 1024 consecutive rows. -/
def row (t : Fin 4) (r : Fin 1024) : Fin 4096 := ⟨t.val * 1024 + r.val, by omega⟩

/-- A 1x1 convolution of the 1024 input channels to 512: a row of `x` against a column of the transposed weight
    matrix, plus the bias. -/
def conv (x : (⟨3, ![4, 4096, 1024]⟩ : Shape).Idx → EReal) (wT : (⟨2, ![1024, 512]⟩ : Shape).Idx → EReal)
    (bias : (⟨1, ![512]⟩ : Shape).Idx → EReal) (b : Fin 4) (n : Fin 4096) (j : Fin 512) : EReal :=
  (∑ k : Fin 1024, x (ix3 b n k) * wT (ix2 k j)) + bias (ix1 j)

/-- One tile's share of phi^T g: over the tile's 1024 rows, phi's channel `j` times g's channel `i`. -/
def tileGram (ph gv : Fin 4 → Fin 4096 → Fin 512 → EReal) (b : Fin 4) (t : Fin 4) (j i : Fin 512) : EReal :=
  ∑ r : Fin 1024, ph b (row t r) j * gv b (row t r) i

/-- The accumulator after the four tiles of batch `b`, started from zero, times the word 2^-12 (the kernel's 1/N). -/
def gram (ph gv : Fin 4 → Fin 4096 → Fin 512 → EReal) (b : Fin 4) (j i : Fin 512) : EReal :=
  ((((0 + tileGram ph gv b 0 j i) + tileGram ph gv b 1 j i) + tileGram ph gv b 2 j i) + tileGram ph gv b 3 j i)
    * Ideal.ofBits .f32 0x39800000#32

/-- theta against the Gram matrix: y = th M. -/
def mix (th : (⟨3, ![4, 4096, 512]⟩ : Shape).Idx → EReal) (M : (⟨3, ![4, 512, 512]⟩ : Shape).Idx → EReal)
    (b : Fin 4) (n : Fin 4096) (i : Fin 512) : EReal :=
  ∑ j : Fin 512, th (ix3 b n j) * M (ix3 b j i)

/-- The output convolution back to 1024 channels, plus its bias. -/
def expand (y : Fin 4 → Fin 4096 → Fin 512 → EReal) (wT : (⟨2, ![512, 1024]⟩ : Shape).Idx → EReal)
    (bias : (⟨1, ![1024]⟩ : Shape).Idx → EReal) (b : Fin 4) (n : Fin 4096) (c : Fin 1024) : EReal :=
  (∑ i : Fin 512, y b n i * wT (ix2 i c)) + bias (ix1 c)

/-- A tile's column sum of `f`. -/
def tileSum (f : Fin 4 → Fin 4096 → Fin 1024 → EReal) (b : Fin 4) (t : Fin 4) (c : Fin 1024) : EReal :=
  ∑ r : Fin 1024, f b (row t r) c

/-- The per-batch accumulator of column sums after its four tiles, started from zero. -/
def batchSum (f : Fin 4 → Fin 4096 → Fin 1024 → EReal) (b : Fin 4) (c : Fin 1024) : EReal :=
  (((0 + tileSum f b 0 c) + tileSum f b 1 c) + tileSum f b 2 c) + tileSum f b 3 c

/-- The host's sum over the four batches (its reduce starts from the zero word), divided by the word 16384.0. -/
def meanOf (s : Fin 4 → Fin 1024 → EReal) (c : Fin 1024) : EReal :=
  Ideal.div (0 + ∑ b : Fin 4, s b c) (Ideal.ofBits .f32 0x46800000#32)

/-- The one-pass variance: the mean of squares minus the squared mean. -/
def varOf (s ss : Fin 4 → Fin 1024 → EReal) (c : Fin 1024) : EReal :=
  meanOf ss c - meanOf s c * meanOf s c

/-- Batch normalisation with the statistics given, the affine map, and the residual. -/
def normed (wy x : Fin 4 → Fin 4096 → Fin 1024 → EReal) (mean var gamma beta : Fin 1024 → EReal)
    (b : Fin 4) (n : Fin 4096) (c : Fin 1024) : EReal :=
  ((wy b n c - mean c) * Ideal.rsqrt (var c + Ideal.ofBits .f32 0x3727C5AC#32)) * gamma c + beta c + x b n c

/-! ## The reference's stages, by the same coordinates over the argument arrays as given (weights not transposed,
    the activations with their unit axis) -/

/-- The activations by coordinates. -/
def xR (a0 : (⟨4, ![4, 1, 4096, 1024]⟩ : Shape).Idx → EReal) (b : Fin 4) (n : Fin 4096) (k : Fin 1024) : EReal :=
  a0 (ix4 b 0 n k)

/-- A 1x1 convolution against the weight matrix as given (output channel first). -/
def convR (a0 : (⟨4, ![4, 1, 4096, 1024]⟩ : Shape).Idx → EReal) (w : (⟨2, ![512, 1024]⟩ : Shape).Idx → EReal)
    (bias : (⟨1, ![512]⟩ : Shape).Idx → EReal) (b : Fin 4) (n : Fin 4096) (j : Fin 512) : EReal :=
  (∑ k : Fin 1024, a0 (ix4 b 0 n k) * w (ix2 j k)) + bias (ix1 j)

/-- The affinity of rows n and m: theta's row against phi's row, over the word 4096.0. -/
def affinR (th ph : Fin 4 → Fin 4096 → Fin 512 → EReal) (b : Fin 4) (n m : Fin 4096) : EReal :=
  Ideal.div (∑ i : Fin 512, th b n i * ph b m i) (Ideal.ofBits .f32 0x45800000#32)

/-- The affinities against g: y = R g. -/
def attendR (R : Fin 4 → Fin 4096 → Fin 4096 → EReal) (gv : Fin 4 → Fin 4096 → Fin 512 → EReal)
    (b : Fin 4) (n : Fin 4096) (i : Fin 512) : EReal :=
  ∑ m : Fin 4096, R b n m * gv b m i

/-- The output convolution against the weight matrix as given (output channel first). -/
def expandR (y : Fin 4 → Fin 4096 → Fin 512 → EReal) (w : (⟨2, ![1024, 512]⟩ : Shape).Idx → EReal)
    (bias : (⟨1, ![1024]⟩ : Shape).Idx → EReal) (b : Fin 4) (n : Fin 4096) (c : Fin 1024) : EReal :=
  (∑ i : Fin 512, y b n i * w (ix2 c i)) + bias (ix1 c)

/-- The mean over all 16384 rows of a channel: the reduce's zero start plus the double sum, over the word 16384.0. -/
def meanR (f : Fin 4 → Fin 4096 → Fin 1024 → EReal) (c : Fin 1024) : EReal :=
  Ideal.div (0 + ∑ b : Fin 4, ∑ n : Fin 4096, f b n c) (Ideal.ofBits .f32 0x46800000#32)

/-- The two-pass variance: the mean of the squared deviations. -/
def varR (f : Fin 4 → Fin 4096 → Fin 1024 → EReal) (c : Fin 1024) : EReal :=
  meanR (fun b n c => (f b n c - meanR f c) * (f b n c - meanR f c)) c

end Cert.NonLocal

end
-- ==== Proof.KI.R2Value.lean ====
import proofs.«130369_j29137058136126_2_alg».proof.Proof.KI.R2
import proofs.«130369_j29137058136126_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! # Region 2's result as one function of the arrays it finds

Batch-norm with affine parameters and a residual: at `(b, r, ch)` the result is
`(wy - mean[ch]) * rsqrt(var[ch] + eps) * gamma[ch] + beta[ch] + x`, the statistics indexed by the channel alone. -/

/-- The normalised value plus the residual, index by index. The additive constant under the reciprocal square root is
    kept as the word the program names, never evaluated. -/
def bnOut (WY X : S4x4096x1024.Idx → EReal) (mean var gamma beta : S1024.Idx → EReal) : S4x4096x1024.Idx → EReal :=
  fun i => ((WY i - mean (ix1 (i 2 : Fin 1024))) * Ideal.rsqrt (var (ix1 (i 2 : Fin 1024)) + Ideal.ofBits .f32 0x3727C5AC#32)) * gamma (ix1 (i 2 : Fin 1024))
    + beta (ix1 (i 2 : Fin 1024)) + X i

/-- `bnOut` at an index `i`, from the six entries it reads: the two arrays at `i` itself, the four vectors at `i`'s channel. -/
theorem bn_at (A0 A1 : S4x4096x1024.Idx → EReal) (A2 A3 A4 A5 : S1024.Idx → EReal) (i y0 y1 : S4x4096x1024.Idx) (z2 z3 z4 z5 : S1024.Idx)
    (h0 : y0 = i) (h1 : y1 = i) (h2 : z2 = ix1 (i 2 : Fin 1024)) (h3 : z3 = ix1 (i 2 : Fin 1024)) (h4 : z4 = ix1 (i 2 : Fin 1024)) (h5 : z5 = ix1 (i 2 : Fin 1024)) :
    ((A0 y0 - A2 z2) * Ideal.rsqrt (A3 z3 + Ideal.ofBits .f32 0x3727C5AC#32)) * A4 z4 + A5 z5 + A1 y1 = bnOut A0 A1 A2 A3 A4 A5 i := by
  subst h0 h1 h2 h3 h4 h5; rfl

/-! ## The body's payload at an index -/

/-- The stored block at `(u, p, q)`: every layout operation of the payload is a unit axis added or dropped or one row
    repeated down the rows, so the value there reads the two blocks at `(0, p, q)` and the four vectors at `q`.
    (The payload's arguments are in the order the body loads them: var before mean.) -/
theorem pay_at (wy x : Vec Ideal S1x1024x1024 .f32) (var mean gamma beta : Vec Ideal S1024 .f32) (u : Fin 1) (p q : Fin 1024) :
    k2_pay1 wy x var mean gamma beta (ix3 u p q)
      = ((wy (ix3 (0 : Fin 1) p q) - mean (ix1 q)) * Ideal.rsqrt (var (ix1 q) + Ideal.ofBits .f32 0x3727C5AC#32)) * gamma (ix1 q)
        + beta (ix1 q) + x (ix3 (0 : Fin 1) p q) := by
  unfold k2_pay1
  rw [shapeCast_ab_1ab_apply]
  simp only [addf_apply, mulf_apply, subf_apply]
  simp only [shapeCast_1ab_ab_apply, broadcastTo_1b_ab_apply, shapeCast_a_1a_apply, shapeCast_self]
  rfl

/-- The same at an index not yet split into coordinates. -/
theorem pay_at_idx (wy x : Vec Ideal S1x1024x1024 .f32) (var mean gamma beta : Vec Ideal S1024 .f32) (j : S1x1024x1024.Idx) :
    k2_pay1 wy x var mean gamma beta j
      = ((wy (ix3 (0 : Fin 1) (j 1 : Fin 1024) (j 2 : Fin 1024)) - mean (ix1 (j 2 : Fin 1024))) * Ideal.rsqrt (var (ix1 (j 2 : Fin 1024)) + Ideal.ofBits .f32 0x3727C5AC#32)) * gamma (ix1 (j 2 : Fin 1024))
        + beta (ix1 (j 2 : Fin 1024)) + x (ix3 (0 : Fin 1) (j 1 : Fin 1024) (j 2 : Fin 1024)) := by
  exact (congrArg (k2_pay1 wy x var mean gamma beta) (eq_ix3 j)).trans (pay_at wy x var mean gamma beta (j 0) (j 1) (j 2))

/-! ## The index maps over the grid -/

theorem zero3 : (![0, 0, 0] : Fin 3 → Nat) = fun _ => 0 := funext fun a => by fin_cases a <;> rfl
theorem zero1 : (![0] : Fin 1 → Nat) = fun _ => 0 := funext fun a => by fin_cases a <;> rfl

/-- Decided over the 16 points: the two block inputs sit on the output's block, the four vectors on their only block,
    and the output's block index is (batch, row tile, 0) with both coordinates below 4. -/
theorem idx_rel : ∀ t : Fin cfg2.N,
    win2_0.index t (0 : Fin 3) = win2_6.index t (0 : Fin 3) ∧ win2_0.index t (1 : Fin 3) = win2_6.index t (1 : Fin 3) ∧ win2_0.index t (2 : Fin 3) = win2_6.index t (2 : Fin 3)
    ∧ win2_1.index t (0 : Fin 3) = win2_6.index t (0 : Fin 3) ∧ win2_1.index t (1 : Fin 3) = win2_6.index t (1 : Fin 3) ∧ win2_1.index t (2 : Fin 3) = win2_6.index t (2 : Fin 3)
    ∧ win2_2.index t (0 : Fin 1) = 0 ∧ win2_3.index t (0 : Fin 1) = 0 ∧ win2_4.index t (0 : Fin 1) = 0 ∧ win2_5.index t (0 : Fin 1) = 0
    ∧ win2_6.index t (0 : Fin 3) ≤ 3 ∧ win2_6.index t (1 : Fin 3) ≤ 3 ∧ win2_6.index t (2 : Fin 3) = 0 :=
  (by decide +kernel : ∀ t : Fin grid2.N, _)

/-- Every (batch, row tile) is some point's output block. -/
theorem idx_onto : ∀ (q0 : Fin 4) (q1 : Fin 4), ∃ t : Fin cfg2.N, win2_6.index t = ![q0.val, q1.val, 0] :=
  (by decide +kernel : ∀ (q0 : Fin 4) (q1 : Fin 4), ∃ t : Fin grid2.N, win2_6.index t = ![q0.val, q1.val, 0])

variable (V : (c : Dev nD) → (b : Ref sig .tc) → Buf (Elt Ideal) ((c : Thread nD τ).loc b))

/-! ## What a point writes back -/

/-- Point `t` writes back block `t` of `bnOut` of the arrays the region finds. -/
theorem flushed2_6_eq (c : Dev nD) (t : Fin cfg2.N) :
    (dat2 V c).flushed 6 t = ((cfg2.win 6).blk t).view.read (Elt Ideal) (bnOut (V c main_v11_0) (V c main_v0) (V c main_v17) (V c main_v21) (V c main_arg9) (V c main_arg10)) := by
  show (cfg2.win 6).cut (grid2.coords t) ((dat2 V c).after 6 t) = _
  rw [after2_6]
  unfold out2_6
  rw [View.canon_unit_zero zero3]
  simp only [View.ld_unit_zero (S := S1x1024x1024) zero3, View.ld_unit_zero (S := S1024) zero1]
  obtain ⟨a0, a1, a2, b0, b1, b2, m0, v0, g0, be0, o0, o1, o2⟩ := idx_rel t
  funext j
  refine (pay_at_idx _ _ _ _ _ _ j).trans ?_
  refine bn_at (V c main_v11_0) (V c main_v0) (V c main_v17) (V c main_v21) (V c main_arg9) (V c main_arg10) (((cfg2.win 6).blk t).view.emb j)
    (((cfg2.win 0).blk t).view.emb (ix3 (0 : Fin 1) (j 1 : Fin 1024) (j 2 : Fin 1024))) (((cfg2.win 1).blk t).view.emb (ix3 (0 : Fin 1) (j 1 : Fin 1024) (j 2 : Fin 1024)))
    (((cfg2.win 2).blk t).view.emb (ix1 (j 2 : Fin 1024))) (((cfg2.win 3).blk t).view.emb (ix1 (j 2 : Fin 1024))) (((cfg2.win 4).blk t).view.emb (ix1 (j 2 : Fin 1024))) (((cfg2.win 5).blk t).view.emb (ix1 (j 2 : Fin 1024))) ?_ ?_ ?_ ?_ ?_ ?_
  · funext a; apply Fin.ext
    match a with
    | ⟨0, _⟩ => show win2_0.index t (0 : Fin 3) * 1 + 1 * (0 : Fin 1).val = win2_6.index t (0 : Fin 3) * 1 + 1 * (j 0).val; have hj : (j 0).val < 1 := (j 0).isLt; have hz : ((0 : Fin 1).val) = 0 := rfl; omega
    | ⟨1, _⟩ => show win2_0.index t (1 : Fin 3) * 1024 + 1 * (j 1).val = win2_6.index t (1 : Fin 3) * 1024 + 1 * (j 1).val; omega
    | ⟨2, _⟩ => show win2_0.index t (2 : Fin 3) * 1024 + 1 * (j 2).val = win2_6.index t (2 : Fin 3) * 1024 + 1 * (j 2).val; omega
  · funext a; apply Fin.ext
    match a with
    | ⟨0, _⟩ => show win2_1.index t (0 : Fin 3) * 1 + 1 * (0 : Fin 1).val = win2_6.index t (0 : Fin 3) * 1 + 1 * (j 0).val; have hj : (j 0).val < 1 := (j 0).isLt; have hz : ((0 : Fin 1).val) = 0 := rfl; omega
    | ⟨1, _⟩ => show win2_1.index t (1 : Fin 3) * 1024 + 1 * (j 1).val = win2_6.index t (1 : Fin 3) * 1024 + 1 * (j 1).val; omega
    | ⟨2, _⟩ => show win2_1.index t (2 : Fin 3) * 1024 + 1 * (j 2).val = win2_6.index t (2 : Fin 3) * 1024 + 1 * (j 2).val; omega
  · funext a; apply Fin.ext
    match a with
    | ⟨0, _⟩ => show win2_2.index t (0 : Fin 1) * 1024 + 1 * (j 2).val = win2_6.index t (2 : Fin 3) * 1024 + 1 * (j 2).val; omega
  · funext a; apply Fin.ext
    match a with
    | ⟨0, _⟩ => show win2_3.index t (0 : Fin 1) * 1024 + 1 * (j 2).val = win2_6.index t (2 : Fin 3) * 1024 + 1 * (j 2).val; omega
  · funext a; apply Fin.ext
    match a with
    | ⟨0, _⟩ => show win2_4.index t (0 : Fin 1) * 1024 + 1 * (j 2).val = win2_6.index t (2 : Fin 3) * 1024 + 1 * (j 2).val; omega
  · funext a; apply Fin.ext
    match a with
    | ⟨0, _⟩ => show win2_5.index t (0 : Fin 1) * 1024 + 1 * (j 2).val = win2_6.index t (2 : Fin 3) * 1024 + 1 * (j 2).val; omega

/-! ## From blocks to the array -/

/-- An index of the array is in point `t`'s output block iff each coordinate is in the block's range on its axis. -/
theorem mem_blk2_6 (t : Fin cfg2.N) (i : S4x4096x1024.Idx) :
    i ∈ ((cfg2.win 6).blk t).view.set ↔ ∀ a : Fin 3, win2_6.index t a * S1x1024x1024.size a ≤ (i a).val ∧ (i a).val < win2_6.index t a * S1x1024x1024.size a + S1x1024x1024.size a := by
  show i ∈ ((View.whole main_v22).slice (win2_6.rect t)).set ↔ _
  rw [View.set_slice_whole, Rect.mem_set_unit]
  exact Iff.rfl

/-- Every index `(b, r, ch)` lies in the block of the point whose output block is (b, r / 1024, 0). -/
theorem covered2_6 (i : S4x4096x1024.Idx) : ∃ t : Fin cfg2.N, (cfg2.win 6).flush t = true ∧ i ∈ ((cfg2.win 6).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win2_6.index t (0 : Fin 3) = (i 0).val := congrFun ht 0
  have q1 : win2_6.index t (1 : Fin 3) = (i 1).val / 1024 := congrFun ht 1
  have q2 : win2_6.index t (2 : Fin 3) = 0 := congrFun ht 2
  refine ⟨t, flush2_6 t, ?_⟩
  rw [mem_blk2_6]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 1024 ≤ (i 1).val ∧ (i 1).val < win2_6.index t (1 : Fin 3) * 1024 + 1024; omega
  | ⟨2, _⟩ => show win2_6.index t (2 : Fin 3) * 1024 ≤ (i 2).val ∧ (i 2).val < win2_6.index t (2 : Fin 3) * 1024 + 1024; omega

/-- The output array after the region is `bnOut` of the arrays the region found: every index is written by exactly the
    point above, with block `t` of that one function. -/
theorem final2_6 (c : Dev nD) : (dat2 V c).arrAt 6 cfg2.N = bnOut (V c main_v11_0) (V c main_v0) (V c main_v17) (V c main_v21) (V c main_arg9) (V c main_arg10) :=
  (dat2 V c).arrAt_eq_of_cover 6 (bnOut (V c main_v11_0) (V c main_v0) (V c main_v17) (V c main_v21) (V c main_arg9) (V c main_arg10)) (fun t _ => flushed2_6_eq V c t) covered2_6

/-- `bnOut` at `(b, n, k)` is `Cert.NonLocal.normed` of the six arrays read by coordinates. -/
theorem bnOut_ix3 (A0 A1 : S4x4096x1024.Idx → EReal) (A2 A3 A4 A5 : S1024.Idx → EReal) (b : Fin 4) (n : Fin 4096) (k : Fin 1024) :
    bnOut A0 A1 A2 A3 A4 A5 (ix3 b n k)
      = Cert.NonLocal.normed (fun b n k => A0 (ix3 b n k)) (fun b n k => A1 (ix3 b n k)) (fun k => A2 (ix1 k)) (fun k => A3 (ix1 k))
          (fun k => A4 (ix1 k)) (fun k => A5 (ix1 k)) b n k := rfl

end Cert.KernelIdeal.HandValue

end
-- ==== Proof.KI.R2Bridge.lean ====
import proofs.«130369_j29137058136126_2_alg».proof.Proof.KI.R2Value
import proofs.«130369_j29137058136126_2_alg».proof.Proof.Spec

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- So the output array after region 2, at `(b, n, k)`, is `normed` of the six arrays the region found. -/
theorem final2_6_normed (c : Dev nD) (b : Fin 4) (n : Fin 4096) (k : Fin 1024) :
    (dat2 V c).arrAt 6 cfg2.N (ix3 b n k)
      = Cert.NonLocal.normed (fun b n k => V c main_v11_0 (ix3 b n k)) (fun b n k => V c main_v0 (ix3 b n k)) (fun k => V c main_v17 (ix1 k)) (fun k => V c main_v21 (ix1 k))
          (fun k => V c main_arg9 (ix1 k)) (fun k => V c main_arg10 (ix1 k)) b n k :=
  (congrFun (final2_6 V c) (ix3 b n k)).trans (bnOut_ix3 _ _ _ _ _ _ b n k)

end Cert.KernelIdeal.HandValue

end
-- ==== Proof.KI.R0Pieces.lean ====
import proofs.«130369_j29137058136126_2_alg».proof.Proof.KI.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the first kernel is entered: a parameter
variable (V : (c : Dev nD) → (b : Ref sig .tc) → Buf (Elt F) ((c : Thread nD τ).loc b))

/-! # The first kernel: the pieces the runs found, as the body's own arithmetic

Each run's piece list is one whole-shape store per buffer (two for the accumulator at a first tile: the clearing, then the
update, which reads the clearing back). Read back, a buffer holds the last store's payload, and every load in a payload
reads a whole input buffer, that is, the window's block. So a point leaves: in the theta buffer, the tile's rows
projected; in the accumulator, the tile's `phᵀ · gv` added to zero (first tile) or to what the tile before left; and at a
last tile, in the Gram buffer, the finished accumulator scaled. -/

theorem off3 : (![0, 0, 0] : Fin 3 → Nat) = fun _ => 0 := funext fun a => by fin_cases a <;> rfl
theorem off2 : (![0, 0] : Fin 2 → Nat) = fun _ => 0 := funext fun a => by fin_cases a <;> rfl
theorem off1 : (![0] : Fin 1 → Nat) = fun _ => 0 := funext fun a => by fin_cases a <;> rfl

/-- The tile's theta rows: the theta projection of the tile's block of activations. -/
abbrev tileTheta (c : Dev nD) (t : Fin cfg0.N) : Vec F S1x1024x512 .bf16 :=
  k0_pay5 (inBlock0 V c 0 t) (inBlock0 V c 5 t) (inBlock0 V c 6 t)
/-- The tile's `phᵀ · gv`. -/
abbrev tileProd (c : Dev nD) (t : Fin cfg0.N) : Vec F S512x512 .f32 :=
  k0_pay6 (inBlock0 V c 0 t) (inBlock0 V c 1 t) (inBlock0 V c 3 t) (inBlock0 V c 2 t) (inBlock0 V c 4 t)

theorem first_theta (c : Dev nD) (t : Fin cfg0.N) (h0 : t.val % 4 = 0) :
    thetaOf (firstAt0 V c t h0).2.1 = tileTheta V c t := by
  unfold thetaOf tileTheta
  rw [View.read_writes_eq_canon _ _ _ (first_theta_cover V c t h0)]
  unfold firstAt0 runFirst0
  dsimp only
  sl_unfold_words
  rw [View.canon_unit_zero off3]
  simp only [View.readAt_eq_ld, (cur0_0_whole t).read_unread, (cur0_5_whole t).read_unread, (cur0_6_whole t).read_unread, View.ld_unit_zero (S := S1x1024x1024) off3, View.ld_unit_zero (S := S1024x512) off2, View.ld_unit_zero (S := S512) off1, View.ld_unit_zero (S := S512x512) off2]

theorem first_acc (c : Dev nD) (t : Fin cfg0.N) (h0 : t.val % 4 = 0) :
    accOf (firstAt0 V c t h0).2.2.1 = k0_pay1 (tileProd V c t) k0_pay3 := by
  unfold accOf tileProd
  rw [View.read_writes_eq_canon _ _ _ (first_acc_cover V c t h0)]
  unfold firstAt0 runFirst0
  dsimp only
  sl_unfold_words
  rw [View.canon_cons_unit_zero (S := S512x512) off2, View.readCov_unit_zero (S := S512x512) _ off2]
  simp only [View.readAt_eq_ld, (cur0_0_whole t).read_unread, (cur0_1_whole t).read_unread, (cur0_2_whole t).read_unread, (cur0_3_whole t).read_unread, (cur0_4_whole t).read_unread, View.ld_unit_zero (S := S1x1024x1024) off3, View.ld_unit_zero (S := S1024x512) off2, View.ld_unit_zero (S := S512) off1, View.ld_unit_zero (S := S512x512) off2]

theorem mid_theta (c : Dev nD) (t : Fin cfg0.N) (h0 : ¬t.val % 4 = 0) (h1 : ¬t.val % 4 = 3) (xs : Vec F S512x512 .f32) :
    thetaOf (midAt0 V c t h0 h1 xs).2.1 = tileTheta V c t := by
  unfold thetaOf tileTheta
  rw [View.read_writes_eq_canon _ _ _ (mid_theta_cover V c t h0 h1 xs)]
  unfold midAt0 runMid0
  dsimp only
  sl_unfold_words
  rw [View.canon_unit_zero off3]
  simp only [View.readAt_eq_ld, (cur0_0_whole t).read_unread, (cur0_5_whole t).read_unread, (cur0_6_whole t).read_unread, View.ld_unit_zero (S := S1x1024x1024) off3, View.ld_unit_zero (S := S1024x512) off2, View.ld_unit_zero (S := S512) off1, View.ld_unit_zero (S := S512x512) off2]

theorem mid_acc (c : Dev nD) (t : Fin cfg0.N) (h0 : ¬t.val % 4 = 0) (h1 : ¬t.val % 4 = 3) (xs : Vec F S512x512 .f32) :
    accOf (midAt0 V c t h0 h1 xs).2.2.1 = k0_pay1 (tileProd V c t) xs := by
  unfold accOf tileProd
  rw [View.read_writes_eq_canon _ _ _ (mid_acc_cover V c t h0 h1 xs)]
  unfold midAt0 runMid0
  dsimp only
  sl_unfold_words
  rw [View.canon_unit_zero off2]
  simp only [View.readAt_eq_ld, (cur0_0_whole t).read_unread, (cur0_1_whole t).read_unread, (cur0_2_whole t).read_unread, (cur0_3_whole t).read_unread, (cur0_4_whole t).read_unread, (Memref.isWhole_whole (cc0_scratch0 : Ref sig .tc)).read_unread, View.ld_unit_zero (S := S1x1024x1024) off3, View.ld_unit_zero (S := S1024x512) off2, View.ld_unit_zero (S := S512) off1, View.ld_unit_zero (S := S512x512) off2]

theorem last_theta (c : Dev nD) (t : Fin cfg0.N) (h0 : ¬t.val % 4 = 0) (h1 : t.val % 4 = 3) (xs : Vec F S512x512 .f32) :
    thetaOf (lastAt0 V c t h0 h1 xs).2.1 = tileTheta V c t := by
  unfold thetaOf tileTheta
  rw [View.read_writes_eq_canon _ _ _ (last_theta_cover V c t h0 h1 xs)]
  unfold lastAt0 runLast0
  dsimp only
  sl_unfold_words
  rw [View.canon_unit_zero off3]
  simp only [View.readAt_eq_ld, (cur0_0_whole t).read_unread, (cur0_5_whole t).read_unread, (cur0_6_whole t).read_unread, View.ld_unit_zero (S := S1x1024x1024) off3, View.ld_unit_zero (S := S1024x512) off2, View.ld_unit_zero (S := S512) off1, View.ld_unit_zero (S := S512x512) off2]

theorem last_acc (c : Dev nD) (t : Fin cfg0.N) (h0 : ¬t.val % 4 = 0) (h1 : t.val % 4 = 3) (xs : Vec F S512x512 .f32) :
    accOf (lastAt0 V c t h0 h1 xs).2.2.1 = k0_pay1 (tileProd V c t) xs := by
  unfold accOf tileProd
  rw [View.read_writes_eq_canon _ _ _ (last_acc_cover V c t h0 h1 xs)]
  unfold lastAt0 runLast0
  dsimp only
  sl_unfold_words
  rw [View.canon_unit_zero off2]
  simp only [View.readAt_eq_ld, (cur0_0_whole t).read_unread, (cur0_1_whole t).read_unread, (cur0_2_whole t).read_unread, (cur0_3_whole t).read_unread, (cur0_4_whole t).read_unread, (Memref.isWhole_whole (cc0_scratch0 : Ref sig .tc)).read_unread, View.ld_unit_zero (S := S1x1024x1024) off3, View.ld_unit_zero (S := S1024x512) off2, View.ld_unit_zero (S := S512) off1, View.ld_unit_zero (S := S512x512) off2]

theorem last_gram (c : Dev nD) (t : Fin cfg0.N) (h0 : ¬t.val % 4 = 0) (h1 : t.val % 4 = 3) (xs : Vec F S512x512 .f32) :
    gramOf (lastAt0 V c t h0 h1 xs).1 = k0_pay2 (k0_pay1 (tileProd V c t) xs) := by
  unfold gramOf tileProd
  rw [View.read_writes_eq_canon _ _ _ (last_gram_cover V c t h0 h1 xs)]
  unfold lastAt0 runLast0
  dsimp only
  sl_unfold_words
  rw [View.canon_unit_zero off3, View.readCov_unit_zero (S := S512x512) _ off2]
  simp only [View.readAt_eq_ld, (cur0_0_whole t).read_unread, (cur0_1_whole t).read_unread, (cur0_2_whole t).read_unread, (cur0_3_whole t).read_unread, (cur0_4_whole t).read_unread, (Memref.isWhole_whole (cc0_scratch0 : Ref sig .tc)).read_unread, View.ld_unit_zero (S := S1x1024x1024) off3, View.ld_unit_zero (S := S1024x512) off2, View.ld_unit_zero (S := S512) off1, View.ld_unit_zero (S := S512x512) off2]

/-! ## What every point leaves, in the body's arithmetic -/

/-- Every point leaves the tile's theta rows in the theta buffer. -/
theorem theta_left (c : Dev nD) (t : Fin cfg0.N) : (leftAt0 V c t.val t.isLt).2.1 = tileTheta V c t := by
  by_cases h0 : t.val % 4 = 0
  · rw [leftAt0_first V c t h0]; unfold leftFirst0; dsimp only; exact first_theta V c t h0
  · by_cases h1 : t.val % 4 = 3
    · rw [leftAt0_last V c t h0 h1]; unfold leftLast0; dsimp only; exact last_theta V c t h0 h1 _
    · rw [leftAt0_mid V c t h0 h1]; unfold leftMid0; dsimp only; exact mid_theta V c t h0 h1 _

/-- A first tile leaves the accumulator at zero plus the tile's product. -/
theorem acc_left_first (c : Dev nD) (t : Fin cfg0.N) (h0 : t.val % 4 = 0) :
    (leftAt0 V c t.val t.isLt).2.2 = k0_pay1 (tileProd V c t) k0_pay3 := by
  rw [leftAt0_first V c t h0]; unfold leftFirst0; dsimp only; exact first_acc V c t h0

/-- A later tile leaves it at what the tile before left plus the tile's product. -/
theorem acc_left_next (c : Dev nD) (t : Fin cfg0.N) (h0 : ¬t.val % 4 = 0) :
    (leftAt0 V c t.val t.isLt).2.2
      = k0_pay1 (tileProd V c t) (leftAt0 V c (t.val - 1) (Nat.lt_of_le_of_lt (Nat.sub_le _ _) t.isLt)).2.2 := by
  by_cases h1 : t.val % 4 = 3
  · rw [leftAt0_last V c t h0 h1]; unfold leftLast0; dsimp only; exact last_acc V c t h0 h1 _
  · rw [leftAt0_mid V c t h0 h1]; unfold leftMid0; dsimp only; exact mid_acc V c t h0 h1 _

/-- A last tile leaves the Gram buffer at the accumulator it leaves, scaled. -/
theorem gram_left_last (c : Dev nD) (t : Fin cfg0.N) (h1 : t.val % 4 = 3) :
    (leftAt0 V c t.val t.isLt).1 = k0_pay2 (leftAt0 V c t.val t.isLt).2.2 := by
  have h0 : ¬t.val % 4 = 0 := by omega
  rw [leftAt0_last V c t h0 h1]; unfold leftLast0; dsimp only
  rw [last_gram V c t h0 h1 _, last_acc V c t h0 h1 _]

end Cert.KernelIdeal.Hand

end
-- ==== Proof.KI.R0Value.lean ====
import proofs.«130369_j29137058136126_2_alg».proof.Proof.KI.R0Pieces
import proofs.«130369_j29137058136126_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! # The first kernel at the exact reals: the arrays it leaves

At the ideal instance a rounding to bfloat16 is the identity, a product into the zero block is the plain sum over the
contracted index, and every layout operation is a re-indexing. So the theta output is the theta convolution of the
activations, row by row, and the Gram output of a batch is the four tiles' `phᵀ · gv` added in order onto zero, times the
word `2⁻¹²`. -/

/-! ## The products, at an entry -/

/-- A 1024x1024 by 1024x512 product into zero, at an entry: the row against the column. -/
theorem mm_rows {φ₁ φ₂ : FTy} (A : FVec Ideal S1024x1024 φ₁) (B : FVec Ideal S1024x512 φ₂) (r : Fin 1024) (j : Fin 512) :
    matmul dot_S1024x1024_S1024x512_S1024x512_1_0_0_1_n_n none A B (constant S1024x512 .f32 0x00000000#32) (ix2 r j)
      = ∑ k : Fin 1024, A (ix2 r k) * B (ix2 k j) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have ck := contrEquiv1_symm_val dot_S1024x1024_S1024x512_S1024x512_1_0_0_1_n_n 1024 rfl rfl k
  have hl : dot_S1024x1024_S1024x512_S1024x512_1_0_0_1_n_n.lhsIdx (ix2 r j) ((contrEquiv1 _ 1024 rfl rfl).symm k) = ix2 r k := by
    funext ax; apply Fin.ext
    match ax with
    | ⟨0, _⟩ => simp [DotDims.lhsIdx, dot_S1024x1024_S1024x512_S1024x512_1_0_0_1_n_n]; rfl
    | ⟨1, _⟩ => simp [DotDims.lhsIdx, dot_S1024x1024_S1024x512_S1024x512_1_0_0_1_n_n]; exact ck
  have hr : dot_S1024x1024_S1024x512_S1024x512_1_0_0_1_n_n.rhsIdx (ix2 r j) ((contrEquiv1 _ 1024 rfl rfl).symm k) = ix2 k j := by
    funext ax; apply Fin.ext
    match ax with
    | ⟨0, _⟩ => simp [DotDims.rhsIdx, dot_S1024x1024_S1024x512_S1024x512_1_0_0_1_n_n]; exact ck
    | ⟨1, _⟩ => simp [DotDims.rhsIdx, dot_S1024x1024_S1024x512_S1024x512_1_0_0_1_n_n]; rfl
  rw [hl, hr]

/-- A 1024x512 (transposed) by 1024x512 product into zero, at an entry: column against column. -/
theorem mm_cols {φ₁ φ₂ : FTy} (A : FVec Ideal S1024x512 φ₁) (B : FVec Ideal S1024x512 φ₂) (j i : Fin 512) :
    matmul dot_S1024x512_S1024x512_S512x512_0_0_1_1_n_n none A B (constant S512x512 .f32 0x00000000#32) (ix2 j i)
      = ∑ r : Fin 1024, A (ix2 r j) * B (ix2 r i) := by
  simp only [matmul]
  rw [Ideal.matmul_constant_zero_apply, ← Equiv.sum_comp (contrEquiv1 dot_S1024x512_S1024x512_S512x512_0_0_1_1_n_n 1024 rfl rfl).symm]
  refine Finset.sum_congr rfl fun k _ => ?_
  have ck := contrEquiv1_symm_val dot_S1024x512_S1024x512_S512x512_0_0_1_1_n_n 1024 rfl rfl k
  have hl : dot_S1024x512_S1024x512_S512x512_0_0_1_1_n_n.lhsIdx (ix2 j i) ((contrEquiv1 _ 1024 rfl rfl).symm k) = ix2 k j := by
    funext ax; apply Fin.ext
    match ax with
    | ⟨0, _⟩ => simp [DotDims.lhsIdx, dot_S1024x512_S1024x512_S512x512_0_0_1_1_n_n]; exact ck
    | ⟨1, _⟩ => simp [DotDims.lhsIdx, dot_S1024x512_S1024x512_S512x512_0_0_1_1_n_n]; rfl
  have hr : dot_S1024x512_S1024x512_S512x512_0_0_1_1_n_n.rhsIdx (ix2 j i) ((contrEquiv1 _ 1024 rfl rfl).symm k) = ix2 k i := by
    funext ax; apply Fin.ext
    match ax with
    | ⟨0, _⟩ => simp [DotDims.rhsIdx, dot_S1024x512_S1024x512_S512x512_0_0_1_1_n_n]; exact ck
    | ⟨1, _⟩ => simp [DotDims.rhsIdx, dot_S1024x512_S1024x512_S512x512_0_0_1_1_n_n]; rfl
  rw [hl, hr]

theorem pay4_apply (v3 : Vec Ideal S1x1024x1024 .f32) (r k : Fin 1024) : k0_pay4 v3 (ix2 r k) = v3 (ix3 (0 : Fin 1) r k) :=
  shapeCast_1ab_ab_apply v3 _ r k

/-- A bias row added to every row, at an entry. -/
theorem bias_apply (v : Vec Ideal S512 .f32) (r : Fin 1024) (j : Fin 512) :
    broadcastTo S1024x512 (shapeCast S1x512 v shapeCasts_S512_S1x512) broadcasts_S1x512_S1024x512 (ix2 r j) = v (ix1 j) :=
  (broadcastTo_1b_ab_apply _ _ r j).trans (shapeCast_a_1a_apply v _ 0 j)

/-! ## The body's arithmetic, at an entry -/

/-- The theta rows of a tile: a row of the tile's activations against a column of the weights, plus the bias. -/
theorem pay5_apply (v3 : Vec Ideal S1x1024x1024 .f32) (v10 : Vec Ideal S1024x512 .bf16) (v23 : Vec Ideal S512 .f32)
    (u : Fin 1) (r : Fin 1024) (j : Fin 512) :
    k0_pay5 v3 v10 v23 (ix3 u r j) = (∑ k : Fin 1024, v3 (ix3 (0 : Fin 1) r k) * v10 (ix2 k j)) + v23 (ix1 j) := by
  unfold k0_pay5
  refine (shapeCast_ab_1ab_apply _ _ u r j).trans ?_
  show matmul dot_S1024x1024_S1024x512_S1024x512_1_0_0_1_n_n none (k0_pay4 v3) (shapeCast S1024x512 v10 shapeCasts_S1024x512_S1024x512) (constant S1024x512 .f32 0x00000000#32) (ix2 r j)
      + broadcastTo S1024x512 (shapeCast S1x512 v23 shapeCasts_S512_S1x512) broadcasts_S1x512_S1024x512 (ix2 r j) = _
  rw [mm_rows, bias_apply]
  simp only [pay4_apply, shapeCast_self]

/-- The tile's `phᵀ · gv`: over the tile's rows, the phi projection's channel `j` times the g projection's channel `i`. -/
theorem pay6_apply (v3 : Vec Ideal S1x1024x1024 .f32) (v6 v8 : Vec Ideal S1024x512 .bf16) (v13 v18 : Vec Ideal S512 .f32)
    (j i : Fin 512) :
    k0_pay6 v3 v6 v8 v13 v18 (ix2 j i)
      = ∑ r : Fin 1024, ((∑ k : Fin 1024, v3 (ix3 (0 : Fin 1) r k) * v8 (ix2 k j)) + v18 (ix1 j))
          * ((∑ k : Fin 1024, v3 (ix3 (0 : Fin 1) r k) * v6 (ix2 k i)) + v13 (ix1 i)) := by
  unfold k0_pay6
  refine (mm_cols _ _ j i).trans ?_
  refine Finset.sum_congr rfl fun r _ => ?_
  show (matmul dot_S1024x1024_S1024x512_S1024x512_1_0_0_1_n_n none (k0_pay4 v3) (shapeCast S1024x512 v8 shapeCasts_S1024x512_S1024x512) (constant S1024x512 .f32 0x00000000#32) (ix2 r j)
        + broadcastTo S1024x512 (shapeCast S1x512 v18 shapeCasts_S512_S1x512) broadcasts_S1x512_S1024x512 (ix2 r j))
      * (matmul dot_S1024x1024_S1024x512_S1024x512_1_0_0_1_n_n none (k0_pay4 v3) (shapeCast S1024x512 v6 shapeCasts_S1024x512_S1024x512) (constant S1024x512 .f32 0x00000000#32) (ix2 r i)
        + broadcastTo S1024x512 (shapeCast S1x512 v13 shapeCasts_S512_S1x512) broadcasts_S1x512_S1024x512 (ix2 r i)) = _
  rw [mm_rows, mm_rows, bias_apply, bias_apply]
  simp only [pay4_apply, shapeCast_self]

/-- The accumulator's update: what it held plus the tile's product. -/
theorem pay1_apply (v33 v34 : Vec Ideal S512x512 .f32) (j i : Fin 512) :
    k0_pay1 v33 v34 (ix2 j i) = v34 (ix2 j i) + v33 (ix2 j i) := by
  unfold k0_pay1
  rw [shapeCast_self]
  rfl

/-- The cleared accumulator is zero. -/
theorem pay3_apply (j i : Fin 512) : k0_pay3 (F := Ideal) (ix2 j i) = 0 := by
  unfold k0_pay3
  rw [shapeCast_self]
  exact Ideal.ofBits_zero_f32

/-- The read-out: the accumulator times the word `2⁻¹²`. -/
theorem pay2_apply (v42 : Vec Ideal S512x512 .f32) (u : Fin 1) (j i : Fin 512) :
    k0_pay2 v42 (ix3 u j i) = v42 (ix2 j i) * Ideal.ofBits .f32 0x39800000#32 := by
  unfold k0_pay2
  refine (shapeCast_ab_1ab_apply _ _ u j i).trans ?_
  rfl

/-! ## Where the windows sit -/

/-- The activations' window at point `t` is rows `1024 (t mod 4) …` of batch `t / 4`; so are the theta output's;
    the Gram output's is batch `t / 4`; the weights' and biases' windows are the whole arrays. -/
theorem at0_0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem at0_8 : ∀ t : Fin cfg0.N, win0_8.index t 0 = t.val / 4 ∧ win0_8.index t 1 = t.val % 4 ∧ win0_8.index t 2 = 0 :=
  (by decide +kernel : ∀ t : Fin grid0.N, win0_8.index t 0 = t.val / 4 ∧ win0_8.index t 1 = t.val % 4 ∧ win0_8.index t 2 = 0)
theorem at0_7 : ∀ t : Fin cfg0.N, win0_7.index t 0 = t.val / 4 ∧ win0_7.index t 1 = 0 ∧ win0_7.index t 2 = 0 :=
  (by decide +kernel : ∀ t : Fin grid0.N, win0_7.index t 0 = t.val / 4 ∧ win0_7.index t 1 = 0 ∧ win0_7.index t 2 = 0)
theorem at0_1 : ∀ t : Fin cfg0.N, win0_1.index t 0 = 0 ∧ win0_1.index t 1 = 0 :=
  (by decide +kernel : ∀ t : Fin grid0.N, win0_1.index t 0 = 0 ∧ win0_1.index t 1 = 0)
theorem at0_3 : ∀ t : Fin cfg0.N, win0_3.index t 0 = 0 ∧ win0_3.index t 1 = 0 :=
  (by decide +kernel : ∀ t : Fin grid0.N, win0_3.index t 0 = 0 ∧ win0_3.index t 1 = 0)
theorem at0_5 : ∀ t : Fin cfg0.N, win0_5.index t 0 = 0 ∧ win0_5.index t 1 = 0 :=
  (by decide +kernel : ∀ t : Fin grid0.N, win0_5.index t 0 = 0 ∧ win0_5.index t 1 = 0)
theorem at0_2 : ∀ t : Fin cfg0.N, win0_2.index t 0 = 0 :=
  (by decide +kernel : ∀ t : Fin grid0.N, win0_2.index t 0 = 0)
theorem at0_4 : ∀ t : Fin cfg0.N, win0_4.index t 0 = 0 :=
  (by decide +kernel : ∀ t : Fin grid0.N, win0_4.index t 0 = 0)
theorem at0_6 : ∀ t : Fin cfg0.N, win0_6.index t 0 = 0 :=
  (by decide +kernel : ∀ t : Fin grid0.N, win0_6.index t 0 = 0)

variable (V : (c : Dev nD) → (b : Ref sig .tc) → Buf (Elt Ideal) ((c : Thread nD τ).loc b))

/-- The batch and the row of the array that row `r` of point `t`'s tile is. -/
def batchOf (t : Fin cfg0.N) : Fin 4 := ⟨t.val / 4, by have := t.isLt; have : cfg0.N = 16 := N_0; omega⟩
def rowOf (t : Fin cfg0.N) (r : Fin 1024) : Fin 4096 := ⟨t.val % 4 * 1024 + r.val, by omega⟩

/-- The activations' block at point `t`, at an entry. -/
theorem block0_apply (c : Dev nD) (t : Fin cfg0.N) (u : Fin 1) (r k : Fin 1024) :
    (inBlock0 V c 0 t : Vec Ideal S1x1024x1024 .f32) (ix3 u r k) = V c main_v0 (ix3 (batchOf t) (rowOf t r) k) := by
  obtain ⟨h0, h1, h2⟩ := at0_0 t
  unfold inBlock0
  rw [View.read_apply]
  show V c main_v0 _ = V c main_v0 _
  congr 1
  funext a
  apply Fin.ext
  match a with
  | ⟨0, _⟩ => show win0_0.index t 0 * 1 + 1 * u.val = t.val / 4; rw [h0]; omega
  | ⟨1, _⟩ => show win0_0.index t 1 * 1024 + 1 * r.val = t.val % 4 * 1024 + r.val; rw [h1]; omega
  | ⟨2, _⟩ => show win0_0.index t 2 * 1024 + 1 * k.val = k.val; rw [h2]; omega

/-- A weight matrix's block is the matrix. -/
theorem block1_apply (c : Dev nD) (t : Fin cfg0.N) (k : Fin 1024) (j : Fin 512) :
    (inBlock0 V c 1 t : Vec Ideal S1024x512 .bf16) (ix2 k j) = V c main_v2 (ix2 k j) := by
  obtain ⟨h0, h1⟩ := at0_1 t
  unfold inBlock0
  rw [View.read_apply]
  show V c main_v2 _ = V c main_v2 _
  congr 1
  funext a
  apply Fin.ext
  match a with
  | ⟨0, _⟩ => show win0_1.index t 0 * 1024 + 1 * k.val = k.val; rw [h0]; omega
  | ⟨1, _⟩ => show win0_1.index t 1 * 512 + 1 * j.val = j.val; rw [h1]; omega

/-- A weight matrix's block is the matrix. -/
theorem block3_apply (c : Dev nD) (t : Fin cfg0.N) (k : Fin 1024) (j : Fin 512) :
    (inBlock0 V c 3 t : Vec Ideal S1024x512 .bf16) (ix2 k j) = V c main_v6 (ix2 k j) := by
  obtain ⟨h0, h1⟩ := at0_3 t
  unfold inBlock0
  rw [View.read_apply]
  show V c main_v6 _ = V c main_v6 _
  congr 1
  funext a
  apply Fin.ext
  match a with
  | ⟨0, _⟩ => show win0_3.index t 0 * 1024 + 1 * k.val = k.val; rw [h0]; omega
  | ⟨1, _⟩ => show win0_3.index t 1 * 512 + 1 * j.val = j.val; rw [h1]; omega

/-- A weight matrix's block is the matrix. -/
theorem block5_apply (c : Dev nD) (t : Fin cfg0.N) (k : Fin 1024) (j : Fin 512) :
    (inBlock0 V c 5 t : Vec Ideal S1024x512 .bf16) (ix2 k j) = V c main_v4 (ix2 k j) := by
  obtain ⟨h0, h1⟩ := at0_5 t
  unfold inBlock0
  rw [View.read_apply]
  show V c main_v4 _ = V c main_v4 _
  congr 1
  funext a
  apply Fin.ext
  match a with
  | ⟨0, _⟩ => show win0_5.index t 0 * 1024 + 1 * k.val = k.val; rw [h0]; omega
  | ⟨1, _⟩ => show win0_5.index t 1 * 512 + 1 * j.val = j.val; rw [h1]; omega

/-- A bias vector's block is the vector. -/
theorem block2_apply (c : Dev nD) (t : Fin cfg0.N) (j : Fin 512) :
    (inBlock0 V c 2 t : Vec Ideal S512 .f32) (ix1 j) = V c main_arg2 (ix1 j) := by
  have h0 := at0_2 t
  unfold inBlock0
  rw [View.read_apply]
  show V c main_arg2 _ = V c main_arg2 _
  congr 1
  funext a
  apply Fin.ext
  match a with
  | ⟨0, _⟩ => show win0_2.index t 0 * 512 + 1 * j.val = j.val; rw [h0]; omega

/-- A bias vector's block is the vector. -/
theorem block4_apply (c : Dev nD) (t : Fin cfg0.N) (j : Fin 512) :
    (inBlock0 V c 4 t : Vec Ideal S512 .f32) (ix1 j) = V c main_arg6 (ix1 j) := by
  have h0 := at0_4 t
  unfold inBlock0
  rw [View.read_apply]
  show V c main_arg6 _ = V c main_arg6 _
  congr 1
  funext a
  apply Fin.ext
  match a with
  | ⟨0, _⟩ => show win0_4.index t 0 * 512 + 1 * j.val = j.val; rw [h0]; omega

/-- A bias vector's block is the vector. -/
theorem block6_apply (c : Dev nD) (t : Fin cfg0.N) (j : Fin 512) :
    (inBlock0 V c 6 t : Vec Ideal S512 .f32) (ix1 j) = V c main_arg4 (ix1 j) := by
  have h0 := at0_6 t
  unfold inBlock0
  rw [View.read_apply]
  show V c main_arg4 _ = V c main_arg4 _
  congr 1
  funext a
  apply Fin.ext
  match a with
  | ⟨0, _⟩ => show win0_6.index t 0 * 512 + 1 * j.val = j.val; rw [h0]; omega

/-! ## The theta output -/

/-- A tile's theta rows are the theta convolution at the tile's rows of its batch. -/
theorem tile_theta_apply (c : Dev nD) (t : Fin cfg0.N) (u : Fin 1) (r : Fin 1024) (j : Fin 512) :
    tileTheta V c t (ix3 u r j)
      = Cert.NonLocal.conv (V c main_v0) (V c main_v4) (V c main_arg4) (batchOf t) (rowOf t r) j := by
  unfold tileTheta
  rw [pay5_apply]
  unfold Cert.NonLocal.conv
  simp only [block0_apply, block5_apply, block6_apply]

/-- What the theta array ends holding: the theta convolution of the activations. -/
def thetaArr (c : Dev nD) : Buf (Elt Ideal) ((c : Thread nD τ).loc main_v9_1) :=
  fun i => Cert.NonLocal.conv (V c main_v0) (V c main_v4) (V c main_arg4) (i 0) (i 1) (i 2)

/-- Every point writes back its tile of it. -/
theorem flushed8 (c : Dev nD) (t : Fin cfg0.N) (hf : (cfg0.win 8).flush t = true) :
    (dat0 V c).flushed 8 t = ((cfg0.win 8).blk t).view.read (Elt Ideal) (thetaArr V c) := by
  show (cfg0.win 8).cut (grid0.coords t) ((dat0 V c).after 8 t) = _
  rw [after0_8, theta_left]
  funext j
  obtain ⟨u, r, jj, rfl⟩ : ∃ (u : Fin 1) (r : Fin 1024) (jj : Fin 512), j = ix3 u r jj := ⟨j 0, j 1, j 2, eq_ix3 j⟩
  rw [View.read_apply]
  show tileTheta V c t (ix3 u r jj) = thetaArr V c _
  rw [tile_theta_apply]
  obtain ⟨h0, h1, h2⟩ := at0_8 t
  unfold thetaArr
  have hu := u.isLt
  have e0 : batchOf t = ((cfg0.win 8).blk t).view.emb (ix3 u r jj) 0 :=
    Fin.ext (by show t.val / 4 = win0_8.index t 0 * 1 + 1 * u.val; rw [h0]; omega)
  have e1 : rowOf t r = ((cfg0.win 8).blk t).view.emb (ix3 u r jj) 1 :=
    Fin.ext (by show t.val % 4 * 1024 + r.val = win0_8.index t 1 * 1024 + 1 * r.val; rw [h1]; omega)
  have e2 : jj = ((cfg0.win 8).blk t).view.emb (ix3 u r jj) 2 :=
    Fin.ext (by show jj.val = win0_8.index t 2 * 512 + 1 * jj.val; rw [h2]; omega)
  rw [← e0, ← e1, ← e2]

/-- Entry `(b, n, j)` of the theta array lies in the tile written back at point `4 b + n / 1024`. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set := by
  have hN : cfg0.N = 16 := N_0
  have i0 : (i 0 : ℕ) < 4 := (i 0).isLt
  have i1 : (i 1 : ℕ) < 4096 := (i 1).isLt
  have i2 : (i 2 : ℕ) < 512 := (i 2).isLt
  have ht : (i 0 : ℕ) * 4 + (i 1 : ℕ) / 1024 < cfg0.N := by rw [hN]; omega
  refine ⟨⟨(i 0 : ℕ) * 4 + (i 1 : ℕ) / 1024, ht⟩, flush0_8 _, ?_⟩
  obtain ⟨h0, h1, h2⟩ := at0_8 ⟨(i 0 : ℕ) * 4 + (i 1 : ℕ) / 1024, ht⟩
  show i ∈ ((View.whole main_v9_1).slice (win0_8.rect ⟨(i 0 : ℕ) * 4 + (i 1 : ℕ) / 1024, ht⟩)).set
  rw [View.set_slice_whole, Rect.mem_set_unit]
  intro a
  match a with
  | ⟨0, _⟩ =>
    show win0_8.index ⟨(i 0 : ℕ) * 4 + (i 1 : ℕ) / 1024, ht⟩ 0 * 1 ≤ (i 0 : ℕ) ∧ (i 0 : ℕ) < win0_8.index ⟨(i 0 : ℕ) * 4 + (i 1 : ℕ) / 1024, ht⟩ 0 * 1 + 1
    rw [h0]; dsimp only; omega
  | ⟨1, _⟩ =>
    show win0_8.index ⟨(i 0 : ℕ) * 4 + (i 1 : ℕ) / 1024, ht⟩ 1 * 1024 ≤ (i 1 : ℕ) ∧ (i 1 : ℕ) < win0_8.index ⟨(i 0 : ℕ) * 4 + (i 1 : ℕ) / 1024, ht⟩ 1 * 1024 + 1024
    rw [h1]; dsimp only; omega
  | ⟨2, _⟩ =>
    show win0_8.index ⟨(i 0 : ℕ) * 4 + (i 1 : ℕ) / 1024, ht⟩ 2 * 512 ≤ (i 2 : ℕ) ∧ (i 2 : ℕ) < win0_8.index ⟨(i 0 : ℕ) * 4 + (i 1 : ℕ) / 1024, ht⟩ 2 * 512 + 512
    rw [h2]; omega

/-- THE THETA OUTPUT: after the last point the array holds the theta convolution of the activations, entry by entry. -/
theorem final0_8 (c : Dev nD) :
    (dat0 V c).arrAt 8 cfg0.N
      = fun i => Cert.NonLocal.conv (V c main_v0) (V c main_v4) (V c main_arg4) (i 0) (i 1) (i 2) :=
  (dat0 V c).arrAt_eq_of_cover 8 (thetaArr V c) (flushed8 V c) (cover8 c)

/-! ## The Gram output -/

/-- The phi and g projections of the activations, by coordinates. -/
abbrev phiOf (c : Dev nD) : Fin 4 → Fin 4096 → Fin 512 → EReal := Cert.NonLocal.conv (V c main_v0) (V c main_v6) (V c main_arg6)
abbrev gOf (c : Dev nD) : Fin 4 → Fin 4096 → Fin 512 → EReal := Cert.NonLocal.conv (V c main_v0) (V c main_v2) (V c main_arg2)

/-- Which tile of its batch a point is. -/
def tileOf (t : Fin cfg0.N) : Fin 4 := ⟨t.val % 4, by omega⟩

/-- A tile's product is the tile's share of `phiᵀ g` of its batch. -/
theorem tile_prod_apply (c : Dev nD) (t : Fin cfg0.N) (j i : Fin 512) :
    tileProd V c t (ix2 j i) = Cert.NonLocal.tileGram (phiOf V c) (gOf V c) (batchOf t) (tileOf t) j i := by
  unfold tileProd
  rw [pay6_apply]
  unfold Cert.NonLocal.tileGram phiOf gOf Cert.NonLocal.conv
  refine Finset.sum_congr rfl fun r _ => ?_
  simp only [block0_apply, block1_apply, block2_apply, block3_apply, block4_apply]
  rfl

/-- A first tile leaves the accumulator at zero plus its product; -/
theorem acc_start (c : Dev nD) (n : ℕ) (hn : n < cfg0.N) (h0 : n % 4 = 0) (j i : Fin 512) :
    (leftAt0 V c n hn).2.2 (ix2 j i) = 0 + tileProd V c ⟨n, hn⟩ (ix2 j i) :=
  (congrFun (acc_left_first V c ⟨n, hn⟩ h0) (ix2 j i)).trans
    ((pay1_apply _ _ j i).trans (by rw [pay3_apply]))

/-- a later tile adds its product to what the tile before left. -/
theorem acc_step (c : Dev nD) (n : ℕ) (hn : n + 1 < cfg0.N) (h0 : ¬(n + 1) % 4 = 0) (j i : Fin 512) :
    (leftAt0 V c (n + 1) hn).2.2 (ix2 j i)
      = (leftAt0 V c n (Nat.lt_of_succ_lt hn)).2.2 (ix2 j i) + tileProd V c ⟨n + 1, hn⟩ (ix2 j i) :=
  (congrFun (acc_left_next V c ⟨n + 1, hn⟩ h0) (ix2 j i)).trans (pay1_apply _ _ j i)

/-- So after a batch's fourth tile the accumulator is the four products added in order onto zero. -/
theorem acc_four (c : Dev nD) (n : ℕ) (h3 : n + 1 + 1 + 1 < cfg0.N) (h0 : n % 4 = 0) (j i : Fin 512) :
    (leftAt0 V c (n + 1 + 1 + 1) h3).2.2 (ix2 j i)
      = (((0 + tileProd V c ⟨n, by omega⟩ (ix2 j i)) + tileProd V c ⟨n + 1, by omega⟩ (ix2 j i))
          + tileProd V c ⟨n + 1 + 1, by omega⟩ (ix2 j i)) + tileProd V c ⟨n + 1 + 1 + 1, h3⟩ (ix2 j i) := by
  rw [acc_step V c (n + 1 + 1) h3 (by omega), acc_step V c (n + 1) (by omega) (by omega),
    acc_step V c n (by omega) (by omega), acc_start V c n (by omega) h0]

/-- What the Gram array ends holding: per batch, `phiᵀ g` accumulated tile by tile, times `2⁻¹²`. -/
def gramArr (c : Dev nD) : Buf (Elt Ideal) ((c : Thread nD τ).loc main_v9_0) :=
  fun i => Cert.NonLocal.gram (phiOf V c) (gOf V c) (i 0) (i 1) (i 2)

/-- The last tile of a batch writes back the batch's block of it. -/
theorem flushed7 (c : Dev nD) (t : Fin cfg0.N) (hf : (cfg0.win 7).flush t = true) :
    (dat0 V c).flushed 7 t = ((cfg0.win 7).blk t).view.read (Elt Ideal) (gramArr V c) := by
  have hN : cfg0.N = 16 := N_0
  have h3 : t.val % 4 = 3 := (flush0_7 t).mp hf
  show (cfg0.win 7).cut (grid0.coords t) ((dat0 V c).after 7 t) = _
  rw [after0_7, gram_left_last V c t h3]
  funext j
  obtain ⟨u, jj, ii, rfl⟩ : ∃ (u : Fin 1) (jj : Fin 512) (ii : Fin 512), j = ix3 u jj ii := ⟨j 0, j 1, j 2, eq_ix3 j⟩
  rw [View.read_apply]
  show k0_pay2 (leftAt0 V c t.val t.isLt).2.2 (ix3 u jj ii) = gramArr V c _
  rw [pay2_apply]
  obtain ⟨h70, h71, h72⟩ := at0_7 t
  have hu := u.isLt
  have e0 : batchOf t = ((cfg0.win 7).blk t).view.emb (ix3 u jj ii) 0 :=
    Fin.ext (by show t.val / 4 = win0_7.index t 0 * 1 + 1 * u.val; rw [h70]; omega)
  have e1 : jj = ((cfg0.win 7).blk t).view.emb (ix3 u jj ii) 1 :=
    Fin.ext (by show jj.val = win0_7.index t 1 * 512 + 1 * jj.val; rw [h71]; omega)
  have e2 : ii = ((cfg0.win 7).blk t).view.emb (ix3 u jj ii) 2 :=
    Fin.ext (by show ii.val = win0_7.index t 2 * 512 + 1 * ii.val; rw [h72]; omega)
  unfold gramArr
  rw [← e0, ← e1, ← e2]
  obtain ⟨tv, tlt⟩ := t
  obtain ⟨n, rfl⟩ : ∃ n, tv = n + 1 + 1 + 1 := ⟨tv - 3, by dsimp only at h3; omega⟩
  have hn0 : n % 4 = 0 := by dsimp only at h3; omega
  show (leftAt0 V c (n + 1 + 1 + 1) tlt).2.2 (ix2 jj ii) * _ = _
  rw [acc_four V c n tlt hn0, tile_prod_apply, tile_prod_apply, tile_prod_apply, tile_prod_apply]
  unfold Cert.NonLocal.gram
  have b0 : batchOf (⟨n, by omega⟩ : Fin cfg0.N) = batchOf ⟨n + 1 + 1 + 1, tlt⟩ := Fin.ext (by show n / 4 = (n + 1 + 1 + 1) / 4; omega)
  have b1 : batchOf (⟨n + 1, by omega⟩ : Fin cfg0.N) = batchOf ⟨n + 1 + 1 + 1, tlt⟩ := Fin.ext (by show (n + 1) / 4 = (n + 1 + 1 + 1) / 4; omega)
  have b2 : batchOf (⟨n + 1 + 1, by omega⟩ : Fin cfg0.N) = batchOf ⟨n + 1 + 1 + 1, tlt⟩ := Fin.ext (by show (n + 1 + 1) / 4 = (n + 1 + 1 + 1) / 4; omega)
  have k0 : tileOf (⟨n, by omega⟩ : Fin cfg0.N) = 0 := Fin.ext (by show n % 4 = 0; omega)
  have k1 : tileOf (⟨n + 1, by omega⟩ : Fin cfg0.N) = 1 := Fin.ext (by show (n + 1) % 4 = 1; omega)
  have k2 : tileOf (⟨n + 1 + 1, by omega⟩ : Fin cfg0.N) = 2 := Fin.ext (by show (n + 1 + 1) % 4 = 2; omega)
  have k3 : tileOf (⟨n + 1 + 1 + 1, tlt⟩ : Fin cfg0.N) = 3 := Fin.ext (by show (n + 1 + 1 + 1) % 4 = 3; omega)
  rw [b0, b1, b2, k0, k1, k2, k3]

/-- Entry `(b, j, i)` of the Gram array lies in the block written back at point `4 b + 3`. -/
theorem cover7 (c : Dev nD) (i : ((cfg0.win 7).arr.view.loc (c.tc : Thread nD τ)).2.ty.Idx) :
    ∃ t : Fin cfg0.N, (cfg0.win 7).flush t = true ∧ i ∈ ((cfg0.win 7).blk t).view.set := by
  have hN : cfg0.N = 16 := N_0
  have i0 : (i 0 : ℕ) < 4 := (i 0).isLt
  have i1 : (i 1 : ℕ) < 512 := (i 1).isLt
  have i2 : (i 2 : ℕ) < 512 := (i 2).isLt
  have ht : (i 0 : ℕ) * 4 + 3 < cfg0.N := by rw [hN]; omega
  refine ⟨⟨(i 0 : ℕ) * 4 + 3, ht⟩, (flush0_7 _).mpr (by show ((i 0 : ℕ) * 4 + 3) % 4 = 3; omega), ?_⟩
  obtain ⟨h0, h1, h2⟩ := at0_7 ⟨(i 0 : ℕ) * 4 + 3, ht⟩
  show i ∈ ((View.whole main_v9_0).slice (win0_7.rect ⟨(i 0 : ℕ) * 4 + 3, ht⟩)).set
  rw [View.set_slice_whole, Rect.mem_set_unit]
  intro a
  match a with
  | ⟨0, _⟩ =>
    show win0_7.index ⟨(i 0 : ℕ) * 4 + 3, ht⟩ 0 * 1 ≤ (i 0 : ℕ) ∧ (i 0 : ℕ) < win0_7.index ⟨(i 0 : ℕ) * 4 + 3, ht⟩ 0 * 1 + 1
    rw [h0]; dsimp only; omega
  | ⟨1, _⟩ =>
    show win0_7.index ⟨(i 0 : ℕ) * 4 + 3, ht⟩ 1 * 512 ≤ (i 1 : ℕ) ∧ (i 1 : ℕ) < win0_7.index ⟨(i 0 : ℕ) * 4 + 3, ht⟩ 1 * 512 + 512
    rw [h1]; omega
  | ⟨2, _⟩ =>
    show win0_7.index ⟨(i 0 : ℕ) * 4 + 3, ht⟩ 2 * 512 ≤ (i 2 : ℕ) ∧ (i 2 : ℕ) < win0_7.index ⟨(i 0 : ℕ) * 4 + 3, ht⟩ 2 * 512 + 512
    rw [h2]; omega

/-- THE GRAM OUTPUT: after the last point the array holds, per batch, the four tiles' `phiᵀ g` added in order onto zero,
    times the word `2⁻¹²`. -/
theorem final0_7 (c : Dev nD) :
    (dat0 V c).arrAt 7 cfg0.N
      = fun i => Cert.NonLocal.gram (Cert.NonLocal.conv (V c main_v0) (V c main_v6) (V c main_arg6))
          (Cert.NonLocal.conv (V c main_v0) (V c main_v2) (V c main_arg2)) (i 0) (i 1) (i 2) :=
  (dat0 V c).arrAt_eq_of_cover 7 (gramArr V c) (flushed7 V c) (cover7 c)

end Cert.KernelIdeal.HandValue
end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.KI.R1Pieces.lean ====
import proofs.«130369_j29137058136126_2_alg».proof.Proof.KI.R1
import proofs.«130369_j29137058136126_2_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 1: each found piece is a printed payload of the point's blocks

The run of each case found, for each buffer it stores into, the list of stores with their payloads. Every such list
here is one whole-buffer store (on a first tile, for an accumulator, the zeroing store and then one whole-buffer store
over it), so what the buffer ends holding is the last store's payload; the loads inside the payload read whole buffers,
hence the blocks handed in, or what the previous whole-buffer store left. -/

variable {F : FTy → Type} [FloatOps F]

theorem zero1_1 : (![0] : Fin 1 → Nat) = fun _ => 0 := funext fun a => by fin_cases a <;> rfl
theorem zero2_1 : (![0, 0] : Fin 2 → Nat) = fun _ => 0 := funext fun a => by fin_cases a <;> rfl
theorem zero3_1 : (![0, 0, 0] : Fin 3 → Nat) = fun _ => 0 := funext fun a => by fin_cases a <;> rfl

/-! ## The product output: on every tile the stored product of the blocks -/

/-- A first tile leaves the product payload of the four input blocks in the product output. -/
theorem piece1_A_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) :
    out1_A_4 c i arg2 harg2 arg3 harg3 arg4 harg4 arg5 harg5 arg6 harg6 arg7 harg7 arg8 harg8 arg9 harg9 arg10 harg10 hc0 hc1 x0 x1 x2 x3 = k1_pay7 x0 x1 x2 x3 := by
  unfold out1_A_4
  rw [View.read_writes_eq_canon _ _ _ (cover1_A_4 c i arg2 harg2 arg3 harg3 arg4 harg4 arg5 harg5 arg6 harg6 arg7 harg7 arg8 harg8 arg9 harg9 arg10 harg10 hc0 hc1 x0 x1 x2 x3)]
  unfold run1_A
  dsimp only
  (try sl_unfold_words)
  rw [View.canon_unit_zero zero3_1]
  simp only [View.readAt_eq_ld, harg2.read_unread, harg3.read_unread, harg4.read_unread, harg5.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-- So does a middle tile. -/
theorem piece1_B_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) :
    out1_B_4 c i arg2 harg2 arg3 harg3 arg4 harg4 arg5 harg5 arg6 harg6 arg7 harg7 arg8 harg8 arg9 harg9 arg10 harg10 hc0 hc1 x0 x1 x2 x3 xs0 xs1 = k1_pay7 x0 x1 x2 x3 := by
  unfold out1_B_4
  rw [View.read_writes_eq_canon _ _ _ (cover1_B_4 c i arg2 harg2 arg3 harg3 arg4 harg4 arg5 harg5 arg6 harg6 arg7 harg7 arg8 harg8 arg9 harg9 arg10 harg10 hc0 hc1 x0 x1 x2 x3 xs0 xs1)]
  unfold run1_B
  dsimp only
  (try sl_unfold_words)
  rw [View.canon_unit_zero zero3_1]
  simp only [View.readAt_eq_ld, harg2.read_unread, harg3.read_unread, harg4.read_unread, harg5.read_unread, harg9.read_unread, harg10.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-- So does a last tile. -/
theorem piece1_C_4 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) :
    out1_C_4 c i arg2 harg2 arg3 harg3 arg4 harg4 arg5 harg5 arg6 harg6 arg7 harg7 arg8 harg8 arg9 harg9 arg10 harg10 hc0 hc1 x0 x1 x2 x3 xs0 xs1 = k1_pay7 x0 x1 x2 x3 := by
  unfold out1_C_4
  rw [View.read_writes_eq_canon _ _ _ (cover1_C_4 c i arg2 harg2 arg3 harg3 arg4 harg4 arg5 harg5 arg6 harg6 arg7 harg7 arg8 harg8 arg9 harg9 arg10 harg10 hc0 hc1 x0 x1 x2 x3 xs0 xs1)]
  unfold run1_C
  dsimp only
  (try sl_unfold_words)
  rw [View.canon_unit_zero zero3_1]
  simp only [View.readAt_eq_ld, harg2.read_unread, harg3.read_unread, harg4.read_unread, harg5.read_unread, harg9.read_unread, harg10.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-! ## The two accumulators -/

/-- A first tile leaves in the first accumulator the tile's column sums added to the zero row it had just stored. -/
theorem piece1_A_s0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) :
    sout1_A_0 c i arg2 harg2 arg3 harg3 arg4 harg4 arg5 harg5 arg6 harg6 arg7 harg7 arg8 harg8 arg9 harg9 arg10 harg10 hc0 hc1 x0 x1 x2 x3 = k1_pay8 x0 x1 x2 x3 k1_pay4 := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3)]
  unfold run1_A
  dsimp only
  (try sl_unfold_words)
  rw [View.canon_cons_unit_zero (S := S1x1024) zero2_1, View.readCov_unit_zero (S := S1x1024) _ zero2_1]
  simp only [View.readAt_eq_ld, harg2.read_unread, harg3.read_unread, harg4.read_unread, harg5.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-- And in the second the column sums of squares added to the zero row. -/
theorem piece1_A_s1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : first1 i) (hc1 : ¬last1 i)
    (x0 : Vec F S1x1024x512 .bf16) (x1 : Vec F S1x512x512 .bf16) (x2 : Vec F S512x1024 .bf16) (x3 : Vec F S1024 .f32) :
    sout1_A_1 c i arg2 harg2 arg3 harg3 arg4 harg4 arg5 harg5 arg6 harg6 arg7 harg7 arg8 harg8 arg9 harg9 arg10 harg10 hc0 hc1 x0 x1 x2 x3 = k1_pay1 (k1_pay9 x0 x1 x2 x3 k1_pay5) := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3)]
  unfold run1_A
  dsimp only
  (try sl_unfold_words)
  rw [View.canon_cons_unit_zero (S := S1x1024) zero2_1, View.readCov_unit_zero (S := S1x1024) _ zero2_1]
  simp only [View.readAt_eq_ld, harg2.read_unread, harg3.read_unread, harg4.read_unread, harg5.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-- A middle tile adds the tile's column sums to what the first accumulator held. -/
theorem piece1_B_s0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) :
    sout1_B_0 c i arg2 harg2 arg3 harg3 arg4 harg4 arg5 harg5 arg6 harg6 arg7 harg7 arg8 harg8 arg9 harg9 arg10 harg10 hc0 hc1 x0 x1 x2 x3 xs0 xs1 = k1_pay8 x0 x1 x2 x3 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 xs0 xs1)]
  unfold run1_B
  dsimp only
  (try sl_unfold_words)
  rw [View.canon_unit_zero zero2_1]
  simp only [View.readAt_eq_ld, harg2.read_unread, harg3.read_unread, harg4.read_unread, harg5.read_unread, harg9.read_unread, harg10.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-- And the column sums of squares to what the second held. -/
theorem piece1_B_s1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : ¬last1 i)
    (x0 : Vec F S1x1024x512 .bf16) (x1 : Vec F S1x512x512 .bf16) (x2 : Vec F S512x1024 .bf16) (x3 : Vec F S1024 .f32) (xs0 xs1 : Vec F S1x1024 .f32) :
    sout1_B_1 c i arg2 harg2 arg3 harg3 arg4 harg4 arg5 harg5 arg6 harg6 arg7 harg7 arg8 harg8 arg9 harg9 arg10 harg10 hc0 hc1 x0 x1 x2 x3 xs0 xs1 = k1_pay1 (k1_pay9 x0 x1 x2 x3 xs1) := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 xs0 xs1)]
  unfold run1_B
  dsimp only
  (try sl_unfold_words)
  rw [View.canon_unit_zero zero2_1]
  simp only [View.readAt_eq_ld, harg2.read_unread, harg3.read_unread, harg4.read_unread, harg5.read_unread, harg9.read_unread, harg10.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-- A last tile does the same to the first accumulator. -/
theorem piece1_C_s0 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) :
    sout1_C_0 c i arg2 harg2 arg3 harg3 arg4 harg4 arg5 harg5 arg6 harg6 arg7 harg7 arg8 harg8 arg9 harg9 arg10 harg10 hc0 hc1 x0 x1 x2 x3 xs0 xs1 = k1_pay8 x0 x1 x2 x3 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 xs0 xs1)]
  unfold run1_C
  dsimp only
  (try sl_unfold_words)
  rw [View.canon_unit_zero zero2_1]
  simp only [View.readAt_eq_ld, harg2.read_unread, harg3.read_unread, harg4.read_unread, harg5.read_unread, harg9.read_unread, harg10.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-- And to the second. -/
theorem piece1_C_s1 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) :
    sout1_C_1 c i arg2 harg2 arg3 harg3 arg4 harg4 arg5 harg5 arg6 harg6 arg7 harg7 arg8 harg8 arg9 harg9 arg10 harg10 hc0 hc1 x0 x1 x2 x3 xs0 xs1 = k1_pay1 (k1_pay9 x0 x1 x2 x3 xs1) := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 xs0 xs1)]
  unfold run1_C
  dsimp only
  (try sl_unfold_words)
  rw [View.canon_unit_zero zero2_1]
  simp only [View.readAt_eq_ld, harg2.read_unread, harg3.read_unread, harg4.read_unread, harg5.read_unread, harg9.read_unread, harg10.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-! ## The two sum outputs, stored on a last tile only: the accumulators just updated, with a unit axis added -/

/-- The sum output takes the first accumulator as the last tile has just left it. -/
theorem piece1_C_5 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) :
    out1_C_5 c i arg2 harg2 arg3 harg3 arg4 harg4 arg5 harg5 arg6 harg6 arg7 harg7 arg8 harg8 arg9 harg9 arg10 harg10 hc0 hc1 x0 x1 x2 x3 xs0 xs1 = k1_pay2 (k1_pay8 x0 x1 x2 x3 xs0) := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x3 xs0 xs1)]
  unfold run1_C
  dsimp only
  (try sl_unfold_words)
  rw [View.canon_unit_zero zero3_1, View.readCov_unit_zero (S := S1x1024) _ zero2_1]
  simp only [View.readAt_eq_ld, harg2.read_unread, harg3.read_unread, harg4.read_unread, harg5.read_unread, harg9.read_unread, harg10.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-- The sum-of-squares output takes the second. -/
theorem piece1_C_6 (c : Dev nD) (i : grid1.Coords) (arg2 : Memref sig .tc .vmem S1x1024x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (hc0 : ¬first1 i) (hc1 : last1 i)
    (x0 : Vec F S1x1024x512 .bf16) (x1 : Vec F S1x512x512 .bf16) (x2 : Vec F S512x1024 .bf16) (x3 : Vec F S1024 .f32) (xs0 xs1 : Vec F S1x1024 .f32) :
    out1_C_6 c i arg2 harg2 arg3 harg3 arg4 harg4 arg5 harg5 arg6 harg6 arg7 harg7 arg8 harg8 arg9 harg9 arg10 harg10 hc0 hc1 x0 x1 x2 x3 xs0 xs1 = k1_pay3 (k1_pay1 (k1_pay9 x0 x1 x2 x3 xs1)) := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 xs0 xs1)]
  unfold run1_C
  dsimp only
  (try sl_unfold_words)
  rw [View.canon_unit_zero zero3_1, View.readCov_unit_zero (S := S1x1024) _ zero2_1]
  simp only [View.readAt_eq_ld, harg2.read_unread, harg3.read_unread, harg4.read_unread, harg5.read_unread, harg9.read_unread, harg10.read_unread,
    View.ld_unit_zero (S := S1x1024x512) zero3_1, View.ld_unit_zero (S := S1x512x512) zero3_1, View.ld_unit_zero (S := S512x1024) zero2_1,
    View.ld_unit_zero (S := S1024) zero1_1, View.ld_unit_zero (S := S1x1024) zero2_1]

/-! ## The product payload at an index, on the extended reals -/

/-- The first product, theta's tile against the batch's mixing matrix, at (p, i). -/
theorem mm1_at1 (a : FVec Ideal S1024x512 .bf16) (b : FVec Ideal S512x512 .bf16) (p : Fin 1024) (i : Fin 512) :
    matmul dot_S1024x512_S512x512_S1024x512_1_0_0_1_n_n none a b (constant (F := Ideal) S1024x512 .f32 0x00000000#32) (ix2 p i)
      = ∑ j : Fin 512, a (ix2 p j) * b (ix2 j i) := by
  refine (Ideal.matmul_constant_zero_apply dot_S1024x512_S512x512_S1024x512_1_0_0_1_n_n none a b (ix2 p i)).trans ?_
  exact Cert.LibDotSum.plain dot_S1024x512_S512x512_S1024x512_1_0_0_1_n_n rfl rfl (fun _ _ => rfl)
    (fun j k => DotDims.lhsIdx_val_of_single _ (cl := 1) rfl j k) (fun j k => DotDims.rhsIdx_val_of_single _ (cr := 0) rfl j k) (fun _ _ => rfl)
    (fun x y => a x * b y) (ix2 p i)

/-- The second product, against the output weights, at (p, q). -/
theorem mm2_at1 (a : FVec Ideal S1024x512 .bf16) (b : FVec Ideal S512x1024 .bf16) (p q : Fin 1024) :
    matmul dot_S1024x512_S512x1024_S1024x1024_1_0_0_1_n_n none a b (constant (F := Ideal) S1024x1024 .f32 0x00000000#32) (ix2 p q)
      = ∑ i : Fin 512, a (ix2 p i) * b (ix2 i q) := by
  refine (Ideal.matmul_constant_zero_apply dot_S1024x512_S512x1024_S1024x1024_1_0_0_1_n_n none a b (ix2 p q)).trans ?_
  exact Cert.LibDotSum.plain dot_S1024x512_S512x1024_S1024x1024_1_0_0_1_n_n rfl rfl (fun _ _ => rfl)
    (fun j k => DotDims.lhsIdx_val_of_single _ (cl := 1) rfl j k) (fun j k => DotDims.rhsIdx_val_of_single _ (cr := 0) rfl j k) (fun _ _ => rfl)
    (fun x y => a x * b y) (ix2 p q)

/-- The tile's product at row p and channel q: theta's row against the mixing matrix, that against the output weights'
    column q, plus the bias at q. (The rounding of the inner product to the narrower format is the identity here.) -/
theorem pay6_at1 (x0 : Vec Ideal S1x1024x512 .bf16) (x1 : Vec Ideal S1x512x512 .bf16) (x2 : Vec Ideal S512x1024 .bf16) (x3 : Vec Ideal S1024 .f32)
    (p q : Fin 1024) :
    k1_pay6 x0 x1 x2 x3 (ix2 p q)
      = (∑ i : Fin 512, (∑ j : Fin 512, x0 (ix3 (0 : Fin 1) p j) * x1 (ix3 (0 : Fin 1) j i)) * x2 (ix2 i q)) + x3 (ix1 q) := by
  unfold k1_pay6
  refine (addf_apply _ _ (ix2 p q)).trans ?_
  refine congrArg₂ (· + ·) ?_ ?_
  · refine (mm2_at1 _ _ p q).trans ?_
    refine Finset.sum_congr rfl fun i _ => ?_
    refine congrArg₂ (· * ·) ?_ ?_
    · refine (truncf_apply (ψ := .bf16) _ bitsLt_bf16_f32 (ix2 p i)).trans ?_
      refine (mm1_at1 _ _ p i).trans ?_
      refine Finset.sum_congr rfl fun j _ => ?_
      exact congrArg₂ (· * ·) (shapeCast_1ab_ab_apply x0 _ p j) (shapeCast_1ab_ab_apply x1 _ j i)
    · exact congrFun (shapeCast_self x2 _) (ix2 i q)
  · refine (broadcastTo_1b_ab_apply _ _ p q).trans ?_
    exact shapeCast_a_1a_apply x3 _ (0 : Fin 1) q

end Cert.KernelIdeal.HandValue

end
-- ==== Proof.KI.R1Value.lean ====
import proofs.«130369_j29137058136126_2_alg».proof.Proof.KI.R1Pieces
import proofs.«130369_j29137058136126_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 1's product output as one function of the arrays it finds

At (b, n, k) the product array holds theta's row (b, n) against batch b's mixing matrix, that against column k of the
output weights, plus the bias at k. Every point stores its own (batch, row tile) block of that one function, and the
sixteen blocks tile the array. -/

/-- The product array, index by index: the specification's expansion of the mixture. -/
def wy1 (th : S4x4096x512.Idx → EReal) (M : S4x512x512.Idx → EReal) (wT : S512x1024.Idx → EReal) (wb : S1024.Idx → EReal) :
    S4x4096x1024.Idx → EReal :=
  fun i => Cert.NonLocal.expand (Cert.NonLocal.mix th M) wT wb (i 0 : Fin 4) (i 1 : Fin 4096) (i 2 : Fin 1024)

theorem wy1_apply (th : S4x4096x512.Idx → EReal) (M : S4x512x512.Idx → EReal) (wT : S512x1024.Idx → EReal) (wb : S1024.Idx → EReal)
    (i : S4x4096x1024.Idx) :
    wy1 th M wT wb i = Cert.NonLocal.expand (Cert.NonLocal.mix th M) wT wb (i 0 : Fin 4) (i 1 : Fin 4096) (i 2 : Fin 1024) := rfl

/-- `wy1` at an index `i`, from the entries it reads: theta along row (i 0, i 1), the mixing matrix of batch i 0, the
    weights' column i 2 and the bias at i 2 — each named by an index of its own array with the equation that places it. -/
theorem wy1_at (th : S4x4096x512.Idx → EReal) (M : S4x512x512.Idx → EReal) (wT : S512x1024.Idx → EReal) (wb : S1024.Idx → EReal)
    (i : S4x4096x1024.Idx)
    (f0 : Fin 512 → S4x4096x512.Idx) (f1 : Fin 512 → Fin 512 → S4x512x512.Idx) (f2 : Fin 512 → S512x1024.Idx) (z3 : S1024.Idx)
    (h0 : ∀ j, f0 j = ix3 (i 0 : Fin 4) (i 1 : Fin 4096) j) (h1 : ∀ j k, f1 j k = ix3 (i 0 : Fin 4) j k)
    (h2 : ∀ k, f2 k = ix2 k (i 2 : Fin 1024)) (h3 : z3 = ix1 (i 2 : Fin 1024)) :
    (∑ k : Fin 512, (∑ j : Fin 512, th (f0 j) * M (f1 j k)) * wT (f2 k)) + wb z3 = wy1 th M wT wb i := by
  subst h3
  simp only [h0, h1, h2]
  rfl

/-! ## The stored block at an index -/

/-- The stored block at (u, p, q) is the tile's product at (p, q). -/
theorem pay7_at1 (x0 : Vec Ideal S1x1024x512 .bf16) (x1 : Vec Ideal S1x512x512 .bf16) (x2 : Vec Ideal S512x1024 .bf16) (x3 : Vec Ideal S1024 .f32)
    (u : Fin 1) (p q : Fin 1024) :
    k1_pay7 x0 x1 x2 x3 (ix3 u p q)
      = (∑ i : Fin 512, (∑ j : Fin 512, x0 (ix3 (0 : Fin 1) p j) * x1 (ix3 (0 : Fin 1) j i)) * x2 (ix2 i q)) + x3 (ix1 q) := by
  unfold k1_pay7
  exact (shapeCast_ab_1ab_apply _ _ u p q).trans (pay6_at1 x0 x1 x2 x3 p q)

/-- The same at an index not yet split into coordinates. -/
theorem pay7_at_idx1 (x0 : Vec Ideal S1x1024x512 .bf16) (x1 : Vec Ideal S1x512x512 .bf16) (x2 : Vec Ideal S512x1024 .bf16) (x3 : Vec Ideal S1024 .f32)
    (j : S1x1024x1024.Idx) :
    k1_pay7 x0 x1 x2 x3 j
      = (∑ i : Fin 512, (∑ j' : Fin 512, x0 (ix3 (0 : Fin 1) (j 1 : Fin 1024) j') * x1 (ix3 (0 : Fin 1) j' i)) * x2 (ix2 i (j 2 : Fin 1024))) + x3 (ix1 (j 2 : Fin 1024)) :=
  (congrArg (k1_pay7 x0 x1 x2 x3) (eq_ix3 j)).trans (pay7_at1 x0 x1 x2 x3 (j 0) (j 1) (j 2))

variable (V : (c : Dev nD) → (b : Ref sig .tc) → Buf (Elt Ideal) ((c : Thread nD τ).loc b))

/-- After the body at ANY point the product output's buffer holds the product payload of that point's four input blocks:
    every case stores it, and it reads neither accumulator. -/
theorem out4_at1 (c : Dev nD) (t : Fin cfg1.N) :
    (outsAt1 V c t.val t.isLt).1 = k1_pay7 (iblk1 V c 0 t) (iblk1 V c 1 t) (iblk1 V c 2 t) (iblk1 V c 3 t) := by
  by_cases h0 : t.val % 4 = 0
  · rw [outsAt1_A V c t h0 (by omega)]; unfold leaves1_A; dsimp only
    exact piece1_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t)
  · by_cases h1 : t.val % 4 = 3
    · rw [outsAt1_C V c t h0 h1]; unfold leaves1_C; dsimp only
      exact piece1_C_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t) (outsAt1 V c (t.val - 1) (prev1 t)).2.2.2.1 (outsAt1 V c (t.val - 1) (prev1 t)).2.2.2.2
    · rw [outsAt1_B V c t h0 h1]; unfold leaves1_B; dsimp only
      exact piece1_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t) (outsAt1 V c (t.val - 1) (prev1 t)).2.2.2.1 (outsAt1 V c (t.val - 1) (prev1 t)).2.2.2.2

/-! ## The index maps over the grid -/

/-- Decided over the 16 points: theta's block sits on the output's (batch, row tile); the mixing matrix's on the output's
    batch; the weights and the bias on their only block; the output's block index is (batch, row tile, 0), both below 4. -/
theorem idx_rel1 : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 2) = 0 ∧ win1_2.index t (1 : Fin 2) = 0 ∧ win1_3.index t (0 : Fin 1) = 0
    ∧ win1_4.index t (0 : Fin 3) ≤ 3 ∧ win1_4.index t (1 : Fin 3) ≤ 3 ∧ win1_4.index t (2 : Fin 3) = 0 :=
  (by decide +kernel : ∀ t : Fin grid1.N, _)

/-- Every (batch, row tile) is some point's output block. -/
theorem idx_onto1 : ∀ (q0 : Fin 4) (q1 : Fin 4), ∃ t : Fin cfg1.N, win1_4.index t = ![q0.val, q1.val, 0] :=
  (by decide +kernel : ∀ (q0 : Fin 4) (q1 : Fin 4), ∃ t : Fin grid1.N, win1_4.index t = ![q0.val, q1.val, 0])

/-! ## What a point writes back -/

/-- Point `t` writes back block `t` of `wy1` of the arrays the region finds. -/
theorem flushed1_4_eq (c : Dev nD) (t : Fin cfg1.N) :
    (dat1 V c).flushed 4 t = ((cfg1.win 4).blk t).view.read (Elt Ideal) (wy1 (V c main_v9_1) (V c main_v10) (V c main_v8) (V c main_arg8)) := by
  show (cfg1.win 4).cut (grid1.coords t) ((dat1 V c).after 4 t) = _
  rw [after1_4, out4_at1]
  obtain ⟨a0, a1, a2, b0, b1, b2, w0, w1, v0, o0, o1, o2⟩ := idx_rel1 t
  funext j
  refine (pay7_at_idx1 (iblk1 V c 0 t) (iblk1 V c 1 t) (iblk1 V c 2 t) (iblk1 V c 3 t) j).trans ?_
  refine wy1_at (V c main_v9_1) (V c main_v10) (V c main_v8) (V c main_arg8) (((cfg1.win 4).blk t).view.emb j)
    (fun j' => ((cfg1.win 0).blk t).view.emb (ix3 (0 : Fin 1) (j 1 : Fin 1024) j'))
    (fun j' k => ((cfg1.win 1).blk t).view.emb (ix3 (0 : Fin 1) j' k))
    (fun k => ((cfg1.win 2).blk t).view.emb (ix2 k (j 2 : Fin 1024)))
    (((cfg1.win 3).blk t).view.emb (ix1 (j 2 : Fin 1024))) ?_ ?_ ?_ ?_
  · intro j'; funext a; apply Fin.ext
    match a with
    | ⟨0, _⟩ => show win1_0.index t (0 : Fin 3) * 1 + 1 * (0 : Fin 1).val = win1_4.index t (0 : Fin 3) * 1 + 1 * (j 0).val; have hj : (j 0).val < 1 := (j 0).isLt; have hz : ((0 : Fin 1).val) = 0 := rfl; omega
    | ⟨1, _⟩ => show win1_0.index t (1 : Fin 3) * 1024 + 1 * (j 1).val = win1_4.index t (1 : Fin 3) * 1024 + 1 * (j 1).val; omega
    | ⟨2, _⟩ => show win1_0.index t (2 : Fin 3) * 512 + 1 * j'.val = j'.val; omega
  · intro j' k; funext a; apply Fin.ext
    match a with
    | ⟨0, _⟩ => show win1_1.index t (0 : Fin 3) * 1 + 1 * (0 : Fin 1).val = win1_4.index t (0 : Fin 3) * 1 + 1 * (j 0).val; have hj : (j 0).val < 1 := (j 0).isLt; have hz : ((0 : Fin 1).val) = 0 := rfl; omega
    | ⟨1, _⟩ => show win1_1.index t (1 : Fin 3) * 512 + 1 * j'.val = j'.val; omega
    | ⟨2, _⟩ => show win1_1.index t (2 : Fin 3) * 512 + 1 * k.val = k.val; omega
  · intro k; funext a; apply Fin.ext
    match a with
    | ⟨0, _⟩ => show win1_2.index t (0 : Fin 2) * 512 + 1 * k.val = k.val; omega
    | ⟨1, _⟩ => show win1_2.index t (1 : Fin 2) * 1024 + 1 * (j 2).val = win1_4.index t (2 : Fin 3) * 1024 + 1 * (j 2).val; omega
  · funext a; apply Fin.ext
    match a with
    | ⟨0, _⟩ => show win1_3.index t (0 : Fin 1) * 1024 + 1 * (j 2).val = win1_4.index t (2 : Fin 3) * 1024 + 1 * (j 2).val; omega

/-! ## From blocks to the array -/

/-- An index of the array is in point `t`'s output block iff each coordinate is in the block's range on its axis. -/
theorem mem_blk1_4 (t : Fin cfg1.N) (i : S4x4096x1024.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole main_v11_0).slice (win1_4.rect t)).set ↔ _
  rw [View.set_slice_whole, Rect.mem_set_unit]
  exact Iff.rfl

/-- Every index (b, n, k) lies in the block of the point whose output block is (b, n / 1024, 0). -/
theorem covered1_4 (i : S4x4096x1024.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 1024 := (i 2).isLt
  obtain ⟨t, ht⟩ := idx_onto1 ⟨(i 0).val, hi0⟩ ⟨(i 1).val / 1024, by omega⟩
  have q0 : win1_4.index t (0 : Fin 3) = (i 0).val := congrFun ht 0
  have q1 : win1_4.index t (1 : Fin 3) = (i 1).val / 1024 := congrFun ht 1
  have q2 : win1_4.index t (2 : Fin 3) = 0 := congrFun ht 2
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

/-- The product array after the region is `wy1` of the arrays the region found: every index is written by the point
    above, with block `t` of that one function. -/
theorem final1_4 (c : Dev nD) : (dat1 V c).arrAt 4 cfg1.N = wy1 (V c main_v9_1) (V c main_v10) (V c main_v8) (V c main_arg8) :=
  (dat1 V c).arrAt_eq_of_cover 4 (wy1 (V c main_v9_1) (V c main_v10) (V c main_v8) (V c main_arg8)) (fun t _ => flushed1_4_eq V c t) covered1_4

/-! ## One entry of a tile's product, by the point's position -/

/-- Point `t` is row tile `t % 4` of batch `t / 4`. -/
theorem tq1 (t : Fin cfg1.N) : t.val / 4 < 4 := by have := t.isLt; have hN : cfg1.N = 16 := N_1; omega
theorem tr1 (t : Fin cfg1.N) : t.val % 4 < 4 := by omega

/-- Decided over the 16 points: point `t`'s output block is (t / 4, t % 4, ·). -/
theorem idx_pt1 : ∀ t : Fin cfg1.N, win1_4.index t (0 : Fin 3) = t.val / 4 ∧ win1_4.index t (1 : Fin 3) = t.val % 4 :=
  (by decide +kernel : ∀ t : Fin grid1.N, _)

/-- The product of point `t`'s blocks at (r, q) is the specification's product at batch `t / 4`, row `r` of tile
    `t % 4`, channel `q`: each block entry it reads sits in its array where the point's block index places it. -/
theorem tile_at1 (c : Dev nD) (t : Fin cfg1.N) (r q : Fin 1024) :
    k1_pay6 (iblk1 V c 0 t) (iblk1 V c 1 t) (iblk1 V c 2 t) (iblk1 V c 3 t) (ix2 r q)
      = Cert.NonLocal.expand (Cert.NonLocal.mix (V c main_v9_1) (V c main_v10)) (V c main_v8) (V c main_arg8)
          ⟨t.val / 4, tq1 t⟩ (Cert.NonLocal.row ⟨t.val % 4, tr1 t⟩ r) q := by
  obtain ⟨a0, a1, a2, b0, b1, b2, w0, w1, v0, o0, o1, o2⟩ := idx_rel1 t
  obtain ⟨p0, p1⟩ := idx_pt1 t
  refine (pay6_at1 (iblk1 V c 0 t) (iblk1 V c 1 t) (iblk1 V c 2 t) (iblk1 V c 3 t) r q).trans ?_
  refine (wy1_at (V c main_v9_1) (V c main_v10) (V c main_v8) (V c main_arg8) (ix3 (⟨t.val / 4, tq1 t⟩ : Fin 4) (Cert.NonLocal.row ⟨t.val % 4, tr1 t⟩ r) q)
    (fun j' => ((cfg1.win 0).blk t).view.emb (ix3 (0 : Fin 1) r j'))
    (fun j' k => ((cfg1.win 1).blk t).view.emb (ix3 (0 : Fin 1) j' k))
    (fun k => ((cfg1.win 2).blk t).view.emb (ix2 k q))
    (((cfg1.win 3).blk t).view.emb (ix1 q)) ?_ ?_ ?_ ?_).trans ?_
  · intro j'; funext a; apply Fin.ext
    match a with
    | ⟨0, _⟩ => show win1_0.index t (0 : Fin 3) * 1 + 1 * (0 : Fin 1).val = t.val / 4; have hz : ((0 : Fin 1).val) = 0 := rfl; omega
    | ⟨1, _⟩ => show win1_0.index t (1 : Fin 3) * 1024 + 1 * r.val = t.val % 4 * 1024 + r.val; omega
    | ⟨2, _⟩ => show win1_0.index t (2 : Fin 3) * 512 + 1 * j'.val = j'.val; omega
  · intro j' k; funext a; apply Fin.ext
    match a with
    | ⟨0, _⟩ => show win1_1.index t (0 : Fin 3) * 1 + 1 * (0 : Fin 1).val = t.val / 4; have hz : ((0 : Fin 1).val) = 0 := rfl; omega
    | ⟨1, _⟩ => show win1_1.index t (1 : Fin 3) * 512 + 1 * j'.val = j'.val; omega
    | ⟨2, _⟩ => show win1_1.index t (2 : Fin 3) * 512 + 1 * k.val = k.val; omega
  · intro k; funext a; apply Fin.ext
    match a with
    | ⟨0, _⟩ => show win1_2.index t (0 : Fin 2) * 512 + 1 * k.val = k.val; omega
    | ⟨1, _⟩ => show win1_2.index t (1 : Fin 2) * 1024 + 1 * q.val = q.val; omega
  · funext a; apply Fin.ext
    match a with
    | ⟨0, _⟩ => show win1_3.index t (0 : Fin 1) * 1024 + 1 * q.val = q.val; omega
  · rfl

end Cert.KernelIdeal.HandValue

end
-- ==== Proof.LibColSum.lean ====
/-
  Columns of a matrix summed over the rows, and the small layout facts that go with them.

  A reduction of an [a, b] array along its first axis is read at a lane as the sum of that lane's a entries; a single entry
  [1, 1] spread over an [a, b] array reads that entry everywhere; a sum over the a·b rows of a tall array cut into a
  blocks of b rows is the sum over the blocks of each block's sum.  Every lemma is over arbitrary extents and mentions no
  program.
-/
import Mathlib.Algebra.BigOperators.Fin
import Mathlib.Data.Fintype.BigOperators
import Mathlib.Tactic.Ring
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColSum

open Idealize.ShloMosaic Idealize.ShloMosaic.ValueIdx

variable {α : Type}

/-- The source index a row reduction reads for lane j and row r is (r, j). -/
theorem lift_row {a b : ℕ} (h : (⟨2, ![a, b]⟩ : Shape).Reduces [0] ⟨1, ![b]⟩) (j : Fin b) (r : Fin a) :
    h.lift (ix1 j) r = ix2 r j := by
  funext c
  apply Fin.ext
  match c with
  | ⟨0, _⟩ => rfl
  | ⟨1, _⟩ => rfl

/-- A vector unit's add reduction of an [a, b] array over the rows, read at lane j at the ideal values, is the sum of the
    lane's entries.  The accumulator's word is any word that is the sum's neutral one. -/
theorem multiReduction_row_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ r : Fin a, src (ix2 r j) := by
  refine (Ideal.multiReduction_add_single src acc h hφ hacc (ix1 j)).trans ?_
  exact Finset.sum_congr rfl fun r _ => congrArg src (lift_row h j r)

/-- A single entry [1, 1] spread over an [a, b] array reads that entry at every index. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A sum over the n·m rows of a tall array is the sum over its n blocks of m rows of each block's sum: only the order
    and grouping of the terms change. -/
theorem sum_blocks {M : Type*} [AddCommMonoid M] (n m : ℕ) (f : Fin (n * m) → M) :
    ∑ i : Fin (n * m), f i
      = ∑ t : Fin n, ∑ y : Fin m, f ⟨m * t.val + y.val, by
          have ht := t.isLt; have hy := y.isLt
          calc m * t.val + y.val < m * t.val + m := by omega
            _ = m * (t.val + 1) := by ring
            _ ≤ m * n := Nat.mul_le_mul_left m ht
            _ = n * m := Nat.mul_comm m n⟩ := by
  rw [← Equiv.sum_comp finProdFinEquiv f, Fintype.sum_prod_type]
  refine Finset.sum_congr rfl fun t _ => Finset.sum_congr rfl fun y _ => congrArg f (Fin.ext ?_)
  show y.val + m * t.val = m * t.val + y.val
  omega

end Cert.LibColSum

end
-- ==== Proof.KI.R1SumsPay.lean ====
import proofs.«130369_j29137058136126_2_alg».proof.Proof.Gen.KernelIdeal.Skeleton
import proofs.«130369_j29137058136126_2_alg».proof.Proof.Spec
import proofs.«130369_j29137058136126_2_alg».proof.Proof.LibColSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen
open Idealize.ShloMosaic Idealize.ShloMosaic.ValueIdx

/-! # Region 1's two running column sums: the payloads at an index, and four steps of accumulation

At every grid point the body adds, to a [1, 1024] accumulator, the column sums of the point's [1024, 1024] tile of the
product (and, to a second one, the column sums of the tile's squares). At a batch's first tile the accumulators are zeroed
first; at its last they are copied out. -/

/-! ## The payloads at an index -/

/-- The first accumulator after a tile: what it held plus the tile's column sums. -/
theorem pay8_at1s (x0 : Vec Ideal S1x1024x512 .bf16) (x1 : Vec Ideal S1x512x512 .bf16) (x2 : Vec Ideal S512x1024 .bf16) (x3 : Vec Ideal S1024 .f32)
    (a : Vec Ideal S1x1024 .f32) (u : Fin 1) (q : Fin 1024) :
    k1_pay8 x0 x1 x2 x3 a (ix2 u q) = a (ix2 u q) + ∑ r : Fin 1024, k1_pay6 x0 x1 x2 x3 (ix2 r q) := by
  unfold k1_pay8
  refine (congrFun (shapeCast_self _ _) _).trans ?_
  refine congrArg (fun z : EReal => a (ix2 u q) + z) ?_
  refine (shapeCast_a_1a_apply _ _ u q).trans ?_
  exact Cert.LibColSum.multiReduction_row_apply (k1_pay6 x0 x1 x2 x3) _ _ _ _ q

/-- The second accumulator after a tile: what it held plus the column sums of the tile's squares. -/
theorem pay9_at1s (x0 : Vec Ideal S1x1024x512 .bf16) (x1 : Vec Ideal S1x512x512 .bf16) (x2 : Vec Ideal S512x1024 .bf16) (x3 : Vec Ideal S1024 .f32)
    (a : Vec Ideal S1x1024 .f32) (u : Fin 1) (q : Fin 1024) :
    k1_pay9 x0 x1 x2 x3 a (ix2 u q) = a (ix2 u q) + ∑ r : Fin 1024, k1_pay6 x0 x1 x2 x3 (ix2 r q) * k1_pay6 x0 x1 x2 x3 (ix2 r q) := by
  unfold k1_pay9
  refine congrArg (fun z : EReal => a (ix2 u q) + z) ?_
  refine (shapeCast_a_1a_apply _ _ u q).trans ?_
  exact Cert.LibColSum.multiReduction_row_apply (mulf (k1_pay6 x0 x1 x2 x3) (k1_pay6 x0 x1 x2 x3)) _ _ _ _ q

/-- The store of the second accumulator is of the sum itself. -/
theorem pay1_eq1s (a : FVec Ideal S1x1024 .f32) : k1_pay1 a = a := by
  unfold k1_pay1; exact shapeCast_self _ _

/-- The zero an accumulator is reset to. -/
theorem pay4_at1s (u : Fin 1) (q : Fin 1024) : k1_pay4 (F := Ideal) (ix2 u q) = 0 := by
  unfold k1_pay4
  refine (congrFun (shapeCast_self _ _) _).trans ?_
  exact Ideal.ofBits_zero_f32
theorem pay5_at1s (u : Fin 1) (q : Fin 1024) : k1_pay5 (F := Ideal) (ix2 u q) = 0 := by
  unfold k1_pay5
  refine (congrFun (shapeCast_self _ _) _).trans ?_
  exact Ideal.ofBits_zero_f32

/-- Copied out at a batch's last tile: the [1, 1024] accumulator as a [1, 1, 1024] block. -/
theorem pay2_at1s (a : Vec Ideal S1x1024 .f32) (u0 u1 : Fin 1) (q : Fin 1024) : k1_pay2 a (ix3 u0 u1 q) = a (ix2 u1 q) := by
  unfold k1_pay2; exact shapeCast_ab_1ab_apply _ _ u0 u1 q
theorem pay3_at1s (a : Vec Ideal S1x1024 .f32) (u0 u1 : Fin 1) (q : Fin 1024) : k1_pay3 a (ix3 u0 u1 q) = a (ix2 u1 q) := by
  unfold k1_pay3; exact shapeCast_ab_1ab_apply _ _ u0 u1 q

/-! ## Four steps of accumulation -/

/-- An accumulator that restarts from zero at every fourth position and otherwise gains one term per position holds, at
    the last position of a group of four, the four terms added in order onto zero. -/
theorem four_steps1s {M : Type} [Add M] [Zero M] (N : ℕ) (acc g : ℕ → M)
    (h0 : ∀ n, n < N → n % 4 = 0 → acc n = 0 + g n) (hs : ∀ n, n < N → ¬ n % 4 = 0 → acc n = acc (n - 1) + g n)
    (n : ℕ) (hn : n < N) (h3 : n % 4 = 3) :
    acc n = (((0 + g (n - 3)) + g (n - 2)) + g (n - 1)) + g n := by
  have e1 : n - 1 - 1 = n - 2 := by omega
  have e2 : n - 2 - 1 = n - 3 := by omega
  rw [hs n hn (by omega), hs (n - 1) (by omega) (by omega), e1, hs (n - 2) (by omega) (by omega), e2, h0 (n - 3) (by omega) (by omega)]

end Cert.KernelIdeal.HandValue

end
-- ==== Proof.KI.R1Sums.lean ====
import proofs.«130369_j29137058136126_2_alg».proof.Proof.KI.R1
import proofs.«130369_j29137058136126_2_alg».proof.Proof.KI.R1SumsPay
import proofs.«130369_j29137058136126_2_alg».proof.Proof.KI.R1Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! # Region 1's two sum outputs as functions of the arrays the region finds

Windows 5 and 6 are [1, 1, 1024] blocks of two [4, 1, 1024] arrays, block (b, 0, 0) for batch b, written back only at the
batch's last tile (the points `t` with `t % 4 = 3`, batch `t / 4`). -/

/-! ## The index maps of the two sum windows over the grid -/

/-- Decided over the 16 points: both windows sit on block (t / 4, 0, 0). -/
theorem idx_rel1s : ∀ t : Fin cfg1.N,
    win1_5.index t (0 : Fin 3) = t.val / 4 ∧ win1_5.index t (1 : Fin 3) = 0 ∧ win1_5.index t (2 : Fin 3) = 0
    ∧ win1_6.index t (0 : Fin 3) = t.val / 4 ∧ win1_6.index t (1 : Fin 3) = 0 ∧ win1_6.index t (2 : Fin 3) = 0 :=
  (by decide +kernel : ∀ t : Fin grid1.N, _)

/-- Every batch's block is the one written back at some last tile. -/
theorem idx_onto1s_5 : ∀ q0 : Fin 4, ∃ t : Fin cfg1.N, t.val % 4 = 3 ∧ win1_5.index t = ![q0.val, 0, 0] :=
  (by decide +kernel : ∀ q0 : Fin 4, ∃ t : Fin grid1.N, t.val % 4 = 3 ∧ win1_5.index t = ![q0.val, 0, 0])
theorem idx_onto1s_6 : ∀ q0 : Fin 4, ∃ t : Fin cfg1.N, t.val % 4 = 3 ∧ win1_6.index t = ![q0.val, 0, 0] :=
  (by decide +kernel : ∀ q0 : Fin 4, ∃ t : Fin grid1.N, t.val % 4 = 3 ∧ win1_6.index t = ![q0.val, 0, 0])

/-! ## From blocks to the arrays: membership and cover -/

/-- An index of the [4, 1, 1024] array is in point `t`'s block of window 5 iff each coordinate is in the block's range. -/
theorem mem_blk1s_5 (t : Fin cfg1.N) (i : S4x1x1024.Idx) :
    i ∈ ((cfg1.win 5).blk t).view.set ↔ ∀ a : Fin 3, win1_5.index t a * S1x1x1024.size a ≤ (i a).val ∧ (i a).val < win1_5.index t a * S1x1x1024.size a + S1x1x1024.size a := by
  show i ∈ ((View.whole main_v11_1).slice (win1_5.rect t)).set ↔ _
  rw [View.set_slice_whole, Rect.mem_set_unit]
  exact Iff.rfl

/-- Every index `(b, 0, q)` lies in the block written back at batch `b`'s last tile. -/
theorem covered1s_5 (i : S4x1x1024.Idx) : ∃ t : Fin cfg1.N, (cfg1.win 5).flush t = true ∧ i ∈ ((cfg1.win 5).blk t).view.set := by
  have hi0 : (i 0).val < 4 := (i 0).isLt
  have hi1 : (i 1).val < 1 := (i 1).isLt
  have hi2 : (i 2).val < 1024 := (i 2).isLt
  obtain ⟨t, ht3, ht⟩ := idx_onto1s_5 ⟨(i 0).val, hi0⟩
  have q0 : win1_5.index t (0 : Fin 3) = (i 0).val := congrFun ht 0
  have q1 : win1_5.index t (1 : Fin 3) = 0 := congrFun ht 1
  have q2 : win1_5.index t (2 : Fin 3) = 0 := congrFun ht 2
  refine ⟨t, (flush1_5 t).mpr ht3, ?_⟩
  rw [mem_blk1s_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1 ≤ (i 1).val ∧ (i 1).val < win1_5.index t (1 : Fin 3) * 1 + 1; omega
  | ⟨2, _⟩ => show win1_5.index t (2 : Fin 3) * 1024 ≤ (i 2).val ∧ (i 2).val < win1_5.index t (2 : Fin 3) * 1024 + 1024; omega

/-- An index of the [4, 1, 1024] array is in point `t`'s block of window 6 iff each coordinate is in the block's range. -/
theorem mem_blk1s_6 (t : Fin cfg1.N) (i : S4x1x1024.Idx) :
    i ∈ ((cfg1.win 6).blk t).view.set ↔ ∀ a : Fin 3, win1_6.index t a * S1x1x1024.size a ≤ (i a).val ∧ (i a).val < win1_6.index t a * S1x1x1024.size a + S1x1x1024.size a := by
  show i ∈ ((View.whole main_v11_2).slice (win1_6.rect t)).set ↔ _
  rw [View.set_slice_whole, Rect.mem_set_unit]
  exact Iff.rfl

/-- Every index `(b, 0, q)` lies in the block written back at batch `b`'s last tile. -/
theorem covered1s_6 (i : S4x1x1024.Idx) : ∃ t : Fin cfg1.N, (cfg1.win 6).flush t = true ∧ i ∈ ((cfg1.win 6).blk t).view.set := by
  have hi0 : (i 0).val < 4 := (i 0).isLt
  have hi1 : (i 1).val < 1 := (i 1).isLt
  have hi2 : (i 2).val < 1024 := (i 2).isLt
  obtain ⟨t, ht3, ht⟩ := idx_onto1s_6 ⟨(i 0).val, hi0⟩
  have q0 : win1_6.index t (0 : Fin 3) = (i 0).val := congrFun ht 0
  have q1 : win1_6.index t (1 : Fin 3) = 0 := congrFun ht 1
  have q2 : win1_6.index t (2 : Fin 3) = 0 := congrFun ht 2
  refine ⟨t, (flush1_6 t).mpr ht3, ?_⟩
  rw [mem_blk1s_6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1 ≤ (i 1).val ∧ (i 1).val < win1_6.index t (1 : Fin 3) * 1 + 1; omega
  | ⟨2, _⟩ => show win1_6.index t (2 : Fin 3) * 1024 ≤ (i 2).val ∧ (i 2).val < win1_6.index t (2 : Fin 3) * 1024 + 1024; omega

variable (V : (c : Dev nD) → (b : Ref sig .tc) → Buf (Elt Ideal) ((c : Thread nD τ).loc b))

/-! ## The accumulators and the two sum outputs after the body, point by point -/

/-- First accumulator after a first tile: the zeroed accumulator plus the tile's column sums. -/
theorem acc0_A1s (c : Dev nD) (t : Fin cfg1.N) (h0 : t.val % 4 = 0) (h1 : ¬t.val % 4 = 3) :
    (outsAt1 V c t.val t.isLt).2.2.2.1 = k1_pay8 (iblk1 V c 0 t) (iblk1 V c 1 t) (iblk1 V c 2 t) (iblk1 V c 3 t) (k1_pay4 (F := Ideal)) := by
  rw [outsAt1_A V c t h0 h1]; unfold leaves1_A; dsimp only
  exact piece1_A_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t)
theorem acc1_A1s (c : Dev nD) (t : Fin cfg1.N) (h0 : t.val % 4 = 0) (h1 : ¬t.val % 4 = 3) :
    (outsAt1 V c t.val t.isLt).2.2.2.2 = k1_pay1 (k1_pay9 (iblk1 V c 0 t) (iblk1 V c 1 t) (iblk1 V c 2 t) (iblk1 V c 3 t) (k1_pay5 (F := Ideal))) := by
  rw [outsAt1_A V c t h0 h1]; unfold leaves1_A; dsimp only
  exact piece1_A_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t)

/-- After a later tile: what the tile before left plus this tile's column sums (of the entries, of their squares). -/
theorem acc0_BC1s (c : Dev nD) (t : Fin cfg1.N) (h0 : ¬t.val % 4 = 0) :
    (outsAt1 V c t.val t.isLt).2.2.2.1 = k1_pay8 (iblk1 V c 0 t) (iblk1 V c 1 t) (iblk1 V c 2 t) (iblk1 V c 3 t) (outsAt1 V c (t.val - 1) (prev1 t)).2.2.2.1 := by
  by_cases h1 : t.val % 4 = 3
  · rw [outsAt1_C V c t h0 h1]; unfold leaves1_C; dsimp only
    exact piece1_C_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t) (outsAt1 V c (t.val - 1) (prev1 t)).2.2.2.1 (outsAt1 V c (t.val - 1) (prev1 t)).2.2.2.2
  · rw [outsAt1_B V c t h0 h1]; unfold leaves1_B; dsimp only
    exact piece1_B_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t) (outsAt1 V c (t.val - 1) (prev1 t)).2.2.2.1 (outsAt1 V c (t.val - 1) (prev1 t)).2.2.2.2
theorem acc1_BC1s (c : Dev nD) (t : Fin cfg1.N) (h0 : ¬t.val % 4 = 0) :
    (outsAt1 V c t.val t.isLt).2.2.2.2 = k1_pay1 (k1_pay9 (iblk1 V c 0 t) (iblk1 V c 1 t) (iblk1 V c 2 t) (iblk1 V c 3 t) (outsAt1 V c (t.val - 1) (prev1 t)).2.2.2.2) := by
  by_cases h1 : t.val % 4 = 3
  · rw [outsAt1_C V c t h0 h1]; unfold leaves1_C; dsimp only
    exact piece1_C_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t) (outsAt1 V c (t.val - 1) (prev1 t)).2.2.2.1 (outsAt1 V c (t.val - 1) (prev1 t)).2.2.2.2
  · rw [outsAt1_B V c t h0 h1]; unfold leaves1_B; dsimp only
    exact piece1_B_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t) (outsAt1 V c (t.val - 1) (prev1 t)).2.2.2.1 (outsAt1 V c (t.val - 1) (prev1 t)).2.2.2.2

/-- At a batch's last tile the two sum outputs are the two accumulators as that tile leaves them, as [1, 1, 1024] blocks. -/
theorem out5_C1s (c : Dev nD) (t : Fin cfg1.N) (h0 : ¬t.val % 4 = 0) (h1 : t.val % 4 = 3) :
    (outsAt1 V c t.val t.isLt).2.1 = k1_pay2 (k1_pay8 (iblk1 V c 0 t) (iblk1 V c 1 t) (iblk1 V c 2 t) (iblk1 V c 3 t) (outsAt1 V c (t.val - 1) (prev1 t)).2.2.2.1) := by
  rw [outsAt1_C V c t h0 h1]; unfold leaves1_C; dsimp only
  exact piece1_C_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t) (outsAt1 V c (t.val - 1) (prev1 t)).2.2.2.1 (outsAt1 V c (t.val - 1) (prev1 t)).2.2.2.2
theorem out6_C1s (c : Dev nD) (t : Fin cfg1.N) (h0 : ¬t.val % 4 = 0) (h1 : t.val % 4 = 3) :
    (outsAt1 V c t.val t.isLt).2.2.1 = k1_pay3 (k1_pay1 (k1_pay9 (iblk1 V c 0 t) (iblk1 V c 1 t) (iblk1 V c 2 t) (iblk1 V c 3 t) (outsAt1 V c (t.val - 1) (prev1 t)).2.2.2.2)) := by
  rw [outsAt1_C V c t h0 h1]; unfold leaves1_C; dsimp only
  exact piece1_C_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1_0 (Memref.isWhole_whole _) acc1_1 (Memref.isWhole_whole _) _ _ (iblk1 V c 0 t) (iblk1 V c 1 t) (iblk1 V c 2 t) (iblk1 V c 3 t) (outsAt1 V c (t.val - 1) (prev1 t)).2.2.2.1 (outsAt1 V c (t.val - 1) (prev1 t)).2.2.2.2

/-! ## The column sums of a point's tile, and the accumulators along the grid -/

/-- The column sums of the tile of point `n` (zero off the grid, never read). -/
def colSum1s (c : Dev nD) (q : Fin 1024) (n : ℕ) : EReal :=
  if h : n < cfg1.N then ∑ r : Fin 1024, k1_pay6 (iblk1 V c 0 ⟨n, h⟩) (iblk1 V c 1 ⟨n, h⟩) (iblk1 V c 2 ⟨n, h⟩) (iblk1 V c 3 ⟨n, h⟩) (ix2 r q) else 0
/-- The column sums of the squares of its entries. -/
def colSq1s (c : Dev nD) (q : Fin 1024) (n : ℕ) : EReal :=
  if h : n < cfg1.N then ∑ r : Fin 1024, k1_pay6 (iblk1 V c 0 ⟨n, h⟩) (iblk1 V c 1 ⟨n, h⟩) (iblk1 V c 2 ⟨n, h⟩) (iblk1 V c 3 ⟨n, h⟩) (ix2 r q) * k1_pay6 (iblk1 V c 0 ⟨n, h⟩) (iblk1 V c 1 ⟨n, h⟩) (iblk1 V c 2 ⟨n, h⟩) (iblk1 V c 3 ⟨n, h⟩) (ix2 r q) else 0
/-- The two accumulators at lane `q` after the body at point `n`. -/
def acc0At1s (c : Dev nD) (q : Fin 1024) (n : ℕ) : EReal :=
  if h : n < cfg1.N then (outsAt1 V c n h).2.2.2.1 (ix2 (0 : Fin 1) q) else 0
def acc1At1s (c : Dev nD) (q : Fin 1024) (n : ℕ) : EReal :=
  if h : n < cfg1.N then (outsAt1 V c n h).2.2.2.2 (ix2 (0 : Fin 1) q) else 0

/-- At a batch's first tile an accumulator is zero plus the tile's sums; -/
theorem acc0_first1s (c : Dev nD) (q : Fin 1024) (n : ℕ) (hn : n < cfg1.N) (h0 : n % 4 = 0) :
    acc0At1s V c q n = 0 + colSum1s V c q n := by
  unfold acc0At1s colSum1s; simp only [dif_pos hn]
  refine (congrFun (acc0_A1s V c ⟨n, hn⟩ h0 (by show ¬ n % 4 = 3; omega)) (ix2 (0 : Fin 1) q)).trans ?_
  refine (pay8_at1s _ _ _ _ _ (0 : Fin 1) q).trans ?_
  rw [pay4_at1s]
theorem acc1_first1s (c : Dev nD) (q : Fin 1024) (n : ℕ) (hn : n < cfg1.N) (h0 : n % 4 = 0) :
    acc1At1s V c q n = 0 + colSq1s V c q n := by
  unfold acc1At1s colSq1s; simp only [dif_pos hn]
  refine (congrFun (acc1_A1s V c ⟨n, hn⟩ h0 (by show ¬ n % 4 = 3; omega)) (ix2 (0 : Fin 1) q)).trans ?_
  refine (congrFun (pay1_eq1s _) _).trans ?_
  refine (pay9_at1s _ _ _ _ _ (0 : Fin 1) q).trans ?_
  rw [pay5_at1s]

/-- at every later tile, what the tile before left plus this tile's sums. -/
theorem acc0_next1s (c : Dev nD) (q : Fin 1024) (n : ℕ) (hn : n < cfg1.N) (h0 : ¬ n % 4 = 0) :
    acc0At1s V c q n = acc0At1s V c q (n - 1) + colSum1s V c q n := by
  have hp : n - 1 < cfg1.N := by omega
  unfold acc0At1s colSum1s; simp only [dif_pos hn, dif_pos hp]
  refine (congrFun (acc0_BC1s V c ⟨n, hn⟩ h0) (ix2 (0 : Fin 1) q)).trans ?_
  exact pay8_at1s _ _ _ _ _ (0 : Fin 1) q
theorem acc1_next1s (c : Dev nD) (q : Fin 1024) (n : ℕ) (hn : n < cfg1.N) (h0 : ¬ n % 4 = 0) :
    acc1At1s V c q n = acc1At1s V c q (n - 1) + colSq1s V c q n := by
  have hp : n - 1 < cfg1.N := by omega
  unfold acc1At1s colSq1s; simp only [dif_pos hn, dif_pos hp]
  refine (congrFun (acc1_BC1s V c ⟨n, hn⟩ h0) (ix2 (0 : Fin 1) q)).trans ?_
  refine (congrFun (pay1_eq1s _) _).trans ?_
  exact pay9_at1s _ _ _ _ _ (0 : Fin 1) q

/-- So at a batch's last tile each accumulator holds the batch's four tile sums added in order onto zero. -/
theorem acc0_last1s (c : Dev nD) (q : Fin 1024) (n : ℕ) (hn : n < cfg1.N) (h3 : n % 4 = 3) :
    acc0At1s V c q n = (((0 + colSum1s V c q (n - 3)) + colSum1s V c q (n - 2)) + colSum1s V c q (n - 1)) + colSum1s V c q n :=
  four_steps1s cfg1.N (acc0At1s V c q) (colSum1s V c q) (fun n hn h0 => acc0_first1s V c q n hn h0)
    (fun n hn h0 => acc0_next1s V c q n hn h0) n hn h3
theorem acc1_last1s (c : Dev nD) (q : Fin 1024) (n : ℕ) (hn : n < cfg1.N) (h3 : n % 4 = 3) :
    acc1At1s V c q n = (((0 + colSq1s V c q (n - 3)) + colSq1s V c q (n - 2)) + colSq1s V c q (n - 1)) + colSq1s V c q n :=
  four_steps1s cfg1.N (acc1At1s V c q) (colSq1s V c q) (fun n hn h0 => acc1_first1s V c q n hn h0)
    (fun n hn h0 => acc1_next1s V c q n hn h0) n hn h3

/-- The two sum outputs at a batch's last tile, at `(u0, u1, q)`: the accumulators there at lane `q`. -/
theorem out5_last1s (c : Dev nD) (t : Fin cfg1.N) (h3 : t.val % 4 = 3) (u0 u1 : Fin 1) (q : Fin 1024) :
    (outsAt1 V c t.val t.isLt).2.1 (ix3 u0 u1 q) = acc0At1s V c q t.val := by
  have h0 : ¬ t.val % 4 = 0 := by omega
  have hu : u1 = 0 := Subsingleton.elim _ _
  unfold acc0At1s; simp only [dif_pos t.isLt]
  refine (congrFun (out5_C1s V c t h0 h3) (ix3 u0 u1 q)).trans ?_
  refine (pay2_at1s _ u0 u1 q).trans ?_
  rw [hu]
  exact (congrFun (acc0_BC1s V c t h0) (ix2 (0 : Fin 1) q)).symm
theorem out6_last1s (c : Dev nD) (t : Fin cfg1.N) (h3 : t.val % 4 = 3) (u0 u1 : Fin 1) (q : Fin 1024) :
    (outsAt1 V c t.val t.isLt).2.2.1 (ix3 u0 u1 q) = acc1At1s V c q t.val := by
  have h0 : ¬ t.val % 4 = 0 := by omega
  have hu : u1 = 0 := Subsingleton.elim _ _
  unfold acc1At1s; simp only [dif_pos t.isLt]
  refine (congrFun (out6_C1s V c t h0 h3) (ix3 u0 u1 q)).trans ?_
  refine (pay3_at1s _ u0 u1 q).trans ?_
  rw [hu]
  exact (congrFun (acc1_BC1s V c t h0) (ix2 (0 : Fin 1) q)).symm

/-! ## The tile sums are the specification's -/

/-- The column sums of point `n`'s tile are the specification's tile sum of batch `n / 4`, tile `n % 4`. -/
theorem colSum_at1s (c : Dev nD) (q : Fin 1024) (n : ℕ) (hn : n < cfg1.N) (b nt : Fin 4) (hb : n / 4 = b.val) (hnt : n % 4 = nt.val) :
    colSum1s V c q n = Cert.NonLocal.tileSum (Cert.NonLocal.expand (Cert.NonLocal.mix (V c main_v9_1) (V c main_v10)) (V c main_v8) (V c main_arg8)) b nt q := by
  obtain ⟨bv, hbv⟩ := b
  obtain ⟨ntv, hntv⟩ := nt
  have hb' : n / 4 = bv := hb
  have hnt' : n % 4 = ntv := hnt
  subst hb' hnt'
  unfold colSum1s Cert.NonLocal.tileSum; simp only [dif_pos hn]
  exact Finset.sum_congr rfl fun r _ => tile_at1 V c ⟨n, hn⟩ r q
theorem colSq_at1s (c : Dev nD) (q : Fin 1024) (n : ℕ) (hn : n < cfg1.N) (b nt : Fin 4) (hb : n / 4 = b.val) (hnt : n % 4 = nt.val) :
    colSq1s V c q n = Cert.NonLocal.tileSum (fun b n k => (Cert.NonLocal.expand (Cert.NonLocal.mix (V c main_v9_1) (V c main_v10)) (V c main_v8) (V c main_arg8)) b n k * (Cert.NonLocal.expand (Cert.NonLocal.mix (V c main_v9_1) (V c main_v10)) (V c main_v8) (V c main_arg8)) b n k) b nt q := by
  obtain ⟨bv, hbv⟩ := b
  obtain ⟨ntv, hntv⟩ := nt
  have hb' : n / 4 = bv := hb
  have hnt' : n % 4 = ntv := hnt
  subst hb' hnt'
  unfold colSq1s Cert.NonLocal.tileSum; simp only [dif_pos hn]
  exact Finset.sum_congr rfl fun r _ => congrArg₂ (fun x y : EReal => x * y) (tile_at1 V c ⟨n, hn⟩ r q) (tile_at1 V c ⟨n, hn⟩ r q)

/-! ## What the last tiles write back, and the two arrays -/

/-- At a batch's last tile, window 5 writes back block (b, 0, 0) of the batch sums. -/
theorem flushed1s_5 (c : Dev nD) (t : Fin cfg1.N) (hf : (cfg1.win 5).flush t = true) :
    (dat1 V c).flushed 5 t = ((cfg1.win 5).blk t).view.read (Elt Ideal)
      (fun i : S4x1x1024.Idx => Cert.NonLocal.batchSum (Cert.NonLocal.expand (Cert.NonLocal.mix (V c main_v9_1) (V c main_v10)) (V c main_v8) (V c main_arg8)) (i 0 : Fin 4) (i 2 : Fin 1024)) := by
  have h3 : t.val % 4 = 3 := (flush1_5 t).mp hf
  have hN : cfg1.N = 16 := N_1
  have ht : t.val < 16 := hN ▸ t.isLt
  show (cfg1.win 5).cut (grid1.coords t) ((dat1 V c).after 5 t) = _
  rw [after1_5]
  obtain ⟨a0, a1, a2, b0, b1, b2⟩ := idx_rel1s t
  funext j
  refine ((congrArg (outsAt1 V c t.val t.isLt).2.1 (eq_ix3 j)).trans (out5_last1s V c t h3 (j 0) (j 1) (j 2))).trans ?_
  refine (acc0_last1s V c (j 2) t.val t.isLt h3).trans ?_
  have hb : ((((cfg1.win 5).blk t).view.emb j) 0 : Fin 4) = (⟨t.val / 4, by omega⟩ : Fin 4) :=
    Fin.ext (show win1_5.index t (0 : Fin 3) * 1 + 1 * (j 0).val = t.val / 4 by have hj0 : (j 0).val < 1 := (j 0).isLt; omega)
  have hq : ((((cfg1.win 5).blk t).view.emb j) 2 : Fin 1024) = (j 2 : Fin 1024) :=
    Fin.ext (show win1_5.index t (2 : Fin 3) * 1024 + 1 * (j 2).val = (j 2).val by omega)
  show _ = Cert.NonLocal.batchSum (Cert.NonLocal.expand (Cert.NonLocal.mix (V c main_v9_1) (V c main_v10)) (V c main_v8) (V c main_arg8)) ((((cfg1.win 5).blk t).view.emb j) 0 : Fin 4) ((((cfg1.win 5).blk t).view.emb j) 2 : Fin 1024)
  rw [hb, hq]
  unfold Cert.NonLocal.batchSum
  rw [colSum_at1s V c (j 2) (t.val - 3) (by omega) ⟨t.val / 4, by omega⟩ 0 (by show (t.val - 3) / 4 = t.val / 4; omega) (by show (t.val - 3) % 4 = 0; omega),
    colSum_at1s V c (j 2) (t.val - 2) (by omega) ⟨t.val / 4, by omega⟩ 1 (by show (t.val - 2) / 4 = t.val / 4; omega) (by show (t.val - 2) % 4 = 1; omega),
    colSum_at1s V c (j 2) (t.val - 1) (by omega) ⟨t.val / 4, by omega⟩ 2 (by show (t.val - 1) / 4 = t.val / 4; omega) (by show (t.val - 1) % 4 = 2; omega),
    colSum_at1s V c (j 2) t.val t.isLt ⟨t.val / 4, by omega⟩ 3 (by show t.val / 4 = t.val / 4; rfl) (by show t.val % 4 = 3; exact h3)]

/-- The array of window 5 after the region: at `(b, 0, q)` the batch's four tile sums added in order onto zero. -/
theorem final1_5 (c : Dev nD) : (dat1 V c).arrAt 5 cfg1.N
    = fun i : S4x1x1024.Idx => Cert.NonLocal.batchSum (Cert.NonLocal.expand (Cert.NonLocal.mix (V c main_v9_1) (V c main_v10)) (V c main_v8) (V c main_arg8)) (i 0 : Fin 4) (i 2 : Fin 1024) :=
  (dat1 V c).arrAt_eq_of_cover 5 (fun i : S4x1x1024.Idx => Cert.NonLocal.batchSum (Cert.NonLocal.expand (Cert.NonLocal.mix (V c main_v9_1) (V c main_v10)) (V c main_v8) (V c main_arg8)) (i 0 : Fin 4) (i 2 : Fin 1024))
    (fun t hf => flushed1s_5 V c t hf) covered1s_5

/-- At a batch's last tile, window 6 writes back block (b, 0, 0) of the batch sums of squares. -/
theorem flushed1s_6 (c : Dev nD) (t : Fin cfg1.N) (hf : (cfg1.win 6).flush t = true) :
    (dat1 V c).flushed 6 t = ((cfg1.win 6).blk t).view.read (Elt Ideal)
      (fun i : S4x1x1024.Idx => Cert.NonLocal.batchSum (fun b n k => (Cert.NonLocal.expand (Cert.NonLocal.mix (V c main_v9_1) (V c main_v10)) (V c main_v8) (V c main_arg8)) b n k * (Cert.NonLocal.expand (Cert.NonLocal.mix (V c main_v9_1) (V c main_v10)) (V c main_v8) (V c main_arg8)) b n k) (i 0 : Fin 4) (i 2 : Fin 1024)) := by
  have h3 : t.val % 4 = 3 := (flush1_6 t).mp hf
  have hN : cfg1.N = 16 := N_1
  have ht : t.val < 16 := hN ▸ t.isLt
  show (cfg1.win 6).cut (grid1.coords t) ((dat1 V c).after 6 t) = _
  rw [after1_6]
  obtain ⟨a0, a1, a2, b0, b1, b2⟩ := idx_rel1s t
  funext j
  refine ((congrArg (outsAt1 V c t.val t.isLt).2.2.1 (eq_ix3 j)).trans (out6_last1s V c t h3 (j 0) (j 1) (j 2))).trans ?_
  refine (acc1_last1s V c (j 2) t.val t.isLt h3).trans ?_
  have hb : ((((cfg1.win 6).blk t).view.emb j) 0 : Fin 4) = (⟨t.val / 4, by omega⟩ : Fin 4) :=
    Fin.ext (show win1_6.index t (0 : Fin 3) * 1 + 1 * (j 0).val = t.val / 4 by have hj0 : (j 0).val < 1 := (j 0).isLt; omega)
  have hq : ((((cfg1.win 6).blk t).view.emb j) 2 : Fin 1024) = (j 2 : Fin 1024) :=
    Fin.ext (show win1_6.index t (2 : Fin 3) * 1024 + 1 * (j 2).val = (j 2).val by omega)
  show _ = Cert.NonLocal.batchSum (fun b n k => (Cert.NonLocal.expand (Cert.NonLocal.mix (V c main_v9_1) (V c main_v10)) (V c main_v8) (V c main_arg8)) b n k * (Cert.NonLocal.expand (Cert.NonLocal.mix (V c main_v9_1) (V c main_v10)) (V c main_v8) (V c main_arg8)) b n k) ((((cfg1.win 6).blk t).view.emb j) 0 : Fin 4) ((((cfg1.win 6).blk t).view.emb j) 2 : Fin 1024)
  rw [hb, hq]
  unfold Cert.NonLocal.batchSum
  rw [colSq_at1s V c (j 2) (t.val - 3) (by omega) ⟨t.val / 4, by omega⟩ 0 (by show (t.val - 3) / 4 = t.val / 4; omega) (by show (t.val - 3) % 4 = 0; omega),
    colSq_at1s V c (j 2) (t.val - 2) (by omega) ⟨t.val / 4, by omega⟩ 1 (by show (t.val - 2) / 4 = t.val / 4; omega) (by show (t.val - 2) % 4 = 1; omega),
    colSq_at1s V c (j 2) (t.val - 1) (by omega) ⟨t.val / 4, by omega⟩ 2 (by show (t.val - 1) / 4 = t.val / 4; omega) (by show (t.val - 1) % 4 = 2; omega),
    colSq_at1s V c (j 2) t.val t.isLt ⟨t.val / 4, by omega⟩ 3 (by show t.val / 4 = t.val / 4; rfl) (by show t.val % 4 = 3; exact h3)]

/-- The array of window 6 after the region: at `(b, 0, q)` the batch's four tile sums of squares added in order onto zero. -/
theorem final1_6 (c : Dev nD) : (dat1 V c).arrAt 6 cfg1.N
    = fun i : S4x1x1024.Idx => Cert.NonLocal.batchSum (fun b n k => (Cert.NonLocal.expand (Cert.NonLocal.mix (V c main_v9_1) (V c main_v10)) (V c main_v8) (V c main_arg8)) b n k * (Cert.NonLocal.expand (Cert.NonLocal.mix (V c main_v9_1) (V c main_v10)) (V c main_v8) (V c main_arg8)) b n k) (i 0 : Fin 4) (i 2 : Fin 1024) :=
  (dat1 V c).arrAt_eq_of_cover 6 (fun i : S4x1x1024.Idx => Cert.NonLocal.batchSum (fun b n k => (Cert.NonLocal.expand (Cert.NonLocal.mix (V c main_v9_1) (V c main_v10)) (V c main_v8) (V c main_arg8)) b n k * (Cert.NonLocal.expand (Cert.NonLocal.mix (V c main_v9_1) (V c main_v10)) (V c main_v8) (V c main_arg8)) b n k) (i 0 : Fin 4) (i 2 : Fin 1024))
    (fun t hf => flushed1s_6 V c t hf) covered1s_6

end Cert.KernelIdeal.HandValue

end
-- ==== Proof.KI.HostValue.lean ====
import proofs.«130369_j29137058136126_2_alg».proof.Proof.Gen.KernelIdeal.Launch
import proofs.«130369_j29137058136126_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.HandValue

open Cert.KernelIdeal Cert.KernelIdeal.Gen
open Idealize.ShloMosaic Idealize.ShloMosaic.TcCoe Idealize.ShloMosaic.StableHlo Idealize.SL.Sem
open Idealize.ShloMosaic.ValueIdx

variable (W : Valuation τ sig (Elt Ideal))

/-! # The host stretches, read at an index

Between the three grid regions the program reshapes, transposes, narrows and averages on the host. On the extended reals a
narrowing is the identity, a reshape that adds or drops a unit axis keeps the other coordinates, and a reduction is a finite
sum. Each statement reads one array the stretch writes, at an index, from ANY contents `W` of the buffers before it. -/

/-! ## Layout operations on variables -/

/-- `[4, 1, 4096, 1024]` cast to `[4, 4096, 1024]`: the unit axis goes, the other coordinates stay. -/
theorem dropMidUnit_apply {α : Type} (X : S4x1x4096x1024.Idx → α) (b : Fin 4) (n : Fin 4096) (k : Fin 1024) :
    shapeCast S4x4096x1024 X shapeCasts_S4x1x4096x1024_S4x4096x1024 (ix3 b n k) = X (ix4 b (0 : Fin 1) n k) := by
  refine shapeCast_apply _ _ _ _ ?_
  rw [Shape.rowMajor_val_four, Shape.rowMajor_val_three]
  show ((b.val * 1 + (0 : Fin 1).val) * 4096 + n.val) * 1024 + k.val = (b.val * 4096 + n.val) * 1024 + k.val
  have hz : ((0 : Fin 1).val) = 0 := rfl
  omega

/-- `[4, 4096, 1024]` cast to `[4, 1, 4096, 1024]`: the unit axis comes back. -/
theorem addMidUnit_apply {α : Type} (X : S4x4096x1024.Idx → α) (b : Fin 4) (u : Fin 1) (n : Fin 4096) (c : Fin 1024) :
    shapeCast S4x1x4096x1024 X shapeCasts_S4x4096x1024_S4x1x4096x1024 (ix4 b u n c) = X (ix3 b n c) := by
  refine shapeCast_apply _ _ _ _ ?_
  rw [Shape.rowMajor_val_four, Shape.rowMajor_val_three]
  show (b.val * 4096 + n.val) * 1024 + c.val = ((b.val * 1 + u.val) * 4096 + n.val) * 1024 + c.val
  have hu : u.val = 0 := by omega
  omega

/-- A `[512, 1024]` matrix transposed, then narrowed: at `(k, j)` the operand at `(j, k)`. -/
theorem transposeNarrow_1024x512_apply (X : FVec Ideal S512x1024 .f32) (k : Fin 1024) (j : Fin 512) :
    truncf .bf16 (transpose S1024x512 [1, 0] X transposes_S512x1024_S1024x512_1_0) bitsLt_bf16_f32 (ix2 k j) = X (ix2 j k) := by
  rw [truncf_apply, transpose_ix2_apply]

/-- A `[1024, 512]` matrix transposed, then narrowed: at `(i, c)` the operand at `(c, i)`. -/
theorem transposeNarrow_512x1024_apply (X : FVec Ideal S1024x512 .f32) (i : Fin 512) (c : Fin 1024) :
    truncf .bf16 (transpose S512x1024 [1, 0] X transposes_S1024x512_S512x1024_1_0) bitsLt_bf16_f32 (ix2 i c) = X (ix2 c i) := by
  rw [truncf_apply, transpose_ix2_apply]

/-! ## Before the first region -/

/-- The input with its unit axis dropped: `v0 (b, n, k) = x (b, 0, n, k)`. -/
theorem host0_v0 (b : Fin 4) (n : Fin 4096) (k : Fin 1024) :
    StableHlo.after hostOps0 W main_v0 (ix3 b n k) = W main_arg0 (ix4 b (0 : Fin 1) n k) := by
  after_results
  exact dropMidUnit_apply _ b n k

/-- The three input-side weight matrices, transposed: `(k, j)` reads the argument at `(j, k)`. -/
theorem host0_v2 (k : Fin 1024) (j : Fin 512) :
    StableHlo.after hostOps0 W main_v2 (ix2 k j) = W main_arg1 (ix2 j k) := by
  after_results
  exact transposeNarrow_1024x512_apply _ k j
theorem host0_v4 (k : Fin 1024) (j : Fin 512) :
    StableHlo.after hostOps0 W main_v4 (ix2 k j) = W main_arg3 (ix2 j k) := by
  after_results
  exact transposeNarrow_1024x512_apply _ k j
theorem host0_v6 (k : Fin 1024) (j : Fin 512) :
    StableHlo.after hostOps0 W main_v6 (ix2 k j) = W main_arg5 (ix2 j k) := by
  after_results
  exact transposeNarrow_1024x512_apply _ k j

/-- The output-side weight matrix, transposed: `(i, c)` reads the argument at `(c, i)`. -/
theorem host0_v8 (i : Fin 512) (c : Fin 1024) :
    StableHlo.after hostOps0 W main_v8 (ix2 i c) = W main_arg7 (ix2 c i) := by
  after_results
  exact transposeNarrow_512x1024_apply _ i c

/-! ## Between the first and second regions -/

/-- The Gram matrices narrowed: the same entries. -/
theorem host1_v10 : StableHlo.after hostOps1 W main_v10 = fun i => W main_v9_0 i := by
  after_results
  rfl

/-! ## After the third region -/

/-- The result with the unit axis put back: `v23 (b, 0, n, c) = v22 (b, n, c)`. -/
theorem host3_v23 (b : Fin 4) (n : Fin 4096) (c : Fin 1024) :
    StableHlo.after hostOps3 W main_v23 (ix4 b (0 : Fin 1) n c) = W main_v22 (ix3 b n c) := by
  after_results
  exact addMidUnit_apply _ b 0 n c

/-! ## Between the second and third regions: the batch statistics -/

/-- `[4, 1, 1024]` cast to `[4, 1024]`. -/
theorem dropUnit_4x1x1024_apply {α : Type} (X : S4x1x1024.Idx → α) (b : Fin 4) (c : Fin 1024) :
    shapeCast S4x1024 X shapeCasts_S4x1x1024_S4x1024 (ix2 b c) = X (ix3 b (0 : Fin 1) c) := by
  refine shapeCast_apply _ _ _ _ ?_
  rw [Shape.rowMajor_val_three, Shape.rowMajor_val_two]
  show (b.val * 1 + (0 : Fin 1).val) * 1024 + c.val = b.val * 1024 + c.val
  have hz : ((0 : Fin 1).val) = 0 := rfl
  omega

/-- The per-batch partial sums added up over the four batches, from the zero word. -/
theorem sumBatches_apply (X : FVec Ideal S4x1x1024 .f32) (c : Fin 1024) :
    Host.reduceAdd (shapeCast S4x1024 X shapeCasts_S4x1x1024_S4x1024) (constant (F := Ideal) S_ .f32 0x00000000#32) reducesTo_S4x1024_S1024_d0 h_S_ (ix1 c)
      = 0 + ∑ b : Fin 4, X (ix3 b (0 : Fin 1) c) := by
  have hR : S4x1024.Reduces [0] S1024 := by decide
  rw [hostReduceAdd_apply, Ideal.hostReduceAdd_single reducesTo_S4x1024_S1024_d0 hR, constant_apply, Ideal.ofBits_zero_f32]
  show 0 + ∑ k : Fin 4, shapeCast S4x1024 X shapeCasts_S4x1x1024_S4x1024 (hR.lift (ix1 c) k) = _
  refine congrArg (fun z => (0 : EReal) + z) (Finset.sum_congr rfl fun k _ => ?_)
  have hk : hR.lift (ix1 c) k = ix2 k c := by
    funext a; apply Fin.ext
    match a with
    | ⟨0, _⟩ => rfl
    | ⟨1, _⟩ => rfl
  exact (congrArg (shapeCast S4x1024 X shapeCasts_S4x1x1024_S4x1024) hk).trans (dropUnit_4x1x1024_apply X k c)

/-- The element count 16384.0, one word repeated along the channels. -/
theorem countBroadcast_apply (c : Fin 1024) :
    broadcastInDim S1024 ![] bcast_S_S1024 (constant (F := Ideal) S_ .f32 0x46800000#32) (ix1 c) = Ideal.ofBits .f32 0x46800000#32 := by
  rw [broadcastInDim_scalar_apply, constant_apply]

/-- The mean: the column sums over the four batches, over the element count. -/
theorem host2_v17 (c : Fin 1024) :
    StableHlo.after hostOps2 W main_v17 (ix1 c) = Cert.NonLocal.meanOf (fun b c => W main_v11_1 (ix3 b (0 : Fin 1) c)) c := by
  after_results
  exact congrArg₂ Ideal.div (sumBatches_apply (W main_v11_1) c) (countBroadcast_apply c)

/-- The variance: the mean of the squares minus the square of the mean. -/
theorem host2_v21 (c : Fin 1024) :
    StableHlo.after hostOps2 W main_v21 (ix1 c)
      = Cert.NonLocal.varOf (fun b c => W main_v11_1 (ix3 b (0 : Fin 1) c)) (fun b c => W main_v11_2 (ix3 b (0 : Fin 1) c)) c := by
  after_results
  have hM := congrArg₂ Ideal.div (sumBatches_apply (W main_v11_1) c) (countBroadcast_apply c)
  have hS := congrArg₂ Ideal.div (sumBatches_apply (W main_v11_2) c) (countBroadcast_apply c)
  exact congrArg₂ (fun x y : EReal => x - y) hS (congrArg₂ (fun x y : EReal => x * y) hM hM)

end Cert.KernelIdeal.HandValue

end
-- ==== Proof.Model.lean ====
/-
  The kernel's result as ONE function of the eleven argument arrays, by coordinates: its W(y) goes through the
  512 x 512 Gram matrix of phi and g (accumulated tile by tile and scaled by the word 2^-12), its batch statistics
  are the one-pass ones over per-batch, per-tile column sums.
-/
import proofs.«130369_j29137058136126_2_alg».proof.Proof.Spec

noncomputable section

open scoped BigOperators

namespace Cert.NonLocal

open Idealize.ShloMosaic Idealize.ShloMosaic.ValueIdx

/-- W(y) as the kernel computes it: theta against the Gram matrix, then the output convolution. -/
def wyK (a0 : (⟨4, ![4, 1, 4096, 1024]⟩ : Shape).Idx → EReal)
    (a1 : (⟨2, ![512, 1024]⟩ : Shape).Idx → EReal) (a2 : (⟨1, ![512]⟩ : Shape).Idx → EReal)
    (a3 : (⟨2, ![512, 1024]⟩ : Shape).Idx → EReal) (a4 : (⟨1, ![512]⟩ : Shape).Idx → EReal)
    (a5 : (⟨2, ![512, 1024]⟩ : Shape).Idx → EReal) (a6 : (⟨1, ![512]⟩ : Shape).Idx → EReal)
    (a7 : (⟨2, ![1024, 512]⟩ : Shape).Idx → EReal) (a8 : (⟨1, ![1024]⟩ : Shape).Idx → EReal) :
    Fin 4 → Fin 4096 → Fin 1024 → EReal :=
  expandR (fun b n i => ∑ j : Fin 512, convR a0 a3 a4 b n j * gram (convR a0 a5 a6) (convR a0 a1 a2) b j i) a7 a8

/-- The kernel's result at (b, n, k). -/
def outK (a0 : (⟨4, ![4, 1, 4096, 1024]⟩ : Shape).Idx → EReal)
    (a1 : (⟨2, ![512, 1024]⟩ : Shape).Idx → EReal) (a2 : (⟨1, ![512]⟩ : Shape).Idx → EReal)
    (a3 : (⟨2, ![512, 1024]⟩ : Shape).Idx → EReal) (a4 : (⟨1, ![512]⟩ : Shape).Idx → EReal)
    (a5 : (⟨2, ![512, 1024]⟩ : Shape).Idx → EReal) (a6 : (⟨1, ![512]⟩ : Shape).Idx → EReal)
    (a7 : (⟨2, ![1024, 512]⟩ : Shape).Idx → EReal) (a8 : (⟨1, ![1024]⟩ : Shape).Idx → EReal)
    (a9 a10 : (⟨1, ![1024]⟩ : Shape).Idx → EReal) (b : Fin 4) (n : Fin 4096) (k : Fin 1024) : EReal :=
  normed (wyK a0 a1 a2 a3 a4 a5 a6 a7 a8) (xR a0) (meanOf (batchSum (wyK a0 a1 a2 a3 a4 a5 a6 a7 a8)))
    (varOf (batchSum (wyK a0 a1 a2 a3 a4 a5 a6 a7 a8))
      (batchSum (fun b n k => wyK a0 a1 a2 a3 a4 a5 a6 a7 a8 b n k * wyK a0 a1 a2 a3 a4 a5 a6 a7 a8 b n k)))
    (fun k => a9 (ix1 k)) (fun k => a10 (ix1 k)) b n k

end Cert.NonLocal

end
-- ==== Proof.KI.KernelValue.lean ====
/-
  The idealized kernel's result as a function of its argument arrays. The last valuation of the run is walked
  back stretch by stretch: the final reshape reads the third pallas call's output, which is the batch
  normalisation of W(y) and the residual with the host's one-pass statistics; those are the batch sums the
  second pallas call accumulated over its tiles; W(y) is theta against the Gram matrix the first pallas call
  accumulated, through the output convolution; and the convolutions of the reshaped activations against the
  transposed, converted weight matrices are the convolutions of the arguments as given (a change of float
  format is the identity on the extended reals).
-/
import proofs.«130369_j29137058136126_2_alg».proof.Proof.KI.Assembly
import proofs.«130369_j29137058136126_2_alg».proof.Proof.KI.R2Value
import proofs.«130369_j29137058136126_2_alg».proof.Proof.KI.R2Bridge
import proofs.«130369_j29137058136126_2_alg».proof.Proof.KI.R0Value
import proofs.«130369_j29137058136126_2_alg».proof.Proof.KI.R1Value
import proofs.«130369_j29137058136126_2_alg».proof.Proof.KI.R1Sums
import proofs.«130369_j29137058136126_2_alg».proof.Proof.KI.HostValue
import proofs.«130369_j29137058136126_2_alg».proof.Proof.Model
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Hand Cert.NonLocal
open Cert.KernelIdeal.Gen hiding V0 V1 V2 V3 V4 V5 V6 V7
open Idealize.ShloMosaic Idealize.ShloMosaic.TcCoe Idealize.ShloMosaic.ValueIdx
open Idealize.SL.Sem
open Idealize.ShloMosaic.Pipeline (Dat)

/-! # The kernel's result, by coordinates, as a function of the argument arrays -/

section Value
variable (m : (ℓ : Loc nD τ sig) → Buf (Elt Ideal) ℓ) (c : Dev nD)

/-- The argument arrays at launch. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)

/-- g, theta and phi of the activations, from the arguments. -/
abbrev GV := convR (A0 m c) (A1 m c) (A2 m c)
abbrev TH := convR (A0 m c) (A3 m c) (A4 m c)
abbrev PH := convR (A0 m c) (A5 m c) (A6 m c)
/-- The kernel's W(y), through the Gram matrix. -/
abbrev WYk : Fin 4 → Fin 4096 → Fin 1024 → EReal :=
  wyK (A0 m c) (A1 m c) (A2 m c) (A3 m c) (A4 m c) (A5 m c) (A6 m c) (A7 m c) (A8 m c)

/-! ## Entering the first pallas call -/

/-- A convolution of the reshaped activations against a transposed weight matrix is the convolution of the arguments. -/
theorem conv_entry (w : Ref sig .tc) (wT : Ref sig .tc) (bias : Ref sig .tc)
    (xs : (⟨3, ![4, 4096, 1024]⟩ : Shape).Idx → EReal) (wTs : (⟨2, ![1024, 512]⟩ : Shape).Idx → EReal)
    (a0 : (⟨4, ![4, 1, 4096, 1024]⟩ : Shape).Idx → EReal) (ws : (⟨2, ![512, 1024]⟩ : Shape).Idx → EReal)
    (bs : (⟨1, ![512]⟩ : Shape).Idx → EReal)
    (hx : ∀ b n k, xs (ix3 b n k) = a0 (ix4 b 0 n k)) (hw : ∀ k j, wTs (ix2 k j) = ws (ix2 j k)) :
    conv xs wTs bs = convR a0 ws bs := by
  funext b n j
  unfold conv convR
  exact congrArg (· + bs (ix1 j)) (Finset.sum_congr rfl fun k _ => by rw [hx, hw])

theorem V1_v0 (b : Fin 4) (n : Fin 4096) (k : Fin 1024) : V1 m c main_v0 (ix3 b n k) = A0 m c (ix4 b 0 n k) :=
  host0_v0 (W0 m c) b n k
theorem V1_v2 (k : Fin 1024) (j : Fin 512) : V1 m c main_v2 (ix2 k j) = A1 m c (ix2 j k) := host0_v2 (W0 m c) k j
theorem V1_v4 (k : Fin 1024) (j : Fin 512) : V1 m c main_v4 (ix2 k j) = A3 m c (ix2 j k) := host0_v4 (W0 m c) k j
theorem V1_v6 (k : Fin 1024) (j : Fin 512) : V1 m c main_v6 (ix2 k j) = A5 m c (ix2 j k) := host0_v6 (W0 m c) k j
theorem V1_v8 (i : Fin 512) (k : Fin 1024) : V1 m c main_v8 (ix2 i k) = A7 m c (ix2 k i) := host0_v8 (W0 m c) i k
theorem V1_arg2 : V1 m c main_arg2 = A2 m c := W1_keep m c main_arg2 (by decide)
theorem V1_arg4 : V1 m c main_arg4 = A4 m c := W1_keep m c main_arg4 (by decide)
theorem V1_arg6 : V1 m c main_arg6 = A6 m c := W1_keep m c main_arg6 (by decide)

/-! ## After the first pallas call: theta and the Gram matrix -/

theorem W2_theta (b : Fin 4) (n : Fin 4096) (j : Fin 512) : W2 m c main_v9_1 (ix3 b n j) = TH m c b n j := by
  have h := W2_arr m c 8
  rw [final0_8 (V1 m) c] at h
  have e := congrFun h (ix3 b n j)
  refine e.trans ?_
  show conv (V1 m c main_v0) (V1 m c main_v4) (V1 m c main_arg4) b n j = _
  rw [conv_entry main_arg3 main_v4 main_arg4 _ _ (A0 m c) (A3 m c) _ (V1_v0 m c) (V1_v4 m c), V1_arg4]

theorem W2_gram (b : Fin 4) (j i : Fin 512) : W2 m c main_v9_0 (ix3 b j i) = gram (PH m c) (GV m c) b j i := by
  have h := W2_arr m c 7
  rw [final0_7 (V1 m) c] at h
  have e := congrFun h (ix3 b j i)
  refine e.trans ?_
  show gram (conv (V1 m c main_v0) (V1 m c main_v6) (V1 m c main_arg6)) (conv (V1 m c main_v0) (V1 m c main_v2) (V1 m c main_arg2)) b j i = _
  rw [conv_entry main_arg5 main_v6 main_arg6 _ _ (A0 m c) (A5 m c) _ (V1_v0 m c) (V1_v6 m c),
    conv_entry main_arg1 main_v2 main_arg2 _ _ (A0 m c) (A1 m c) _ (V1_v0 m c) (V1_v2 m c), V1_arg6, V1_arg2]

/-! ## Entering the second pallas call, and what it leaves -/

theorem V3_theta (b : Fin 4) (n : Fin 4096) (j : Fin 512) : V3 m c main_v9_1 (ix3 b n j) = TH m c b n j :=
  (congrFun (W3_keep m c main_v9_1 (by decide)) (ix3 b n j)).trans (W2_theta m c b n j)
theorem V3_gram (b : Fin 4) (j i : Fin 512) : V3 m c main_v10 (ix3 b j i) = gram (PH m c) (GV m c) b j i :=
  (congrFun (host1_v10 (W2 m c)) (ix3 b j i)).trans (W2_gram m c b j i)
theorem V3_v8 (i : Fin 512) (k : Fin 1024) : V3 m c main_v8 (ix2 i k) = A7 m c (ix2 k i) :=
  (congrFun ((W3_keep m c main_v8 (by decide)).trans (W2_of_ne m c main_v8 (by decide))) (ix2 i k)).trans (V1_v8 m c i k)
theorem V3_arg8 : V3 m c main_arg8 = A8 m c :=
  (W3_keep m c main_arg8 (by decide)).trans ((W2_of_ne m c main_arg8 (by decide)).trans (W1_keep m c main_arg8 (by decide)))

/-- The second pallas call's W(y), from the arguments. -/
theorem wy_entry : expand (mix (V3 m c main_v9_1) (V3 m c main_v10)) (V3 m c main_v8) (V3 m c main_arg8) = WYk m c := by
  funext b n k
  unfold WYk expand wyK expandR mix
  rw [V3_arg8]
  refine congrArg (· + A8 m c (ix1 k)) (Finset.sum_congr rfl fun i _ => ?_)
  rw [V3_v8]
  exact congrArg (· * A7 m c (ix2 k i)) (Finset.sum_congr rfl fun j _ => by rw [V3_theta, V3_gram])

theorem W4_wy (b : Fin 4) (n : Fin 4096) (k : Fin 1024) : W4 m c main_v11_0 (ix3 b n k) = WYk m c b n k := by
  refine (congrFun ((W4_arr m c 4).trans (final1_4 (V3 m) c)) (ix3 b n k)).trans ?_
  exact congrFun (congrFun (congrFun (wy_entry m c) b) n) k
theorem W4_sum (b : Fin 4) (k : Fin 1024) : W4 m c main_v11_1 (ix3 b 0 k) = batchSum (WYk m c) b k := by
  refine (congrFun ((W4_arr m c 5).trans (final1_5 (V3 m) c)) (ix3 b 0 k)).trans ?_
  exact congrArg (batchSum · b k) (wy_entry m c)
theorem W4_sumsq (b : Fin 4) (k : Fin 1024) :
    W4 m c main_v11_2 (ix3 b 0 k) = batchSum (fun b n k => WYk m c b n k * WYk m c b n k) b k := by
  refine (congrFun ((W4_arr m c 6).trans (final1_6 (V3 m) c)) (ix3 b 0 k)).trans ?_
  exact congrArg (fun f : Fin 4 → Fin 4096 → Fin 1024 → EReal => batchSum (fun b n k => f b n k * f b n k) b k) (wy_entry m c)

/-! ## Entering the third pallas call, and the result -/

theorem V5_wy (b : Fin 4) (n : Fin 4096) (k : Fin 1024) : V5 m c main_v11_0 (ix3 b n k) = WYk m c b n k :=
  (congrFun (W5_keep m c main_v11_0 (by decide)) (ix3 b n k)).trans (W4_wy m c b n k)
theorem V5_v0 (b : Fin 4) (n : Fin 4096) (k : Fin 1024) : V5 m c main_v0 (ix3 b n k) = xR (A0 m c) b n k :=
  (congrFun ((W5_keep m c main_v0 (by decide)).trans <| (W4_of_ne m c main_v0 (by decide)).trans <|
    (W3_keep m c main_v0 (by decide)).trans (W2_in m c 0 rfl)) (ix3 b n k)).trans (V1_v0 m c b n k)
theorem V5_mean (k : Fin 1024) : V5 m c main_v17 (ix1 k) = meanOf (batchSum (WYk m c)) k := by
  refine (host2_v17 (W4 m c) k).trans ?_
  exact congrArg (meanOf · k) (funext fun b => funext fun k => W4_sum m c b k)
theorem V5_var (k : Fin 1024) :
    V5 m c main_v21 (ix1 k) = varOf (batchSum (WYk m c)) (batchSum (fun b n k => WYk m c b n k * WYk m c b n k)) k := by
  refine (host2_v21 (W4 m c) k).trans ?_
  rw [show (fun b k => W4 m c main_v11_1 (ix3 b 0 k)) = batchSum (WYk m c) from funext fun b => funext fun k => W4_sum m c b k,
    show (fun b k => W4 m c main_v11_2 (ix3 b 0 k)) = batchSum (fun b n k => WYk m c b n k * WYk m c b n k) from
      funext fun b => funext fun k => W4_sumsq m c b k]
theorem V5_arg9 : V5 m c main_arg9 = A9 m c :=
  (W5_keep m c main_arg9 (by decide)).trans <| (W4_of_ne m c main_arg9 (by decide)).trans <| (W3_keep m c main_arg9 (by decide)).trans <|
    (W2_of_ne m c main_arg9 (by decide)).trans (W1_keep m c main_arg9 (by decide))
theorem V5_arg10 : V5 m c main_arg10 = A10 m c :=
  (W5_keep m c main_arg10 (by decide)).trans <| (W4_of_ne m c main_arg10 (by decide)).trans <| (W3_keep m c main_arg10 (by decide)).trans <|
    (W2_of_ne m c main_arg10 (by decide)).trans (W1_keep m c main_arg10 (by decide))

/-- THE KERNEL'S RESULT by coordinates: batch normalisation of its W(y) with its one-pass statistics, the affine map and
    the residual. -/
theorem kernel_result (b : Fin 4) (n : Fin 4096) (k : Fin 1024) :
    W7 m c main_v23 (ix4 b 0 n k)
      = outK (A0 m c) (A1 m c) (A2 m c) (A3 m c) (A4 m c) (A5 m c) (A6 m c) (A7 m c) (A8 m c) (A9 m c) (A10 m c) b n k := by
  refine (host3_v23 (W6 m c) b n k).trans ?_
  refine (congrFun (W6_arr m c 6) (ix3 b n k)).trans ?_
  rw [final2_6_normed (V5 m) c b n k]
  unfold outK
  rw [show (fun b n k => V5 m c main_v11_0 (ix3 b n k)) = wyK (A0 m c) (A1 m c) (A2 m c) (A3 m c) (A4 m c) (A5 m c) (A6 m c) (A7 m c) (A8 m c) from
        funext fun b => funext fun n => funext fun k => V5_wy m c b n k,
    show (fun b n k => V5 m c main_v0 (ix3 b n k)) = xR (A0 m c) from
        funext fun b => funext fun n => funext fun k => V5_v0 m c b n k,
    show (fun k => V5 m c main_v17 (ix1 k)) = meanOf (batchSum (wyK (A0 m c) (A1 m c) (A2 m c) (A3 m c) (A4 m c) (A5 m c) (A6 m c) (A7 m c) (A8 m c))) from funext (V5_mean m c),
    show (fun k => V5 m c main_v21 (ix1 k))
        = varOf (batchSum (wyK (A0 m c) (A1 m c) (A2 m c) (A3 m c) (A4 m c) (A5 m c) (A6 m c) (A7 m c) (A8 m c))) (batchSum (fun b n k => wyK (A0 m c) (A1 m c) (A2 m c) (A3 m c) (A4 m c) (A5 m c) (A6 m c) (A7 m c) (A8 m c) b n k * wyK (A0 m c) (A1 m c) (A2 m c) (A3 m c) (A4 m c) (A5 m c) (A6 m c) (A7 m c) (A8 m c) b n k)) from funext (V5_var m c),
    V5_arg9, V5_arg10]

end Value

/-! ## The run with the result named -/

section RunResult
variable (m : (ℓ : Loc nD τ sig) → Buf (Elt Ideal) ℓ) (ρ : Dev nD → PrngReg)

/-- Every weakly fair execution of the idealized kernel terminates without a fault with its result buffer at the
    last valuation's contents and every argument array as launched. -/
theorem run_result : θ_run defs (onTc (τ := τ) (main (F := Ideal))) ⟨m, fun _ => 0, ρ⟩ (fun r => ∀ c : Dev nD,
      r.2.mem ((c.tc : Thread nD τ).loc main_v23) = W7 m c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c _ (mem_uc main_v23 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c)⟩) (run_all m ρ)

end RunResult

end Cert.KernelIdeal.HandValue

end
-- ==== Proof.Ref.Run.lean ====
/-
  The reference function's program as one straight line of array operations, and the array it leaves in its result.

  The function is a non-local block over an input v of shape [4, 1, 4096, 1024] (batch b, a unit axis, position n,
  channel c). Three affine maps of the channel axis give gv, th, ph of shape [4, 1, 4096, 512]; the affinity
  R[b, n, m] = (sum_i th[b, n, i] * ph[b, m, i]) / 4096; y[b, n, i] = sum_m R[b, n, m] * gv[b, m, i]; a fourth affine map
  gives wy[b, n, c] = sum_i y[b, n, i] * W[c, i] + Wb[c]. Then a batch normalization per channel over the 16384 pairs
  (b, n): the mean is the column sum over 16384; the variance is the column sum of squared deviations over
  (16384 - 0), selected against a not-a-number splat by the test 16384 - 0 > 0 (the general-purpose variance routine
  with zero degrees of freedom removed, left as the program has it); the result is
  (wy - mean) * rsqrt(var + eps) * gamma + beta + v.

  Each stage is a definition of its own, generic in the float values, so that a later reading rewrites one stage at
  a time; "result" composes them, and "run" says every execution of the program ends with the result buffer holding
  it and the eleven argument buffers as they were.
-/
import proofs.«130369_j29137058136126_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The stages -/

/-- A row of 512 numbers laid along the channel axis of every (b, n): the bias of one of the three inner maps. -/
def bias512 (b : FVec F S512 .f32) : FVec F S4x1x4096x512 .f32 :=
  broadcastInDim S4x1x4096x512 ![0, 1, 2, 3] bcast_S1x1x1x512_S4x1x4096x512_0_1_2_3
    (broadcastInDim S1x1x1x512 ![3] bcast_S512_S1x1x1x512_3 b)

/-- A row of 1024 numbers as a [1, 1, 1, 1024] array: one number per channel. -/
def row1024 (b : FVec F S1024 .f32) : FVec F S1x1x1x1024 .f32 :=
  broadcastInDim S1x1x1x1024 ![3] bcast_S1024_S1x1x1x1024_3 b

/-- One number per channel, repeated at every (b, n). -/
def spread1024 (r : FVec F S1x1x1x1024 .f32) : FVec F S4x1x4096x1024 .f32 :=
  broadcastInDim S4x1x4096x1024 ![0, 1, 2, 3] bcast_S1x1x1x1024_S4x1x4096x1024_0_1_2_3 r

/-- One scalar repeated at every channel. -/
def splat1024 {α : Type} (s : S_.Idx → α) : S1x1x1x1024.Idx → α :=
  broadcastInDim S1x1x1x1024 ![] bcast_S_S1x1x1x1024 s

/-- An inner affine map of the channel axis: proj v w b [b', 0, n, i] = sum_c v[b', 0, n, c] * w[i, c] + b[i]. -/
def proj (v : FVec F S4x1x4096x1024 .f32) (w : FVec F S512x1024 .f32) (b : FVec F S512 .f32) :
    FVec F S4x1x4096x512 .f32 :=
  addf (Host.dotGeneral dot_S4x1x4096x1024_S512x1024_S4x1x4096x512_3_1_012_0_n_n none v w) (bias512 b)

/-- The affinity of positions n and m within a batch: the inner product of th at n and ph at m, over 4096. -/
def affinity (th ph : FVec F S4x1x4096x512 .f32) : FVec F S4x1x4096x4096 .f32 :=
  Host.divf (Host.dotGeneral dot_S4x1x4096x512_S4x1x4096x512_S4x1x4096x4096_3_3_2_2_01_01 none th ph)
    (broadcastInDim S4x1x4096x4096 ![] bcast_S_S4x1x4096x4096 (constant S_ .f32 0x45800000#32))

/-- Each position's mixture of gv over all positions of its batch, weighted by the affinity. -/
def attend (R : FVec F S4x1x4096x4096 .f32) (gv : FVec F S4x1x4096x512 .f32) : FVec F S4x1x4096x512 .f32 :=
  Host.dotGeneral dot_S4x1x4096x4096_S4x1x4096x512_S4x1x4096x512_3_2_2_3_01_01 none R gv

/-- The outer affine map back to 1024 channels: sum_i y[b, 0, n, i] * w[c, i] + b[c]. -/
def expand (y : FVec F S4x1x4096x512 .f32) (w : FVec F S1024x512 .f32) (b : FVec F S1024 .f32) :
    FVec F S4x1x4096x1024 .f32 :=
  addf (Host.dotGeneral dot_S4x1x4096x512_S1024x512_S4x1x4096x1024_3_1_012_0_n_n none y w) (spread1024 (row1024 b))

/-- The sum of each channel's column over the 16384 pairs (b, n), from zero. -/
def colSum (x : FVec F S4x1x4096x1024 .f32) : FVec F S1024 .f32 :=
  Host.reduceAdd x (constant S_ .f32 0x00000000#32 : FVec F S_ .f32) reducesTo_S4x1x4096x1024_S1024_d0_1_2 h_S_

/-- The channel means: the column sums over 16384. -/
def meanOf (x : FVec F S4x1x4096x1024 .f32) : FVec F S1x1x1x1024 .f32 :=
  Host.divf (row1024 (colSum x)) (splat1024 (constant S_ .f32 0x46800000#32 : FVec F S_ .f32))

/-- The variance's divisor: 16384 less the degrees of freedom removed, an integer word read as a number. -/
def count (ddof : IVec S_ 32) : FVec F S_ .f32 :=
  subf (constant S_ .f32 0x46800000#32) (sitofp .f32 ddof)

/-- The deviations from the channel means. -/
def centered (x : FVec F S4x1x4096x1024 .f32) : FVec F S4x1x4096x1024 .f32 :=
  subf x (spread1024 (meanOf x))

/-- The channel variances as the general routine computes them: the column sums of the squared deviations over the
    divisor where the divisor is above zero, the not-a-number pattern elsewhere. -/
def varOf (x : FVec F S4x1x4096x1024 .f32) (ddof : IVec S_ 32) : FVec F S1x1x1x1024 .f32 :=
  select (splat1024 (cmpf .ogt (count (F := F) ddof) (constant S_ .f32 0x00000000#32)))
    (Host.divf (row1024 (colSum (mulf (centered x) (centered x)))) (splat1024 (count ddof)))
    (splat1024 (constant S_ .f32 0x7FC00000#32 : FVec F S_ .f32))

/-- One over the square root of variance plus epsilon, per channel. -/
def invStd (x : FVec F S4x1x4096x1024 .f32) : FVec F S1x1x1x1024 .f32 :=
  Host.rsqrt (addf (varOf x (constantI S_ 32 0#32)) (splat1024 (constant S_ .f32 0x3727C5AC#32 : FVec F S_ .f32)))

/-- The batch normalization of wy with scale gamma and shift beta, plus the residual v. -/
def normalized (wy : FVec F S4x1x4096x1024 .f32) (gamma beta : FVec F S1024 .f32) (v : FVec F S4x1x4096x1024 .f32) :
    FVec F S4x1x4096x1024 .f32 :=
  addf (addf (mulf (mulf (centered wy) (spread1024 (invStd wy))) (spread1024 (row1024 gamma)))
    (spread1024 (row1024 beta))) v

/-- wy of the eight arrays it depends on: the input, the three inner maps' weights and biases (g, theta, phi in the
    program's argument order), the outer map's. -/
def wyOf (v : FVec F S4x1x4096x1024 .f32) (gw : FVec F S512x1024 .f32) (gb : FVec F S512 .f32)
    (tw : FVec F S512x1024 .f32) (tb : FVec F S512 .f32) (pw : FVec F S512x1024 .f32) (pb : FVec F S512 .f32)
    (ww : FVec F S1024x512 .f32) (wb : FVec F S1024 .f32) : FVec F S4x1x4096x1024 .f32 :=
  expand (attend (affinity (proj v tw tb) (proj v pw pb)) (proj v gw gb)) ww wb

/-- What the program computes from its eleven arguments' contents. -/
def result (a0 : FVec F S4x1x4096x1024 .f32) (a1 : FVec F S512x1024 .f32) (a2 : FVec F S512 .f32)
    (a3 : FVec F S512x1024 .f32) (a4 : FVec F S512 .f32) (a5 : FVec F S512x1024 .f32) (a6 : FVec F S512 .f32)
    (a7 : FVec F S1024x512 .f32) (a8 a9 a10 : FVec F S1024 .f32) : FVec F S4x1x4096x1024 .f32 :=
  normalized (wyOf a0 a1 a2 a3 a4 a5 a6 a7 a8) a9 a10 a0

/-! ## The program as a list -/

/-- The program's sixty-six operations in order: forty-three of its own, and between the twenty-eighth and the
    twenty-ninth of those the variance routine's twenty followed by the three of the selection it calls before it
    returns — each callee's operation over the buffers the program's signature gives that call. -/
abbrev ops : List (HloOp τ sig (Elt F)) :=
  [ binary main_arg0 main_arg1 main_v0 (fun l r => Host.dotGeneral dot_S4x1x4096x1024_S512x1024_S4x1x4096x512_3_1_012_0_n_n none l r),
    unary main_arg2 main_v1 (broadcastInDim S1x1x1x512 ![3] bcast_S512_S1x1x1x512_3),
    unary main_v1 main_v2 (broadcastInDim S4x1x4096x512 ![0, 1, 2, 3] bcast_S1x1x1x512_S4x1x4096x512_0_1_2_3),
    binary main_v0 main_v2 main_v3 addf,
    binary main_arg0 main_arg3 main_v4 (fun l r => Host.dotGeneral dot_S4x1x4096x1024_S512x1024_S4x1x4096x512_3_1_012_0_n_n none l r),
    unary main_arg4 main_v5 (broadcastInDim S1x1x1x512 ![3] bcast_S512_S1x1x1x512_3),
    unary main_v5 main_v6 (broadcastInDim S4x1x4096x512 ![0, 1, 2, 3] bcast_S1x1x1x512_S4x1x4096x512_0_1_2_3),
    binary main_v4 main_v6 main_v7 addf,
    binary main_arg0 main_arg5 main_v8 (fun l r => Host.dotGeneral dot_S4x1x4096x1024_S512x1024_S4x1x4096x512_3_1_012_0_n_n none l r),
    unary main_arg6 main_v9 (broadcastInDim S1x1x1x512 ![3] bcast_S512_S1x1x1x512_3),
    unary main_v9 main_v10 (broadcastInDim S4x1x4096x512 ![0, 1, 2, 3] bcast_S1x1x1x512_S4x1x4096x512_0_1_2_3),
    binary main_v8 main_v10 main_v11 addf,
    binary main_v7 main_v11 main_v12 (fun l r => Host.dotGeneral dot_S4x1x4096x512_S4x1x4096x512_S4x1x4096x4096_3_3_2_2_01_01 none l r),
    nullary main_cst (constant S_ .f32 0x45800000#32),
    unary main_cst main_v13 (broadcastInDim S4x1x4096x4096 ![] bcast_S_S4x1x4096x4096),
    binary main_v12 main_v13 main_v14 Host.divf,
    binary main_v14 main_v3 main_v15 (fun l r => Host.dotGeneral dot_S4x1x4096x4096_S4x1x4096x512_S4x1x4096x512_3_2_2_3_01_01 none l r),
    binary main_v15 main_arg7 main_v16 (fun l r => Host.dotGeneral dot_S4x1x4096x512_S1024x512_S4x1x4096x1024_3_1_012_0_n_n none l r),
    unary main_arg8 main_v17 (broadcastInDim S1x1x1x1024 ![3] bcast_S1024_S1x1x1x1024_3),
    unary main_v17 main_v18 (broadcastInDim S4x1x4096x1024 ![0, 1, 2, 3] bcast_S1x1x1x1024_S4x1x4096x1024_0_1_2_3),
    binary main_v16 main_v18 main_v19 addf,
    nullary main_cst_0 (constant S_ .f32 0x00000000#32),
    binary main_v19 main_cst_0 main_v20 (fun x v => Host.reduceAdd x v reducesTo_S4x1x4096x1024_S1024_d0_1_2 h_S_),
    unary main_v20 main_v21 (broadcastInDim S1x1x1x1024 ![3] bcast_S1024_S1x1x1x1024_3),
    nullary main_cst_1 (constant S_ .f32 0x46800000#32),
    unary main_cst_1 main_v22 (broadcastInDim S1x1x1x1024 ![] bcast_S_S1x1x1x1024),
    binary main_v21 main_v22 main_v23 Host.divf,
    nullary main_c (constantI S_ 32 0#32),
    -- the variance routine, of wy (main_v19) and the zero word (main_c)
    nullary main_call0_cst (constant S_ .f32 0x00000000#32),
    binary main_v19 main_call0_cst main_call0_v0 (fun x v => Host.reduceAdd x v reducesTo_S4x1x4096x1024_S1024_d0_1_2 h_S_),
    unary main_call0_v0 main_call0_v1 (broadcastInDim S1x1x1x1024 ![3] bcast_S1024_S1x1x1x1024_3),
    nullary main_call0_cst_0 (constant S_ .f32 0x46800000#32),
    unary main_call0_cst_0 main_call0_v2 (broadcastInDim S1x1x1x1024 ![] bcast_S_S1x1x1x1024),
    binary main_call0_v1 main_call0_v2 main_call0_v3 Host.divf,
    unary main_call0_v3 main_call0_v4 (broadcastInDim S4x1x4096x1024 ![0, 1, 2, 3] bcast_S1x1x1x1024_S4x1x4096x1024_0_1_2_3),
    binary main_v19 main_call0_v4 main_call0_v5 subf,
    binary main_call0_v5 main_call0_v5 main_call0_v6 mulf,
    unary main_c main_call0_v7 (sitofp .f32),
    nullary main_call0_cst_1 (constant S_ .f32 0x46800000#32),
    binary main_call0_cst_1 main_call0_v7 main_call0_v8 subf,
    nullary main_call0_cst_2 (constant S_ .f32 0x00000000#32),
    binary main_call0_v6 main_call0_cst_2 main_call0_v9 (fun x v => Host.reduceAdd x v reducesTo_S4x1x4096x1024_S1024_d0_1_2 h_S_),
    unary main_call0_v9 main_call0_v10 (broadcastInDim S1x1x1x1024 ![3] bcast_S1024_S1x1x1x1024_3),
    unary main_call0_v8 main_call0_v11 (broadcastInDim S1x1x1x1024 ![] bcast_S_S1x1x1x1024),
    binary main_call0_v10 main_call0_v11 main_call0_v12 Host.divf,
    nullary main_call0_cst_3 (constant S_ .f32 0x00000000#32),
    binary main_call0_v8 main_call0_cst_3 main_call0_v13 (cmpf .ogt),
    nullary main_call0_cst_4 (constant S_ .f32 0x7FC00000#32),
    -- the selection, of the test (main_call0_v13), the quotient (main_call0_v12) and the not-a-number scalar
    unary main_call0_cst_4 main_call0_call0_v0 id,
    unary main_call0_call0_v0 main_call0_call0_v1 (broadcastInDim S1x1x1x1024 ![] bcast_S_S1x1x1x1024),
    ternary main_call0_v13 main_call0_v12 main_call0_call0_v1 main_v24
      (fun p a b => select (broadcastInDim S1x1x1x1024 ![] bcast_S_S1x1x1x1024 p) a b),
    -- the program's own again
    unary main_v23 main_v25 (broadcastInDim S4x1x4096x1024 ![0, 1, 2, 3] bcast_S1x1x1x1024_S4x1x4096x1024_0_1_2_3),
    binary main_v19 main_v25 main_v26 subf,
    nullary main_cst_2 (constant S_ .f32 0x3727C5AC#32),
    unary main_cst_2 main_v27 (broadcastInDim S1x1x1x1024 ![] bcast_S_S1x1x1x1024),
    binary main_v24 main_v27 main_v28 addf,
    unary main_v28 main_v29 Host.rsqrt,
    unary main_v29 main_v30 (broadcastInDim S4x1x4096x1024 ![0, 1, 2, 3] bcast_S1x1x1x1024_S4x1x4096x1024_0_1_2_3),
    binary main_v26 main_v30 main_v31 mulf,
    unary main_arg9 main_v32 (broadcastInDim S1x1x1x1024 ![3] bcast_S1024_S1x1x1x1024_3),
    unary main_v32 main_v33 (broadcastInDim S4x1x4096x1024 ![0, 1, 2, 3] bcast_S1x1x1x1024_S4x1x4096x1024_0_1_2_3),
    binary main_v31 main_v33 main_v34 mulf,
    unary main_arg10 main_v35 (broadcastInDim S1x1x1x1024 ![3] bcast_S1024_S1x1x1x1024_3),
    unary main_v35 main_v36 (broadcastInDim S4x1x4096x1024 ![0, 1, 2, 3] bcast_S1x1x1x1024_S4x1x4096x1024_0_1_2_3),
    binary main_v34 main_v36 main_v37 addf,
    binary main_v37 main_arg0 main_v38 addf ]

-- sixty-six binds re-associated: the rewrite under the chain recurses once per statement
set_option maxRecDepth 2048 in
/-- The program is that straight line: the two callees' definitions opened at their calls, both sides are one chain
    of single steps once the sequencing is re-associated; a callee's operation over a typed reference to a literal
    buffer is the plain operation over that buffer, the transport along the buffer's type being the identity. -/
theorem main_eq (c : Dev nD) : main (F := F) c = seq ops := by
  simp only [main, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    binary_bufs_sub .., nullary_bufs_sub .., unary_bufs_sub .., binary_bufs_sub .., binary_bufs_sub .., binary_bufs_sub ..,
    unary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..⟩

/-- The fold of the sixty-six operations at the result buffer is "result" of the arguments' contents: each operation's
    value is read at its own buffer and passed over at every other, and what is left is the stages' composition,
    term for term. -/
theorem after_result (V : Valuation τ sig (Elt F)) :
    after ops V (Proc.devRef .tc main_v38)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) := by
  after_results_simp
  rfl

/-! No operation writes an argument's buffer: the fold leaves each as it was (one lemma per argument, the walk over
    the sixty-six operations being the cost). -/
theorem after_arg0 (V : Valuation τ sig (Elt F)) :
    after ops V (Proc.devRef .tc main_arg0) = V (Proc.devRef .tc main_arg0) := by after_results_simp
theorem after_arg1 (V : Valuation τ sig (Elt F)) :
    after ops V (Proc.devRef .tc main_arg1) = V (Proc.devRef .tc main_arg1) := by after_results_simp
theorem after_arg2 (V : Valuation τ sig (Elt F)) :
    after ops V (Proc.devRef .tc main_arg2) = V (Proc.devRef .tc main_arg2) := by after_results_simp
theorem after_arg3 (V : Valuation τ sig (Elt F)) :
    after ops V (Proc.devRef .tc main_arg3) = V (Proc.devRef .tc main_arg3) := by after_results_simp
theorem after_arg4 (V : Valuation τ sig (Elt F)) :
    after ops V (Proc.devRef .tc main_arg4) = V (Proc.devRef .tc main_arg4) := by after_results_simp
theorem after_arg5 (V : Valuation τ sig (Elt F)) :
    after ops V (Proc.devRef .tc main_arg5) = V (Proc.devRef .tc main_arg5) := by after_results_simp
theorem after_arg6 (V : Valuation τ sig (Elt F)) :
    after ops V (Proc.devRef .tc main_arg6) = V (Proc.devRef .tc main_arg6) := by after_results_simp
theorem after_arg7 (V : Valuation τ sig (Elt F)) :
    after ops V (Proc.devRef .tc main_arg7) = V (Proc.devRef .tc main_arg7) := by after_results_simp
theorem after_arg8 (V : Valuation τ sig (Elt F)) :
    after ops V (Proc.devRef .tc main_arg8) = V (Proc.devRef .tc main_arg8) := by after_results_simp
theorem after_arg9 (V : Valuation τ sig (Elt F)) :
    after ops V (Proc.devRef .tc main_arg9) = V (Proc.devRef .tc main_arg9) := by after_results_simp
theorem after_arg10 (V : Valuation τ sig (Elt F)) :
    after ops V (Proc.devRef .tc main_arg10) = V (Proc.devRef .tc main_arg10) := by after_results_simp

/-- On the one device, for any float values, from any memory with zero counters: every weakly fair execution of the
    program terminates with the result buffer at "result" of the arguments' launch contents and the eleven
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v38)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v38).trans (after_result _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _)⟩)
    (run_seq scopedRefs_eq scopedSems_eq defs main (fun _ => ops) main_eq (fun _ => ops_sub) m ρ)

end Cert.ReferenceIdeal.Hand

end
-- ==== Proof.Ref.Read.lean ====
/-
  The reference's result read at one entry (b, 0, n, c) on the extended reals, stage by stage, as plain sums and
  products over explicit coordinates.

  Each array operation of the run is read at an index: a broadcast reads its operand at the coordinates it keeps; a
  contraction over one axis is the sum over that axis's coordinate of the products of the two operands' entries; the
  sum over the three leading axes of a [4, 1, 4096, 1024] array at channel c is the zero it starts from plus the double
  sum over (b, n), the middle axis having the one coordinate 0; division, the reciprocal square root and the
  comparison are the extended reals' own. In the variance routine the divisor 16384 - 0 is 16384, which is above
  zero, so the selection takes the quotient and the not-a-number splat is never read.
-/
import proofs.«130369_j29137058136126_2_alg».proof.Proof.Ref.Run
import proofs.«130369_j29137058136126_2_alg».proof.Proof.Spec
import Idealize.ShloMosaic.PureOps.Ideal.Laws
import Idealize.ShloMosaic.Lib.ValueIdx
import Idealize.ShloMosaic.Lib.Pipeline.Value

noncomputable section
open scoped BigOperators

namespace Cert.ReferenceIdeal.HandRead

open Cert.ReferenceIdeal Cert.ReferenceIdeal.Gen Cert.ReferenceIdeal.Hand Cert.NonLocal Idealize.ShloMosaic
  Idealize.ShloMosaic.ValueIdx

/-! ## Broadcasts at an index -/

/-- A scalar repeated at every channel reads the scalar. -/
theorem splat1024_apply {α : Type} (s : S_.Idx → α) (j : S1x1x1x1024.Idx) : splat1024 s j = s ix0 := by
  unfold splat1024
  exact broadcastInDim_apply _ _ s j ix0 (fun a => a.elim0)

/-- A row of 1024 numbers as a [1, 1, 1, 1024] array reads the row at the channel. -/
theorem row1024_apply (x : FVec Ideal S1024 .f32) (c : Fin 1024) : row1024 x (ix4 0 0 0 c) = x (ix1 c) := by
  unfold row1024
  exact broadcastInDim_apply _ _ x _ (ix1 c) (fun a => by fin_cases a; rfl)

/-- One number per channel repeated at every (b, n) reads the channel's number. -/
theorem spread1024_apply (r : FVec Ideal S1x1x1x1024 .f32) (b : Fin 4) (n : Fin 4096) (c : Fin 1024) :
    spread1024 r (ix4 b 0 n c) = r (ix4 0 0 0 c) := by
  unfold spread1024
  exact broadcastInDim_apply _ _ r _ (ix4 0 0 0 c) (fun a => by fin_cases a <;> rfl)

/-- A bias row of 512 numbers laid along the channel axis reads the row at the channel. -/
theorem bias512_apply (x : FVec Ideal S512 .f32) (b : Fin 4) (n : Fin 4096) (i : Fin 512) :
    bias512 x (ix4 b 0 n i) = x (ix1 i) := by
  unfold bias512
  rw [broadcastInDim_apply _ _ _ _ (ix4 0 0 0 i) (fun a => by fin_cases a <;> rfl)]
  exact broadcastInDim_apply _ _ x _ (ix1 i) (fun a => by fin_cases a; rfl)

/-! ## Contractions over one axis -/

/-- A contraction over ONE axis of extent K, re-indexed by that axis's coordinate k: whatever the two operand indices
    are known to be, coordinate by coordinate, at a contraction position whose coordinate is k. -/
theorem sum_contr1 {sl sr so : Shape} (D : DotDims sl sr so) (K : Nat) (hr : D.contr.rank = 1)
    (hs : D.contr.size ⟨0, by omega⟩ = K) {M : Type} [AddCommMonoid M] (f : sl.Idx → sr.Idx → M) (j : so.Idx)
    (L : Fin K → sl.Idx) (R : Fin K → sr.Idx)
    (hL : ∀ (q : D.contr.Idx) (k : Fin K), (q ⟨0, by omega⟩).val = k.val → ∀ a, (D.lhsIdx j q a).val = (L k a).val)
    (hR : ∀ (q : D.contr.Idx) (k : Fin K), (q ⟨0, by omega⟩).val = k.val → ∀ a, (D.rhsIdx j q a).val = (R k a).val) :
    ∑ q : D.contr.Idx, f (D.lhsIdx j q) (D.rhsIdx j q) = ∑ k : Fin K, f (L k) (R k) := by
  rw [← Equiv.sum_comp (contrEquiv1 D K hr hs).symm]
  refine Finset.sum_congr rfl fun k _ => ?_
  have hq := contrEquiv1_symm_val D K hr hs k
  exact congrArg₂ f (funext fun a => Fin.ext (hL _ k hq a)) (funext fun a => Fin.ext (hR _ k hq a))

/-- An inner map at (b, n, i): the input's row (b, n) against the weight matrix's row i, plus the bias at i. -/
theorem proj_apply (v : FVec Ideal S4x1x4096x1024 .f32) (w : FVec Ideal S512x1024 .f32) (bias : FVec Ideal S512 .f32)
    (b : Fin 4) (n : Fin 4096) (i : Fin 512) :
    proj v w bias (ix4 b 0 n i) = convR v w bias b n i := by
  unfold proj convR
  rw [addf_apply, bias512_apply]
  simp only [Host.dotGeneral]
  rw [Ideal.dotGeneral_apply]
  congr 1
  refine sum_contr1 dot_S4x1x4096x1024_S512x1024_S4x1x4096x512_3_1_012_0_n_n 1024 rfl rfl
    (fun x y => v x * w y) _ (fun k => ix4 b 0 n k) (fun k => ix2 i k) ?_ ?_
  · intro q k hq a
    fin_cases a
    · rfl
    · rfl
    · rfl
    · exact (DotDims.lhsIdx_val_of_single _ (cl := 3) rfl _ q).trans hq
  · intro q k hq a
    fin_cases a
    · rfl
    · exact (DotDims.rhsIdx_val_of_single _ (cr := 1) rfl _ q).trans hq

/-- The affinity at (b, n, m): theta's row (b, n) against phi's row (b, m), over the word 4096. -/
theorem affinity_apply (th ph : FVec Ideal S4x1x4096x512 .f32) (b : Fin 4) (n m : Fin 4096) :
    affinity th ph (ix4 b 0 n m)
      = affinR (fun b n i => th (ix4 b 0 n i)) (fun b n i => ph (ix4 b 0 n i)) b n m := by
  unfold affinity affinR
  show Ideal.div _ _ = _
  congr 1
  simp only [Host.dotGeneral]
  rw [Ideal.dotGeneral_apply]
  refine sum_contr1 dot_S4x1x4096x512_S4x1x4096x512_S4x1x4096x4096_3_3_2_2_01_01 512 rfl rfl
    (fun x y => th x * ph y) _ (fun i => ix4 b 0 n i) (fun i => ix4 b 0 m i) ?_ ?_
  · intro q k hq a
    fin_cases a
    · rfl
    · rfl
    · rfl
    · exact (DotDims.lhsIdx_val_of_single _ (cl := 3) rfl _ q).trans hq
  · intro q k hq a
    fin_cases a
    · rfl
    · rfl
    · rfl
    · exact (DotDims.rhsIdx_val_of_single _ (cr := 3) rfl _ q).trans hq

/-- The mixture at (b, n, i): the affinities of row (b, n) against channel i of every row of the batch. -/
theorem attend_apply (R : FVec Ideal S4x1x4096x4096 .f32) (gv : FVec Ideal S4x1x4096x512 .f32)
    (b : Fin 4) (n : Fin 4096) (i : Fin 512) :
    attend R gv (ix4 b 0 n i)
      = attendR (fun b n m => R (ix4 b 0 n m)) (fun b n i => gv (ix4 b 0 n i)) b n i := by
  unfold attend attendR
  simp only [Host.dotGeneral]
  rw [Ideal.dotGeneral_apply]
  refine sum_contr1 dot_S4x1x4096x4096_S4x1x4096x512_S4x1x4096x512_3_2_2_3_01_01 4096 rfl rfl
    (fun x y => R x * gv y) _ (fun m => ix4 b 0 n m) (fun m => ix4 b 0 m i) ?_ ?_
  · intro q k hq a
    fin_cases a
    · rfl
    · rfl
    · rfl
    · exact (DotDims.lhsIdx_val_of_single _ (cl := 3) rfl _ q).trans hq
  · intro q k hq a
    fin_cases a
    · rfl
    · rfl
    · exact (DotDims.rhsIdx_val_of_single _ (cr := 2) rfl _ q).trans hq
    · rfl

/-- The outer map at (b, n, c): the mixture's row (b, n) against the weight matrix's row c, plus the bias at c. -/
theorem expand_apply (y : FVec Ideal S4x1x4096x512 .f32) (w : FVec Ideal S1024x512 .f32) (bias : FVec Ideal S1024 .f32)
    (b : Fin 4) (n : Fin 4096) (c : Fin 1024) :
    Hand.expand y w bias (ix4 b 0 n c) = expandR (fun b n i => y (ix4 b 0 n i)) w bias b n c := by
  unfold Hand.expand expandR
  rw [addf_apply, spread1024_apply, row1024_apply]
  simp only [Host.dotGeneral]
  rw [Ideal.dotGeneral_apply]
  congr 1
  refine sum_contr1 dot_S4x1x4096x512_S1024x512_S4x1x4096x1024_3_1_012_0_n_n 512 rfl rfl
    (fun x z => y x * w z) _ (fun i => ix4 b 0 n i) (fun i => ix2 c i) ?_ ?_
  · intro q k hq a
    fin_cases a
    · rfl
    · rfl
    · rfl
    · exact (DotDims.lhsIdx_val_of_single _ (cl := 3) rfl _ q).trans hq
  · intro q k hq a
    fin_cases a
    · rfl
    · exact (DotDims.rhsIdx_val_of_single _ (cr := 1) rfl _ q).trans hq

/-! ## The sum over the three leading axes -/

/-- The indices of a rank-four array are the quadruples of its coordinates … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over them is the fourfold sum over the coordinates. -/
theorem sum_idx4 {M : Type} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Dropping the three leading coordinates of an index leaves channel c exactly when its last coordinate is c. -/
theorem drop_eq_iff (h : S4x1x4096x1024.ReducesTo [0, 1, 2] S1024) (i : S4x1x4096x1024.Idx) (c : Fin 1024) :
    h.drop i = ix1 c ↔ (i (3 : Fin 4)).val = c.val := by
  have h0 : (h.drop i (0 : Fin 1) : Nat) = i (3 : Fin 4) := Shape.ReducesTo.drop_apply_val_of_eq h i (0 : Fin 1) (3 : Fin 4)
  constructor
  · intro e; rw [← h0, e]
  · intro e; funext a; apply Fin.ext
    match a with
    | ⟨0, _⟩ => exact h0.trans e

/-- The column sum at channel c: the zero it starts from plus the double sum over (b, n), the unit axis having the
    one coordinate 0. -/
theorem colSum_apply (x : FVec Ideal S4x1x4096x1024 .f32) (c : Fin 1024) :
    colSum x (ix1 c) = 0 + ∑ b : Fin 4, ∑ n : Fin 4096, x (ix4 b 0 n c) := by
  unfold colSum Host.reduceAdd
  rw [Ideal.hostReduceAdd_def]
  unfold Ideal.hostReduceAdd
  show Ideal.ofBits .f32 0x00000000#32 + _ = _
  rw [Ideal.ofBits_zero_f32]
  congr 1
  rw [Finset.sum_filter, sum_idx4]
  refine Finset.sum_congr rfl fun b _ => ?_
  rw [Fin.sum_univ_one]
  refine Finset.sum_congr rfl fun n _ => ?_
  simp only [drop_eq_iff]
  rw [Finset.sum_eq_single c]
  · exact if_pos rfl
  · intro d _ hd; exact if_neg (fun e => hd (Fin.ext e))
  · intro hc; exact absurd (Finset.mem_univ c) hc

/-! ## The statistics -/

/-- The host's division at an index is the extended reals'. -/
theorem hostDivf_apply {s : Shape} (x y : FVec Ideal s .f32) (j : s.Idx) : Host.divf x y j = Ideal.div (x j) (y j) := rfl

/-- The channel mean: the column sum over the word 16384. -/
theorem meanOf_apply (x : FVec Ideal S4x1x4096x1024 .f32) (c : Fin 1024) :
    Hand.meanOf x (ix4 0 0 0 c) = meanR (fun b n c => x (ix4 b 0 n c)) c := by
  unfold Hand.meanOf meanR
  rw [hostDivf_apply, row1024_apply, colSum_apply, splat1024_apply]
  rfl

/-- The word 0x46800000 is the number 16384: sign 0, exponent 141, significand 0. -/
theorem ofBits_16384 : Ideal.ofBits .f32 0x46800000#32 = ((16384 : ℝ) : EReal) := by
  simp [Ideal.ofBits, Ideal.ieee]
  first
    | (rw [← EReal.coe_mul]; norm_num)
    | (norm_cast; norm_num)

/-- The variance's divisor with no degree of freedom removed: 16384 less the integer word 0 read as a number. -/
theorem count_zero : count (F := Ideal) (constantI S_ 32 0#32) ix0 = Ideal.ofBits .f32 0x46800000#32 := by
  show Ideal.ofBits .f32 0x46800000#32 - (((0#32 : BitVec 32).toInt : ℝ) : EReal) = _
  simp

/-- That divisor is above zero: the test the selection reads is true. -/
theorem count_pos :
    cmpf .ogt (count (F := Ideal) (constantI S_ 32 0#32)) (constant S_ .f32 0x00000000#32) ix0 = 1#1 := by
  show Ideal.cmp .ogt (count (F := Ideal) (constantI S_ 32 0#32) ix0) (Ideal.ofBits .f32 0x00000000#32) = 1#1
  rw [count_zero, Ideal.ofBits_zero_f32, ofBits_16384]
  simp [Ideal.cmp]

/-- The deviation at (b, n, c). -/
theorem centered_apply (x : FVec Ideal S4x1x4096x1024 .f32) (b : Fin 4) (n : Fin 4096) (c : Fin 1024) :
    centered x (ix4 b 0 n c) = x (ix4 b 0 n c) - meanR (fun b n c => x (ix4 b 0 n c)) c := by
  unfold centered
  rw [subf_apply, spread1024_apply, meanOf_apply]

/-- The channel variance: the selection takes the quotient, the mean of the squared deviations. -/
theorem varOf_apply (x : FVec Ideal S4x1x4096x1024 .f32) (c : Fin 1024) :
    Hand.varOf x (constantI S_ 32 0#32) (ix4 0 0 0 c) = varR (fun b n c => x (ix4 b 0 n c)) c := by
  unfold Hand.varOf
  rw [select_apply, splat1024_apply, count_pos, select_one, hostDivf_apply, row1024_apply, colSum_apply, splat1024_apply,
    count_zero]
  simp only [mulf_apply, centered_apply]
  rfl

/-- One over the square root of variance plus the word epsilon. -/
theorem invStd_apply (x : FVec Ideal S4x1x4096x1024 .f32) (c : Fin 1024) :
    invStd x (ix4 0 0 0 c) = Ideal.rsqrt (varR (fun b n c => x (ix4 b 0 n c)) c + Ideal.ofBits .f32 0x3727C5AC#32) := by
  unfold invStd Host.rsqrt
  rw [Ideal.hostUnary_rsqrt_def, addf_apply, varOf_apply, splat1024_apply]
  rfl

/-! ## The result -/

/-- wy by coordinates, of the eight arrays it depends on: the outer map of the mixture of the g-map by the affinity of
    the theta-map and the phi-map. -/
def wyR (a0 : FVec Ideal S4x1x4096x1024 .f32) (a1 : FVec Ideal S512x1024 .f32) (a2 : FVec Ideal S512 .f32)
    (a3 : FVec Ideal S512x1024 .f32) (a4 : FVec Ideal S512 .f32) (a5 : FVec Ideal S512x1024 .f32) (a6 : FVec Ideal S512 .f32)
    (a7 : FVec Ideal S1024x512 .f32) (a8 : FVec Ideal S1024 .f32) : Fin 4 → Fin 4096 → Fin 1024 → EReal :=
  expandR (attendR (affinR (convR a0 a3 a4) (convR a0 a5 a6)) (convR a0 a1 a2)) a7 a8

theorem wyOf_apply (a0 : FVec Ideal S4x1x4096x1024 .f32) (a1 : FVec Ideal S512x1024 .f32) (a2 : FVec Ideal S512 .f32)
    (a3 : FVec Ideal S512x1024 .f32) (a4 : FVec Ideal S512 .f32) (a5 : FVec Ideal S512x1024 .f32) (a6 : FVec Ideal S512 .f32)
    (a7 : FVec Ideal S1024x512 .f32) (a8 : FVec Ideal S1024 .f32) (b : Fin 4) (n : Fin 4096) (c : Fin 1024) :
    wyOf a0 a1 a2 a3 a4 a5 a6 a7 a8 (ix4 b 0 n c) = wyR a0 a1 a2 a3 a4 a5 a6 a7 a8 b n c := by
  unfold wyOf wyR
  rw [expand_apply]
  simp only [attend_apply, affinity_apply, proj_apply]

/-- The reference's result at (b, 0, n, c): the normalization of wy by its channel mean and two-pass variance, scaled,
    shifted, plus the input's entry. -/
theorem result_apply (a0 : FVec Ideal S4x1x4096x1024 .f32) (a1 : FVec Ideal S512x1024 .f32) (a2 : FVec Ideal S512 .f32)
    (a3 : FVec Ideal S512x1024 .f32) (a4 : FVec Ideal S512 .f32) (a5 : FVec Ideal S512x1024 .f32) (a6 : FVec Ideal S512 .f32)
    (a7 : FVec Ideal S1024x512 .f32) (a8 a9 a10 : FVec Ideal S1024 .f32) (b : Fin 4) (n : Fin 4096) (c : Fin 1024) :
    result a0 a1 a2 a3 a4 a5 a6 a7 a8 a9 a10 (ix4 b 0 n c)
      = normed (wyR a0 a1 a2 a3 a4 a5 a6 a7 a8) (xR a0) (meanR (wyR a0 a1 a2 a3 a4 a5 a6 a7 a8))
          (varR (wyR a0 a1 a2 a3 a4 a5 a6 a7 a8)) (fun c => a9 (ix1 c)) (fun c => a10 (ix1 c)) b n c := by
  have hw : (fun b n c => wyOf a0 a1 a2 a3 a4 a5 a6 a7 a8 (ix4 b 0 n c)) = wyR a0 a1 a2 a3 a4 a5 a6 a7 a8 := by
    funext b n c; exact wyOf_apply a0 a1 a2 a3 a4 a5 a6 a7 a8 b n c
  unfold result normalized normed xR
  rw [addf_apply, addf_apply, mulf_apply, mulf_apply, centered_apply, spread1024_apply, spread1024_apply,
    spread1024_apply, row1024_apply, row1024_apply, invStd_apply, hw, wyOf_apply]

end Cert.ReferenceIdeal.HandRead

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.LibBlockSum.lean ====
/-
  A sum over a range cut into equal consecutive blocks, and a running total built one block at a time.

  The a·b indices below a·b are the pairs (block t below a, offset y below b) through t·b + y, so a sum over all of
  them is the sum over the blocks of the sums within each block; only the commutativity and associativity of the
  addition is used. A running total that starts at z plus the first term and adds one more term at every step ends at z
  plus the sum of all the terms.
-/
import Mathlib

open scoped BigOperators

namespace Cert.LibBlockSum

variable {M : Type*} [AddCommMonoid M]

/-- Offset y of block t lies below a·b. -/
theorem blk_lt {a b : ℕ} (t : Fin a) (y : Fin b) : t.val * b + y.val < a * b :=
  calc t.val * b + y.val < t.val * b + b := Nat.add_lt_add_left y.isLt _
    _ = (t.val + 1) * b := (Nat.succ_mul _ _).symm
    _ ≤ a * b := Nat.mul_le_mul_right b t.isLt

/-- The same with the product written the other way round. -/
theorem blk_lt' {a b : ℕ} (t : Fin a) (y : Fin b) : b * t.val + y.val < a * b := by
  rw [Nat.mul_comm b]; exact blk_lt t y

/-- A sum over the indices below a·b is the sum over the a blocks of the sums over the b offsets within a block, the index
    written t·b + y. -/
theorem sum_blocks (a b : ℕ) (f : Fin (a * b) → M) (h : ∀ (t : Fin a) (y : Fin b), t.val * b + y.val < a * b) :
    ∑ t : Fin a, ∑ y : Fin b, f ⟨t.val * b + y.val, h t y⟩ = ∑ r : Fin (a * b), f r := by
  rw [← Equiv.sum_comp finProdFinEquiv f, Fintype.sum_prod_type]
  refine Finset.sum_congr rfl fun t _ => Finset.sum_congr rfl fun y _ => congrArg f (Fin.ext ?_)
  show t.val * b + y.val = y.val + b * t.val
  rw [Nat.mul_comm, Nat.add_comm]

/-- The same with the index written b·t + y. -/
theorem sum_blocks' (a b : ℕ) (f : Fin (a * b) → M) (h : ∀ (t : Fin a) (y : Fin b), b * t.val + y.val < a * b) :
    ∑ t : Fin a, ∑ y : Fin b, f ⟨b * t.val + y.val, h t y⟩ = ∑ r : Fin (a * b), f r := by
  rw [← sum_blocks a b f fun t y => blk_lt t y]
  exact Finset.sum_congr rfl fun t _ => Finset.sum_congr rfl fun y _ => congrArg f (Fin.ext (by
    show b * t.val + y.val = t.val * b + y.val
    rw [Nat.mul_comm]))

/-- 50000 rows as 10 blocks of 5000, the row written t·5000 + y. -/
theorem sum_rows_10x5000 (f : Fin 50000 → M) (h : ∀ (t : Fin 10) (y : Fin 5000), t.val * 5000 + y.val < 50000) :
    ∑ t : Fin 10, ∑ y : Fin 5000, f ⟨t.val * 5000 + y.val, h t y⟩ = ∑ r : Fin 50000, f r :=
  sum_blocks 10 5000 f h

/-- 50000 rows as 10 blocks of 5000, the row written 5000·t + y. -/
theorem sum_rows_10x5000' (f : Fin 50000 → M) (h : ∀ (t : Fin 10) (y : Fin 5000), 5000 * t.val + y.val < 50000) :
    ∑ t : Fin 10, ∑ y : Fin 5000, f ⟨5000 * t.val + y.val, h t y⟩ = ∑ r : Fin 50000, f r :=
  sum_blocks' 10 5000 f h

/-- A running total over terms indexed by the naturals: from z plus term 0, one more term added at each of n steps, it
    ends at z plus the sum of the terms 0 … n. -/
theorem acc_range (n : ℕ) (g : ℕ → M) (z : M) (acc : ℕ → M) (h0 : acc 0 = z + g 0)
    (hs : ∀ t, t < n → acc (t + 1) = acc t + g (t + 1)) : acc n = z + ∑ t ∈ Finset.range (n + 1), g t := by
  induction n with
  | zero => rw [h0, Finset.sum_range_one]
  | succ k ih =>
    rw [hs k (Nat.lt_succ_self k), ih fun t ht => hs t (Nat.lt_succ_of_lt ht), Finset.sum_range_succ _ (k + 1), add_assoc]

/-- The same over n + 1 terms indexed below n + 1. -/
theorem acc_fin (n : ℕ) (g : Fin (n + 1) → M) (z : M) (acc : ℕ → M) (h0 : acc 0 = z + g 0)
    (hs : ∀ t (ht : t < n), acc (t + 1) = acc t + g ⟨t + 1, Nat.succ_lt_succ ht⟩) :
    acc n = z + ∑ t : Fin (n + 1), g t := by
  have key := acc_range n (fun t => if ht : t < n + 1 then g ⟨t, ht⟩ else 0) z acc
    (by rw [h0, dif_pos (Nat.succ_pos n)]; rfl)
    (fun t ht => by rw [hs t ht, dif_pos (Nat.succ_lt_succ ht)])
  rw [key, ← Fin.sum_univ_eq_sum_range (fun t => if ht : t < n + 1 then g ⟨t, ht⟩ else 0) (n + 1)]
  exact congrArg (z + ·) (Finset.sum_congr rfl fun t _ => by rw [dif_pos t.isLt])

/-- Ten terms: from z plus term 0, one more term added at each of nine steps, the total ends at z plus the sum of the ten. -/
theorem acc_fin_10 (g : Fin 10 → M) (z : M) (acc : ℕ → M) (h0 : acc 0 = z + g 0)
    (hs : ∀ t (ht : t < 9), acc (t + 1) = acc t + g ⟨t + 1, Nat.succ_lt_succ ht⟩) :
    acc 9 = z + ∑ t : Fin 10, g t :=
  acc_fin 9 g z acc h0 hs

end Cert.LibBlockSum
-- ==== Proof.Alg.Consts.lean ====
import Idealize.ShloMosaic.PureOps.Ideal
import Idealize.ShloMosaic.PureOps.Ideal.Laws
import proofs.«130369_j29137058136126_2_alg».proof.Proof.LibRealEntries

/-!
  The float constants the two programs spell, as the extended reals their single-precision patterns denote.

  * 4096.0 (the row count the reference divides by), 2^-12 = 1/4096 (the factor the kernel multiplies by),
    16384.0 = 4 * 4096 (the number of entries per channel the moments divide by) and +0.0.
  * The signed integer word 0 converts to the real 0, so "16384 minus that conversion" is 16384, which compares
    above zero.
-/

noncomputable section

namespace Cert.Alg

open Idealize.ShloMosaic

/-- The pattern of 4096.0 denotes the real 4096. -/
theorem ofBits_4096 : Ideal.ofBits .f32 0x45800000#32 = ((4096 : ℝ) : EReal) := by
  simp [Ideal.ofBits, Ideal.ieee, -EReal.coe_mul]; norm_num

/-- The pattern of 2^-12 denotes the real reciprocal of 4096. -/
theorem ofBits_inv4096 : Ideal.ofBits .f32 0x39800000#32 = (((4096 : ℝ)⁻¹ : ℝ) : EReal) := by
  simp [Ideal.ofBits, Ideal.ieee, -EReal.coe_mul]; norm_num

/-- The pattern of 16384.0 denotes the real 16384. -/
theorem ofBits_16384 : Ideal.ofBits .f32 0x46800000#32 = ((16384 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The signed 32-bit word 0 converts to the real 0. -/
theorem sitofp_zero : ((((0#32 : BitVec 32).toInt : ℝ) : ℝ) : EReal) = 0 := by
  simp

/-- 16384 minus the conversion of the integer word 0 is 16384. -/
theorem count_sub_zero :
    Ideal.ofBits .f32 0x46800000#32 - ((((0#32 : BitVec 32).toInt : ℝ) : ℝ) : EReal) = ((16384 : ℝ) : EReal) := by
  rw [ofBits_16384, sitofp_zero, sub_zero]

/-- 16384 minus the conversion of the integer word 0 compares strictly above +0.0. -/
theorem count_gt_zero :
    Ideal.cmp .ogt (Ideal.ofBits .f32 0x46800000#32 - ((((0#32 : BitVec 32).toInt : ℝ) : ℝ) : EReal))
      (Ideal.ofBits .f32 0x00000000#32) = 1#1 := by
  rw [count_sub_zero, ofBits_zero]
  have h : (0 : EReal) < ((16384 : ℝ) : EReal) := by exact_mod_cast (by norm_num : (0 : ℝ) < 16384)
  simp [Ideal.cmp, h]

end Cert.Alg

end
-- ==== Proof.Alg.Nonlocal.lean ====
import Mathlib
import Idealize.ShloMosaic.PureOps.Ideal
import proofs.«130369_j29137058136126_2_alg».proof.Proof.LibRealEntries
import proofs.«130369_j29137058136126_2_alg».proof.Proof.LibBlockSum
import proofs.«130369_j29137058136126_2_alg».proof.Proof.Alg.Consts

/-!
  The reassociation law of the softmax-free non-local block.

  With R n m = (sum_i th n i * ph m i) / k, the product R * gv is  th * ((ph^T * gv) / k):
      sum_m ((sum_i th n i * ph m i) / k) * gv m j  =  sum_i th n i * ((sum_m ph m i * gv m j) * k^-1).
  Over the reals this is distributivity and an exchange of the two finite sums.  It fails on the extended reals at
  the infinities, so the extended-real forms below take real entries; there the division by the word 4096.0 is the
  multiplication by the real 1/4096, and the word 2^-12 is that same real.

  The inner sum over the 4096 rows m may be accumulated from zero in four consecutive blocks of 1024 rows,
  (((0 + S 0) + S 1) + S 2) + S 3: that is the same sum (commutativity and associativity only).

  Also here: the closure facts "a sum, a product, a difference, a finite sum of products, a quotient by a nonzero
  real of real entries is a real", by which "every entry is a real" is carried through the intermediate arrays.
-/

noncomputable section

namespace Cert.Alg

open Idealize.ShloMosaic Cert.RealEntries
open scoped BigOperators

/-! ## Real values are closed under the operations used -/

/-- An extended real that is a real number. -/
abbrev IsReal (x : EReal) : Prop := ∃ r : ℝ, x = (r : EReal)

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem isReal_sum {ι : Type} (s : Finset ι) (f : ι → EReal) (hf : ∀ k, IsReal (f k)) : IsReal (∑ k ∈ s, f k) := by
  choose f' hf' using hf
  exact ⟨∑ k ∈ s, f' k, by rw [coe_sum]; exact Finset.sum_congr rfl fun k _ => hf' k⟩

/-- A finite sum of products of reals is a real. -/
theorem isReal_sum_mul {ι : Type} (s : Finset ι) (f g : ι → EReal) (hf : ∀ k, IsReal (f k)) (hg : ∀ k, IsReal (g k)) :
    IsReal (∑ k ∈ s, f k * g k) :=
  isReal_sum s _ fun k => isReal_mul (hf k) (hg k)

/-- An accumulator plus a finite sum of products, all real, is a real (one entry of a matrix product). -/
theorem isReal_add_sum_mul {ι : Type} (s : Finset ι) (a : EReal) (f g : ι → EReal) (ha : IsReal a)
    (hf : ∀ k, IsReal (f k)) (hg : ∀ k, IsReal (g k)) : IsReal (a + ∑ k ∈ s, f k * g k) :=
  isReal_add ha (isReal_sum_mul s f g hf hg)

/-- The quotient of a real by a nonzero real is a real. -/
theorem isReal_div_coe {x : EReal} (hx : IsReal x) {k : ℝ} (hk : k ≠ 0) : IsReal (Ideal.div x (k : EReal)) := by
  rw [Ideal.div_coe hk]; exact isReal_mul hx (isReal_coe _)

theorem isReal_ofBits_4096 : IsReal (Ideal.ofBits .f32 0x45800000#32) := ⟨_, ofBits_4096⟩
theorem isReal_ofBits_inv4096 : IsReal (Ideal.ofBits .f32 0x39800000#32) := ⟨_, ofBits_inv4096⟩
theorem isReal_ofBits_16384 : IsReal (Ideal.ofBits .f32 0x46800000#32) := ⟨_, ofBits_16384⟩
theorem isReal_ofBits_zero : IsReal (Ideal.ofBits .f32 0x00000000#32) := ⟨0, ofBits_zero⟩

/-- The quotient of a real by the word 4096.0 is a real. -/
theorem isReal_div_4096 {x : EReal} (hx : IsReal x) : IsReal (Ideal.div x (Ideal.ofBits .f32 0x45800000#32)) := by
  rw [ofBits_4096]; exact isReal_div_coe hx (by norm_num)

/-- The quotient of a real by the word 16384.0 is a real. -/
theorem isReal_div_16384 {x : EReal} (hx : IsReal x) : IsReal (Ideal.div x (Ideal.ofBits .f32 0x46800000#32)) := by
  rw [ofBits_16384]; exact isReal_div_coe hx (by norm_num)

/-! ## Four consecutive blocks, accumulated from zero -/

/-- A sum over 4·b indices is the total of four block sums accumulated from zero, block t holding the indices
    t·b + r. -/
theorem four_blocks {A : Type*} [AddCommMonoid A] (b : ℕ) (f : Fin (4 * b) → A)
    (h : ∀ (t : Fin 4) (r : Fin b), t.val * b + r.val < 4 * b) (S : Fin 4 → A)
    (hS : ∀ t, S t = ∑ r : Fin b, f ⟨t.val * b + r.val, h t r⟩) :
    (((0 + S 0) + S 1) + S 2) + S 3 = ∑ m : Fin (4 * b), f m := by
  rw [← Cert.LibBlockSum.sum_blocks 4 b f h, Fin.sum_univ_four, zero_add]
  simp only [hS]

/-- 4096 rows as four blocks of 1024 rows accumulated from zero, the row written t·1024 + r. -/
theorem four_blocks_4096 {A : Type*} [AddCommMonoid A] (f : Fin 4096 → A)
    (h : ∀ (t : Fin 4) (r : Fin 1024), t.val * 1024 + r.val < 4096) (S : Fin 4 → A)
    (hS : ∀ t, S t = ∑ r : Fin 1024, f ⟨t.val * 1024 + r.val, h t r⟩) :
    (((0 + S 0) + S 1) + S 2) + S 3 = ∑ m : Fin 4096, f m :=
  four_blocks 1024 f h S hS

/-! ## The law over the reals -/

section Real

variable {M I : Type} [Fintype M] [Fintype I]

/-- Reassociation: (th · ph^T / k) · gv = th · ((ph^T · gv) · k^-1), one row of th and one column of gv. -/
theorem reassoc_real (th : I → ℝ) (ph : M → I → ℝ) (gv : M → ℝ) (k : ℝ) :
    ∑ m, ((∑ i, th i * ph m i) / k) * gv m = ∑ i, th i * ((∑ m, ph m i * gv m) * k⁻¹) := by
  simp only [div_eq_mul_inv, Finset.sum_mul, Finset.mul_sum]
  rw [Finset.sum_comm]
  exact Finset.sum_congr rfl fun i _ => Finset.sum_congr rfl fun m _ => by ring

/-- The same with the 4096 rows accumulated from zero in four blocks of 1024. -/
theorem reassoc_real_blocks {I : Type} [Fintype I] (th : I → ℝ) (ph : Fin 4096 → I → ℝ) (gv : Fin 4096 → ℝ) (k : ℝ)
    (h : ∀ (t : Fin 4) (r : Fin 1024), t.val * 1024 + r.val < 4096) (S : Fin 4 → I → ℝ)
    (hS : ∀ t i, S t i = ∑ r : Fin 1024, ph ⟨t.val * 1024 + r.val, h t r⟩ i * gv ⟨t.val * 1024 + r.val, h t r⟩) :
    ∑ m, ((∑ i, th i * ph m i) / k) * gv m = ∑ i, th i * (((((0 + S 0 i) + S 1 i) + S 2 i) + S 3 i) * k⁻¹) := by
  rw [reassoc_real]
  exact Finset.sum_congr rfl fun i _ => by
    rw [four_blocks_4096 (fun m => ph m i * gv m) h (fun t => S t i) (fun t => hS t i)]

end Real

/-! ## The law on the extended reals, for real entries -/

section Ext

variable {M I : Type} [Fintype M] [Fintype I]

/-- Reassociation on the extended reals for coerced real entries: the reference divides by the word 4096.0, the
    kernel multiplies by the word 2^-12. -/
theorem reassoc_coe (th : I → ℝ) (ph : M → I → ℝ) (gv : M → ℝ) :
    ∑ m, Ideal.div (∑ i, (th i : EReal) * (ph m i : EReal)) (Ideal.ofBits .f32 0x45800000#32) * (gv m : EReal)
      = ∑ i, (th i : EReal) * ((∑ m, (ph m i : EReal) * (gv m : EReal)) * Ideal.ofBits .f32 0x39800000#32) := by
  rw [ofBits_4096, ofBits_inv4096]
  simp only [Ideal.div_coe (by norm_num : (4096 : ℝ) ≠ 0), ← EReal.coe_mul, ← coe_sum]
  refine congrArg _ ?_
  have key := reassoc_real th ph gv 4096
  simp only [div_eq_mul_inv] at key
  simpa only [one_div] using key

/-- Reassociation on the extended reals for entries known to be real. -/
theorem reassoc_ext (th : I → EReal) (ph : M → I → EReal) (gv : M → EReal) (hth : ∀ i, IsReal (th i))
    (hph : ∀ m i, IsReal (ph m i)) (hgv : ∀ m, IsReal (gv m)) :
    ∑ m, Ideal.div (∑ i, th i * ph m i) (Ideal.ofBits .f32 0x45800000#32) * gv m
      = ∑ i, th i * ((∑ m, ph m i * gv m) * Ideal.ofBits .f32 0x39800000#32) := by
  choose th' hth' using hth
  choose ph' hph' using hph
  choose gv' hgv' using hgv
  simp only [hth', hph', hgv']
  exact reassoc_coe th' ph' gv'

/-- Reassociation on the extended reals with the 4096 rows accumulated from zero in four blocks of 1024 rows:
    the kernel's matrix entry is ((((0 + S 0) + S 1) + S 2) + S 3) times the word 2^-12. -/
theorem reassoc_ext_blocks {I : Type} [Fintype I] (th : I → EReal) (ph : Fin 4096 → I → EReal) (gv : Fin 4096 → EReal)
    (hth : ∀ i, IsReal (th i)) (hph : ∀ m i, IsReal (ph m i)) (hgv : ∀ m, IsReal (gv m))
    (h : ∀ (t : Fin 4) (r : Fin 1024), t.val * 1024 + r.val < 4096) (S : Fin 4 → I → EReal)
    (hS : ∀ t i, S t i = ∑ r : Fin 1024, ph ⟨t.val * 1024 + r.val, h t r⟩ i * gv ⟨t.val * 1024 + r.val, h t r⟩) :
    ∑ m, Ideal.div (∑ i, th i * ph m i) (Ideal.ofBits .f32 0x45800000#32) * gv m
      = ∑ i, th i * (((((0 + S 0 i) + S 1 i) + S 2 i) + S 3 i) * Ideal.ofBits .f32 0x39800000#32) := by
  rw [reassoc_ext th ph gv hth hph hgv]
  exact Finset.sum_congr rfl fun i _ => by
    rw [four_blocks_4096 (fun m => ph m i * gv m) h (fun t => S t i) (fun t => hS t i)]

end Ext

end Cert.Alg

end
-- ==== Proof.LibBatchNormMoments.lean ====
/-
  Batch-normalisation moments on the extended reals.

  For a finite family of REAL numbers x (read as extended reals), and a real n ≠ 0 equal to the number of entries,
  the "one-pass" variance   (∑ xᵢ²)/n − ((∑ xᵢ)/n)²   and the "two-pass" variance   (∑ (xᵢ − μ)²)/n,  μ = (∑ xᵢ)/n,
  are the same extended real.  Over ℝ this is the expansion
      ∑ (xᵢ − μ)² = ∑ xᵢ² − 2 μ ∑ xᵢ + n μ²   with   ∑ xᵢ = n μ ;
  it uses distributivity, which fails at ±∞, so the entries must be real: with an infinite entry the two forms differ
  (⊤ − ⊤ = ⊥ on one side, a square on the other).  Division is the extended reals' division by a nonzero real,
  which is multiplication by the real reciprocal.
-/
import Mathlib
import Idealize.ShloMosaic.PureOps.Ideal

noncomputable section

namespace Cert.Lib.BatchNormMoments

open Idealize.ShloMosaic

/-- The coercion of reals into the extended reals commutes with a finite sum. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over the reals: the second moment minus the squared mean is the mean of the squared deviations from the mean. -/
theorem real_variance_two_forms {ι : Type*} [Fintype ι] (x : ι → ℝ) (n : ℝ) (hn : n ≠ 0)
    (hcard : (Fintype.card ι : ℝ) = n) :
    (∑ i, x i * x i) * (1 / n) - ((∑ i, x i) * (1 / n)) * ((∑ i, x i) * (1 / n))
      = (∑ i, (x i - (∑ j, x j) * (1 / n)) * (x i - (∑ j, x j) * (1 / n))) * (1 / n) := by
  generalize hS : (∑ i, x i) = S
  have hexp : ∀ i, (x i - S * (1 / n)) * (x i - S * (1 / n))
      = x i * x i - (2 * (S * (1 / n))) * x i + (S * (1 / n)) * (S * (1 / n)) := fun i => by ring
  have hsum : (∑ i, (x i - S * (1 / n)) * (x i - S * (1 / n)))
      = (∑ i, x i * x i) - (2 * (S * (1 / n))) * S + n * ((S * (1 / n)) * (S * (1 / n))) := by
    simp only [hexp, Finset.sum_add_distrib, Finset.sum_sub_distrib, ← Finset.mul_sum, hS, Finset.sum_const,
      Finset.card_univ, nsmul_eq_mul, hcard]
    ring
  rw [hsum]
  field_simp
  ring

/-- On the extended reals, for REAL entries: the one-pass variance (second moment minus squared mean) is the two-pass
    variance (mean of squared deviations), every quotient the division by the real n ≠ 0 that counts the entries. -/
theorem variance_two_forms {ι : Type*} [Fintype ι] (x : ι → ℝ) (n : ℝ) (hn : n ≠ 0)
    (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [Ideal.div_coe hn, ← coe_finset_sum, ← EReal.coe_mul, ← EReal.coe_sub]
  exact congrArg _ (real_variance_two_forms x n hn hcard)

/-- The mean of real entries is real: the quotient of their sum by a nonzero real. -/
theorem mean_coe {ι : Type*} [Fintype ι] (x : ι → ℝ) (n : ℝ) (hn : n ≠ 0) :
    Ideal.div (∑ i, ((x i : ℝ) : EReal)) (n : EReal) = (((∑ i, x i) * (1 / n) : ℝ) : EReal) := by
  rw [Ideal.div_coe hn, ← coe_finset_sum, ← EReal.coe_mul]

/-- The two-pass variance of real entries is a NONNEGATIVE real: a sum of squares over a positive count. -/
theorem variance_coe_nonneg {ι : Type*} [Fintype ι] (x : ι → ℝ) (n : ℝ) (hn : 0 < n) :
    ∃ v : ℝ, 0 ≤ v ∧
      Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) = ((v : ℝ) : EReal) := by
  refine ⟨(∑ i, (x i - (∑ j, x j) * (1 / n)) * (x i - (∑ j, x j) * (1 / n))) * (1 / n), ?_, ?_⟩
  · exact mul_nonneg (Finset.sum_nonneg fun i _ => mul_self_nonneg _) (by positivity)
  · simp only [Ideal.div_coe hn.ne', ← coe_finset_sum, ← EReal.coe_mul, ← EReal.coe_sub]

end Cert.Lib.BatchNormMoments

end
-- ==== Proof.Alg.Moments.lean ====
import Mathlib
import Idealize.ShloMosaic.PureOps.Ideal
import proofs.«130369_j29137058136126_2_alg».proof.Proof.LibRealEntries
import proofs.«130369_j29137058136126_2_alg».proof.Proof.LibBlockSum
import proofs.«130369_j29137058136126_2_alg».proof.Proof.LibBatchNormMoments
import proofs.«130369_j29137058136126_2_alg».proof.Proof.Alg.Consts
import proofs.«130369_j29137058136126_2_alg».proof.Proof.Alg.Nonlocal

/-!
  The batch-normalisation moments of one channel: 4 batches of 4096 rows, 16384 entries x b n.

  One side forms, per batch, the column sum and the column sum of squares from zero in four blocks of 1024 rows,
  adds the four batches, and takes   mean = (sum x) / 16384,   var = (sum x^2) / 16384 - mean * mean.
  The other side takes   mean = (sum over all entries) / 16384   and
  var = (sum (x - mean)^2) / (16384 - 0), the 0 the conversion of the integer word 0.

  The sums agree by commutativity and associativity alone.  The two variances agree for REAL entries (the expansion
  of the square uses distributivity, which fails at the infinities): sum (x - mu)^2 = sum x^2 - 2 mu sum x + n mu^2
  with sum x = n mu.
-/

noncomputable section

namespace Cert.Alg

open Idealize.ShloMosaic Cert.RealEntries
open scoped BigOperators

/-! ## The sums: batches of four blocks against all rows -/

/-- The sum over the batches of the four-block totals is the sum over batches and rows. -/
theorem sum_batches_blocks {A : Type*} [AddCommMonoid A] (f : Fin 4 → Fin 4096 → A)
    (h : ∀ (t : Fin 4) (r : Fin 1024), t.val * 1024 + r.val < 4096) (T : Fin 4 → Fin 4 → A)
    (hT : ∀ b t, T b t = ∑ r : Fin 1024, f b ⟨t.val * 1024 + r.val, h t r⟩) :
    ∑ b, ((((0 + T b 0) + T b 1) + T b 2) + T b 3) = ∑ b, ∑ n, f b n :=
  Finset.sum_congr rfl fun b _ => four_blocks_4096 (f b) h (T b) (hT b)

/-- The sum over batches and rows is the sum over the 16384 pairs. -/
theorem sum_pairs {A : Type*} [AddCommMonoid A] (f : Fin 4 → Fin 4096 → A) :
    ∑ p : Fin 4 × Fin 4096, f p.1 p.2 = ∑ b, ∑ n, f b n :=
  Fintype.sum_prod_type _

/-! ## The mean -/

/-- The two means: the same sum divided by the same word. -/
theorem mean_eq (x : Fin 4 → Fin 4096 → EReal) (h : ∀ (t : Fin 4) (r : Fin 1024), t.val * 1024 + r.val < 4096)
    (T : Fin 4 → Fin 4 → EReal) (hT : ∀ b t, T b t = ∑ r : Fin 1024, x b ⟨t.val * 1024 + r.val, h t r⟩) :
    Ideal.div (∑ b, ((((0 + T b 0) + T b 1) + T b 2) + T b 3)) (Ideal.ofBits .f32 0x46800000#32)
      = Ideal.div (∑ b, ∑ n, x b n) (Ideal.ofBits .f32 0x46800000#32) := by
  rw [sum_batches_blocks x h T hT]

/-- The mean of real entries is a real. -/
theorem isReal_mean (x : Fin 4 → Fin 4096 → EReal) (hx : ∀ b n, IsReal (x b n)) :
    IsReal (Ideal.div (∑ b, ∑ n, x b n) (Ideal.ofBits .f32 0x46800000#32)) :=
  isReal_div_16384 (isReal_sum _ _ fun b => isReal_sum _ _ fun n => hx b n)

/-! ## The variance -/

/-- One-pass against two-pass variance over batches and rows, for coerced real entries. -/
theorem var_coe (x : Fin 4 → Fin 4096 → ℝ) :
    Ideal.div (∑ b, ∑ n, (x b n : EReal) * (x b n : EReal)) (Ideal.ofBits .f32 0x46800000#32)
        - Ideal.div (∑ b, ∑ n, (x b n : EReal)) (Ideal.ofBits .f32 0x46800000#32)
          * Ideal.div (∑ b, ∑ n, (x b n : EReal)) (Ideal.ofBits .f32 0x46800000#32)
      = Ideal.div (∑ b, ∑ n, ((x b n : EReal) - Ideal.div (∑ b', ∑ n', (x b' n' : EReal)) (Ideal.ofBits .f32 0x46800000#32))
            * ((x b n : EReal) - Ideal.div (∑ b', ∑ n', (x b' n' : EReal)) (Ideal.ofBits .f32 0x46800000#32)))
          (Ideal.ofBits .f32 0x46800000#32 - ((((0#32 : BitVec 32).toInt : ℝ) : ℝ) : EReal)) := by
  have key := Cert.Lib.BatchNormMoments.variance_two_forms (fun p : Fin 4 × Fin 4096 => x p.1 p.2) 16384
    (by norm_num) (by simp)
  simp only [Fintype.sum_prod_type] at key
  rw [count_sub_zero, ofBits_16384]
  exact key

/-- One-pass against two-pass variance over batches and rows, for entries known to be real. -/
theorem var_ext (x : Fin 4 → Fin 4096 → EReal) (hx : ∀ b n, IsReal (x b n)) :
    Ideal.div (∑ b, ∑ n, x b n * x b n) (Ideal.ofBits .f32 0x46800000#32)
        - Ideal.div (∑ b, ∑ n, x b n) (Ideal.ofBits .f32 0x46800000#32)
          * Ideal.div (∑ b, ∑ n, x b n) (Ideal.ofBits .f32 0x46800000#32)
      = Ideal.div (∑ b, ∑ n, (x b n - Ideal.div (∑ b', ∑ n', x b' n') (Ideal.ofBits .f32 0x46800000#32))
            * (x b n - Ideal.div (∑ b', ∑ n', x b' n') (Ideal.ofBits .f32 0x46800000#32)))
          (Ideal.ofBits .f32 0x46800000#32 - ((((0#32 : BitVec 32).toInt : ℝ) : ℝ) : EReal)) := by
  choose x' hx' using hx
  simp only [hx']
  exact var_coe x'

/-- The variance as the kernel side forms it (sums and sums of squares per batch from zero in four blocks of 1024
    rows, the batches added) against the two-pass variance over all entries, for real entries. -/
theorem var_blocks (x : Fin 4 → Fin 4096 → EReal) (hx : ∀ b n, IsReal (x b n))
    (h : ∀ (t : Fin 4) (r : Fin 1024), t.val * 1024 + r.val < 4096) (T Q : Fin 4 → Fin 4 → EReal)
    (hT : ∀ b t, T b t = ∑ r : Fin 1024, x b ⟨t.val * 1024 + r.val, h t r⟩)
    (hQ : ∀ b t, Q b t = ∑ r : Fin 1024, x b ⟨t.val * 1024 + r.val, h t r⟩ * x b ⟨t.val * 1024 + r.val, h t r⟩) :
    Ideal.div (∑ b, ((((0 + Q b 0) + Q b 1) + Q b 2) + Q b 3)) (Ideal.ofBits .f32 0x46800000#32)
        - Ideal.div (∑ b, ((((0 + T b 0) + T b 1) + T b 2) + T b 3)) (Ideal.ofBits .f32 0x46800000#32)
          * Ideal.div (∑ b, ((((0 + T b 0) + T b 1) + T b 2) + T b 3)) (Ideal.ofBits .f32 0x46800000#32)
      = Ideal.div (∑ b, ∑ n, (x b n - Ideal.div (∑ b', ∑ n', x b' n') (Ideal.ofBits .f32 0x46800000#32))
            * (x b n - Ideal.div (∑ b', ∑ n', x b' n') (Ideal.ofBits .f32 0x46800000#32)))
          (Ideal.ofBits .f32 0x46800000#32 - ((((0#32 : BitVec 32).toInt : ℝ) : ℝ) : EReal)) := by
  rw [sum_batches_blocks x h T hT, sum_batches_blocks (fun b n => x b n * x b n) h Q hQ]
  exact var_ext x hx

/-- The two-pass variance of real entries is a real. -/
theorem isReal_var (x : Fin 4 → Fin 4096 → EReal) (hx : ∀ b n, IsReal (x b n)) :
    IsReal (Ideal.div (∑ b, ∑ n, (x b n - Ideal.div (∑ b', ∑ n', x b' n') (Ideal.ofBits .f32 0x46800000#32))
            * (x b n - Ideal.div (∑ b', ∑ n', x b' n') (Ideal.ofBits .f32 0x46800000#32)))
          (Ideal.ofBits .f32 0x46800000#32 - ((((0#32 : BitVec 32).toInt : ℝ) : ℝ) : EReal))) := by
  rw [count_sub_zero]
  refine isReal_div_coe (isReal_sum _ _ fun b => isReal_sum _ _ fun n => ?_) (by norm_num)
  exact isReal_mul (isReal_sub (hx b n) (isReal_mean x hx)) (isReal_sub (hx b n) (isReal_mean x hx))

end Cert.Alg

end
-- ==== Proof.Bridge.lean ====
/-
  The kernel's result and the reference's are the same function of the eleven argument arrays, wherever those hold
  real numbers.

  Both normalize an array wy per channel and add the input. The kernel forms wy through the 512 x 512 Gram matrix of
  phi and g (the 4096 rows accumulated from zero in four tiles, times 2^-12) and reads theta against it; the reference
  forms the 4096 x 4096 affinities of theta and phi over 4096 and reads them against g. For real entries these agree:
  distributivity and an exchange of two finite sums, and 2^-12 is 1/4096. The kernel's mean and one-pass variance,
  from per-batch four-tile column sums and sums of squares, are the reference's mean and two-pass variance over all
  16384 rows: the sums are re-bracketed, and for real entries the mean of squares less the squared mean is the mean
  of the squared deviations. Real entries are carried through every stage (a finite sum of products of reals, a
  quotient by a nonzero real, is a real), so the laws apply at wy too. With wy, its mean and its variance equal, the
  two normalizations are one term.
-/
import proofs.«130369_j29137058136126_2_alg».proof.Proof.Model
import proofs.«130369_j29137058136126_2_alg».proof.Proof.Ref.Read
import proofs.«130369_j29137058136126_2_alg».proof.Proof.Alg.Nonlocal
import proofs.«130369_j29137058136126_2_alg».proof.Proof.Alg.Moments

noncomputable section
open scoped BigOperators

namespace Cert.Bridge

open Idealize.ShloMosaic Idealize.ShloMosaic.ValueIdx Cert.RealEntries Cert.NonLocal Cert.Alg
open Cert.ReferenceIdeal.HandRead (wyR result_apply)

/-! ## Real entries through the reference's stages -/

/-- An inner map of real arrays has real entries: a finite sum of products of reals, plus a real. -/
theorem real_conv (a0 : (⟨4, ![4, 1, 4096, 1024]⟩ : Shape).Idx → EReal) (w : (⟨2, ![512, 1024]⟩ : Shape).Idx → EReal) (bias : (⟨1, ![512]⟩ : Shape).Idx → EReal) (hx : AllReal a0) (hw : AllReal w)
    (hb : AllReal bias) (b : Fin 4) (n : Fin 4096) (j : Fin 512) : IsReal (convR a0 w bias b n j) :=
  isReal_add (isReal_sum_mul _ _ _ (fun _ => hx _) (fun _ => hw _)) (hb _)

/-- The affinities of real arrays are real: a finite sum of products of reals over the nonzero real 4096. -/
theorem real_affin (th ph : Fin 4 → Fin 4096 → Fin 512 → EReal) (hth : ∀ b n i, IsReal (th b n i))
    (hph : ∀ b n i, IsReal (ph b n i)) (b : Fin 4) (n m : Fin 4096) : IsReal (affinR th ph b n m) :=
  isReal_div_4096 (isReal_sum_mul _ _ _ (fun _ => hth _ _ _) (fun _ => hph _ _ _))

/-- The mixture of real arrays is real. -/
theorem real_attend (R : Fin 4 → Fin 4096 → Fin 4096 → EReal) (gv : Fin 4 → Fin 4096 → Fin 512 → EReal)
    (hR : ∀ b n m, IsReal (R b n m)) (hgv : ∀ b n i, IsReal (gv b n i)) (b : Fin 4) (n : Fin 4096) (i : Fin 512) :
    IsReal (attendR R gv b n i) :=
  isReal_sum_mul _ _ _ (fun _ => hR _ _ _) (fun _ => hgv _ _ _)

/-- The outer map of real arrays has real entries. -/
theorem real_expand (y : Fin 4 → Fin 4096 → Fin 512 → EReal) (w : (⟨2, ![1024, 512]⟩ : Shape).Idx → EReal) (bias : (⟨1, ![1024]⟩ : Shape).Idx → EReal)
    (hy : ∀ b n i, IsReal (y b n i)) (hw : AllReal w) (hb : AllReal bias) (b : Fin 4) (n : Fin 4096) (c : Fin 1024) :
    IsReal (expandR y w bias b n c) :=
  isReal_add (isReal_sum_mul _ _ _ (fun _ => hy _ _ _) (fun _ => hw _)) (hb _)

/-! ## The two laws at the specification's stages -/

/-- Row r of tile t is inside the 4096 rows. -/
theorem tile_row_lt (t : Fin 4) (r : Fin 1024) : t.val * 1024 + r.val < 4096 := by omega

/-- For real entries, theta's row against the Gram matrix of phi and g (accumulated from zero over the four tiles,
    times 2^-12) is the affinities of that row against g's column. -/
theorem theta_gram (TH PH GV : Fin 4 → Fin 4096 → Fin 512 → EReal) (hTH : ∀ b n i, IsReal (TH b n i))
    (hPH : ∀ b n i, IsReal (PH b n i)) (hGV : ∀ b n i, IsReal (GV b n i)) (b : Fin 4) (n : Fin 4096) (i : Fin 512) :
    ∑ j : Fin 512, TH b n j * gram PH GV b j i = attendR (affinR TH PH) GV b n i :=
  (reassoc_ext_blocks (TH b n) (fun m j => PH b m j) (fun m => GV b m i) (hTH b n) (hPH b) (fun m => hGV b m i)
    tile_row_lt (fun t j => tileGram PH GV b t j i) (fun t j => rfl)).symm

/-- The per-batch four-tile column sums add up to the sum over batches and rows. -/
theorem batch_sums (f : Fin 4 → Fin 4096 → Fin 1024 → EReal) (c : Fin 1024) :
    ∑ b : Fin 4, batchSum f b c = ∑ b : Fin 4, ∑ n : Fin 4096, f b n c :=
  sum_batches_blocks (fun b n => f b n c) tile_row_lt (fun b t => tileSum f b t c) (fun _ _ => rfl)

/-- The mean from the per-batch sums is the mean over all rows. -/
theorem mean_batch (f : Fin 4 → Fin 4096 → Fin 1024 → EReal) (c : Fin 1024) : meanOf (batchSum f) c = meanR f c := by
  unfold meanOf meanR
  rw [batch_sums]

/-- For real entries the one-pass variance from the per-batch sums and sums of squares is the two-pass variance. -/
theorem var_batch (f : Fin 4 → Fin 4096 → Fin 1024 → EReal) (hf : ∀ b n c, IsReal (f b n c)) (c : Fin 1024) :
    varOf (batchSum f) (batchSum (fun b n c => f b n c * f b n c)) c = varR f c := by
  have hK : Ideal.ofBits .f32 0x46800000#32 - ((((0#32 : BitVec 32).toInt : ℝ) : ℝ) : EReal)
      = Ideal.ofBits .f32 0x46800000#32 := count_sub_zero.trans Cert.Alg.ofBits_16384.symm
  have two := var_ext (fun b n => f b n c) (fun b n => hf b n c)
  rw [hK] at two
  show meanOf _ c - meanOf _ c * meanOf _ c = meanR _ c
  rw [mean_batch, mean_batch]
  simpa only [meanR, zero_add] using two

/-! ## The bridge -/

section
variable (a0 : (⟨4, ![4, 1, 4096, 1024]⟩ : Shape).Idx → EReal) (a1 : (⟨2, ![512, 1024]⟩ : Shape).Idx → EReal) (a2 : (⟨1, ![512]⟩ : Shape).Idx → EReal) (a3 : (⟨2, ![512, 1024]⟩ : Shape).Idx → EReal) (a4 : (⟨1, ![512]⟩ : Shape).Idx → EReal)
  (a5 : (⟨2, ![512, 1024]⟩ : Shape).Idx → EReal) (a6 : (⟨1, ![512]⟩ : Shape).Idx → EReal) (a7 : (⟨2, ![1024, 512]⟩ : Shape).Idx → EReal) (a8 a9 a10 : (⟨1, ![1024]⟩ : Shape).Idx → EReal)

/-- wy, as the reference forms it, has real entries when the eight arrays it is made of do. -/
theorem real_wyR (h0 : AllReal a0) (h1 : AllReal a1) (h2 : AllReal a2) (h3 : AllReal a3) (h4 : AllReal a4)
    (h5 : AllReal a5) (h6 : AllReal a6) (h7 : AllReal a7) (h8 : AllReal a8) (b : Fin 4) (n : Fin 4096) (c : Fin 1024) :
    IsReal (wyR a0 a1 a2 a3 a4 a5 a6 a7 a8 b n c) :=
  real_expand _ a7 a8
    (real_attend _ _ (real_affin _ _ (real_conv a0 a3 a4 h0 h3 h4) (real_conv a0 a5 a6 h0 h5 h6))
      (real_conv a0 a1 a2 h0 h1 h2)) h7 h8 b n c

/-- The kernel's wy is the reference's: theta against the scaled Gram matrix of phi and g is the affinities of theta
    and phi against g, entry by entry, the three inner maps' entries being real. -/
theorem wyK_eq_wyR (h0 : AllReal a0) (h1 : AllReal a1) (h2 : AllReal a2) (h3 : AllReal a3) (h4 : AllReal a4)
    (h5 : AllReal a5) (h6 : AllReal a6) (h7 : AllReal a7) (h8 : AllReal a8) :
    wyK a0 a1 a2 a3 a4 a5 a6 a7 a8 = wyR a0 a1 a2 a3 a4 a5 a6 a7 a8 := by
  have hY : (fun b n i => ∑ j : Fin 512, convR a0 a3 a4 b n j * gram (convR a0 a5 a6) (convR a0 a1 a2) b j i)
      = attendR (affinR (convR a0 a3 a4) (convR a0 a5 a6)) (convR a0 a1 a2) := by
    funext b n i
    exact theta_gram _ _ _ (real_conv a0 a3 a4 h0 h3 h4) (real_conv a0 a5 a6 h0 h5 h6)
      (real_conv a0 a1 a2 h0 h1 h2) b n i
  unfold wyK wyR
  rw [hY]

/-- For real argument arrays the kernel's result at (b, n, k) is the reference's at (b, 0, n, k). -/
theorem outK_eq_result (h0 : AllReal a0) (h1 : AllReal a1) (h2 : AllReal a2) (h3 : AllReal a3) (h4 : AllReal a4)
    (h5 : AllReal a5) (h6 : AllReal a6) (h7 : AllReal a7) (h8 : AllReal a8) (h9 : AllReal a9) (h10 : AllReal a10)
    (b : Fin 4) (n : Fin 4096) (k : Fin 1024) :
    outK a0 a1 a2 a3 a4 a5 a6 a7 a8 a9 a10 b n k = Cert.ReferenceIdeal.Hand.result (F := Ideal) a0 a1 a2 a3 a4 a5 a6 a7 a8 a9 a10 (ix4 b 0 n k) := by
  have hm : meanOf (batchSum (wyR a0 a1 a2 a3 a4 a5 a6 a7 a8)) = meanR (wyR a0 a1 a2 a3 a4 a5 a6 a7 a8) :=
    funext fun c => mean_batch _ c
  have hv : varOf (batchSum (wyR a0 a1 a2 a3 a4 a5 a6 a7 a8))
        (batchSum (fun b n k => wyR a0 a1 a2 a3 a4 a5 a6 a7 a8 b n k * wyR a0 a1 a2 a3 a4 a5 a6 a7 a8 b n k))
      = varR (wyR a0 a1 a2 a3 a4 a5 a6 a7 a8) :=
    funext fun c => var_batch _ (real_wyR a0 a1 a2 a3 a4 a5 a6 a7 a8 h0 h1 h2 h3 h4 h5 h6 h7 h8) c
  rw [result_apply]
  unfold outK
  rw [wyK_eq_wyR a0 a1 a2 a3 a4 a5 a6 a7 a8 h0 h1 h2 h3 h4 h5 h6 h7 h8, hm, hv]

end

end Cert.Bridge

end
-- ==== Proof.Alg.RealArgs.lean ====
import proofs.«130369_j29137058136126_2_alg».proof.Defs
import proofs.«130369_j29137058136126_2_alg».proof.Proof.Gen.Pre_finite_inputs
import proofs.«130369_j29137058136126_2_alg».proof.Proof.LibRealEntries
import Idealize.ShloMosaic.Lib.ReduceAll

/-!
  From the precondition to real entries.

  The precondition says that the conjunction, over the eleven argument arrays, of "the and over every axis of the
  comparisons |x| < +infinity" is 1 on every device.  A conjunction of one-bit words is 1 exactly when each conjunct is 1,
  and an "and over every axis" that is 1 had a 1 at every index; an extended real whose absolute value is strictly below
  +infinity is a real.  Hence every entry of every argument array is a real number.
-/

noncomputable section

namespace Cert.Alg

open Idealize.ShloMosaic Idealize.SL.Sem
open Cert.RealEntries

/-- Under the precondition every entry of every argument array is a real number, on every device. -/
theorem real_args
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  simp only [Idealize.ShloMosaic.andi, IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨allReal_of_reduce _ _ _ _ _ _ _ e0, allReal_of_reduce _ _ _ _ _ _ _ e1, allReal_of_reduce _ _ _ _ _ _ _ e2,
    allReal_of_reduce _ _ _ _ _ _ _ e3, allReal_of_reduce _ _ _ _ _ _ _ e4, allReal_of_reduce _ _ _ _ _ _ _ e5,
    allReal_of_reduce _ _ _ _ _ _ _ e6, allReal_of_reduce _ _ _ _ _ _ _ e7, allReal_of_reduce _ _ _ _ _ _ _ e8,
    allReal_of_reduce _ _ _ _ _ _ _ e9, allReal_of_reduce _ _ _ _ _ _ _ e10⟩

end Cert.Alg

end
-- ==== Proof.Equal.lean ====
/-
  The idealized kernel and the idealized reference compute one function of the argument arrays. Index by index,
  the kernel's result is batch normalisation of its W(y) with one-pass statistics, the reference's the same of
  its W(y) with two-pass statistics; for real entries (the precondition) the two W(y) agree because a finite sum
  of real products may be regrouped — theta against (phi^T g)/N is (theta phi^T / N) against g — and the two
  means and variances agree because the mean of squares minus the squared mean is the mean of squared deviations.
-/
import proofs.«130369_j29137058136126_2_alg».proof.Proof.KI.KernelValue
import proofs.«130369_j29137058136126_2_alg».proof.Proof.Bridge
import proofs.«130369_j29137058136126_2_alg».proof.Proof.Alg.RealArgs

noncomputable section

namespace Cert.Equal

open Idealize.ShloMosaic Idealize.ShloMosaic.TcCoe Idealize.ShloMosaic.ValueIdx Idealize.SL.Sem
open Cert.KernelIdeal Cert.KernelIdeal.Hand Cert.KernelIdeal.HandValue

/-- Under the precondition the kernel's result array is the reference's result term of the same arguments. -/
theorem kernel_eq_reference (m : (ℓ : Loc nD τ sig) → Buf (Elt Ideal) ℓ) (hpre : Cert.Pre_KernelIdeal m) (c : Dev nD) :
    W7 m c main_v23 = Cert.ReferenceIdeal.Hand.result (F := Ideal) (A0 m c) (A1 m c) (A2 m c) (A3 m c) (A4 m c) (A5 m c) (A6 m c) (A7 m c) (A8 m c) (A9 m c) (A10 m c) := by
  obtain ⟨h0, h1, h2, h3, h4, h5, h6, h7, h8, h9, h10⟩ := Cert.Alg.real_args m hpre c
  have key : ∀ j : (⟨4, ![4, 1, 4096, 1024]⟩ : Shape).Idx,
      W7 m c main_v23 j = Cert.ReferenceIdeal.Hand.result (F := Ideal) (A0 m c) (A1 m c) (A2 m c) (A3 m c) (A4 m c) (A5 m c) (A6 m c) (A7 m c) (A8 m c) (A9 m c) (A10 m c) j := by
    intro j
    have hj : j = ix4 (j 0) (0 : Fin 1) (j 2) (j 3) := by
      funext a
      match a with
      | ⟨0, _⟩ => rfl
      | ⟨1, _⟩ =>
        exact Fin.ext (by
          have h : (j 1).val < 1 := (j 1).isLt
          show (j 1).val = 0
          omega)
      | ⟨2, _⟩ => rfl
      | ⟨3, _⟩ => rfl
    rw [hj]
    exact (kernel_result m c (j 0) (j 2) (j 3)).trans
      (Cert.Bridge.outK_eq_result (A0 m c) (A1 m c) (A2 m c) (A3 m c) (A4 m c) (A5 m c) (A6 m c) (A7 m c) (A8 m c) (A9 m c) (A10 m c) h0 h1 h2 h3 h4 h5 h6 h7 h8 h9 h10 (j 0) (j 2) (j 3))
  exact funext key

end Cert.Equal

end
-- ==== Proof.lean ====
/-
  The certificate of the non-local block: a Pallas implementation in three pallas calls (the Gram matrix of phi
  and g accumulated over row tiles together with theta; W(y) with its per-batch column sums; batch normalisation
  and the residual) against the plain jnp reference, which forms the full N x N affinity matrix.
  The three frames: each program runs to the end without a fault and leaves its arguments unchanged — for the two
  kernel programs (the word-level one and its idealization, one text at two float instances) by the run of @main
  as four host stretches and three pipelined regions, the per-point behaviour of each kernel body found by the
  symbolic executor in each of its control cases and the carried scratch accumulators named between points; for
  the reference by its host operations run in order. The idealization rewrote no operation, so nothing is owed
  for it. On the extended reals the two idealized programs return the same array from real arguments.
-/
import proofs.«130369_j29137058136126_2_alg».proof.Defs
import proofs.«130369_j29137058136126_2_alg».proof.Proof.Gen.Kernel
import proofs.«130369_j29137058136126_2_alg».proof.Proof.Gen.KernelIdeal
import proofs.«130369_j29137058136126_2_alg».proof.Proof.Gen.ReferenceIdeal
import proofs.«130369_j29137058136126_2_alg».proof.Proof.Gen.Pre_finite_inputs
import proofs.«130369_j29137058136126_2_alg».proof.Proof.K.Assembly
import proofs.«130369_j29137058136126_2_alg».proof.Proof.KI.Assembly
import proofs.«130369_j29137058136126_2_alg».proof.Proof.KI.KernelValue
import proofs.«130369_j29137058136126_2_alg».proof.Proof.Ref.Run
import proofs.«130369_j29137058136126_2_alg».proof.Proof.Equal
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Hand.frame m ρ

/-- So does its idealization: the same run at the extended reals. -/
theorem frame_ideal : Cert.frame_KernelIdeal := fun m ρ _ => Cert.KernelIdeal.Hand.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories agreeing on the arguments both idealized programs end with the same result: the kernel's last
    valuation at its result buffer, which under the precondition is the reference's result term. -/
theorem algebraic : Cert.algebraic_KernelIdeal_ReferenceIdeal := by
  intro m ρ m' ρ' hpre hagree
  refine ⟨fun c => Cert.KernelIdeal.Hand.W7 m c Cert.KernelIdeal.main_v23, Cert.KernelIdeal.HandValue.run_result m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10⟩ := hagree c
  rw [e0, e1, e2, e3, e4, e5, e6, e7, e8, e9, e10]
  exact (Cert.Equal.kernel_eq_reference m hpre c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
